-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x11 : Shape := ⟨2, ![8192, 11]⟩
abbrev S8192x8192 : Shape := ⟨2, ![8192, 8192]⟩
abbrev S11x16 : Shape := ⟨2, ![11, 16]⟩
abbrev S16 : Shape := ⟨1, ![16]⟩
abbrev S16x32 : Shape := ⟨2, ![16, 32]⟩
abbrev S32 : Shape := ⟨1, ![32]⟩
abbrev S64x3 : Shape := ⟨2, ![64, 3]⟩
abbrev S192x1 : Shape := ⟨2, ![192, 1]⟩
abbrev S1 : Shape := ⟨1, ![1]⟩
abbrev S_ : Shape := ⟨0, ![]⟩

class Facts : Prop where
  bcast_S_S8192x11 : S_.BroadcastsInDim S8192x11 (![] : Fin 0 → Fin S8192x11.rank)
  reducesTo_S8192x11_S_d0_1 : S8192x11.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S11x16 : S_.BroadcastsInDim S11x16 (![] : Fin 0 → Fin S11x16.rank)
  reducesTo_S11x16_S_d0_1 : S11x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S64x3 : S_.BroadcastsInDim S64x3 (![] : Fin 0 → Fin S64x3.rank)
  reducesTo_S64x3_S_d0_1 : S64x3.ReducesTo [0, 1] S_
  bcast_S_S192x1 : S_.BroadcastsInDim S192x1 (![] : Fin 0 → Fin S192x1.rank)
  reducesTo_S192x1_S_d0_1 : S192x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S32 .f32) (main_arg12 : FVec F S64x3 .f32) (main_arg13 : FVec F S192x1 .f32) (main_arg14 : FVec F S1 .f32) (main_v48 : IVec S_ 1) (main_v49 : FVec F S16x32 .f32) (main_v50 : FVec F S16x32 .f32) : IVec S_ 1 :=
  let main_v51 : IVec S16x32 1 := cmpf .olt main_v49 main_v50
  let main_c_19 : IVec S_ 1 := constantI S_ 1 1#1
  let main_v52 : IVec S_ 1 := (fun x v => Host.reduce IntOp.andi x v reducesTo_S16x32_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S64x3 .f32 := Host.absf main_arg12
  let main_cst_22 : FVec F S_ .f32 := constant S_ .f32 0x7F800000#32
  let main_v60 : FVec F S64x3 .f32 := broadcastInDim S64x3 ![] bcast_S_S64x3 main_cst_22
  let main_v61 : IVec S64x3 1 := cmpf .olt main_v59 main_v60
  let main_c_23 : IVec S_ 1 := constantI S_ 1 1#1
  let main_v62 : IVec S_ 1 := (fun x v => Host.reduce IntOp.andi x v reducesTo_S64x3_S_d0_1 h_S_) main_v61 main_c_23
  let main_v63 : IVec S_ 1 := andi main_v58 main_v62
  let main_v64 : FVec F S192x1 .f32 := Host.absf main_arg13
  let main_cst_24 : FVec F S_ .f32 := constant S_ .f32 0x7F800000#32
  let main_v65 : FVec F S192x1 .f32 := broadcastInDim S192x1 ![] bcast_S_S192x1 main_cst_24
  let main_v66 : IVec S192x1 1 := cmpf .olt main_v64 main_v65
  let main_c_25 : IVec S_ 1 := constantI S_ 1 1#1
  let main_v67 : IVec S_ 1 := (fun x v => Host.reduce IntOp.andi x v reducesTo_S192x1_S_d0_1 h_S_) main_v66 main_c_25
  fn_part4 (F := F) main_arg14 main_v63 main_v67

def fn_part2 {F : FTy → Type} [FloatOps F] (main_arg7 : FVec F S16 .f32) (main_arg8 : FVec F S16x32 .f32) (main_arg9 : FVec F S32 .f32) (main_arg10 : FVec F S16x32 .f32) (main_arg11 : FVec F S32 .f32) (main_arg12 : FVec F S64x3 .f32) (main_arg13 : FVec F S192x1 .f32) (main_arg14 : FVec F S1 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x32 .f32 := Host.absf main_arg8
  let main_cst_14 : FVec F S_ .f32 := constant S_ .f32 0x7F800000#32
  let main_v40 : FVec F S16x32 .f32 := broadcastInDim S16x32 ![] bcast_S_S16x32 main_cst_14
  let main_v41 : IVec S16x32 1 := cmpf .olt main_v39 main_v40
  let main_c_15 : IVec S_ 1 := constantI S_ 1 1#1
  let main_v42 : IVec S_ 1 := (fun x v => Host.reduce IntOp.andi x v reducesTo_S16x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S16x32 .f32 := Host.absf main_arg10
  let main_cst_18 : FVec F S_ .f32 := constant S_ .f32 0x7F800000#32
  let main_v50 : FVec F S16x32 .f32 := broadcastInDim S16x32 ![] bcast_S_S16x32 main_cst_18
  fn_part3 (F := F) main_arg11 main_arg12 main_arg13 main_arg14 main_v48 main_v49 main_v50

def fn_part1 {F : FTy → Type} [FloatOps F] (main_arg4 : FVec F S11x16 .f32) (main_arg5 : FVec F S16 .f32) (main_arg6 : FVec F S11x16 .f32) (main_arg7 : FVec F S16 .f32) (main_arg8 : FVec F S16x32 .f32) (main_arg9 : FVec F S32 .f32) (main_arg10 : FVec F S16x32 .f32) (main_arg11 : FVec F S32 .f32) (main_arg12 : FVec F S64x3 .f32) (main_arg13 : FVec F S192x1 .f32) (main_arg14 : FVec F S1 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S11x16 .f32 := Host.absf main_arg4
  let main_cst_6 : FVec F S_ .f32 := constant S_ .f32 0x7F800000#32
  let main_v20 : FVec F S11x16 .f32 := broadcastInDim S11x16 ![] bcast_S_S11x16 main_cst_6
  let main_v21 : IVec S11x16 1 := cmpf .olt main_v19 main_v20
  let main_c_7 : IVec S_ 1 := constantI S_ 1 1#1
  let main_v22 : IVec S_ 1 := (fun x v => Host.reduce IntOp.andi x v reducesTo_S11x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S11x16 .f32 := Host.absf main_arg6
  let main_cst_10 : FVec F S_ .f32 := constant S_ .f32 0x7F800000#32
  let main_v30 : FVec F S11x16 .f32 := broadcastInDim S11x16 ![] bcast_S_S11x16 main_cst_10
  let main_v31 : IVec S11x16 1 := cmpf .olt main_v29 main_v30
  let main_c_11 : IVec S_ 1 := constantI S_ 1 1#1
  let main_v32 : IVec S_ 1 := (fun x v => Host.reduce IntOp.andi x v reducesTo_S11x16_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x11 .f32) (main_arg1 : FVec F S8192x11 .f32) (main_arg2 : FVec F S8192x8192 .f32) (main_arg3 : FVec F S8192x8192 .f32) (main_arg4 : FVec F S11x16 .f32) (main_arg5 : FVec F S16 .f32) (main_arg6 : FVec F S11x16 .f32) (main_arg7 : FVec F S16 .f32) (main_arg8 : FVec F S16x32 .f32) (main_arg9 : FVec F S32 .f32) (main_arg10 : FVec F S16x32 .f32) (main_arg11 : FVec F S32 .f32) (main_arg12 : FVec F S64x3 .f32) (main_arg13 : FVec F S192x1 .f32) (main_arg14 : FVec F S1 .f32) : IVec S_ 1 :=
  let main_v0 : FVec F S8192x11 .f32 := Host.absf main_arg0
  let main_cst : FVec F S_ .f32 := constant S_ .f32 0x7F800000#32
  let main_v1 : FVec F S8192x11 .f32 := broadcastInDim S8192x11 ![] bcast_S_S8192x11 main_cst
  let main_v2 : IVec S8192x11 1 := cmpf .olt main_v0 main_v1
  let main_c : IVec S_ 1 := constantI S_ 1 1#1
  let main_v3 : IVec S_ 1 := (fun x v => Host.reduce IntOp.andi x v reducesTo_S8192x11_S_d0_1 h_S_) main_v2 main_c
  let main_v4 : FVec F S8192x11 .f32 := Host.absf main_arg1
  let main_cst_0 : FVec F S_ .f32 := constant S_ .f32 0x7F800000#32
  let main_v5 : FVec F S8192x11 .f32 := broadcastInDim S8192x11 ![] bcast_S_S8192x11 main_cst_0
  let main_v6 : IVec S8192x11 1 := cmpf .olt main_v4 main_v5
  let main_c_1 : IVec S_ 1 := constantI S_ 1 1#1
  let main_v7 : IVec S_ 1 := (fun x v => Host.reduce IntOp.andi x v reducesTo_S8192x11_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x11 : Shape := ⟨2, ![8192, 11]⟩
abbrev S8192x8192 : Shape := ⟨2, ![8192, 8192]⟩
abbrev S11x16 : Shape := ⟨2, ![11, 16]⟩
abbrev S16 : Shape := ⟨1, ![16]⟩
abbrev S16x32 : Shape := ⟨2, ![16, 32]⟩
abbrev S32 : Shape := ⟨1, ![32]⟩
abbrev S64x3 : Shape := ⟨2, ![64, 3]⟩
abbrev S192x1 : Shape := ⟨2, ![192, 1]⟩
abbrev S1 : Shape := ⟨1, ![1]⟩
abbrev S8192x16 : Shape := ⟨2, ![8192, 16]⟩
abbrev S1x16 : Shape := ⟨2, ![1, 16]⟩
abbrev S8192x32 : Shape := ⟨2, ![8192, 32]⟩
abbrev S1x32 : Shape := ⟨2, ![1, 32]⟩
abbrev S8192x64 : Shape := ⟨2, ![8192, 64]⟩
abbrev S8192x3 : Shape := ⟨2, ![8192, 3]⟩
abbrev S_ : Shape := ⟨0, ![]⟩
abbrev S3 : Shape := ⟨1, ![3]⟩
abbrev S1x3 : Shape := ⟨2, ![1, 3]⟩
abbrev S3x64 : Shape := ⟨2, ![3, 64]⟩
abbrev S1x192 : Shape := ⟨2, ![1, 192]⟩
abbrev S1x1 : Shape := ⟨2, ![1, 1]⟩
abbrev S2048x1024 : Shape := ⟨2, ![2048, 1024]⟩
abbrev S2048x16 : Shape := ⟨2, ![2048, 16]⟩
abbrev S1024x16 : Shape := ⟨2, ![1024, 16]⟩
abbrev S2048x32 : Shape := ⟨2, ![2048, 32]⟩
abbrev S1024x32 : Shape := ⟨2, ![1024, 32]⟩

abbrev nBuf : Space → Nat
  | .hbm => 50
  | .vmem => 28
  | .smem => 0
  | _ => 0

abbrev bufTy : (tb : Table) → Fin (tcTables nBuf tb) → BufTy
  | .hbm, ⟨0, _⟩ => ⟨S8192x11, .f32⟩
  | .hbm, ⟨1, _⟩ => ⟨S8192x11, .f32⟩
  | .hbm, ⟨2, _⟩ => ⟨S8192x8192, .f32⟩
  | .hbm, ⟨3, _⟩ => ⟨S8192x8192, .f32⟩
  | .hbm, ⟨4, _⟩ => ⟨S11x16, .f32⟩
  | .hbm, ⟨5, _⟩ => ⟨S16, .f32⟩
  | .hbm, ⟨6, _⟩ => ⟨S11x16, .f32⟩
  | .hbm, ⟨7, _⟩ => ⟨S16, .f32⟩
  | .hbm, ⟨8, _⟩ => ⟨S16x32, .f32⟩
  | .hbm, ⟨9, _⟩ => ⟨S32, .f32⟩
  | .hbm, ⟨10, _⟩ => ⟨S16x32, .f32⟩
  | .hbm, ⟨11, _⟩ => ⟨S32, .f32⟩
  | .hbm, ⟨12, _⟩ => ⟨S64x3, .f32⟩
  | .hbm, ⟨13, _⟩ => ⟨S192x1, .f32⟩
  | .hbm, ⟨14, _⟩ => ⟨S1, .f32⟩
  | .hbm, ⟨15, _⟩ => ⟨S8192x16, .f32⟩
  | .hbm, ⟨16, _⟩ => ⟨S8192x16, .f32⟩
  | .hbm, ⟨17, _⟩ => ⟨S1x16, .f32⟩
  | .hbm, ⟨18, _⟩ => ⟨S1x16, .f32⟩
  | .hbm, ⟨19, _⟩ => ⟨S8192x16, .f32⟩
  | .hbm, ⟨20, _⟩ => ⟨S8192x16, .f32⟩
  | .hbm, ⟨21, _⟩ => ⟨S8192x32, .f32⟩
  | .hbm, ⟨22, _⟩ => ⟨S8192x32, .f32⟩
  | .hbm, ⟨23, _⟩ => ⟨S1x32, .f32⟩
  | .hbm, ⟨24, _⟩ => ⟨S1x32, .f32⟩
  | .hbm, ⟨25, _⟩ => ⟨S8192x32, .f32⟩
  | .hbm, ⟨26, _⟩ => ⟨S8192x32, .f32⟩
  | .hbm, ⟨27, _⟩ => ⟨S8192x64, .f32⟩
  | .hbm, ⟨28, _⟩ => ⟨S8192x3, .f32⟩
  | .hbm, ⟨29, _⟩ => ⟨S8192x3, .f32⟩
  | .hbm, ⟨30, _⟩ => ⟨S_, .f32⟩
  | .hbm, ⟨31, _⟩ => ⟨S3, .f32⟩
  | .hbm, ⟨32, _⟩ => ⟨S_, .f32⟩
  | .hbm, ⟨33, _⟩ => ⟨S3, .f32⟩
  | .hbm, ⟨34, _⟩ => ⟨S3, .f32⟩
  | .hbm, ⟨35, _⟩ => ⟨S1x3, .f32⟩
  | .hbm, ⟨36, _⟩ => ⟨S8192x3, .f32⟩
  | .hbm, ⟨37, _⟩ => ⟨S8192x3, .f32⟩
  | .hbm, ⟨38, _⟩ => ⟨S8192x3, .f32⟩
  | .hbm, ⟨39, _⟩ => ⟨S_, .f32⟩
  | .hbm, ⟨40, _⟩ => ⟨S3, .f32⟩
  | .hbm, ⟨41, _⟩ => ⟨S1x3, .f32⟩
  | .hbm, ⟨42, _⟩ => ⟨S8192x3, .f32⟩
  | .hbm, ⟨43, _⟩ => ⟨S8192x3, .f32⟩
  | .hbm, ⟨44, _⟩ => ⟨S3x64, .f32⟩
  | .hbm, ⟨45, _⟩ => ⟨S1x192, .f32⟩
  | .hbm, ⟨46, _⟩ => ⟨S1x1, .f32⟩
  | .hbm, ⟨47, _⟩ => ⟨S1x1, .f32⟩
  | .hbm, ⟨48, _⟩ => ⟨S1x1, .f32⟩
  | .hbm, ⟨49, _⟩ => ⟨S1, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S8192x16, .f32⟩
  | .local _ .vmem, ⟨5, _⟩ => ⟨S8192x16, .f32⟩
  | .local _ .vmem, ⟨6, _⟩ => ⟨S1x16, .f32⟩
  | .local _ .vmem, ⟨7, _⟩ => ⟨S1x16, .f32⟩
  | .local _ .vmem, ⟨8, _⟩ => ⟨S2048x16, .f32⟩
  | .local _ .vmem, ⟨9, _⟩ => ⟨S2048x16, .f32⟩
  | .local _ .vmem, ⟨10, _⟩ => ⟨S2048x16, .f32⟩
  | .local _ .vmem, ⟨11, _⟩ => ⟨S2048x16, .f32⟩
  | .local _ .vmem, ⟨12, _⟩ => ⟨S2048x16, .f32⟩
  | .local _ .vmem, ⟨13, _⟩ => ⟨S2048x16, .f32⟩
  | .local _ .vmem, ⟨14, _⟩ => ⟨S2048x1024, .f32⟩
  | .local _ .vmem, ⟨15, _⟩ => ⟨S2048x1024, .f32⟩
  | .local _ .vmem, ⟨16, _⟩ => ⟨S2048x1024, .f32⟩
  | .local _ .vmem, ⟨17, _⟩ => ⟨S2048x1024, .f32⟩
  | .local _ .vmem, ⟨18, _⟩ => ⟨S8192x32, .f32⟩
  | .local _ .vmem, ⟨19, _⟩ => ⟨S8192x32, .f32⟩
  | .local _ .vmem, ⟨20, _⟩ => ⟨S1x32, .f32⟩
  | .local _ .vmem, ⟨21, _⟩ => ⟨S1x32, .f32⟩
  | .local _ .vmem, ⟨22, _⟩ => ⟨S2048x32, .f32⟩
  | .local _ .vmem, ⟨23, _⟩ => ⟨S2048x32, .f32⟩
  | .local _ .vmem, ⟨24, _⟩ => ⟨S2048x32, .f32⟩
  | .local _ .vmem, ⟨25, _⟩ => ⟨S2048x32, .f32⟩
  | .local _ .vmem, ⟨26, _⟩ => ⟨S2048x32, .f32⟩
  | .local _ .vmem, ⟨27, _⟩ => ⟨S2048x32, .f32⟩
  | _, _ => ⟨S8192x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4_0 : Ref sig .tc := ⟨.hbm, 19, rfl⟩
abbrev main_call0_v4_1 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9_0 : Ref sig .tc := ⟨.hbm, 25, rfl⟩
abbrev main_call0_v9_1 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_cst : Ref sig .tc := ⟨.hbm, 30, rfl⟩
abbrev main_call0_v13 : Ref sig .tc := ⟨.hbm, 31, rfl⟩
abbrev main_call0_cst_0 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_call0_v17 : Ref sig .tc := ⟨.hbm, 36, rfl⟩
abbrev main_call0_v18 : Ref sig .tc := ⟨.hbm, 37, rfl⟩
abbrev main_call0_v19 : Ref sig .tc := ⟨.hbm, 38, rfl⟩
abbrev main_call0_cst_1 : Ref sig .tc := ⟨.hbm, 39, rfl⟩
abbrev main_call0_v20 : Ref sig .tc := ⟨.hbm, 40, rfl⟩
abbrev main_call0_v21 : Ref sig .tc := ⟨.hbm, 41, rfl⟩
abbrev main_call0_v22 : Ref sig .tc := ⟨.hbm, 42, rfl⟩
abbrev main_call0_v23 : Ref sig .tc := ⟨.hbm, 43, rfl⟩
abbrev main_call0_v24 : Ref sig .tc := ⟨.hbm, 44, rfl⟩
abbrev main_call0_v25 : Ref sig .tc := ⟨.hbm, 45, rfl⟩
abbrev main_call0_v26 : Ref sig .tc := ⟨.hbm, 46, rfl⟩
abbrev main_call0_v27 : Ref sig .tc := ⟨.hbm, 47, rfl⟩
abbrev main_call0_v28 : Ref sig .tc := ⟨.hbm, 48, rfl⟩
abbrev main_v0 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_scratch0 : Ref sig .tc := ⟨.vmem, 26, rfl⟩
abbrev cc1_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_15 : BitVec 32 := 0#32
  let v31 : BitVec 1 := Scalar.cmpi .ne v30 c0_i32_15
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8192x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8192x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![4, 8], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_15 : BitVec 32 := 0#32
  let v31 : BitVec 1 := Scalar.cmpi .ne v30 c0_i32_15
  v31

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S8192x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S8192x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S2048x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S2048x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  shapeCasts_S16_S1x16 : S16.ShapeCasts S1x16
  shapeCasts_S32_S1x32 : S32.ShapeCasts S1x32
  concatenates_S8192x32_S8192x32_S8192x64_d1 : Shape.Concatenates [S8192x32, S8192x32] S8192x64 1
  reducesTo_S8192x3_S3_d0 : S8192x3.ReducesTo [0] S3
  h_S_ : 0 < S_.numel
  bcast_S_S3 : S_.BroadcastsInDim S3 (![] : Fin 0 → Fin S3.rank)
  bcast_S3_S1x3_1 : S3.BroadcastsInDim S1x3 (![1] : Fin 1 → Fin S1x3.rank)
  bcast_S1x3_S8192x3_0_1 : S1x3.BroadcastsInDim S8192x3 (![0, 1] : Fin 2 → Fin S8192x3.rank)
  shapeCasts_S3x64_S1x192 : S3x64.ShapeCasts S1x192
  bcast_S1_S1x1_1 : S1.BroadcastsInDim S1x1 (![1] : Fin 1 → Fin S1x1.rank)
  shapeCasts_S1x1_S1 : S1x1.ShapeCasts S1
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  h_S1024x16 : 0 < S1024x16.numel
  shapeCasts_S1024x16_S1024x16 : S1024x16.ShapeCasts S1024x16
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  h_S1024x32 : 0 < S1024x32.numel
  shapeCasts_S1024x32_S1024x32 : S1024x32.ShapeCasts S1024x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  dot_S8192x11_S11x16_S8192x16_1_0_0_1_n_n_wf : DotDims.WF S8192x11 S11x16 S8192x16 [1] [0] [0] [1] [] []
  dot_S8192x16_S16x32_S8192x32_1_0_0_1_n_n_wf : DotDims.WF S8192x16 S16x32 S8192x32 [1] [0] [0] [1] [] []
  dot_S8192x64_S64x3_S8192x3_1_0_0_1_n_n_wf : DotDims.WF S8192x64 S64x3 S8192x3 [1] [0] [0] [1] [] []
  dot_S8192x3_S8192x64_S3x64_0_0_1_1_n_n_wf : DotDims.WF S8192x3 S8192x64 S3x64 [0] [0] [1] [1] [] []
  dot_S1x192_S192x1_S1x1_1_0_0_1_n_n_wf : DotDims.WF S1x192 S192x1 S1x1 [1] [0] [0] [1] [] []
  dot_S2048x1024_S1024x16_S2048x16_1_0_0_1_n_n_wf : DotDims.WF S2048x1024 S1024x16 S2048x16 [1] [0] [0] [1] [] []
  dot_S2048x1024_S1024x32_S2048x32_1_0_0_1_n_n_wf : DotDims.WF S2048x1024 S1024x32 S2048x32 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x16.size a ≤ S8192x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x8192.size a
  hwx0_0 : ∀ i : grid0.Coords, EltTy.bits .f32 = 32 ∨ (Rect.block (s := S8192x8192) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x8192.size a
  hwx0_1 : ∀ i : grid0.Coords, EltTy.bits .f32 = 32 ∨ (Rect.block (s := S8192x8192) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x16.size a ≤ S8192x16.size a
  hwx0_2 : ∀ i : grid0.Coords, EltTy.bits .f32 = 32 ∨ (Rect.block (s := S8192x16) S8192x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x16.size a ≤ S8192x16.size a
  hwx0_3 : ∀ i : grid0.Coords, EltTy.bits .f32 = 32 ∨ (Rect.block (s := S8192x16) S8192x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x16.size a ≤ S8192x16.size a
  hwx0_6 : ∀ i : grid0.Coords, EltTy.bits .f32 = 32 ∨ (Rect.block (s := S8192x16) S2048x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x16.size a ≤ S8192x16.size a
  hwx0_7 : ∀ i : grid0.Coords, EltTy.bits .f32 = 32 ∨ (Rect.block (s := S8192x16) S2048x16.size (cc0_transform_7 i) (hinb0_7 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x32.size a ≤ S8192x32.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .f32 = 32 ∨ (Rect.block (s := S8192x8192) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S8192x8192.size a
  hwx1_1 : ∀ i : grid1.Coords, EltTy.bits .f32 = 32 ∨ (Rect.block (s := S8192x8192) S2048x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x32.size a ≤ S8192x32.size a
  hwx1_2 : ∀ i : grid1.Coords, EltTy.bits .f32 = 32 ∨ (Rect.block (s := S8192x32) S8192x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x32.size a ≤ S8192x32.size a
  hwx1_3 : ∀ i : grid1.Coords, EltTy.bits .f32 = 32 ∨ (Rect.block (s := S8192x32) S8192x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x32.size a ≤ S8192x32.size a
  hwx1_6 : ∀ i : grid1.Coords, EltTy.bits .f32 = 32 ∨ (Rect.block (s := S8192x32) S2048x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x32.size a ≤ S8192x32.size a
  hwx1_7 : ∀ i : grid1.Coords, EltTy.bits .f32 = 32 ∨ (Rect.block (s := S8192x32) S2048x32.size (cc1_transform_7 i) (hinb1_7 i)).WholeWords (EltTy.packing .f32)

variable [Facts₀]

def dot_S8192x11_S11x16_S8192x16_1_0_0_1_n_n : DotDims S8192x11 S11x16 S8192x16 where
  lhsContracting := [1]
  rhsContracting := [0]
  lhsNonContracting := [0]
  rhsNonContracting := [1]
  lhsBatch := []
  rhsBatch := []
  wf := dot_S8192x11_S11x16_S8192x16_1_0_0_1_n_n_wf
def dot_S8192x16_S16x32_S8192x32_1_0_0_1_n_n : DotDims S8192x16 S16x32 S8192x32 where
  lhsContracting := [1]
  rhsContracting := [0]
  lhsNonContracting := [0]
  rhsNonContracting := [1]
  lhsBatch := []
  rhsBatch := []
  wf := dot_S8192x16_S16x32_S8192x32_1_0_0_1_n_n_wf
def dot_S8192x64_S64x3_S8192x3_1_0_0_1_n_n : DotDims S8192x64 S64x3 S8192x3 where
  lhsContracting := [1]
  rhsContracting := [0]
  lhsNonContracting := [0]
  rhsNonContracting := [1]
  lhsBatch := []
  rhsBatch := []
  wf := dot_S8192x64_S64x3_S8192x3_1_0_0_1_n_n_wf
def dot_S8192x3_S8192x64_S3x64_0_0_1_1_n_n : DotDims S8192x3 S8192x64 S3x64 where
  lhsContracting := [0]
  rhsContracting := [0]
  lhsNonContracting := [1]
  rhsNonContracting := [1]
  lhsBatch := []
  rhsBatch := []
  wf := dot_S8192x3_S8192x64_S3x64_0_0_1_1_n_n_wf
def dot_S1x192_S192x1_S1x1_1_0_0_1_n_n : DotDims S1x192 S192x1 S1x1 where
  lhsContracting := [1]
  rhsContracting := [0]
  lhsNonContracting := [0]
  rhsNonContracting := [1]
  lhsBatch := []
  rhsBatch := []
  wf := dot_S1x192_S192x1_S1x1_1_0_0_1_n_n_wf
def dot_S2048x1024_S1024x16_S2048x16_1_0_0_1_n_n : DotDims S2048x1024 S1024x16 S2048x16 where
  lhsContracting := [1]
  rhsContracting := [0]
  lhsNonContracting := [0]
  rhsNonContracting := [1]
  lhsBatch := []
  rhsBatch := []
  wf := dot_S2048x1024_S1024x16_S2048x16_1_0_0_1_n_n_wf
def dot_S2048x1024_S1024x32_S2048x32_1_0_0_1_n_n : DotDims S2048x1024 S1024x32 S2048x32 where
  lhsContracting := [1]
  rhsContracting := [0]
  lhsNonContracting := [0]
  rhsNonContracting := [1]
  lhsBatch := []
  rhsBatch := []
  wf := dot_S2048x1024_S1024x32_S2048x32_1_0_0_1_n_n_wf

abbrev win0_0 : Pipeline.Window sig grid0 :=
  Pipeline.Window.ofSpec (Memref.whole main_arg2) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S8192x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S8192x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v4_0) S2048x16.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v4_1) S2048x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_arg2) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v5) S8192x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v6) S8192x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v7) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v8) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v9_0) S2048x32.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_call0_v9_1) S2048x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

class Facts : Prop extends Facts₀ where

variable [Facts]
-- ==== ReferenceIdeal.lean ====
abbrev S8192x11 : Shape := ⟨2, ![8192, 11]⟩
abbrev S8192x8192 : Shape := ⟨2, ![8192, 8192]⟩
abbrev S11x16 : Shape := ⟨2, ![11, 16]⟩
abbrev S16 : Shape := ⟨1, ![16]⟩
abbrev S16x32 : Shape := ⟨2, ![16, 32]⟩
abbrev S32 : Shape := ⟨1, ![32]⟩
abbrev S64x3 : Shape := ⟨2, ![64, 3]⟩
abbrev S192x1 : Shape := ⟨2, ![192, 1]⟩
abbrev S1 : Shape := ⟨1, ![1]⟩
abbrev S8192x16 : Shape := ⟨2, ![8192, 16]⟩
abbrev S1x16 : Shape := ⟨2, ![1, 16]⟩
abbrev S_ : Shape := ⟨0, ![]⟩
abbrev S8192x32 : Shape := ⟨2, ![8192, 32]⟩
abbrev S1x32 : Shape := ⟨2, ![1, 32]⟩
abbrev S8192x64 : Shape := ⟨2, ![8192, 64]⟩
abbrev S8192x3 : Shape := ⟨2, ![8192, 3]⟩
abbrev S3 : Shape := ⟨1, ![3]⟩
abbrev S1x3 : Shape := ⟨2, ![1, 3]⟩
abbrev S3x64 : Shape := ⟨2, ![3, 64]⟩
abbrev S1x192 : Shape := ⟨2, ![1, 192]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S8192x11, .f32⟩
  | .hbm, ⟨1, _⟩ => ⟨S8192x11, .f32⟩
  | .hbm, ⟨2, _⟩ => ⟨S8192x8192, .f32⟩
  | .hbm, ⟨3, _⟩ => ⟨S8192x8192, .f32⟩
  | .hbm, ⟨4, _⟩ => ⟨S11x16, .f32⟩
  | .hbm, ⟨5, _⟩ => ⟨S16, .f32⟩
  | .hbm, ⟨6, _⟩ => ⟨S11x16, .f32⟩
  | .hbm, ⟨7, _⟩ => ⟨S16, .f32⟩
  | .hbm, ⟨8, _⟩ => ⟨S16x32, .f32⟩
  | .hbm, ⟨9, _⟩ => ⟨S32, .f32⟩
  | .hbm, ⟨10, _⟩ => ⟨S16x32, .f32⟩
  | .hbm, ⟨11, _⟩ => ⟨S32, .f32⟩
  | .hbm, ⟨12, _⟩ => ⟨S64x3, .f32⟩
  | .hbm, ⟨13, _⟩ => ⟨S192x1, .f32⟩
  | .hbm, ⟨14, _⟩ => ⟨S1, .f32⟩
  | .hbm, ⟨15, _⟩ => ⟨S8192x16, .f32⟩
  | .hbm, ⟨16, _⟩ => ⟨S8192x16, .f32⟩
  | .hbm, ⟨17, _⟩ => ⟨S1x16, .f32⟩
  | .hbm, ⟨18, _⟩ => ⟨S8192x16, .f32⟩
  | .hbm, ⟨19, _⟩ => ⟨S8192x16, .f32⟩
  | .hbm, ⟨20, _⟩ => ⟨S_, .f32⟩
  | .hbm, ⟨21, _⟩ => ⟨S8192x16, .f32⟩
  | .hbm, ⟨22, _⟩ => ⟨S8192x16, .f32⟩
  | .hbm, ⟨23, _⟩ => ⟨S8192x16, .f32⟩
  | .hbm, ⟨24, _⟩ => ⟨S8192x16, .f32⟩
  | .hbm, ⟨25, _⟩ => ⟨S1x16, .f32⟩
  | .hbm, ⟨26, _⟩ => ⟨S8192x16, .f32⟩
  | .hbm, ⟨27, _⟩ => ⟨S8192x16, .f32⟩
  | .hbm, ⟨28, _⟩ => ⟨S_, .f32⟩
  | .hbm, ⟨29, _⟩ => ⟨S8192x16, .f32⟩
  | .hbm, ⟨30, _⟩ => ⟨S8192x16, .f32⟩
  | .hbm, ⟨31, _⟩ => ⟨S8192x32, .f32⟩
  | .hbm, ⟨32, _⟩ => ⟨S8192x32, .f32⟩
  | .hbm, ⟨33, _⟩ => ⟨S1x32, .f32⟩
  | .hbm, ⟨34, _⟩ => ⟨S8192x32, .f32⟩
  | .hbm, ⟨35, _⟩ => ⟨S8192x32, .f32⟩
  | .hbm, ⟨36, _⟩ => ⟨S_, .f32⟩
  | .hbm, ⟨37, _⟩ => ⟨S8192x32, .f32⟩
  | .hbm, ⟨38, _⟩ => ⟨S8192x32, .f32⟩
  | .hbm, ⟨39, _⟩ => ⟨S8192x32, .f32⟩
  | .hbm, ⟨40, _⟩ => ⟨S8192x32, .f32⟩
  | .hbm, ⟨41, _⟩ => ⟨S1x32, .f32⟩
  | .hbm, ⟨42, _⟩ => ⟨S8192x32, .f32⟩
  | .hbm, ⟨43, _⟩ => ⟨S8192x32, .f32⟩
  | .hbm, ⟨44, _⟩ => ⟨S_, .f32⟩
  | .hbm, ⟨45, _⟩ => ⟨S8192x32, .f32⟩
  | .hbm, ⟨46, _⟩ => ⟨S8192x32, .f32⟩
  | .hbm, ⟨47, _⟩ => ⟨S8192x64, .f32⟩
  | .hbm, ⟨48, _⟩ => ⟨S8192x3, .f32⟩
  | .hbm, ⟨49, _⟩ => ⟨S8192x3, .f32⟩
  | .hbm, ⟨50, _⟩ => ⟨S_, .f32⟩
  | .hbm, ⟨51, _⟩ => ⟨S3, .f32⟩
  | .hbm, ⟨52, _⟩ => ⟨S_, .f32⟩
  | .hbm, ⟨53, _⟩ => ⟨S3, .f32⟩
  | .hbm, ⟨54, _⟩ => ⟨S3, .f32⟩
  | .hbm, ⟨55, _⟩ => ⟨S1x3, .f32⟩
  | .hbm, ⟨56, _⟩ => ⟨S8192x3, .f32⟩
  | .hbm, ⟨57, _⟩ => ⟨S8192x3, .f32⟩
  | .hbm, ⟨58, _⟩ => ⟨S8192x3, .f32⟩
  | .hbm, ⟨59, _⟩ => ⟨S_, .f32⟩
  | .hbm, ⟨60, _⟩ => ⟨S3, .f32⟩
  | .hbm, ⟨61, _⟩ => ⟨S1x3, .f32⟩
  | .hbm, ⟨62, _⟩ => ⟨S8192x3, .f32⟩
  | .hbm, ⟨63, _⟩ => ⟨S8192x3, .f32⟩
  | .hbm, ⟨64, _⟩ => ⟨S3x64, .f32⟩
  | .hbm, ⟨65, _⟩ => ⟨S1x192, .f32⟩
  | .hbm, ⟨66, _⟩ => ⟨S1x1, .f32⟩
  | .hbm, ⟨67, _⟩ => ⟨S1x1, .f32⟩
  | .hbm, ⟨68, _⟩ => ⟨S1x1, .f32⟩
  | .hbm, ⟨69, _⟩ => ⟨S1, .f32⟩
  | _, _ => ⟨S8192x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_cst : Ref sig .tc := ⟨.hbm, 28, rfl⟩
abbrev main_call1_v0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call2_cst : Ref sig .tc := ⟨.hbm, 36, rfl⟩
abbrev main_call2_v0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call3_cst : Ref sig .tc := ⟨.hbm, 44, rfl⟩
abbrev main_call3_v0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst : Ref sig .tc := ⟨.hbm, 50, rfl⟩
abbrev main_v27 : Ref sig .tc := ⟨.hbm, 51, rfl⟩
abbrev main_cst_0 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_1 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S_S8192x16 : S_.BroadcastsInDim S8192x16 (![] : Fin 0 → Fin S8192x16.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  concatenates_S8192x32_S8192x32_S8192x64_d1 : Shape.Concatenates [S8192x32, S8192x32] S8192x64 1
  reducesTo_S8192x3_S3_d0 : S8192x3.ReducesTo [0] S3
  h_S_ : 0 < S_.numel
  bcast_S_S3 : S_.BroadcastsInDim S3 (![] : Fin 0 → Fin S3.rank)
  bcast_S3_S1x3_1 : S3.BroadcastsInDim S1x3 (![1] : Fin 1 → Fin S1x3.rank)
  bcast_S1x3_S8192x3_0_1 : S1x3.BroadcastsInDim S8192x3 (![0, 1] : Fin 2 → Fin S8192x3.rank)
  shapeCasts_S3x64_S1x192 : S3x64.ShapeCasts S1x192
  bcast_S1_S1x1_1 : S1.BroadcastsInDim S1x1 (![1] : Fin 1 → Fin S1x1.rank)
  shapeCasts_S1x1_S1 : S1x1.ShapeCasts S1
  dot_S8192x11_S11x16_S8192x16_1_0_0_1_n_n_wf : DotDims.WF S8192x11 S11x16 S8192x16 [1] [0] [0] [1] [] []
  dot_S8192x8192_S8192x16_S8192x16_1_0_0_1_n_n_wf : DotDims.WF S8192x8192 S8192x16 S8192x16 [1] [0] [0] [1] [] []
  dot_S8192x16_S16x32_S8192x32_1_0_0_1_n_n_wf : DotDims.WF S8192x16 S16x32 S8192x32 [1] [0] [0] [1] [] []
  dot_S8192x8192_S8192x32_S8192x32_1_0_0_1_n_n_wf : DotDims.WF S8192x8192 S8192x32 S8192x32 [1] [0] [0] [1] [] []
  dot_S8192x64_S64x3_S8192x3_1_0_0_1_n_n_wf : DotDims.WF S8192x64 S64x3 S8192x3 [1] [0] [0] [1] [] []
  dot_S8192x3_S8192x64_S3x64_0_0_1_1_n_n_wf : DotDims.WF S8192x3 S8192x64 S3x64 [0] [0] [1] [1] [] []
  dot_S1x192_S192x1_S1x1_1_0_0_1_n_n_wf : DotDims.WF S1x192 S192x1 S1x1 [1] [0] [0] [1] [] []

variable [Facts₀]

def dot_S8192x11_S11x16_S8192x16_1_0_0_1_n_n : DotDims S8192x11 S11x16 S8192x16 where
  lhsContracting := [1]
  rhsContracting := [0]
  lhsNonContracting := [0]
  rhsNonContracting := [1]
  lhsBatch := []
  rhsBatch := []
  wf := dot_S8192x11_S11x16_S8192x16_1_0_0_1_n_n_wf
def dot_S8192x8192_S8192x16_S8192x16_1_0_0_1_n_n : DotDims S8192x8192 S8192x16 S8192x16 where
  lhsContracting := [1]
  rhsContracting := [0]
  lhsNonContracting := [0]
  rhsNonContracting := [1]
  lhsBatch := []
  rhsBatch := []
  wf := dot_S8192x8192_S8192x16_S8192x16_1_0_0_1_n_n_wf
def dot_S8192x16_S16x32_S8192x32_1_0_0_1_n_n : DotDims S8192x16 S16x32 S8192x32 where
  lhsContracting := [1]
  rhsContracting := [0]
  lhsNonContracting := [0]
  rhsNonContracting := [1]
  lhsBatch := []
  rhsBatch := []
  wf := dot_S8192x16_S16x32_S8192x32_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S8192x64_S64x3_S8192x3_1_0_0_1_n_n : DotDims S8192x64 S64x3 S8192x3 where
  lhsContracting := [1]
  rhsContracting := [0]
  lhsNonContracting := [0]
  rhsNonContracting := [1]
  lhsBatch := []
  rhsBatch := []
  wf := dot_S8192x64_S64x3_S8192x3_1_0_0_1_n_n_wf
def dot_S8192x3_S8192x64_S3x64_0_0_1_1_n_n : DotDims S8192x3 S8192x64 S3x64 where
  lhsContracting := [0]
  rhsContracting := [0]
  lhsNonContracting := [1]
  rhsNonContracting := [1]
  lhsBatch := []
  rhsBatch := []
  wf := dot_S8192x3_S8192x64_S3x64_0_0_1_1_n_n_wf
def dot_S1x192_S192x1_S1x1_1_0_0_1_n_n : DotDims S1x192 S192x1 S1x1 where
  lhsContracting := [1]
  rhsContracting := [0]
  lhsNonContracting := [0]
  rhsNonContracting := [1]
  lhsBatch := []
  rhsBatch := []
  wf := dot_S1x192_S192x1_S1x1_1_0_0_1_n_n_wf

class Facts : Prop extends Facts₀ where

variable [Facts]
-- ==== Proof.FrB0S.lean ====
import proofs.«105748_j27410481283396_2_alg».proof.Proof.Gen.Kernel.Launch
import proofs.«105748_j27410481283396_2_alg».proof.Proof.Gen.Kernel.Skeleton
import proofs.«105748_j27410481283396_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What the three control cases of the layer kernel share: the blocks the region finds in its windows' arrays, that
    an input window's staging buffer holds its block at every grid point, the two branch conditions in closed form over
    the grid (the contraction coordinate is 0; it is 7), where the output windows are idle, and the scoped buffers split
    into the two accumulators and the rest. Everything is stated at a PARAMETER `V`, the buffer contents when the region is
    entered. -/

section
variable (V : (c : Dev nD) → (b : Ref sig .tc) → Buf (Elt F) ((c : Thread nD τ).loc b))

/-- Window `w`'s block at grid point `t`, read off its array as the region finds it. -/
def iblkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched
    point has the block index of the point before. -/
theorem beforeR0_0_of {c : Dev nD} (dat : Dat τ (Elt F) Unit ℕ (UR sig nD τ) ℕ cfg0 c) (hA : dat.A 0 = V c (Pipeline.arrRef spec0 0))
    (hafter : ∀ t, dat.after 0 t = iblkR0 V c 0 t) (t : Fin cfg0.N) (d) : dat.before 0 t d = iblkR0 V c 0 t :=
  (dat.before_in_eq_fetched 0 rfl (fun _ => rfl) (fun _ _ _ => rfl) (fun t => by rw [hafter]; unfold Dat.blockOf iblkR0; rw [hA]; try rfl) t d).trans
    (by unfold Dat.fetched Dat.blockOf iblkR0; rw [hA]; try rfl)

/-- Input window 1's current staging buffer holds its block at every point, fetched there or not: an unfetched
    point has the block index of the point before. -/
theorem beforeR0_1_of {c : Dev nD} (dat : Dat τ (Elt F) Unit ℕ (UR sig nD τ) ℕ cfg0 c) (hA : dat.A 1 = V c (Pipeline.arrRef spec0 1))
    (hafter : ∀ t, dat.after 1 t = iblkR0 V c 1 t) (t : Fin cfg0.N) (d) : dat.before 1 t d = iblkR0 V c 1 t :=
  (dat.before_in_eq_fetched 1 rfl (fun _ => rfl) (fun _ _ _ => rfl) (fun t => by rw [hafter]; unfold Dat.blockOf iblkR0; rw [hA]; try rfl) t d).trans
    (by unfold Dat.fetched Dat.blockOf iblkR0; rw [hA]; try rfl)

/-- Input window 2's current staging buffer holds its block at every point, fetched there or not: an unfetched
    point has the block index of the point before. -/
theorem beforeR0_2_of {c : Dev nD} (dat : Dat τ (Elt F) Unit ℕ (UR sig nD τ) ℕ cfg0 c) (hA : dat.A 2 = V c (Pipeline.arrRef spec0 2))
    (hafter : ∀ t, dat.after 2 t = iblkR0 V c 2 t) (t : Fin cfg0.N) (d) : dat.before 2 t d = iblkR0 V c 2 t :=
  (dat.before_in_eq_fetched 2 rfl (fun _ => rfl) (fun _ _ _ => rfl) (fun t => by rw [hafter]; unfold Dat.blockOf iblkR0; rw [hA]; try rfl) t d).trans
    (by unfold Dat.fetched Dat.blockOf iblkR0; rw [hA]; try rfl)

/-- Input window 3's current staging buffer holds its block at every point, fetched there or not: an unfetched
    point has the block index of the point before. -/
theorem beforeR0_3_of {c : Dev nD} (dat : Dat τ (Elt F) Unit ℕ (UR sig nD τ) ℕ cfg0 c) (hA : dat.A 3 = V c (Pipeline.arrRef spec0 3))
    (hafter : ∀ t, dat.after 3 t = iblkR0 V c 3 t) (t : Fin cfg0.N) (d) : dat.before 3 t d = iblkR0 V c 3 t :=
  (dat.before_in_eq_fetched 3 rfl (fun _ => rfl) (fun _ _ _ => rfl) (fun t => by rw [hafter]; unfold Dat.blockOf iblkR0; rw [hA]; try rfl) t d).trans
    (by unfold Dat.fetched Dat.blockOf iblkR0; rw [hA]; try rfl)

/-- Input window 4's current staging buffer holds its block at every point, fetched there or not: an unfetched
    point has the block index of the point before. -/
theorem beforeR0_4_of {c : Dev nD} (dat : Dat τ (Elt F) Unit ℕ (UR sig nD τ) ℕ cfg0 c) (hA : dat.A 4 = V c (Pipeline.arrRef spec0 4))
    (hafter : ∀ t, dat.after 4 t = iblkR0 V c 4 t) (t : Fin cfg0.N) (d) : dat.before 4 t d = iblkR0 V c 4 t :=
  (dat.before_in_eq_fetched 4 rfl (fun _ => rfl) (fun _ _ _ => rfl) (fun t => by rw [hafter]; unfold Dat.blockOf iblkR0; rw [hA]; try rfl) t d).trans
    (by unfold Dat.fetched Dat.blockOf iblkR0; rw [hA]; try rfl)

/-- Input window 5's current staging buffer holds its block at every point, fetched there or not: an unfetched
    point has the block index of the point before. -/
theorem beforeR0_5_of {c : Dev nD} (dat : Dat τ (Elt F) Unit ℕ (UR sig nD τ) ℕ cfg0 c) (hA : dat.A 5 = V c (Pipeline.arrRef spec0 5))
    (hafter : ∀ t, dat.after 5 t = iblkR0 V c 5 t) (t : Fin cfg0.N) (d) : dat.before 5 t d = iblkR0 V c 5 t :=
  (dat.before_in_eq_fetched 5 rfl (fun _ => rfl) (fun _ _ _ => rfl) (fun t => by rw [hafter]; unfold Dat.blockOf iblkR0; rw [hA]; try rfl) t d).trans
    (by unfold Dat.fetched Dat.blockOf iblkR0; rw [hA]; try rfl)

end

/-! ## The body's two branch conditions -/

/-- The first branch (zero the accumulators) is taken when the contraction coordinate is 0. -/
abbrev condR0_0 (i : grid0.Coords) : Prop := (Scalar.cmpi .ne (Scalar.extui (Scalar.cmpi .eq (BitVec.ofNat 32 (i 1).val) 0#32)) 0#32) = 1#1
theorem hcondR0_0 : ∀ t : Fin cfg0.N, condR0_0 (grid0.coords t) ↔ t.val % 8 = 0 :=
  (by decide +kernel : ∀ t : Fin grid0.N, condR0_0 (grid0.coords t) ↔ t.val % 8 = 0)

/-- The second branch (add the bias, clamp at zero, store the output block) is taken when it is 7. -/
abbrev condR0_1 (i : grid0.Coords) : Prop := k0_cond2 i = 1#1
theorem hcondR0_1 : ∀ t : Fin cfg0.N, condR0_1 (grid0.coords t) ↔ t.val % 8 = 7 :=
  (by decide +kernel : ∀ t : Fin grid0.N, condR0_1 (grid0.coords t) ↔ t.val % 8 = 7)

/-! ## Where the windows are idle -/

theorem liveAtR0_0 : ∀ t : Fin cfg0.N, cfg0.idle 0 (grid0.coords t) = false := fun _ => rfl
theorem liveAtR0_1 : ∀ t : Fin cfg0.N, cfg0.idle 1 (grid0.coords t) = false := fun _ => rfl
theorem liveAtR0_2 : ∀ t : Fin cfg0.N, cfg0.idle 2 (grid0.coords t) = false := fun _ => rfl
theorem liveAtR0_3 : ∀ t : Fin cfg0.N, cfg0.idle 3 (grid0.coords t) = false := fun _ => rfl
theorem liveAtR0_4 : ∀ t : Fin cfg0.N, cfg0.idle 4 (grid0.coords t) = false := fun _ => rfl
theorem liveAtR0_5 : ∀ t : Fin cfg0.N, cfg0.idle 5 (grid0.coords t) = false := fun _ => rfl
/-- Away from the last contraction step nothing is stored into output window 6 and its block is not written back. -/
theorem idleAtR0_6 : ∀ t : Fin cfg0.N, ¬condR0_1 (grid0.coords t) → cfg0.idle 6 (grid0.coords t) = true := by decide +kernel
theorem noFlushR0_6 : ∀ t : Fin cfg0.N, ¬condR0_1 (grid0.coords t) → (cfg0.win 6).flush t = false := by decide +kernel
theorem liveAtR0_6_C : ∀ t : Fin cfg0.N, condR0_1 (grid0.coords t) → cfg0.idle 6 (grid0.coords t) = false := by decide +kernel
/-- Away from the last contraction step nothing is stored into output window 7 and its block is not written back. -/
theorem idleAtR0_7 : ∀ t : Fin cfg0.N, ¬condR0_1 (grid0.coords t) → cfg0.idle 7 (grid0.coords t) = true := by decide +kernel
theorem noFlushR0_7 : ∀ t : Fin cfg0.N, ¬condR0_1 (grid0.coords t) → (cfg0.win 7).flush t = false := by decide +kernel
theorem liveAtR0_7_C : ∀ t : Fin cfg0.N, condR0_1 (grid0.coords t) → cfg0.idle 7 (grid0.coords t) = false := by decide +kernel

/-! ## The staging and scratch memrefs -/

abbrev VOR0_6 : View sig .tc .vmem S2048x16 .f32 := (Memref.whole cc0_stg6_0 : Memref sig .tc .vmem S2048x16 .f32).view
abbrev VOR0_7 : View sig .tc .vmem S2048x16 .f32 := (Memref.whole cc0_stg7_0 : Memref sig .tc .vmem S2048x16 .f32).view
abbrev msR0_0 (t : Fin cfg0.N) : Memref sig .tc .vmem S2048x1024 .f32 := win0_0.stage (cfg0.slots t 0)
abbrev hsR0_0 (t : Fin cfg0.N) : (msR0_0 t).IsWhole := hstage0_0 ((cfg0.slots t 0).cast nbuf0_0)
abbrev msR0_1 (t : Fin cfg0.N) : Memref sig .tc .vmem S2048x1024 .f32 := win0_1.stage (cfg0.slots t 1)
abbrev hsR0_1 (t : Fin cfg0.N) : (msR0_1 t).IsWhole := hstage0_1 ((cfg0.slots t 1).cast nbuf0_1)
abbrev msR0_2 (t : Fin cfg0.N) : Memref sig .tc .vmem S8192x16 .f32 := win0_2.stage (cfg0.slots t 2)
abbrev hsR0_2 (t : Fin cfg0.N) : (msR0_2 t).IsWhole := hstage0_2 ((cfg0.slots t 2).cast nbuf0_2)
abbrev msR0_3 (t : Fin cfg0.N) : Memref sig .tc .vmem S8192x16 .f32 := win0_3.stage (cfg0.slots t 3)
abbrev hsR0_3 (t : Fin cfg0.N) : (msR0_3 t).IsWhole := hstage0_3 ((cfg0.slots t 3).cast nbuf0_3)
abbrev msR0_4 (t : Fin cfg0.N) : Memref sig .tc .vmem S1x16 .f32 := win0_4.stage (cfg0.slots t 4)
abbrev hsR0_4 (t : Fin cfg0.N) : (msR0_4 t).IsWhole := hstage0_4 ((cfg0.slots t 4).cast nbuf0_4)
abbrev msR0_5 (t : Fin cfg0.N) : Memref sig .tc .vmem S1x16 .f32 := win0_5.stage (cfg0.slots t 5)
abbrev hsR0_5 (t : Fin cfg0.N) : (msR0_5 t).IsWhole := hstage0_5 ((cfg0.slots t 5).cast nbuf0_5)
abbrev msR0_6 (t : Fin cfg0.N) : Memref sig .tc .vmem S2048x16 .f32 := win0_6.stage (cfg0.slots t 6)
abbrev hsR0_6 (t : Fin cfg0.N) : (msR0_6 t).IsWhole := hstage0_6 ((cfg0.slots t 6).cast nbuf0_6)
abbrev msR0_7 (t : Fin cfg0.N) : Memref sig .tc .vmem S2048x16 .f32 := win0_7.stage (cfg0.slots t 7)
abbrev hsR0_7 (t : Fin cfg0.N) : (msR0_7 t).IsWhole := hstage0_7 ((cfg0.slots t 7).cast nbuf0_7)
/-- The two accumulators: whole scoped buffers of the kernel's own, carried from one grid point to the next. -/
abbrev scMR0_0 : Memref sig .tc .vmem S2048x16 .f32 := Memref.whole cc0_scratch0
abbrev scMR0_1 : Memref sig .tc .vmem S2048x16 .f32 := Memref.whole cc0_scratch1
abbrev VSR0_0 : View sig .tc .vmem S2048x16 .f32 := scMR0_0.view
abbrev VSR0_1 : View sig .tc .vmem S2048x16 .f32 := scMR0_1.view

/-- The core's scoped buffers other than this region's staging buffers and its two accumulators, each at some contents. -/
def restR0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The scoped buffers no window stages are the two accumulators, each at some contents, and the rest. -/
theorem scopedSplitR0 (c : Dev nD) :
    (Pipeline.scopedRest (Ix := Unit) (Name := ℕ) (U := UR sig nD τ) (Lvl := ℕ) (Val := Elt F) spec0 c : sProp 𝕄)
      ⊢ iprop((∃ d, owns (c : Thread nD τ) scMR0_0 fullShare d) ∗ (∃ d, owns (c : Thread nD τ) scMR0_1 fullShare d) ∗ restR0 c) := by
  rw [scopedRest0_eq]; unfold restR0; simp only [scMR0_0, scMR0_1, owns_whole]
  iintro ⟨HS0, HS1, HR0, HR1, HR2, HR3, HR4, HR5, HR6, HR7, HR8, HR9, HR10, HR11, HR12, HR13⟩
  isplitl [HS0]; · iexact HS0
  isplitl [HS1]; · iexact HS1
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  iexact HR13

theorem scopedJoinR0 (c : Dev nD) :
    iprop((∃ d, owns (c : Thread nD τ) scMR0_0 fullShare d) ∗ (∃ d, owns (c : Thread nD τ) scMR0_1 fullShare d) ∗ restR0 c)
      ⊢ (Pipeline.scopedRest (Ix := Unit) (Name := ℕ) (U := UR sig nD τ) (Lvl := ℕ) (Val := Elt F) spec0 c : sProp 𝕄) := by
  rw [scopedRest0_eq]; unfold restR0; simp only [scMR0_0, scMR0_1, owns_whole]
  iintro ⟨HS0, HS1, HR0, HR1, HR2, HR3, HR4, HR5, HR6, HR7, HR8, HR9, HR10, HR11, HR12, HR13⟩
  isplitl [HS0]; · iexact HS0
  isplitl [HS1]; · iexact HS1
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  iexact HR13

end Cert.Kernel.Fr

end
-- ==== Proof.FrB0A.lean ====
import proofs.«105748_j27410481283396_2_alg».proof.Proof.FrB0S

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The layer kernel's body in the control case A (contraction coordinate 0: the accumulators are zeroed, then receive the first partial product): on whole staging memrefs —
    the inputs' at their contents, the outputs' handed back untouched, the accumulators at anything — it runs to the continuation holding the inputs' as they were and
    each buffer it stored into with its pieces written; the pieces (last store first) are the witness the symbolic run finds. -/
noncomputable def kernelRunR0_A (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : condR0_0 i) (hc1 : ¬condR0_1 i)
    (x0 x1 : Vec F S2048x1024 .f32) (x2 x3 : Vec F S8192x16 .f32) (x4 x5 : Vec F S1x16 .f32) :
    Σ' (L6 : List (View.Piece (Elt F) S2048x16 .f32)) (L7 : List (View.Piece (Elt F) S2048x16 .f32)) (LS0 : List (View.Piece (Elt F) S2048x16 .f32)), { LS1 : List (View.Piece (Elt F) S2048x16 .f32) //
      ∀ (xi6 xi7 : Vec F S2048x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__dgcn_pair_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc0__dgcn_pair_kernel_eq_skeleton]; unfold cc0__dgcn_pair_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Fr

end
-- ==== Proof.FrB0B.lean ====
import proofs.«105748_j27410481283396_2_alg».proof.Proof.FrB0A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The layer kernel's body in the control case B (contraction coordinate 1 to 6: the accumulators receive one more partial product): on whole staging memrefs —
    the inputs' at their contents, the outputs' handed back untouched, the accumulators at what the point before left — it runs to the continuation holding the inputs' as they were and
    each buffer it stored into with its pieces written; the pieces (last store first) are the witness the symbolic run finds. -/
noncomputable def kernelRunR0_B (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : ¬condR0_1 i)
    (x0 x1 : Vec F S2048x1024 .f32) (x2 x3 : Vec F S8192x16 .f32) (x4 x5 : Vec F S1x16 .f32) (xs0 xs1 : Vec F S2048x16 .f32) :
    Σ' (L6 : List (View.Piece (Elt F) S2048x16 .f32)) (L7 : List (View.Piece (Elt F) S2048x16 .f32)) (LS0 : List (View.Piece (Elt F) S2048x16 .f32)), { LS1 : List (View.Piece (Elt F) S2048x16 .f32) //
      ∀ (xi6 xi7 : Vec F S2048x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__dgcn_pair_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc0__dgcn_pair_kernel_eq_skeleton]; unfold cc0__dgcn_pair_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Fr

end
-- ==== Proof.FrB0C.lean ====
import proofs.«105748_j27410481283396_2_alg».proof.Proof.FrB0B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The layer kernel's body in the control case C (contraction coordinate 7: the accumulators receive the last partial product, and each output block is stored as the accumulator plus the bias, clamped at zero): on whole staging memrefs —
    the inputs' at their contents, the outputs' at anything, the accumulators at what the point before left — it runs to the continuation holding the inputs' as they were and
    each buffer it stored into with its pieces written; the pieces (last store first) are the witness the symbolic run finds. -/
noncomputable def kernelRunR0_C (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : condR0_1 i)
    (x0 x1 : Vec F S2048x1024 .f32) (x2 x3 : Vec F S8192x16 .f32) (x4 x5 : Vec F S1x16 .f32) (xs0 xs1 : Vec F S2048x16 .f32) :
    Σ' (L6 : List (View.Piece (Elt F) S2048x16 .f32)) (L7 : List (View.Piece (Elt F) S2048x16 .f32)) (LS0 : List (View.Piece (Elt F) S2048x16 .f32)), { LS1 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__dgcn_pair_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__dgcn_pair_kernel_eq_skeleton]; unfold cc0__dgcn_pair_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.Kernel.Fr

end
-- ==== Proof.FrB0.lean ====
import proofs.«105748_j27410481283396_2_alg».proof.Proof.FrB0C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The layer kernel's proof data at a PARAMETER `V` (the buffer contents when the region is entered): what each control
    case leaves in the two accumulators and the two output blocks, what they hold after every grid point (by recursion on
    the point: an accumulator starts each later point from what the point before left), the region invariant carrying the
    accumulators, and the body's obligation at every point. -/

section
variable (V : (c : Dev nD) → (b : Ref sig .tc) → Buf (Elt F) ((c : Thread nD τ).loc b))

/-- Case A's stores into accumulator 0 tile it, so they cover it. -/
theorem scoverR0_A_0 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : condR0_0 i) (hc1 : ¬condR0_1 i)
    (x0 x1 : Vec F S2048x1024 .f32) (x2 x3 : Vec F S8192x16 .f32) (x4 x5 : Vec F S1x16 .f32) (y : S2048x16.Idx) :
    ∃ pc ∈ (kernelRunR0_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRunR0_A c i arg2 harg2 arg3 harg3 arg4 harg4 arg5 harg5 arg6 harg6 arg7 harg7 arg8 harg8 arg9 harg9 arg10 harg10 arg11 harg11 hc0 hc1 x0 x1 x2 x3 x4 x5).2.2.1 S2048x16.size (by sl_kernel_rfl) y

/-- What case A leaves in accumulator 0: its stores read back. -/
def soutR0_A_0 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : condR0_0 i) (hc1 : ¬condR0_1 i)
    (x0 x1 : Vec F S2048x1024 .f32) (x2 x3 : Vec F S8192x16 .f32) (x4 x5 : Vec F S1x16 .f32) : Vec F S2048x16 .f32 :=
  VSR0_0.read (Elt F) (VSR0_0.writes (Elt F) VSR0_0.junk (kernelRunR0_A c i arg2 harg2 arg3 harg3 arg4 harg4 arg5 harg5 arg6 harg6 arg7 harg7 arg8 harg8 arg9 harg9 arg10 harg10 arg11 harg11 hc0 hc1 x0 x1 x2 x3 x4 x5).2.2.1)

/-- Case A's stores into accumulator 1 tile it, so they cover it. -/
theorem scoverR0_A_1 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : condR0_0 i) (hc1 : ¬condR0_1 i)
    (x0 x1 : Vec F S2048x1024 .f32) (x2 x3 : Vec F S8192x16 .f32) (x4 x5 : Vec F S1x16 .f32) (y : S2048x16.Idx) :
    ∃ pc ∈ (kernelRunR0_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRunR0_A c i arg2 harg2 arg3 harg3 arg4 harg4 arg5 harg5 arg6 harg6 arg7 harg7 arg8 harg8 arg9 harg9 arg10 harg10 arg11 harg11 hc0 hc1 x0 x1 x2 x3 x4 x5).2.2.2.1 S2048x16.size (by sl_kernel_rfl) y

/-- What case A leaves in accumulator 1: its stores read back. -/
def soutR0_A_1 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : condR0_0 i) (hc1 : ¬condR0_1 i)
    (x0 x1 : Vec F S2048x1024 .f32) (x2 x3 : Vec F S8192x16 .f32) (x4 x5 : Vec F S1x16 .f32) : Vec F S2048x16 .f32 :=
  VSR0_1.read (Elt F) (VSR0_1.writes (Elt F) VSR0_1.junk (kernelRunR0_A c i arg2 harg2 arg3 harg3 arg4 harg4 arg5 harg5 arg6 harg6 arg7 harg7 arg8 harg8 arg9 harg9 arg10 harg10 arg11 harg11 hc0 hc1 x0 x1 x2 x3 x4 x5).2.2.2.1)

/-- Case B's stores into accumulator 0 tile it, so they cover it. -/
theorem scoverR0_B_0 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : ¬condR0_1 i)
    (x0 x1 : Vec F S2048x1024 .f32) (x2 x3 : Vec F S8192x16 .f32) (x4 x5 : Vec F S1x16 .f32) (xs0 xs1 : Vec F S2048x16 .f32) (y : S2048x16.Idx) :
    ∃ pc ∈ (kernelRunR0_B c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRunR0_B c i arg2 harg2 arg3 harg3 arg4 harg4 arg5 harg5 arg6 harg6 arg7 harg7 arg8 harg8 arg9 harg9 arg10 harg10 arg11 harg11 hc0 hc1 x0 x1 x2 x3 x4 x5 xs0 xs1).2.2.1 S2048x16.size (by sl_kernel_rfl) y

/-- What case B leaves in accumulator 0: its stores read back. -/
def soutR0_B_0 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : ¬condR0_1 i)
    (x0 x1 : Vec F S2048x1024 .f32) (x2 x3 : Vec F S8192x16 .f32) (x4 x5 : Vec F S1x16 .f32) (xs0 xs1 : Vec F S2048x16 .f32) : Vec F S2048x16 .f32 :=
  VSR0_0.read (Elt F) (VSR0_0.writes (Elt F) VSR0_0.junk (kernelRunR0_B c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case B's stores into accumulator 1 tile it, so they cover it. -/
theorem scoverR0_B_1 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : ¬condR0_1 i)
    (x0 x1 : Vec F S2048x1024 .f32) (x2 x3 : Vec F S8192x16 .f32) (x4 x5 : Vec F S1x16 .f32) (xs0 xs1 : Vec F S2048x16 .f32) (y : S2048x16.Idx) :
    ∃ pc ∈ (kernelRunR0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRunR0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S2048x16.size (by sl_kernel_rfl) y

/-- What case B leaves in accumulator 1: its stores read back. -/
def soutR0_B_1 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : ¬condR0_1 i)
    (x0 x1 : Vec F S2048x1024 .f32) (x2 x3 : Vec F S8192x16 .f32) (x4 x5 : Vec F S1x16 .f32) (xs0 xs1 : Vec F S2048x16 .f32) : Vec F S2048x16 .f32 :=
  VSR0_1.read (Elt F) (VSR0_1.writes (Elt F) VSR0_1.junk (kernelRunR0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- Case C's stores into accumulator 0 tile it, so they cover it. -/
theorem scoverR0_C_0 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : condR0_1 i)
    (x0 x1 : Vec F S2048x1024 .f32) (x2 x3 : Vec F S8192x16 .f32) (x4 x5 : Vec F S1x16 .f32) (xs0 xs1 : Vec F S2048x16 .f32) (y : S2048x16.Idx) :
    ∃ pc ∈ (kernelRunR0_C c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRunR0_C c i arg2 harg2 arg3 harg3 arg4 harg4 arg5 harg5 arg6 harg6 arg7 harg7 arg8 harg8 arg9 harg9 arg10 harg10 arg11 harg11 hc0 hc1 x0 x1 x2 x3 x4 x5 xs0 xs1).2.2.1 S2048x16.size (by sl_kernel_rfl) y

/-- What case C leaves in accumulator 0: its stores read back. -/
def soutR0_C_0 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : condR0_1 i)
    (x0 x1 : Vec F S2048x1024 .f32) (x2 x3 : Vec F S8192x16 .f32) (x4 x5 : Vec F S1x16 .f32) (xs0 xs1 : Vec F S2048x16 .f32) : Vec F S2048x16 .f32 :=
  VSR0_0.read (Elt F) (VSR0_0.writes (Elt F) VSR0_0.junk (kernelRunR0_C c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's stores into accumulator 1 tile it, so they cover it. -/
theorem scoverR0_C_1 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : condR0_1 i)
    (x0 x1 : Vec F S2048x1024 .f32) (x2 x3 : Vec F S8192x16 .f32) (x4 x5 : Vec F S1x16 .f32) (xs0 xs1 : Vec F S2048x16 .f32) (y : S2048x16.Idx) :
    ∃ pc ∈ (kernelRunR0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRunR0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S2048x16.size (by sl_kernel_rfl) y

/-- What case C leaves in accumulator 1: its stores read back. -/
def soutR0_C_1 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : condR0_1 i)
    (x0 x1 : Vec F S2048x1024 .f32) (x2 x3 : Vec F S8192x16 .f32) (x4 x5 : Vec F S1x16 .f32) (xs0 xs1 : Vec F S2048x16 .f32) : Vec F S2048x16 .f32 :=
  VSR0_1.read (Elt F) (VSR0_1.writes (Elt F) VSR0_1.junk (kernelRunR0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- Case C's store into output window 6 tiles its block, so it covers it. -/
theorem coverR0_C_6 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : condR0_1 i)
    (x0 x1 : Vec F S2048x1024 .f32) (x2 x3 : Vec F S8192x16 .f32) (x4 x5 : Vec F S1x16 .f32) (xs0 xs1 : Vec F S2048x16 .f32) (y : S2048x16.Idx) :
    ∃ pc ∈ (kernelRunR0_C c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRunR0_C c i arg2 harg2 arg3 harg3 arg4 harg4 arg5 harg5 arg6 harg6 arg7 harg7 arg8 harg8 arg9 harg9 arg10 harg10 arg11 harg11 hc0 hc1 x0 x1 x2 x3 x4 x5 xs0 xs1).1 S2048x16.size (by sl_kernel_rfl) y

/-- What case C leaves in output window 6's staging buffer: its store read back. -/
def outR0_C_6 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : condR0_1 i)
    (x0 x1 : Vec F S2048x1024 .f32) (x2 x3 : Vec F S8192x16 .f32) (x4 x5 : Vec F S1x16 .f32) (xs0 xs1 : Vec F S2048x16 .f32) : Vec F S2048x16 .f32 :=
  VOR0_6.read (Elt F) (VOR0_6.writes (Elt F) VOR0_6.junk (kernelRunR0_C c i arg2 harg2 arg3 harg3 arg4 harg4 arg5 harg5 arg6 harg6 arg7 harg7 arg8 harg8 arg9 harg9 arg10 harg10 arg11 harg11 hc0 hc1 x0 x1 x2 x3 x4 x5 xs0 xs1).1)

/-- Case C's store into output window 7 tiles its block, so it covers it. -/
theorem coverR0_C_7 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : condR0_1 i)
    (x0 x1 : Vec F S2048x1024 .f32) (x2 x3 : Vec F S8192x16 .f32) (x4 x5 : Vec F S1x16 .f32) (xs0 xs1 : Vec F S2048x16 .f32) (y : S2048x16.Idx) :
    ∃ pc ∈ (kernelRunR0_C c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRunR0_C c i arg2 harg2 arg3 harg3 arg4 harg4 arg5 harg5 arg6 harg6 arg7 harg7 arg8 harg8 arg9 harg9 arg10 harg10 arg11 harg11 hc0 hc1 x0 x1 x2 x3 x4 x5 xs0 xs1).2.1 S2048x16.size (by sl_kernel_rfl) y

/-- What case C leaves in output window 7's staging buffer: its store read back. -/
def outR0_C_7 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : condR0_1 i)
    (x0 x1 : Vec F S2048x1024 .f32) (x2 x3 : Vec F S8192x16 .f32) (x4 x5 : Vec F S1x16 .f32) (xs0 xs1 : Vec F S2048x16 .f32) : Vec F S2048x16 .f32 :=
  VOR0_7.read (Elt F) (VOR0_7.writes (Elt F) VOR0_7.junk (kernelRunR0_C c i arg2 harg2 arg3 harg3 arg4 harg4 arg5 harg5 arg6 harg6 arg7 harg7 arg8 harg8 arg9 harg9 arg10 harg10 arg11 harg11 hc0 hc1 x0 x1 x2 x3 x4 x5 xs0 xs1).2.1)

/-! ## What the outputs and the accumulators hold after each point -/

/-- An output block nothing was stored into: contents no one reads. -/
abbrev idleOutR0_6 : Vec F S2048x16 .f32 := VOR0_6.read (Elt F) VOR0_6.junk
abbrev idleOutR0_7 : Vec F S2048x16 .f32 := VOR0_7.read (Elt F) VOR0_7.junk

/-- After a point with contraction coordinate 0: the accumulators hold the first partial product. -/
def caseAR0 (c : Dev nD) (t : Fin cfg0.N) (h0 : t.val % 8 = 0) (h1 : ¬t.val % 8 = 7) :
    Vec F S2048x16 .f32 × Vec F S2048x16 .f32 × Vec F S2048x16 .f32 × Vec F S2048x16 .f32 :=
  (idleOutR0_6, idleOutR0_7, soutR0_A_0 c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0_0 (Memref.isWhole_whole _) scMR0_1 (Memref.isWhole_whole _) ((hcondR0_0 t).mpr h0) (fun h => h1 ((hcondR0_1 t).mp h)) (iblkR0 V c 0 t) (iblkR0 V c 1 t) (iblkR0 V c 2 t) (iblkR0 V c 3 t) (iblkR0 V c 4 t) (iblkR0 V c 5 t), soutR0_A_1 c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0_0 (Memref.isWhole_whole _) scMR0_1 (Memref.isWhole_whole _) ((hcondR0_0 t).mpr h0) (fun h => h1 ((hcondR0_1 t).mp h)) (iblkR0 V c 0 t) (iblkR0 V c 1 t) (iblkR0 V c 2 t) (iblkR0 V c 3 t) (iblkR0 V c 4 t) (iblkR0 V c 5 t))

/-- After a point with contraction coordinate 1 to 6, from what the point before left in the accumulators. -/
def caseBR0 (c : Dev nD) (t : Fin cfg0.N) (h0 : ¬t.val % 8 = 0) (h1 : ¬t.val % 8 = 7) (xs0 xs1 : Vec F S2048x16 .f32) :
    Vec F S2048x16 .f32 × Vec F S2048x16 .f32 × Vec F S2048x16 .f32 × Vec F S2048x16 .f32 :=
  (idleOutR0_6, idleOutR0_7, soutR0_B_0 c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0_0 (Memref.isWhole_whole _) scMR0_1 (Memref.isWhole_whole _) (fun h => h0 ((hcondR0_0 t).mp h)) (fun h => h1 ((hcondR0_1 t).mp h)) (iblkR0 V c 0 t) (iblkR0 V c 1 t) (iblkR0 V c 2 t) (iblkR0 V c 3 t) (iblkR0 V c 4 t) (iblkR0 V c 5 t) xs0 xs1, soutR0_B_1 c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0_0 (Memref.isWhole_whole _) scMR0_1 (Memref.isWhole_whole _) (fun h => h0 ((hcondR0_0 t).mp h)) (fun h => h1 ((hcondR0_1 t).mp h)) (iblkR0 V c 0 t) (iblkR0 V c 1 t) (iblkR0 V c 2 t) (iblkR0 V c 3 t) (iblkR0 V c 4 t) (iblkR0 V c 5 t) xs0 xs1)

/-- After a point with contraction coordinate 7, from what the point before left in the accumulators. -/
def caseCR0 (c : Dev nD) (t : Fin cfg0.N) (h0 : ¬t.val % 8 = 0) (h1 : t.val % 8 = 7) (xs0 xs1 : Vec F S2048x16 .f32) :
    Vec F S2048x16 .f32 × Vec F S2048x16 .f32 × Vec F S2048x16 .f32 × Vec F S2048x16 .f32 :=
  (outR0_C_6 c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0_0 (Memref.isWhole_whole _) scMR0_1 (Memref.isWhole_whole _) (fun h => h0 ((hcondR0_0 t).mp h)) ((hcondR0_1 t).mpr h1) (iblkR0 V c 0 t) (iblkR0 V c 1 t) (iblkR0 V c 2 t) (iblkR0 V c 3 t) (iblkR0 V c 4 t) (iblkR0 V c 5 t) xs0 xs1, outR0_C_7 c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0_0 (Memref.isWhole_whole _) scMR0_1 (Memref.isWhole_whole _) (fun h => h0 ((hcondR0_0 t).mp h)) ((hcondR0_1 t).mpr h1) (iblkR0 V c 0 t) (iblkR0 V c 1 t) (iblkR0 V c 2 t) (iblkR0 V c 3 t) (iblkR0 V c 4 t) (iblkR0 V c 5 t) xs0 xs1, soutR0_C_0 c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0_0 (Memref.isWhole_whole _) scMR0_1 (Memref.isWhole_whole _) (fun h => h0 ((hcondR0_0 t).mp h)) ((hcondR0_1 t).mpr h1) (iblkR0 V c 0 t) (iblkR0 V c 1 t) (iblkR0 V c 2 t) (iblkR0 V c 3 t) (iblkR0 V c 4 t) (iblkR0 V c 5 t) xs0 xs1, soutR0_C_1 c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0_0 (Memref.isWhole_whole _) scMR0_1 (Memref.isWhole_whole _) (fun h => h0 ((hcondR0_0 t).mp h)) ((hcondR0_1 t).mpr h1) (iblkR0 V c 0 t) (iblkR0 V c 1 t) (iblkR0 V c 2 t) (iblkR0 V c 3 t) (iblkR0 V c 4 t) (iblkR0 V c 5 t) xs0 xs1)

/-- What the two output blocks and the two accumulators hold after the body at position `n`: the case the position's
    contraction coordinate selects, the accumulators taken from what position `n - 1` left. -/
def outsAtR0 (c : Dev nD) : (n : ℕ) → n < cfg0.N → Vec F S2048x16 .f32 × Vec F S2048x16 .f32 × Vec F S2048x16 .f32 × Vec F S2048x16 .f32
  | 0, hn => caseAR0 V c ⟨0, hn⟩ (Nat.zero_mod _) (fun h => absurd (show (0 : ℕ) % 8 = 7 from h) (by decide))
  | n + 1, hn =>
    if h0 : (n + 1) % 8 = 0 then caseAR0 V c ⟨n + 1, hn⟩ h0 (fun h => by have h' : (n + 1) % 8 = 7 := h; omega)
    else if h1 : (n + 1) % 8 = 7 then
      caseCR0 V c ⟨n + 1, hn⟩ h0 h1 (outsAtR0 c n (Nat.lt_of_succ_lt hn)).2.2.1 (outsAtR0 c n (Nat.lt_of_succ_lt hn)).2.2.2
    else caseBR0 V c ⟨n + 1, hn⟩ h0 h1 (outsAtR0 c n (Nat.lt_of_succ_lt hn)).2.2.1 (outsAtR0 c n (Nat.lt_of_succ_lt hn)).2.2.2

theorem outsAtR0_A (c : Dev nD) (t : Fin cfg0.N) (h0 : t.val % 8 = 0) (h1 : ¬t.val % 8 = 7) :
    outsAtR0 V c t.val t.isLt = caseAR0 V c t h0 h1 := by
  obtain ⟨n, hn⟩ := t
  cases n with
  | zero => rfl
  | succ n => exact (dif_pos h0).trans rfl

theorem outsAtR0_B (c : Dev nD) (t : Fin cfg0.N) (h0 : ¬t.val % 8 = 0) (h1 : ¬t.val % 8 = 7) :
    outsAtR0 V c t.val t.isLt = caseBR0 V c t h0 h1 (outsAtR0 V c (t.val - 1) (Nat.lt_of_le_of_lt (Nat.sub_le _ _) t.isLt)).2.2.1 (outsAtR0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAtR0_C (c : Dev nD) (t : Fin cfg0.N) (h0 : ¬t.val % 8 = 0) (h1 : t.val % 8 = 7) :
    outsAtR0 V c t.val t.isLt = caseCR0 V c t h0 h1 (outsAtR0 V c (t.val - 1) (Nat.lt_of_le_of_lt (Nat.sub_le _ _) t.isLt)).2.2.1 (outsAtR0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-- The region invariant before position `n`: the generator register at some state, the scoped buffers other than the
    accumulators at some contents, and the accumulators — at anything before the first point, afterwards at what the
    point before left. -/
def PhiSR0 (c : Dev nD) : (n : ℕ) → n ≤ cfg0.N → sProp 𝕄
  | 0, _ => iprop(iprop((∃ d, owns (c : Thread nD τ) scMR0_0 fullShare d) ∗ (∃ d, owns (c : Thread nD τ) scMR0_1 fullShare d) ∗ restR0 c) ∗ (∃ r, prngReg c r))
  | n + 1, hn => iprop(iprop(owns (c : Thread nD τ) scMR0_0 fullShare (outsAtR0 V c n hn).2.2.1 ∗ owns (c : Thread nD τ) scMR0_1 fullShare (outsAtR0 V c n hn).2.2.2 ∗ restR0 c) ∗ (∃ r, prngReg c r))

theorem PhiSR0_zero (c : Dev nD) (n : ℕ) (h : n ≤ cfg0.N) (hz : n = 0) :
    PhiSR0 V c n h = iprop(iprop((∃ d, owns (c : Thread nD τ) scMR0_0 fullShare d) ∗ (∃ d, owns (c : Thread nD τ) scMR0_1 fullShare d) ∗ restR0 c) ∗ (∃ r, prngReg c r)) := by
  subst hz; rfl

theorem PhiSR0_succ (c : Dev nD) (n : ℕ) (hn : n < cfg0.N) :
    PhiSR0 V c (n + 1) hn = iprop(iprop(owns (c : Thread nD τ) scMR0_0 fullShare (outsAtR0 V c n hn).2.2.1 ∗ owns (c : Thread nD τ) scMR0_1 fullShare (outsAtR0 V c n hn).2.2.2 ∗ restR0 c) ∗ (∃ r, prngReg c r)) := rfl

theorem PhiSR0_pos (c : Dev nD) (n : ℕ) (h : n ≤ cfg0.N) (hz : n ≠ 0) :
    PhiSR0 V c n h = iprop(iprop(owns (c : Thread nD τ) scMR0_0 fullShare (outsAtR0 V c (n - 1) (by omega)).2.2.1 ∗ owns (c : Thread nD τ) scMR0_1 fullShare (outsAtR0 V c (n - 1) (by omega)).2.2.2 ∗ restR0 c) ∗ (∃ r, prngReg c r)) := by
  cases n with
  | zero => exact absurd rfl hz
  | succ n => rfl

/-! ## The proof data -/

/-- The proof data of the layer's pipeline on core `c`: the arrays as the region finds them; after the body each input's
    buffer at its block and each output's at `outsAtR0`'s component; the invariant carrying the accumulators; nothing owed. -/
def datR0 (c : Dev nD) : Dat τ (Elt F) Unit ℕ (UR sig nD τ) ℕ cfg0 c where
  A w := V c (Pipeline.arrRef spec0 w)
  after w t := match w with
    | ⟨0, _⟩ => iblkR0 V c 0 t
    | ⟨1, _⟩ => iblkR0 V c 1 t
    | ⟨2, _⟩ => iblkR0 V c 2 t
    | ⟨3, _⟩ => iblkR0 V c 3 t
    | ⟨4, _⟩ => iblkR0 V c 4 t
    | ⟨5, _⟩ => iblkR0 V c 5 t
    | ⟨6, _⟩ => (outsAtR0 V c t.val t.isLt).1
    | ⟨7, _⟩ => (outsAtR0 V c t.val t.isLt).2.1
  Φ t := PhiSR0 V c t.val (Nat.le_of_lt_succ t.isLt)
  q _ := fullShare
  owed _ := 0

theorem A_eqR0 (c : Dev nD) (w : Fin cfg0.W) : (datR0 V c).A w = V c (Pipeline.arrRef spec0 w) := by
  dsimp only [datR0]

theorem PhiSR0_castSucc (c : Dev nD) (t : Fin cfg0.N) :
    (datR0 V c).Φ t.castSucc = PhiSR0 V c t.val (Nat.le_of_lt t.isLt) := by
  dsimp only [datR0]; simp only [Fin.coe_castSucc]

theorem afterR0_0 (c : Dev nD) (t : Fin cfg0.N) : (datR0 V c).after 0 t = iblkR0 V c 0 t := by dsimp only [datR0]
theorem afterR0_1 (c : Dev nD) (t : Fin cfg0.N) : (datR0 V c).after 1 t = iblkR0 V c 1 t := by dsimp only [datR0]
theorem afterR0_2 (c : Dev nD) (t : Fin cfg0.N) : (datR0 V c).after 2 t = iblkR0 V c 2 t := by dsimp only [datR0]
theorem afterR0_3 (c : Dev nD) (t : Fin cfg0.N) : (datR0 V c).after 3 t = iblkR0 V c 3 t := by dsimp only [datR0]
theorem afterR0_4 (c : Dev nD) (t : Fin cfg0.N) : (datR0 V c).after 4 t = iblkR0 V c 4 t := by dsimp only [datR0]
theorem afterR0_5 (c : Dev nD) (t : Fin cfg0.N) : (datR0 V c).after 5 t = iblkR0 V c 5 t := by dsimp only [datR0]
theorem afterR0_6 (c : Dev nD) (t : Fin cfg0.N) : (datR0 V c).after 6 t = (outsAtR0 V c t.val t.isLt).1 := by dsimp only [datR0]
theorem afterR0_7 (c : Dev nD) (t : Fin cfg0.N) : (datR0 V c).after 7 t = (outsAtR0 V c t.val t.isLt).2.1 := by dsimp only [datR0]

theorem beforeR0_0 (c : Dev nD) (t : Fin cfg0.N) (d) : (datR0 V c).before 0 t d = iblkR0 V c 0 t :=
  beforeR0_0_of V (datR0 V c) (A_eqR0 V c 0) (afterR0_0 V c) t d
theorem beforeR0_1 (c : Dev nD) (t : Fin cfg0.N) (d) : (datR0 V c).before 1 t d = iblkR0 V c 1 t :=
  beforeR0_1_of V (datR0 V c) (A_eqR0 V c 1) (afterR0_1 V c) t d
theorem beforeR0_2 (c : Dev nD) (t : Fin cfg0.N) (d) : (datR0 V c).before 2 t d = iblkR0 V c 2 t :=
  beforeR0_2_of V (datR0 V c) (A_eqR0 V c 2) (afterR0_2 V c) t d
theorem beforeR0_3 (c : Dev nD) (t : Fin cfg0.N) (d) : (datR0 V c).before 3 t d = iblkR0 V c 3 t :=
  beforeR0_3_of V (datR0 V c) (A_eqR0 V c 3) (afterR0_3 V c) t d
theorem beforeR0_4 (c : Dev nD) (t : Fin cfg0.N) (d) : (datR0 V c).before 4 t d = iblkR0 V c 4 t :=
  beforeR0_4_of V (datR0 V c) (A_eqR0 V c 4) (afterR0_4 V c) t d
theorem beforeR0_5 (c : Dev nD) (t : Fin cfg0.N) (d) : (datR0 V c).before 5 t d = iblkR0 V c 5 t :=
  beforeR0_5_of V (datR0 V c) (A_eqR0 V c 5) (afterR0_5 V c) t d

/-! ## The body obligation -/

def bodyPreR0 (c : Dev nD) (t : Fin cfg0.N) : sProp 𝕄 :=
  iprop((datR0 V c).Φ t.castSucc ∗ (datR0 V c).owesAt () t.castSucc
    ∗ (∃ d, owns (c : Thread nD τ) (msR0_0 t) fullShare ((datR0 V c).before 0 t d))
    ∗ (∃ d, owns (c : Thread nD τ) (msR0_1 t) fullShare ((datR0 V c).before 1 t d))
    ∗ (∃ d, owns (c : Thread nD τ) (msR0_2 t) fullShare ((datR0 V c).before 2 t d))
    ∗ (∃ d, owns (c : Thread nD τ) (msR0_3 t) fullShare ((datR0 V c).before 3 t d))
    ∗ (∃ d, owns (c : Thread nD τ) (msR0_4 t) fullShare ((datR0 V c).before 4 t d))
    ∗ (∃ d, owns (c : Thread nD τ) (msR0_5 t) fullShare ((datR0 V c).before 5 t d))
    ∗ (∃ d, owns (c : Thread nD τ) (msR0_6 t) fullShare ((datR0 V c).before 6 t d))
    ∗ (∃ d, owns (c : Thread nD τ) (msR0_7 t) fullShare ((datR0 V c).before 7 t d)))

def bodyPostR0 (c : Dev nD) (t : Fin cfg0.N) : sProp 𝕄 :=
  iprop((datR0 V c).Φ t.succ ∗ (datR0 V c).owesAt () t.succ
    ∗ (datR0 V c).leavesExact 0 t
    ∗ (datR0 V c).leavesExact 1 t
    ∗ (datR0 V c).leavesExact 2 t
    ∗ (datR0 V c).leavesExact 3 t
    ∗ (datR0 V c).leavesExact 4 t
    ∗ (datR0 V c).leavesExact 5 t
    ∗ (datR0 V c).leavesExact 6 t
    ∗ (datR0 V c).leavesExact 7 t)

set_option maxHeartbeats 8000000 in
/-- The body at any point: the inputs' memrefs hold their blocks; the contraction coordinate says which case the point is in;
    the invariant hands the body the accumulators at what the point before left (at anything before the first point) and
    takes them back at this point's contents; the core owes nothing throughout. -/
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0 bodyAt0
  simp only [beforeR0_0, beforeR0_1, beforeR0_2, beforeR0_3, beforeR0_4, beforeR0_5]
  rw [show (datR0 V c).owesAt () t.succ = (datR0 V c).owesAt () t.castSucc from rfl]
  rw [show (datR0 V c).Φ t.succ = PhiSR0 V c (t.val + 1) t.isLt from rfl, PhiSR0_succ]
  have hN : t.val < 32 := lt_of_lt_of_eq t.isLt (show cfg0.N = 32 from N_0)
  by_cases h0 : t.val % 8 = 0
  · have h1 : ¬t.val % 8 = 7 := by omega
    rw [show (datR0 V c).leavesExact 0 t = owns (c : Thread nD τ) (msR0_0 t) fullShare ((datR0 V c).after 0 t) from by
      unfold Dat.leavesExact; rw [liveAtR0_0 t], afterR0_0]
    rw [show (datR0 V c).leavesExact 1 t = owns (c : Thread nD τ) (msR0_1 t) fullShare ((datR0 V c).after 1 t) from by
      unfold Dat.leavesExact; rw [liveAtR0_1 t], afterR0_1]
    rw [show (datR0 V c).leavesExact 2 t = owns (c : Thread nD τ) (msR0_2 t) fullShare ((datR0 V c).after 2 t) from by
      unfold Dat.leavesExact; rw [liveAtR0_2 t], afterR0_2]
    rw [show (datR0 V c).leavesExact 3 t = owns (c : Thread nD τ) (msR0_3 t) fullShare ((datR0 V c).after 3 t) from by
      unfold Dat.leavesExact; rw [liveAtR0_3 t], afterR0_3]
    rw [show (datR0 V c).leavesExact 4 t = owns (c : Thread nD τ) (msR0_4 t) fullShare ((datR0 V c).after 4 t) from by
      unfold Dat.leavesExact; rw [liveAtR0_4 t], afterR0_4]
    rw [show (datR0 V c).leavesExact 5 t = owns (c : Thread nD τ) (msR0_5 t) fullShare ((datR0 V c).after 5 t) from by
      unfold Dat.leavesExact; rw [liveAtR0_5 t], afterR0_5]
    rw [Dat.leavesExact_idle (datR0 V c) 6 t (idleAtR0_6 t (fun h => h1 ((hcondR0_1 t).mp h))) (noFlushR0_6 t (fun h => h1 ((hcondR0_1 t).mp h)))]
    rw [Dat.leavesExact_idle (datR0 V c) 7 t (idleAtR0_7 t (fun h => h1 ((hcondR0_1 t).mp h))) (noFlushR0_7 t (fun h => h1 ((hcondR0_1 t).mp h)))]
    rw [outsAtR0_A V c t h0 h1]
    unfold caseAR0 soutR0_A_0 soutR0_A_1; (try dsimp only)
    by_cases hz : t.val = 0
    · rw [PhiSR0_castSucc V c t, PhiSR0_zero V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunR0_A c (grid0.coords t) _ _ _ _ _ _ _ _ _ _ _ _ _ _ _ _ _ _ _ _ ((hcondR0_0 t).mpr h0) (fun h => h1 ((hcondR0_1 t).mp h)) (iblkR0 V c 0 t) (iblkR0 V c 1 t) (iblkR0 V c 2 t) (iblkR0 V c 3 t) (iblkR0 V c 4 t) (iblkR0 V c 5 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverR0_A_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverR0_A_1 c _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiSR0_castSucc V c t, PhiSR0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunR0_A c (grid0.coords t) _ _ _ _ _ _ _ _ _ _ _ _ _ _ _ _ _ _ _ _ ((hcondR0_0 t).mpr h0) (fun h => h1 ((hcondR0_1 t).mp h)) (iblkR0 V c 0 t) (iblkR0 V c 1 t) (iblkR0 V c 2 t) (iblkR0 V c 3 t) (iblkR0 V c 4 t) (iblkR0 V c 5 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverR0_A_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverR0_A_1 c _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := fun e => h0 (by rw [e])
    by_cases h1 : t.val % 8 = 7
    · rw [show (datR0 V c).leavesExact 0 t = owns (c : Thread nD τ) (msR0_0 t) fullShare ((datR0 V c).after 0 t) from by
        unfold Dat.leavesExact; rw [liveAtR0_0 t], afterR0_0]
      rw [show (datR0 V c).leavesExact 1 t = owns (c : Thread nD τ) (msR0_1 t) fullShare ((datR0 V c).after 1 t) from by
        unfold Dat.leavesExact; rw [liveAtR0_1 t], afterR0_1]
      rw [show (datR0 V c).leavesExact 2 t = owns (c : Thread nD τ) (msR0_2 t) fullShare ((datR0 V c).after 2 t) from by
        unfold Dat.leavesExact; rw [liveAtR0_2 t], afterR0_2]
      rw [show (datR0 V c).leavesExact 3 t = owns (c : Thread nD τ) (msR0_3 t) fullShare ((datR0 V c).after 3 t) from by
        unfold Dat.leavesExact; rw [liveAtR0_3 t], afterR0_3]
      rw [show (datR0 V c).leavesExact 4 t = owns (c : Thread nD τ) (msR0_4 t) fullShare ((datR0 V c).after 4 t) from by
        unfold Dat.leavesExact; rw [liveAtR0_4 t], afterR0_4]
      rw [show (datR0 V c).leavesExact 5 t = owns (c : Thread nD τ) (msR0_5 t) fullShare ((datR0 V c).after 5 t) from by
        unfold Dat.leavesExact; rw [liveAtR0_5 t], afterR0_5]
      rw [show (datR0 V c).leavesExact 6 t = owns (c : Thread nD τ) (msR0_6 t) fullShare ((datR0 V c).after 6 t) from by
        unfold Dat.leavesExact; rw [liveAtR0_6_C t ((hcondR0_1 t).mpr h1)], afterR0_6]
      rw [show (datR0 V c).leavesExact 7 t = owns (c : Thread nD τ) (msR0_7 t) fullShare ((datR0 V c).after 7 t) from by
        unfold Dat.leavesExact; rw [liveAtR0_7_C t ((hcondR0_1 t).mpr h1)], afterR0_7]
      rw [outsAtR0_C V c t h0 h1]
      unfold caseCR0 outR0_C_6 outR0_C_7 soutR0_C_0 soutR0_C_1; (try dsimp only)
      rw [PhiSR0_castSucc V c t, PhiSR0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunR0_C c (grid0.coords t) _ _ _ _ _ _ _ _ _ _ _ _ _ _ _ _ _ _ _ _ (fun h => h0 ((hcondR0_0 t).mp h)) ((hcondR0_1 t).mpr h1) (iblkR0 V c 0 t) (iblkR0 V c 1 t) (iblkR0 V c 2 t) (iblkR0 V c 3 t) (iblkR0 V c 4 t) (iblkR0 V c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverR0_C_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverR0_C_1 c _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverR0_C_6 c _ _ _ _ _ _ _ _ _ _ _ _ _ _ _ _ _ _ _ _ _ _ _ _ _ _ _ _ _ _ _)
      unfold owns; iexists _; isplitr
      swap; · iexact H7
      ipureintro; exact View.read_writes_of_cover _ _ _ _ _ (coverR0_C_7 c _ _ _ _ _ _ _ _ _ _ _ _ _ _ _ _ _ _ _ _ _ _ _ _ _ _ _ _ _ _ _)
    · rw [show (datR0 V c).leavesExact 0 t = owns (c : Thread nD τ) (msR0_0 t) fullShare ((datR0 V c).after 0 t) from by
        unfold Dat.leavesExact; rw [liveAtR0_0 t], afterR0_0]
      rw [show (datR0 V c).leavesExact 1 t = owns (c : Thread nD τ) (msR0_1 t) fullShare ((datR0 V c).after 1 t) from by
        unfold Dat.leavesExact; rw [liveAtR0_1 t], afterR0_1]
      rw [show (datR0 V c).leavesExact 2 t = owns (c : Thread nD τ) (msR0_2 t) fullShare ((datR0 V c).after 2 t) from by
        unfold Dat.leavesExact; rw [liveAtR0_2 t], afterR0_2]
      rw [show (datR0 V c).leavesExact 3 t = owns (c : Thread nD τ) (msR0_3 t) fullShare ((datR0 V c).after 3 t) from by
        unfold Dat.leavesExact; rw [liveAtR0_3 t], afterR0_3]
      rw [show (datR0 V c).leavesExact 4 t = owns (c : Thread nD τ) (msR0_4 t) fullShare ((datR0 V c).after 4 t) from by
        unfold Dat.leavesExact; rw [liveAtR0_4 t], afterR0_4]
      rw [show (datR0 V c).leavesExact 5 t = owns (c : Thread nD τ) (msR0_5 t) fullShare ((datR0 V c).after 5 t) from by
        unfold Dat.leavesExact; rw [liveAtR0_5 t], afterR0_5]
      rw [Dat.leavesExact_idle (datR0 V c) 6 t (idleAtR0_6 t (fun h => h1 ((hcondR0_1 t).mp h))) (noFlushR0_6 t (fun h => h1 ((hcondR0_1 t).mp h)))]
      rw [Dat.leavesExact_idle (datR0 V c) 7 t (idleAtR0_7 t (fun h => h1 ((hcondR0_1 t).mp h))) (noFlushR0_7 t (fun h => h1 ((hcondR0_1 t).mp h)))]
      rw [outsAtR0_B V c t h0 h1]
      unfold caseBR0 soutR0_B_0 soutR0_B_1; (try dsimp only)
      rw [PhiSR0_castSucc V c t, PhiSR0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunR0_B c (grid0.coords t) _ _ _ _ _ _ _ _ _ _ _ _ _ _ _ _ _ _ _ _ (fun h => h0 ((hcondR0_0 t).mp h)) (fun h => h1 ((hcondR0_1 t).mp h)) (iblkR0 V c 0 t) (iblkR0 V c 1 t) (iblkR0 V c 2 t) (iblkR0 V c 3 t) (iblkR0 V c 4 t) (iblkR0 V c 5 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverR0_B_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverR0_B_1 c _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligationR0 (c : Dev nD) : BodyObligation (datR0 (F := F) V c) (defs₀ (F := F)) Variants.none () Set.univ := fun t => by
  rw [bigSep_W0, bigSep_W0]
  exact sound_bodyR0 V c t

end

end Cert.Kernel.Fr

end
-- ==== Proof.FrB1S.lean ====
import proofs.«105748_j27410481283396_2_alg».proof.Proof.Gen.Kernel.Launch
import proofs.«105748_j27410481283396_2_alg».proof.Proof.Gen.Kernel.Skeleton
import proofs.«105748_j27410481283396_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What the three control cases of the layer kernel share: the blocks the region finds in its windows' arrays, that
    an input window's staging buffer holds its block at every grid point, the two branch conditions in closed form over
    the grid (the contraction coordinate is 0; it is 7), where the output windows are idle, and the scoped buffers split
    into the two accumulators and the rest. Everything is stated at a PARAMETER `V`, the buffer contents when the region is
    entered. -/

section
variable (V : (c : Dev nD) → (b : Ref sig .tc) → Buf (Elt F) ((c : Thread nD τ).loc b))

/-- Window `w`'s block at grid point `t`, read off its array as the region finds it. -/
def iblkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: an unfetched
    point has the block index of the point before. -/
theorem beforeR1_0_of {c : Dev nD} (dat : Dat τ (Elt F) Unit ℕ (UR sig nD τ) ℕ cfg1 c) (hA : dat.A 0 = V c (Pipeline.arrRef spec1 0))
    (hafter : ∀ t, dat.after 0 t = iblkR1 V c 0 t) (t : Fin cfg1.N) (d) : dat.before 0 t d = iblkR1 V c 0 t :=
  (dat.before_in_eq_fetched 0 rfl (fun _ => rfl) (fun _ _ _ => rfl) (fun t => by rw [hafter]; unfold Dat.blockOf iblkR1; rw [hA]; try rfl) t d).trans
    (by unfold Dat.fetched Dat.blockOf iblkR1; rw [hA]; try rfl)

/-- Input window 1's current staging buffer holds its block at every point, fetched there or not: an unfetched
    point has the block index of the point before. -/
theorem beforeR1_1_of {c : Dev nD} (dat : Dat τ (Elt F) Unit ℕ (UR sig nD τ) ℕ cfg1 c) (hA : dat.A 1 = V c (Pipeline.arrRef spec1 1))
    (hafter : ∀ t, dat.after 1 t = iblkR1 V c 1 t) (t : Fin cfg1.N) (d) : dat.before 1 t d = iblkR1 V c 1 t :=
  (dat.before_in_eq_fetched 1 rfl (fun _ => rfl) (fun _ _ _ => rfl) (fun t => by rw [hafter]; unfold Dat.blockOf iblkR1; rw [hA]; try rfl) t d).trans
    (by unfold Dat.fetched Dat.blockOf iblkR1; rw [hA]; try rfl)

/-- Input window 2's current staging buffer holds its block at every point, fetched there or not: an unfetched
    point has the block index of the point before. -/
theorem beforeR1_2_of {c : Dev nD} (dat : Dat τ (Elt F) Unit ℕ (UR sig nD τ) ℕ cfg1 c) (hA : dat.A 2 = V c (Pipeline.arrRef spec1 2))
    (hafter : ∀ t, dat.after 2 t = iblkR1 V c 2 t) (t : Fin cfg1.N) (d) : dat.before 2 t d = iblkR1 V c 2 t :=
  (dat.before_in_eq_fetched 2 rfl (fun _ => rfl) (fun _ _ _ => rfl) (fun t => by rw [hafter]; unfold Dat.blockOf iblkR1; rw [hA]; try rfl) t d).trans
    (by unfold Dat.fetched Dat.blockOf iblkR1; rw [hA]; try rfl)

/-- Input window 3's current staging buffer holds its block at every point, fetched there or not: an unfetched
    point has the block index of the point before. -/
theorem beforeR1_3_of {c : Dev nD} (dat : Dat τ (Elt F) Unit ℕ (UR sig nD τ) ℕ cfg1 c) (hA : dat.A 3 = V c (Pipeline.arrRef spec1 3))
    (hafter : ∀ t, dat.after 3 t = iblkR1 V c 3 t) (t : Fin cfg1.N) (d) : dat.before 3 t d = iblkR1 V c 3 t :=
  (dat.before_in_eq_fetched 3 rfl (fun _ => rfl) (fun _ _ _ => rfl) (fun t => by rw [hafter]; unfold Dat.blockOf iblkR1; rw [hA]; try rfl) t d).trans
    (by unfold Dat.fetched Dat.blockOf iblkR1; rw [hA]; try rfl)

/-- Input window 4's current staging buffer holds its block at every point, fetched there or not: an unfetched
    point has the block index of the point before. -/
theorem beforeR1_4_of {c : Dev nD} (dat : Dat τ (Elt F) Unit ℕ (UR sig nD τ) ℕ cfg1 c) (hA : dat.A 4 = V c (Pipeline.arrRef spec1 4))
    (hafter : ∀ t, dat.after 4 t = iblkR1 V c 4 t) (t : Fin cfg1.N) (d) : dat.before 4 t d = iblkR1 V c 4 t :=
  (dat.before_in_eq_fetched 4 rfl (fun _ => rfl) (fun _ _ _ => rfl) (fun t => by rw [hafter]; unfold Dat.blockOf iblkR1; rw [hA]; try rfl) t d).trans
    (by unfold Dat.fetched Dat.blockOf iblkR1; rw [hA]; try rfl)

/-- Input window 5's current staging buffer holds its block at every point, fetched there or not: an unfetched
    point has the block index of the point before. -/
theorem beforeR1_5_of {c : Dev nD} (dat : Dat τ (Elt F) Unit ℕ (UR sig nD τ) ℕ cfg1 c) (hA : dat.A 5 = V c (Pipeline.arrRef spec1 5))
    (hafter : ∀ t, dat.after 5 t = iblkR1 V c 5 t) (t : Fin cfg1.N) (d) : dat.before 5 t d = iblkR1 V c 5 t :=
  (dat.before_in_eq_fetched 5 rfl (fun _ => rfl) (fun _ _ _ => rfl) (fun t => by rw [hafter]; unfold Dat.blockOf iblkR1; rw [hA]; try rfl) t d).trans
    (by unfold Dat.fetched Dat.blockOf iblkR1; rw [hA]; try rfl)

end

/-! ## The body's two branch conditions -/

/-- The first branch (zero the accumulators) is taken when the contraction coordinate is 0. -/
abbrev condR1_0 (i : grid1.Coords) : Prop := (Scalar.cmpi .ne (Scalar.extui (Scalar.cmpi .eq (BitVec.ofNat 32 (i 1).val) 0#32)) 0#32) = 1#1
theorem hcondR1_0 : ∀ t : Fin cfg1.N, condR1_0 (grid1.coords t) ↔ t.val % 8 = 0 :=
  (by decide +kernel : ∀ t : Fin grid1.N, condR1_0 (grid1.coords t) ↔ t.val % 8 = 0)

/-- The second branch (add the bias, clamp at zero, store the output block) is taken when it is 7. -/
abbrev condR1_1 (i : grid1.Coords) : Prop := k1_cond2 i = 1#1
theorem hcondR1_1 : ∀ t : Fin cfg1.N, condR1_1 (grid1.coords t) ↔ t.val % 8 = 7 :=
  (by decide +kernel : ∀ t : Fin grid1.N, condR1_1 (grid1.coords t) ↔ t.val % 8 = 7)

/-! ## Where the windows are idle -/

theorem liveAtR1_0 : ∀ t : Fin cfg1.N, cfg1.idle 0 (grid1.coords t) = false := fun _ => rfl
theorem liveAtR1_1 : ∀ t : Fin cfg1.N, cfg1.idle 1 (grid1.coords t) = false := fun _ => rfl
theorem liveAtR1_2 : ∀ t : Fin cfg1.N, cfg1.idle 2 (grid1.coords t) = false := fun _ => rfl
theorem liveAtR1_3 : ∀ t : Fin cfg1.N, cfg1.idle 3 (grid1.coords t) = false := fun _ => rfl
theorem liveAtR1_4 : ∀ t : Fin cfg1.N, cfg1.idle 4 (grid1.coords t) = false := fun _ => rfl
theorem liveAtR1_5 : ∀ t : Fin cfg1.N, cfg1.idle 5 (grid1.coords t) = false := fun _ => rfl
/-- Away from the last contraction step nothing is stored into output window 6 and its block is not written back. -/
theorem idleAtR1_6 : ∀ t : Fin cfg1.N, ¬condR1_1 (grid1.coords t) → cfg1.idle 6 (grid1.coords t) = true := by decide +kernel
theorem noFlushR1_6 : ∀ t : Fin cfg1.N, ¬condR1_1 (grid1.coords t) → (cfg1.win 6).flush t = false := by decide +kernel
theorem liveAtR1_6_C : ∀ t : Fin cfg1.N, condR1_1 (grid1.coords t) → cfg1.idle 6 (grid1.coords t) = false := by decide +kernel
/-- Away from the last contraction step nothing is stored into output window 7 and its block is not written back. -/
theorem idleAtR1_7 : ∀ t : Fin cfg1.N, ¬condR1_1 (grid1.coords t) → cfg1.idle 7 (grid1.coords t) = true := by decide +kernel
theorem noFlushR1_7 : ∀ t : Fin cfg1.N, ¬condR1_1 (grid1.coords t) → (cfg1.win 7).flush t = false := by decide +kernel
theorem liveAtR1_7_C : ∀ t : Fin cfg1.N, condR1_1 (grid1.coords t) → cfg1.idle 7 (grid1.coords t) = false := by decide +kernel

/-! ## The staging and scratch memrefs -/

abbrev VOR1_6 : View sig .tc .vmem S2048x32 .f32 := (Memref.whole cc1_stg6_0 : Memref sig .tc .vmem S2048x32 .f32).view
abbrev VOR1_7 : View sig .tc .vmem S2048x32 .f32 := (Memref.whole cc1_stg7_0 : Memref sig .tc .vmem S2048x32 .f32).view
abbrev msR1_0 (t : Fin cfg1.N) : Memref sig .tc .vmem S2048x1024 .f32 := win1_0.stage (cfg1.slots t 0)
abbrev hsR1_0 (t : Fin cfg1.N) : (msR1_0 t).IsWhole := hstage1_0 ((cfg1.slots t 0).cast nbuf1_0)
abbrev msR1_1 (t : Fin cfg1.N) : Memref sig .tc .vmem S2048x1024 .f32 := win1_1.stage (cfg1.slots t 1)
abbrev hsR1_1 (t : Fin cfg1.N) : (msR1_1 t).IsWhole := hstage1_1 ((cfg1.slots t 1).cast nbuf1_1)
abbrev msR1_2 (t : Fin cfg1.N) : Memref sig .tc .vmem S8192x32 .f32 := win1_2.stage (cfg1.slots t 2)
abbrev hsR1_2 (t : Fin cfg1.N) : (msR1_2 t).IsWhole := hstage1_2 ((cfg1.slots t 2).cast nbuf1_2)
abbrev msR1_3 (t : Fin cfg1.N) : Memref sig .tc .vmem S8192x32 .f32 := win1_3.stage (cfg1.slots t 3)
abbrev hsR1_3 (t : Fin cfg1.N) : (msR1_3 t).IsWhole := hstage1_3 ((cfg1.slots t 3).cast nbuf1_3)
abbrev msR1_4 (t : Fin cfg1.N) : Memref sig .tc .vmem S1x32 .f32 := win1_4.stage (cfg1.slots t 4)
abbrev hsR1_4 (t : Fin cfg1.N) : (msR1_4 t).IsWhole := hstage1_4 ((cfg1.slots t 4).cast nbuf1_4)
abbrev msR1_5 (t : Fin cfg1.N) : Memref sig .tc .vmem S1x32 .f32 := win1_5.stage (cfg1.slots t 5)
abbrev hsR1_5 (t : Fin cfg1.N) : (msR1_5 t).IsWhole := hstage1_5 ((cfg1.slots t 5).cast nbuf1_5)
abbrev msR1_6 (t : Fin cfg1.N) : Memref sig .tc .vmem S2048x32 .f32 := win1_6.stage (cfg1.slots t 6)
abbrev hsR1_6 (t : Fin cfg1.N) : (msR1_6 t).IsWhole := hstage1_6 ((cfg1.slots t 6).cast nbuf1_6)
abbrev msR1_7 (t : Fin cfg1.N) : Memref sig .tc .vmem S2048x32 .f32 := win1_7.stage (cfg1.slots t 7)
abbrev hsR1_7 (t : Fin cfg1.N) : (msR1_7 t).IsWhole := hstage1_7 ((cfg1.slots t 7).cast nbuf1_7)
/-- The two accumulators: whole scoped buffers of the kernel's own, carried from one grid point to the next. -/
abbrev scMR1_0 : Memref sig .tc .vmem S2048x32 .f32 := Memref.whole cc1_scratch0
abbrev scMR1_1 : Memref sig .tc .vmem S2048x32 .f32 := Memref.whole cc1_scratch1
abbrev VSR1_0 : View sig .tc .vmem S2048x32 .f32 := scMR1_0.view
abbrev VSR1_1 : View sig .tc .vmem S2048x32 .f32 := scMR1_1.view

/-- The core's scoped buffers other than this region's staging buffers and its two accumulators, each at some contents. -/
def restR1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The scoped buffers no window stages are the two accumulators, each at some contents, and the rest. -/
theorem scopedSplitR1 (c : Dev nD) :
    (Pipeline.scopedRest (Ix := Unit) (Name := ℕ) (U := UR sig nD τ) (Lvl := ℕ) (Val := Elt F) spec1 c : sProp 𝕄)
      ⊢ iprop((∃ d, owns (c : Thread nD τ) scMR1_0 fullShare d) ∗ (∃ d, owns (c : Thread nD τ) scMR1_1 fullShare d) ∗ restR1 c) := by
  rw [scopedRest1_eq]; unfold restR1; simp only [scMR1_0, scMR1_1, owns_whole]
  iintro ⟨Hq0, Hq1, Hq2, Hq3, Hq4, Hq5, Hq6, Hq7, Hq8, Hq9, Hq10, Hq11, Hq12, Hq13, HS0, HS1⟩
  isplitl [HS0]; · iexact HS0
  isplitl [HS1]; · iexact HS1
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  iexact Hq13

theorem scopedJoinR1 (c : Dev nD) :
    iprop((∃ d, owns (c : Thread nD τ) scMR1_0 fullShare d) ∗ (∃ d, owns (c : Thread nD τ) scMR1_1 fullShare d) ∗ restR1 c)
      ⊢ (Pipeline.scopedRest (Ix := Unit) (Name := ℕ) (U := UR sig nD τ) (Lvl := ℕ) (Val := Elt F) spec1 c : sProp 𝕄) := by
  rw [scopedRest1_eq]; unfold restR1; simp only [scMR1_0, scMR1_1, owns_whole]
  iintro ⟨HS0, HS1, Hq0, Hq1, Hq2, Hq3, Hq4, Hq5, Hq6, Hq7, Hq8, Hq9, Hq10, Hq11, Hq12, Hq13⟩
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [HS0]; · iexact HS0
  iexact HS1

end Cert.Kernel.Fr

end
-- ==== Proof.FrB1A.lean ====
import proofs.«105748_j27410481283396_2_alg».proof.Proof.FrB1S

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The layer kernel's body in the control case A (contraction coordinate 0: the accumulators are zeroed, then receive the first partial product): on whole staging memrefs —
    the inputs' at their contents, the outputs' handed back untouched, the accumulators at anything — it runs to the continuation holding the inputs' as they were and
    each buffer it stored into with its pieces written; the pieces (last store first) are the witness the symbolic run finds. -/
noncomputable def kernelRunR1_A (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : condR1_0 i) (hc1 : ¬condR1_1 i)
    (x0 x1 : Vec F S2048x1024 .f32) (x2 x3 : Vec F S8192x32 .f32) (x4 x5 : Vec F S1x32 .f32) :
    Σ' (L6 : List (View.Piece (Elt F) S2048x32 .f32)) (L7 : List (View.Piece (Elt F) S2048x32 .f32)) (LS0 : List (View.Piece (Elt F) S2048x32 .f32)), { LS1 : List (View.Piece (Elt F) S2048x32 .f32) //
      ∀ (xi6 xi7 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__dgcn_pair_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc1__dgcn_pair_kernel_eq_skeleton]; unfold cc1__dgcn_pair_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Fr

end
-- ==== Proof.FrB1B.lean ====
import proofs.«105748_j27410481283396_2_alg».proof.Proof.FrB1A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The layer kernel's body in the control case B (contraction coordinate 1 to 6: the accumulators receive one more partial product): on whole staging memrefs —
    the inputs' at their contents, the outputs' handed back untouched, the accumulators at what the point before left — it runs to the continuation holding the inputs' as they were and
    each buffer it stored into with its pieces written; the pieces (last store first) are the witness the symbolic run finds. -/
noncomputable def kernelRunR1_B (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : ¬condR1_1 i)
    (x0 x1 : Vec F S2048x1024 .f32) (x2 x3 : Vec F S8192x32 .f32) (x4 x5 : Vec F S1x32 .f32) (xs0 xs1 : Vec F S2048x32 .f32) :
    Σ' (L6 : List (View.Piece (Elt F) S2048x32 .f32)) (L7 : List (View.Piece (Elt F) S2048x32 .f32)) (LS0 : List (View.Piece (Elt F) S2048x32 .f32)), { LS1 : List (View.Piece (Elt F) S2048x32 .f32) //
      ∀ (xi6 xi7 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__dgcn_pair_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc1__dgcn_pair_kernel_eq_skeleton]; unfold cc1__dgcn_pair_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Fr

end
-- ==== Proof.FrB1C.lean ====
import proofs.«105748_j27410481283396_2_alg».proof.Proof.FrB1B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The layer kernel's body in the control case C (contraction coordinate 7: the accumulators receive the last partial product, and each output block is stored as the accumulator plus the bias, clamped at zero): on whole staging memrefs —
    the inputs' at their contents, the outputs' at anything, the accumulators at what the point before left — it runs to the continuation holding the inputs' as they were and
    each buffer it stored into with its pieces written; the pieces (last store first) are the witness the symbolic run finds. -/
noncomputable def kernelRunR1_C (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : condR1_1 i)
    (x0 x1 : Vec F S2048x1024 .f32) (x2 x3 : Vec F S8192x32 .f32) (x4 x5 : Vec F S1x32 .f32) (xs0 xs1 : Vec F S2048x32 .f32) :
    Σ' (L6 : List (View.Piece (Elt F) S2048x32 .f32)) (L7 : List (View.Piece (Elt F) S2048x32 .f32)) (LS0 : List (View.Piece (Elt F) S2048x32 .f32)), { LS1 : List (View.Piece (Elt F) S2048x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__dgcn_pair_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__dgcn_pair_kernel_eq_skeleton]; unfold cc1__dgcn_pair_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.Kernel.Fr

end
-- ==== Proof.FrB1.lean ====
import proofs.«105748_j27410481283396_2_alg».proof.Proof.FrB1C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The layer kernel's proof data at a PARAMETER `V` (the buffer contents when the region is entered): what each control
    case leaves in the two accumulators and the two output blocks, what they hold after every grid point (by recursion on
    the point: an accumulator starts each later point from what the point before left), the region invariant carrying the
    accumulators, and the body's obligation at every point. -/

section
variable (V : (c : Dev nD) → (b : Ref sig .tc) → Buf (Elt F) ((c : Thread nD τ).loc b))

/-- Case A's stores into accumulator 0 tile it, so they cover it. -/
theorem scoverR1_A_0 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : condR1_0 i) (hc1 : ¬condR1_1 i)
    (x0 x1 : Vec F S2048x1024 .f32) (x2 x3 : Vec F S8192x32 .f32) (x4 x5 : Vec F S1x32 .f32) (y : S2048x32.Idx) :
    ∃ pc ∈ (kernelRunR1_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRunR1_A c i arg2 harg2 arg3 harg3 arg4 harg4 arg5 harg5 arg6 harg6 arg7 harg7 arg8 harg8 arg9 harg9 arg10 harg10 arg11 harg11 hc0 hc1 x0 x1 x2 x3 x4 x5).2.2.1 S2048x32.size (by sl_kernel_rfl) y

/-- What case A leaves in accumulator 0: its stores read back. -/
def soutR1_A_0 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : condR1_0 i) (hc1 : ¬condR1_1 i)
    (x0 x1 : Vec F S2048x1024 .f32) (x2 x3 : Vec F S8192x32 .f32) (x4 x5 : Vec F S1x32 .f32) : Vec F S2048x32 .f32 :=
  VSR1_0.read (Elt F) (VSR1_0.writes (Elt F) VSR1_0.junk (kernelRunR1_A c i arg2 harg2 arg3 harg3 arg4 harg4 arg5 harg5 arg6 harg6 arg7 harg7 arg8 harg8 arg9 harg9 arg10 harg10 arg11 harg11 hc0 hc1 x0 x1 x2 x3 x4 x5).2.2.1)

/-- Case A's stores into accumulator 1 tile it, so they cover it. -/
theorem scoverR1_A_1 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : condR1_0 i) (hc1 : ¬condR1_1 i)
    (x0 x1 : Vec F S2048x1024 .f32) (x2 x3 : Vec F S8192x32 .f32) (x4 x5 : Vec F S1x32 .f32) (y : S2048x32.Idx) :
    ∃ pc ∈ (kernelRunR1_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRunR1_A c i arg2 harg2 arg3 harg3 arg4 harg4 arg5 harg5 arg6 harg6 arg7 harg7 arg8 harg8 arg9 harg9 arg10 harg10 arg11 harg11 hc0 hc1 x0 x1 x2 x3 x4 x5).2.2.2.1 S2048x32.size (by sl_kernel_rfl) y

/-- What case A leaves in accumulator 1: its stores read back. -/
def soutR1_A_1 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : condR1_0 i) (hc1 : ¬condR1_1 i)
    (x0 x1 : Vec F S2048x1024 .f32) (x2 x3 : Vec F S8192x32 .f32) (x4 x5 : Vec F S1x32 .f32) : Vec F S2048x32 .f32 :=
  VSR1_1.read (Elt F) (VSR1_1.writes (Elt F) VSR1_1.junk (kernelRunR1_A c i arg2 harg2 arg3 harg3 arg4 harg4 arg5 harg5 arg6 harg6 arg7 harg7 arg8 harg8 arg9 harg9 arg10 harg10 arg11 harg11 hc0 hc1 x0 x1 x2 x3 x4 x5).2.2.2.1)

/-- Case B's stores into accumulator 0 tile it, so they cover it. -/
theorem scoverR1_B_0 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : ¬condR1_1 i)
    (x0 x1 : Vec F S2048x1024 .f32) (x2 x3 : Vec F S8192x32 .f32) (x4 x5 : Vec F S1x32 .f32) (xs0 xs1 : Vec F S2048x32 .f32) (y : S2048x32.Idx) :
    ∃ pc ∈ (kernelRunR1_B c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRunR1_B c i arg2 harg2 arg3 harg3 arg4 harg4 arg5 harg5 arg6 harg6 arg7 harg7 arg8 harg8 arg9 harg9 arg10 harg10 arg11 harg11 hc0 hc1 x0 x1 x2 x3 x4 x5 xs0 xs1).2.2.1 S2048x32.size (by sl_kernel_rfl) y

/-- What case B leaves in accumulator 0: its stores read back. -/
def soutR1_B_0 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : ¬condR1_1 i)
    (x0 x1 : Vec F S2048x1024 .f32) (x2 x3 : Vec F S8192x32 .f32) (x4 x5 : Vec F S1x32 .f32) (xs0 xs1 : Vec F S2048x32 .f32) : Vec F S2048x32 .f32 :=
  VSR1_0.read (Elt F) (VSR1_0.writes (Elt F) VSR1_0.junk (kernelRunR1_B c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case B's stores into accumulator 1 tile it, so they cover it. -/
theorem scoverR1_B_1 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : ¬condR1_1 i)
    (x0 x1 : Vec F S2048x1024 .f32) (x2 x3 : Vec F S8192x32 .f32) (x4 x5 : Vec F S1x32 .f32) (xs0 xs1 : Vec F S2048x32 .f32) (y : S2048x32.Idx) :
    ∃ pc ∈ (kernelRunR1_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRunR1_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S2048x32.size (by sl_kernel_rfl) y

/-- What case B leaves in accumulator 1: its stores read back. -/
def soutR1_B_1 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : ¬condR1_1 i)
    (x0 x1 : Vec F S2048x1024 .f32) (x2 x3 : Vec F S8192x32 .f32) (x4 x5 : Vec F S1x32 .f32) (xs0 xs1 : Vec F S2048x32 .f32) : Vec F S2048x32 .f32 :=
  VSR1_1.read (Elt F) (VSR1_1.writes (Elt F) VSR1_1.junk (kernelRunR1_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- Case C's stores into accumulator 0 tile it, so they cover it. -/
theorem scoverR1_C_0 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : condR1_1 i)
    (x0 x1 : Vec F S2048x1024 .f32) (x2 x3 : Vec F S8192x32 .f32) (x4 x5 : Vec F S1x32 .f32) (xs0 xs1 : Vec F S2048x32 .f32) (y : S2048x32.Idx) :
    ∃ pc ∈ (kernelRunR1_C c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRunR1_C c i arg2 harg2 arg3 harg3 arg4 harg4 arg5 harg5 arg6 harg6 arg7 harg7 arg8 harg8 arg9 harg9 arg10 harg10 arg11 harg11 hc0 hc1 x0 x1 x2 x3 x4 x5 xs0 xs1).2.2.1 S2048x32.size (by sl_kernel_rfl) y

/-- What case C leaves in accumulator 0: its stores read back. -/
def soutR1_C_0 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : condR1_1 i)
    (x0 x1 : Vec F S2048x1024 .f32) (x2 x3 : Vec F S8192x32 .f32) (x4 x5 : Vec F S1x32 .f32) (xs0 xs1 : Vec F S2048x32 .f32) : Vec F S2048x32 .f32 :=
  VSR1_0.read (Elt F) (VSR1_0.writes (Elt F) VSR1_0.junk (kernelRunR1_C c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's stores into accumulator 1 tile it, so they cover it. -/
theorem scoverR1_C_1 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : condR1_1 i)
    (x0 x1 : Vec F S2048x1024 .f32) (x2 x3 : Vec F S8192x32 .f32) (x4 x5 : Vec F S1x32 .f32) (xs0 xs1 : Vec F S2048x32 .f32) (y : S2048x32.Idx) :
    ∃ pc ∈ (kernelRunR1_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRunR1_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S2048x32.size (by sl_kernel_rfl) y

/-- What case C leaves in accumulator 1: its stores read back. -/
def soutR1_C_1 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : condR1_1 i)
    (x0 x1 : Vec F S2048x1024 .f32) (x2 x3 : Vec F S8192x32 .f32) (x4 x5 : Vec F S1x32 .f32) (xs0 xs1 : Vec F S2048x32 .f32) : Vec F S2048x32 .f32 :=
  VSR1_1.read (Elt F) (VSR1_1.writes (Elt F) VSR1_1.junk (kernelRunR1_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- Case C's store into output window 6 tiles its block, so it covers it. -/
theorem coverR1_C_6 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : condR1_1 i)
    (x0 x1 : Vec F S2048x1024 .f32) (x2 x3 : Vec F S8192x32 .f32) (x4 x5 : Vec F S1x32 .f32) (xs0 xs1 : Vec F S2048x32 .f32) (y : S2048x32.Idx) :
    ∃ pc ∈ (kernelRunR1_C c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRunR1_C c i arg2 harg2 arg3 harg3 arg4 harg4 arg5 harg5 arg6 harg6 arg7 harg7 arg8 harg8 arg9 harg9 arg10 harg10 arg11 harg11 hc0 hc1 x0 x1 x2 x3 x4 x5 xs0 xs1).1 S2048x32.size (by sl_kernel_rfl) y

/-- What case C leaves in output window 6's staging buffer: its store read back. -/
def outR1_C_6 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : condR1_1 i)
    (x0 x1 : Vec F S2048x1024 .f32) (x2 x3 : Vec F S8192x32 .f32) (x4 x5 : Vec F S1x32 .f32) (xs0 xs1 : Vec F S2048x32 .f32) : Vec F S2048x32 .f32 :=
  VOR1_6.read (Elt F) (VOR1_6.writes (Elt F) VOR1_6.junk (kernelRunR1_C c i arg2 harg2 arg3 harg3 arg4 harg4 arg5 harg5 arg6 harg6 arg7 harg7 arg8 harg8 arg9 harg9 arg10 harg10 arg11 harg11 hc0 hc1 x0 x1 x2 x3 x4 x5 xs0 xs1).1)

/-- Case C's store into output window 7 tiles its block, so it covers it. -/
theorem coverR1_C_7 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : condR1_1 i)
    (x0 x1 : Vec F S2048x1024 .f32) (x2 x3 : Vec F S8192x32 .f32) (x4 x5 : Vec F S1x32 .f32) (xs0 xs1 : Vec F S2048x32 .f32) (y : S2048x32.Idx) :
    ∃ pc ∈ (kernelRunR1_C c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRunR1_C c i arg2 harg2 arg3 harg3 arg4 harg4 arg5 harg5 arg6 harg6 arg7 harg7 arg8 harg8 arg9 harg9 arg10 harg10 arg11 harg11 hc0 hc1 x0 x1 x2 x3 x4 x5 xs0 xs1).2.1 S2048x32.size (by sl_kernel_rfl) y

/-- What case C leaves in output window 7's staging buffer: its store read back. -/
def outR1_C_7 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : condR1_1 i)
    (x0 x1 : Vec F S2048x1024 .f32) (x2 x3 : Vec F S8192x32 .f32) (x4 x5 : Vec F S1x32 .f32) (xs0 xs1 : Vec F S2048x32 .f32) : Vec F S2048x32 .f32 :=
  VOR1_7.read (Elt F) (VOR1_7.writes (Elt F) VOR1_7.junk (kernelRunR1_C c i arg2 harg2 arg3 harg3 arg4 harg4 arg5 harg5 arg6 harg6 arg7 harg7 arg8 harg8 arg9 harg9 arg10 harg10 arg11 harg11 hc0 hc1 x0 x1 x2 x3 x4 x5 xs0 xs1).2.1)

/-! ## What the outputs and the accumulators hold after each point -/

/-- An output block nothing was stored into: contents no one reads. -/
abbrev idleOutR1_6 : Vec F S2048x32 .f32 := VOR1_6.read (Elt F) VOR1_6.junk
abbrev idleOutR1_7 : Vec F S2048x32 .f32 := VOR1_7.read (Elt F) VOR1_7.junk

/-- After a point with contraction coordinate 0: the accumulators hold the first partial product. -/
def caseAR1 (c : Dev nD) (t : Fin cfg1.N) (h0 : t.val % 8 = 0) (h1 : ¬t.val % 8 = 7) :
    Vec F S2048x32 .f32 × Vec F S2048x32 .f32 × Vec F S2048x32 .f32 × Vec F S2048x32 .f32 :=
  (idleOutR1_6, idleOutR1_7, soutR1_A_0 c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1_0 (Memref.isWhole_whole _) scMR1_1 (Memref.isWhole_whole _) ((hcondR1_0 t).mpr h0) (fun h => h1 ((hcondR1_1 t).mp h)) (iblkR1 V c 0 t) (iblkR1 V c 1 t) (iblkR1 V c 2 t) (iblkR1 V c 3 t) (iblkR1 V c 4 t) (iblkR1 V c 5 t), soutR1_A_1 c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1_0 (Memref.isWhole_whole _) scMR1_1 (Memref.isWhole_whole _) ((hcondR1_0 t).mpr h0) (fun h => h1 ((hcondR1_1 t).mp h)) (iblkR1 V c 0 t) (iblkR1 V c 1 t) (iblkR1 V c 2 t) (iblkR1 V c 3 t) (iblkR1 V c 4 t) (iblkR1 V c 5 t))

/-- After a point with contraction coordinate 1 to 6, from what the point before left in the accumulators. -/
def caseBR1 (c : Dev nD) (t : Fin cfg1.N) (h0 : ¬t.val % 8 = 0) (h1 : ¬t.val % 8 = 7) (xs0 xs1 : Vec F S2048x32 .f32) :
    Vec F S2048x32 .f32 × Vec F S2048x32 .f32 × Vec F S2048x32 .f32 × Vec F S2048x32 .f32 :=
  (idleOutR1_6, idleOutR1_7, soutR1_B_0 c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1_0 (Memref.isWhole_whole _) scMR1_1 (Memref.isWhole_whole _) (fun h => h0 ((hcondR1_0 t).mp h)) (fun h => h1 ((hcondR1_1 t).mp h)) (iblkR1 V c 0 t) (iblkR1 V c 1 t) (iblkR1 V c 2 t) (iblkR1 V c 3 t) (iblkR1 V c 4 t) (iblkR1 V c 5 t) xs0 xs1, soutR1_B_1 c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1_0 (Memref.isWhole_whole _) scMR1_1 (Memref.isWhole_whole _) (fun h => h0 ((hcondR1_0 t).mp h)) (fun h => h1 ((hcondR1_1 t).mp h)) (iblkR1 V c 0 t) (iblkR1 V c 1 t) (iblkR1 V c 2 t) (iblkR1 V c 3 t) (iblkR1 V c 4 t) (iblkR1 V c 5 t) xs0 xs1)

/-- After a point with contraction coordinate 7, from what the point before left in the accumulators. -/
def caseCR1 (c : Dev nD) (t : Fin cfg1.N) (h0 : ¬t.val % 8 = 0) (h1 : t.val % 8 = 7) (xs0 xs1 : Vec F S2048x32 .f32) :
    Vec F S2048x32 .f32 × Vec F S2048x32 .f32 × Vec F S2048x32 .f32 × Vec F S2048x32 .f32 :=
  (outR1_C_6 c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1_0 (Memref.isWhole_whole _) scMR1_1 (Memref.isWhole_whole _) (fun h => h0 ((hcondR1_0 t).mp h)) ((hcondR1_1 t).mpr h1) (iblkR1 V c 0 t) (iblkR1 V c 1 t) (iblkR1 V c 2 t) (iblkR1 V c 3 t) (iblkR1 V c 4 t) (iblkR1 V c 5 t) xs0 xs1, outR1_C_7 c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1_0 (Memref.isWhole_whole _) scMR1_1 (Memref.isWhole_whole _) (fun h => h0 ((hcondR1_0 t).mp h)) ((hcondR1_1 t).mpr h1) (iblkR1 V c 0 t) (iblkR1 V c 1 t) (iblkR1 V c 2 t) (iblkR1 V c 3 t) (iblkR1 V c 4 t) (iblkR1 V c 5 t) xs0 xs1, soutR1_C_0 c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1_0 (Memref.isWhole_whole _) scMR1_1 (Memref.isWhole_whole _) (fun h => h0 ((hcondR1_0 t).mp h)) ((hcondR1_1 t).mpr h1) (iblkR1 V c 0 t) (iblkR1 V c 1 t) (iblkR1 V c 2 t) (iblkR1 V c 3 t) (iblkR1 V c 4 t) (iblkR1 V c 5 t) xs0 xs1, soutR1_C_1 c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1_0 (Memref.isWhole_whole _) scMR1_1 (Memref.isWhole_whole _) (fun h => h0 ((hcondR1_0 t).mp h)) ((hcondR1_1 t).mpr h1) (iblkR1 V c 0 t) (iblkR1 V c 1 t) (iblkR1 V c 2 t) (iblkR1 V c 3 t) (iblkR1 V c 4 t) (iblkR1 V c 5 t) xs0 xs1)

/-- What the two output blocks and the two accumulators hold after the body at position `n`: the case the position's
    contraction coordinate selects, the accumulators taken from what position `n - 1` left. -/
def outsAtR1 (c : Dev nD) : (n : ℕ) → n < cfg1.N → Vec F S2048x32 .f32 × Vec F S2048x32 .f32 × Vec F S2048x32 .f32 × Vec F S2048x32 .f32
  | 0, hn => caseAR1 V c ⟨0, hn⟩ (Nat.zero_mod _) (fun h => absurd (show (0 : ℕ) % 8 = 7 from h) (by decide))
  | n + 1, hn =>
    if h0 : (n + 1) % 8 = 0 then caseAR1 V c ⟨n + 1, hn⟩ h0 (fun h => by have h' : (n + 1) % 8 = 7 := h; omega)
    else if h1 : (n + 1) % 8 = 7 then
      caseCR1 V c ⟨n + 1, hn⟩ h0 h1 (outsAtR1 c n (Nat.lt_of_succ_lt hn)).2.2.1 (outsAtR1 c n (Nat.lt_of_succ_lt hn)).2.2.2
    else caseBR1 V c ⟨n + 1, hn⟩ h0 h1 (outsAtR1 c n (Nat.lt_of_succ_lt hn)).2.2.1 (outsAtR1 c n (Nat.lt_of_succ_lt hn)).2.2.2

theorem outsAtR1_A (c : Dev nD) (t : Fin cfg1.N) (h0 : t.val % 8 = 0) (h1 : ¬t.val % 8 = 7) :
    outsAtR1 V c t.val t.isLt = caseAR1 V c t h0 h1 := by
  obtain ⟨n, hn⟩ := t
  cases n with
  | zero => rfl
  | succ n => exact (dif_pos h0).trans rfl

theorem outsAtR1_B (c : Dev nD) (t : Fin cfg1.N) (h0 : ¬t.val % 8 = 0) (h1 : ¬t.val % 8 = 7) :
    outsAtR1 V c t.val t.isLt = caseBR1 V c t h0 h1 (outsAtR1 V c (t.val - 1) (Nat.lt_of_le_of_lt (Nat.sub_le _ _) t.isLt)).2.2.1 (outsAtR1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAtR1_C (c : Dev nD) (t : Fin cfg1.N) (h0 : ¬t.val % 8 = 0) (h1 : t.val % 8 = 7) :
    outsAtR1 V c t.val t.isLt = caseCR1 V c t h0 h1 (outsAtR1 V c (t.val - 1) (Nat.lt_of_le_of_lt (Nat.sub_le _ _) t.isLt)).2.2.1 (outsAtR1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-- The region invariant before position `n`: the generator register at some state, the scoped buffers other than the
    accumulators at some contents, and the accumulators — at anything before the first point, afterwards at what the
    point before left. -/
def PhiSR1 (c : Dev nD) : (n : ℕ) → n ≤ cfg1.N → sProp 𝕄
  | 0, _ => iprop(iprop((∃ d, owns (c : Thread nD τ) scMR1_0 fullShare d) ∗ (∃ d, owns (c : Thread nD τ) scMR1_1 fullShare d) ∗ restR1 c) ∗ (∃ r, prngReg c r))
  | n + 1, hn => iprop(iprop(owns (c : Thread nD τ) scMR1_0 fullShare (outsAtR1 V c n hn).2.2.1 ∗ owns (c : Thread nD τ) scMR1_1 fullShare (outsAtR1 V c n hn).2.2.2 ∗ restR1 c) ∗ (∃ r, prngReg c r))

theorem PhiSR1_zero (c : Dev nD) (n : ℕ) (h : n ≤ cfg1.N) (hz : n = 0) :
    PhiSR1 V c n h = iprop(iprop((∃ d, owns (c : Thread nD τ) scMR1_0 fullShare d) ∗ (∃ d, owns (c : Thread nD τ) scMR1_1 fullShare d) ∗ restR1 c) ∗ (∃ r, prngReg c r)) := by
  subst hz; rfl

theorem PhiSR1_succ (c : Dev nD) (n : ℕ) (hn : n < cfg1.N) :
    PhiSR1 V c (n + 1) hn = iprop(iprop(owns (c : Thread nD τ) scMR1_0 fullShare (outsAtR1 V c n hn).2.2.1 ∗ owns (c : Thread nD τ) scMR1_1 fullShare (outsAtR1 V c n hn).2.2.2 ∗ restR1 c) ∗ (∃ r, prngReg c r)) := rfl

theorem PhiSR1_pos (c : Dev nD) (n : ℕ) (h : n ≤ cfg1.N) (hz : n ≠ 0) :
    PhiSR1 V c n h = iprop(iprop(owns (c : Thread nD τ) scMR1_0 fullShare (outsAtR1 V c (n - 1) (by omega)).2.2.1 ∗ owns (c : Thread nD τ) scMR1_1 fullShare (outsAtR1 V c (n - 1) (by omega)).2.2.2 ∗ restR1 c) ∗ (∃ r, prngReg c r)) := by
  cases n with
  | zero => exact absurd rfl hz
  | succ n => rfl

/-! ## The proof data -/

/-- The proof data of the layer's pipeline on core `c`: the arrays as the region finds them; after the body each input's
    buffer at its block and each output's at `outsAtR1`'s component; the invariant carrying the accumulators; nothing owed. -/
def datR1 (c : Dev nD) : Dat τ (Elt F) Unit ℕ (UR sig nD τ) ℕ cfg1 c where
  A w := V c (Pipeline.arrRef spec1 w)
  after w t := match w with
    | ⟨0, _⟩ => iblkR1 V c 0 t
    | ⟨1, _⟩ => iblkR1 V c 1 t
    | ⟨2, _⟩ => iblkR1 V c 2 t
    | ⟨3, _⟩ => iblkR1 V c 3 t
    | ⟨4, _⟩ => iblkR1 V c 4 t
    | ⟨5, _⟩ => iblkR1 V c 5 t
    | ⟨6, _⟩ => (outsAtR1 V c t.val t.isLt).1
    | ⟨7, _⟩ => (outsAtR1 V c t.val t.isLt).2.1
  Φ t := PhiSR1 V c t.val (Nat.le_of_lt_succ t.isLt)
  q _ := fullShare
  owed _ := 0

theorem A_eqR1 (c : Dev nD) (w : Fin cfg1.W) : (datR1 V c).A w = V c (Pipeline.arrRef spec1 w) := by
  dsimp only [datR1]

theorem PhiSR1_castSucc (c : Dev nD) (t : Fin cfg1.N) :
    (datR1 V c).Φ t.castSucc = PhiSR1 V c t.val (Nat.le_of_lt t.isLt) := by
  dsimp only [datR1]; simp only [Fin.coe_castSucc]

theorem afterR1_0 (c : Dev nD) (t : Fin cfg1.N) : (datR1 V c).after 0 t = iblkR1 V c 0 t := by dsimp only [datR1]
theorem afterR1_1 (c : Dev nD) (t : Fin cfg1.N) : (datR1 V c).after 1 t = iblkR1 V c 1 t := by dsimp only [datR1]
theorem afterR1_2 (c : Dev nD) (t : Fin cfg1.N) : (datR1 V c).after 2 t = iblkR1 V c 2 t := by dsimp only [datR1]
theorem afterR1_3 (c : Dev nD) (t : Fin cfg1.N) : (datR1 V c).after 3 t = iblkR1 V c 3 t := by dsimp only [datR1]
theorem afterR1_4 (c : Dev nD) (t : Fin cfg1.N) : (datR1 V c).after 4 t = iblkR1 V c 4 t := by dsimp only [datR1]
theorem afterR1_5 (c : Dev nD) (t : Fin cfg1.N) : (datR1 V c).after 5 t = iblkR1 V c 5 t := by dsimp only [datR1]
theorem afterR1_6 (c : Dev nD) (t : Fin cfg1.N) : (datR1 V c).after 6 t = (outsAtR1 V c t.val t.isLt).1 := by dsimp only [datR1]
theorem afterR1_7 (c : Dev nD) (t : Fin cfg1.N) : (datR1 V c).after 7 t = (outsAtR1 V c t.val t.isLt).2.1 := by dsimp only [datR1]

theorem beforeR1_0 (c : Dev nD) (t : Fin cfg1.N) (d) : (datR1 V c).before 0 t d = iblkR1 V c 0 t :=
  beforeR1_0_of V (datR1 V c) (A_eqR1 V c 0) (afterR1_0 V c) t d
theorem beforeR1_1 (c : Dev nD) (t : Fin cfg1.N) (d) : (datR1 V c).before 1 t d = iblkR1 V c 1 t :=
  beforeR1_1_of V (datR1 V c) (A_eqR1 V c 1) (afterR1_1 V c) t d
theorem beforeR1_2 (c : Dev nD) (t : Fin cfg1.N) (d) : (datR1 V c).before 2 t d = iblkR1 V c 2 t :=
  beforeR1_2_of V (datR1 V c) (A_eqR1 V c 2) (afterR1_2 V c) t d
theorem beforeR1_3 (c : Dev nD) (t : Fin cfg1.N) (d) : (datR1 V c).before 3 t d = iblkR1 V c 3 t :=
  beforeR1_3_of V (datR1 V c) (A_eqR1 V c 3) (afterR1_3 V c) t d
theorem beforeR1_4 (c : Dev nD) (t : Fin cfg1.N) (d) : (datR1 V c).before 4 t d = iblkR1 V c 4 t :=
  beforeR1_4_of V (datR1 V c) (A_eqR1 V c 4) (afterR1_4 V c) t d
theorem beforeR1_5 (c : Dev nD) (t : Fin cfg1.N) (d) : (datR1 V c).before 5 t d = iblkR1 V c 5 t :=
  beforeR1_5_of V (datR1 V c) (A_eqR1 V c 5) (afterR1_5 V c) t d

/-! ## The body obligation -/

def bodyPreR1 (c : Dev nD) (t : Fin cfg1.N) : sProp 𝕄 :=
  iprop((datR1 V c).Φ t.castSucc ∗ (datR1 V c).owesAt () t.castSucc
    ∗ (∃ d, owns (c : Thread nD τ) (msR1_0 t) fullShare ((datR1 V c).before 0 t d))
    ∗ (∃ d, owns (c : Thread nD τ) (msR1_1 t) fullShare ((datR1 V c).before 1 t d))
    ∗ (∃ d, owns (c : Thread nD τ) (msR1_2 t) fullShare ((datR1 V c).before 2 t d))
    ∗ (∃ d, owns (c : Thread nD τ) (msR1_3 t) fullShare ((datR1 V c).before 3 t d))
    ∗ (∃ d, owns (c : Thread nD τ) (msR1_4 t) fullShare ((datR1 V c).before 4 t d))
    ∗ (∃ d, owns (c : Thread nD τ) (msR1_5 t) fullShare ((datR1 V c).before 5 t d))
    ∗ (∃ d, owns (c : Thread nD τ) (msR1_6 t) fullShare ((datR1 V c).before 6 t d))
    ∗ (∃ d, owns (c : Thread nD τ) (msR1_7 t) fullShare ((datR1 V c).before 7 t d)))

def bodyPostR1 (c : Dev nD) (t : Fin cfg1.N) : sProp 𝕄 :=
  iprop((datR1 V c).Φ t.succ ∗ (datR1 V c).owesAt () t.succ
    ∗ (datR1 V c).leavesExact 0 t
    ∗ (datR1 V c).leavesExact 1 t
    ∗ (datR1 V c).leavesExact 2 t
    ∗ (datR1 V c).leavesExact 3 t
    ∗ (datR1 V c).leavesExact 4 t
    ∗ (datR1 V c).leavesExact 5 t
    ∗ (datR1 V c).leavesExact 6 t
    ∗ (datR1 V c).leavesExact 7 t)

set_option maxHeartbeats 8000000 in
/-- The body at any point: the inputs' memrefs hold their blocks; the contraction coordinate says which case the point is in;
    the invariant hands the body the accumulators at what the point before left (at anything before the first point) and
    takes them back at this point's contents; the core owes nothing throughout. -/
theorem sound_bodyR1 (c : Dev nD) (t : Fin cfg1.N) :
    bodyPreR1 V c t ⊢ wp frame (wpE (defs₀ (F := F)) Variants.none c none) Set.univ (bodyAt1 t) (fun _ => bodyPostR1 V c t) := by
  unfold bodyPreR1 bodyPostR1 bodyAt1
  simp only [beforeR1_0, beforeR1_1, beforeR1_2, beforeR1_3, beforeR1_4, beforeR1_5]
  rw [show (datR1 V c).owesAt () t.succ = (datR1 V c).owesAt () t.castSucc from rfl]
  rw [show (datR1 V c).Φ t.succ = PhiSR1 V c (t.val + 1) t.isLt from rfl, PhiSR1_succ]
  have hN : t.val < 32 := lt_of_lt_of_eq t.isLt (show cfg1.N = 32 from N_1)
  by_cases h0 : t.val % 8 = 0
  · have h1 : ¬t.val % 8 = 7 := by omega
    rw [show (datR1 V c).leavesExact 0 t = owns (c : Thread nD τ) (msR1_0 t) fullShare ((datR1 V c).after 0 t) from by
      unfold Dat.leavesExact; rw [liveAtR1_0 t], afterR1_0]
    rw [show (datR1 V c).leavesExact 1 t = owns (c : Thread nD τ) (msR1_1 t) fullShare ((datR1 V c).after 1 t) from by
      unfold Dat.leavesExact; rw [liveAtR1_1 t], afterR1_1]
    rw [show (datR1 V c).leavesExact 2 t = owns (c : Thread nD τ) (msR1_2 t) fullShare ((datR1 V c).after 2 t) from by
      unfold Dat.leavesExact; rw [liveAtR1_2 t], afterR1_2]
    rw [show (datR1 V c).leavesExact 3 t = owns (c : Thread nD τ) (msR1_3 t) fullShare ((datR1 V c).after 3 t) from by
      unfold Dat.leavesExact; rw [liveAtR1_3 t], afterR1_3]
    rw [show (datR1 V c).leavesExact 4 t = owns (c : Thread nD τ) (msR1_4 t) fullShare ((datR1 V c).after 4 t) from by
      unfold Dat.leavesExact; rw [liveAtR1_4 t], afterR1_4]
    rw [show (datR1 V c).leavesExact 5 t = owns (c : Thread nD τ) (msR1_5 t) fullShare ((datR1 V c).after 5 t) from by
      unfold Dat.leavesExact; rw [liveAtR1_5 t], afterR1_5]
    rw [Dat.leavesExact_idle (datR1 V c) 6 t (idleAtR1_6 t (fun h => h1 ((hcondR1_1 t).mp h))) (noFlushR1_6 t (fun h => h1 ((hcondR1_1 t).mp h)))]
    rw [Dat.leavesExact_idle (datR1 V c) 7 t (idleAtR1_7 t (fun h => h1 ((hcondR1_1 t).mp h))) (noFlushR1_7 t (fun h => h1 ((hcondR1_1 t).mp h)))]
    rw [outsAtR1_A V c t h0 h1]
    unfold caseAR1 soutR1_A_0 soutR1_A_1; (try dsimp only)
    by_cases hz : t.val = 0
    · rw [PhiSR1_castSucc V c t, PhiSR1_zero V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunR1_A c (grid1.coords t) _ _ _ _ _ _ _ _ _ _ _ _ _ _ _ _ _ _ _ _ ((hcondR1_0 t).mpr h0) (fun h => h1 ((hcondR1_1 t).mp h)) (iblkR1 V c 0 t) (iblkR1 V c 1 t) (iblkR1 V c 2 t) (iblkR1 V c 3 t) (iblkR1 V c 4 t) (iblkR1 V c 5 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverR1_A_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverR1_A_1 c _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiSR1_castSucc V c t, PhiSR1_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunR1_A c (grid1.coords t) _ _ _ _ _ _ _ _ _ _ _ _ _ _ _ _ _ _ _ _ ((hcondR1_0 t).mpr h0) (fun h => h1 ((hcondR1_1 t).mp h)) (iblkR1 V c 0 t) (iblkR1 V c 1 t) (iblkR1 V c 2 t) (iblkR1 V c 3 t) (iblkR1 V c 4 t) (iblkR1 V c 5 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverR1_A_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverR1_A_1 c _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := fun e => h0 (by rw [e])
    by_cases h1 : t.val % 8 = 7
    · rw [show (datR1 V c).leavesExact 0 t = owns (c : Thread nD τ) (msR1_0 t) fullShare ((datR1 V c).after 0 t) from by
        unfold Dat.leavesExact; rw [liveAtR1_0 t], afterR1_0]
      rw [show (datR1 V c).leavesExact 1 t = owns (c : Thread nD τ) (msR1_1 t) fullShare ((datR1 V c).after 1 t) from by
        unfold Dat.leavesExact; rw [liveAtR1_1 t], afterR1_1]
      rw [show (datR1 V c).leavesExact 2 t = owns (c : Thread nD τ) (msR1_2 t) fullShare ((datR1 V c).after 2 t) from by
        unfold Dat.leavesExact; rw [liveAtR1_2 t], afterR1_2]
      rw [show (datR1 V c).leavesExact 3 t = owns (c : Thread nD τ) (msR1_3 t) fullShare ((datR1 V c).after 3 t) from by
        unfold Dat.leavesExact; rw [liveAtR1_3 t], afterR1_3]
      rw [show (datR1 V c).leavesExact 4 t = owns (c : Thread nD τ) (msR1_4 t) fullShare ((datR1 V c).after 4 t) from by
        unfold Dat.leavesExact; rw [liveAtR1_4 t], afterR1_4]
      rw [show (datR1 V c).leavesExact 5 t = owns (c : Thread nD τ) (msR1_5 t) fullShare ((datR1 V c).after 5 t) from by
        unfold Dat.leavesExact; rw [liveAtR1_5 t], afterR1_5]
      rw [show (datR1 V c).leavesExact 6 t = owns (c : Thread nD τ) (msR1_6 t) fullShare ((datR1 V c).after 6 t) from by
        unfold Dat.leavesExact; rw [liveAtR1_6_C t ((hcondR1_1 t).mpr h1)], afterR1_6]
      rw [show (datR1 V c).leavesExact 7 t = owns (c : Thread nD τ) (msR1_7 t) fullShare ((datR1 V c).after 7 t) from by
        unfold Dat.leavesExact; rw [liveAtR1_7_C t ((hcondR1_1 t).mpr h1)], afterR1_7]
      rw [outsAtR1_C V c t h0 h1]
      unfold caseCR1 outR1_C_6 outR1_C_7 soutR1_C_0 soutR1_C_1; (try dsimp only)
      rw [PhiSR1_castSucc V c t, PhiSR1_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunR1_C c (grid1.coords t) _ _ _ _ _ _ _ _ _ _ _ _ _ _ _ _ _ _ _ _ (fun h => h0 ((hcondR1_0 t).mp h)) ((hcondR1_1 t).mpr h1) (iblkR1 V c 0 t) (iblkR1 V c 1 t) (iblkR1 V c 2 t) (iblkR1 V c 3 t) (iblkR1 V c 4 t) (iblkR1 V c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverR1_C_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverR1_C_1 c _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverR1_C_6 c _ _ _ _ _ _ _ _ _ _ _ _ _ _ _ _ _ _ _ _ _ _ _ _ _ _ _ _ _ _ _)
      unfold owns; iexists _; isplitr
      swap; · iexact H7
      ipureintro; exact View.read_writes_of_cover _ _ _ _ _ (coverR1_C_7 c _ _ _ _ _ _ _ _ _ _ _ _ _ _ _ _ _ _ _ _ _ _ _ _ _ _ _ _ _ _ _)
    · rw [show (datR1 V c).leavesExact 0 t = owns (c : Thread nD τ) (msR1_0 t) fullShare ((datR1 V c).after 0 t) from by
        unfold Dat.leavesExact; rw [liveAtR1_0 t], afterR1_0]
      rw [show (datR1 V c).leavesExact 1 t = owns (c : Thread nD τ) (msR1_1 t) fullShare ((datR1 V c).after 1 t) from by
        unfold Dat.leavesExact; rw [liveAtR1_1 t], afterR1_1]
      rw [show (datR1 V c).leavesExact 2 t = owns (c : Thread nD τ) (msR1_2 t) fullShare ((datR1 V c).after 2 t) from by
        unfold Dat.leavesExact; rw [liveAtR1_2 t], afterR1_2]
      rw [show (datR1 V c).leavesExact 3 t = owns (c : Thread nD τ) (msR1_3 t) fullShare ((datR1 V c).after 3 t) from by
        unfold Dat.leavesExact; rw [liveAtR1_3 t], afterR1_3]
      rw [show (datR1 V c).leavesExact 4 t = owns (c : Thread nD τ) (msR1_4 t) fullShare ((datR1 V c).after 4 t) from by
        unfold Dat.leavesExact; rw [liveAtR1_4 t], afterR1_4]
      rw [show (datR1 V c).leavesExact 5 t = owns (c : Thread nD τ) (msR1_5 t) fullShare ((datR1 V c).after 5 t) from by
        unfold Dat.leavesExact; rw [liveAtR1_5 t], afterR1_5]
      rw [Dat.leavesExact_idle (datR1 V c) 6 t (idleAtR1_6 t (fun h => h1 ((hcondR1_1 t).mp h))) (noFlushR1_6 t (fun h => h1 ((hcondR1_1 t).mp h)))]
      rw [Dat.leavesExact_idle (datR1 V c) 7 t (idleAtR1_7 t (fun h => h1 ((hcondR1_1 t).mp h))) (noFlushR1_7 t (fun h => h1 ((hcondR1_1 t).mp h)))]
      rw [outsAtR1_B V c t h0 h1]
      unfold caseBR1 soutR1_B_0 soutR1_B_1; (try dsimp only)
      rw [PhiSR1_castSucc V c t, PhiSR1_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunR1_B c (grid1.coords t) _ _ _ _ _ _ _ _ _ _ _ _ _ _ _ _ _ _ _ _ (fun h => h0 ((hcondR1_0 t).mp h)) (fun h => h1 ((hcondR1_1 t).mp h)) (iblkR1 V c 0 t) (iblkR1 V c 1 t) (iblkR1 V c 2 t) (iblkR1 V c 3 t) (iblkR1 V c 4 t) (iblkR1 V c 5 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverR1_B_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverR1_B_1 c _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligationR1 (c : Dev nD) : BodyObligation (datR1 (F := F) V c) (defs₀ (F := F)) Variants.none () Set.univ := fun t => by
  rw [bigSep_W1, bigSep_W1]
  exact sound_bodyR1 V c t

end

end Cert.Kernel.Fr

end
-- ==== Proof.FrBRun.lean ====
import proofs.«105748_j27410481283396_2_alg».proof.Proof.FrB0
import proofs.«105748_j27410481283396_2_alg».proof.Proof.FrB1
import proofs.«105748_j27410481283396_2_alg».proof.Proof.Gen.Kernel.Regions
import Idealize.ShloMosaic.Lib.Pipeline.RegionsLoop
import Idealize.ShloMosaic.Lib.Pipeline.FrameSuffix

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The program as its five items — a host stretch, the first layer's region, a host stretch, the second layer's region,
    the host tail — with the two regions' segment records, and the two runs read off them: the frame (every argument
    array ends as launched) and the run that also names the result buffer's final contents. -/

open Idealize.ShloMosaic.Pipeline (Seg HostSeg RegionSeg)

variable (m : (ℓ : Loc nD τ sig) → Buf (Elt F) ℓ) (ρ : Dev nD → PrngReg)

abbrev Lz : GSem nD τ sig → Finset Unit := fun _ => ∅
abbrev lvz : GSem nD τ sig → Unit → ℕ := fun _ _ => 0
/-- What rides beside the buffers through every item: the generator register at some state, and nothing owed. -/
def Rz (c : Dev nD) : sProp 𝕄 := iprop((∃ r, prngReg c r) ∗ ∃ W, owes (c : Thread nD τ) (0 : CellTallies nD τ sig Unit) W)

/-- The first region's entry contents: the launch memory after the first host stretch. -/
abbrev VE0 (c : Dev nD) (b : Ref sig .tc) : Buf (Elt F) ((c : Thread nD τ).loc b) := Gen.V1 m c b
/-- The buffers when the first region is left: its arrays at what the write-backs made of them, the others as entered. -/
def W2 (c : Dev nD) : Valuation τ sig (Elt F) :=
  Pipeline.withArrays spec0 c (Gen.V1 m c) fun w => (datR0 (VE0 m) c).arrAt w cfg0.N
/-- What the first region leaves, as the unknowns the generated valuations are written over. -/
def outsA : Gen.Outs (F := F) := fun _ r c => W2 m c (Proc.devRef .tc r)
/-- The second region's entry contents: the above after the second host stretch. -/
abbrev VE1 (c : Dev nD) (b : Ref sig .tc) : Buf (Elt F) ((c : Thread nD τ).loc b) := Gen.V3 m (outsA m) c b
def W4 (c : Dev nD) : Valuation τ sig (Elt F) :=
  Pipeline.withArrays spec1 c (Gen.V3 m (outsA m) c) fun w => (datR1 (VE1 m) c).arrAt w cfg1.N
/-- What both regions leave. -/
def outs : Gen.Outs (F := F) := fun n r c => if n = 2 then W2 m c (Proc.devRef .tc r) else W4 m c (Proc.devRef .tc r)

theorem outs_two (r : Ref sig .tc) (c : Dev nD) : outs m 2 r c = W2 m c (Proc.devRef .tc r) := rfl
theorem outs_four (r : Ref sig .tc) (c : Dev nD) : outs m 4 r c = W4 m c (Proc.devRef .tc r) := rfl
theorem V2_outs (c : Dev nD) : Gen.V2 m (outs m) c = Gen.V2 m (outsA m) c := rfl
theorem V3_outs (c : Dev nD) : Gen.V3 m (outs m) c = Gen.V3 m (outsA m) c := rfl

theorem W2_arr (c : Dev nD) (w : Fin cfg0.W) :
    W2 m c (Proc.devRef .tc (Pipeline.arrRef spec0 w)) = (datR0 (VE0 m) c).arrAt w cfg0.N := by
  unfold W2; exact Pipeline.withArrays_arr spec0 launch0.win.arr_inj c _ _ w
theorem W4_arr (c : Dev nD) (w : Fin cfg1.W) :
    W4 m c (Proc.devRef .tc (Pipeline.arrRef spec1 w)) = (datR1 (VE1 m) c).arrAt w cfg1.N := by
  unfold W4; exact Pipeline.withArrays_arr spec1 launch1.win.arr_inj c _ _ w

/-- Every pipeline's proof data, each at its region's entry contents. -/
def pdats : (p : Fin 2) → (c : Dev nD) → Dat τ (Elt F) Unit ℕ (UR sig nD τ) ℕ (cfgs p) c
  | ⟨0, _⟩ => fun c => datR0 (VE0 m) c
  | ⟨1, _⟩ => fun c => datR1 (VE1 m) c

/-- When the first region is left each of its arrays holds what the pipeline leaves: an input its entry contents (no
    write-back touches it), a result what the write-backs made of it. -/
theorem hF0 (c : Dev nD) (w : Fin cfg0.W) : (datR0 (VE0 m) c).arrAt w cfg0.N = Gen.V2 m (outs m) c (Pipeline.arrRef spec0 w) := by
  match w with
  | ⟨0, _⟩ => exact ((datR0 (VE0 m) c).arrAt_in 0 rfl _).trans ((A_eqR0 (VE0 m) c 0).trans (Gen.V2_of m (outs m) c _ (by decide)).symm)
  | ⟨1, _⟩ => exact ((datR0 (VE0 m) c).arrAt_in 1 rfl _).trans ((A_eqR0 (VE0 m) c 1).trans (Gen.V2_of m (outs m) c _ (by decide)).symm)
  | ⟨2, _⟩ => exact ((datR0 (VE0 m) c).arrAt_in 2 rfl _).trans ((A_eqR0 (VE0 m) c 2).trans (Gen.V2_of m (outs m) c _ (by decide)).symm)
  | ⟨3, _⟩ => exact ((datR0 (VE0 m) c).arrAt_in 3 rfl _).trans ((A_eqR0 (VE0 m) c 3).trans (Gen.V2_of m (outs m) c _ (by decide)).symm)
  | ⟨4, _⟩ => exact ((datR0 (VE0 m) c).arrAt_in 4 rfl _).trans ((A_eqR0 (VE0 m) c 4).trans (Gen.V2_of m (outs m) c _ (by decide)).symm)
  | ⟨5, _⟩ => exact ((datR0 (VE0 m) c).arrAt_in 5 rfl _).trans ((A_eqR0 (VE0 m) c 5).trans (Gen.V2_of m (outs m) c _ (by decide)).symm)
  | ⟨6, _⟩ =>
    refine (W2_arr m c 6).symm.trans ?_
    show outs m 2 main_call0_v4_0 c = _
    simp only [Gen.V2, Function.update_of_ne (StableHlo.devRef_ne_of_ne (by decide) : (Proc.devRef .tc main_call0_v4_0 : DevRef τ sig) ≠ Proc.devRef .tc main_call0_v4_1), Function.update_self]
  | ⟨7, _⟩ =>
    refine (W2_arr m c 7).symm.trans ?_
    show outs m 2 main_call0_v4_1 c = _
    simp only [Gen.V2, Function.update_self]
theorem hrest0 (c : Dev nD) : ∀ b, b ∉ Finset.univ.image (Pipeline.arrRef spec0) → (fun b : Ref sig .tc => Gen.V2 m (outs m) c b) b = VE0 m c b :=
  fun b hb => Gen.V2_of m (outs m) c b (by
    intro hm
    rcases List.mem_cons.mp hm with rfl | hm
    · exact hb (Finset.mem_image.mpr ⟨6, Finset.mem_univ _, rfl⟩)
    · rcases List.mem_cons.mp hm with rfl | hm
      · exact hb (Finset.mem_image.mpr ⟨7, Finset.mem_univ _, rfl⟩)
      · exact absurd hm List.not_mem_nil)

theorem hF1 (c : Dev nD) (w : Fin cfg1.W) : (datR1 (VE1 m) c).arrAt w cfg1.N = Gen.V4 m (outs m) c (Pipeline.arrRef spec1 w) := by
  match w with
  | ⟨0, _⟩ => exact ((datR1 (VE1 m) c).arrAt_in 0 rfl _).trans ((A_eqR1 (VE1 m) c 0).trans (Gen.V4_of m (outs m) c _ (by decide)).symm)
  | ⟨1, _⟩ => exact ((datR1 (VE1 m) c).arrAt_in 1 rfl _).trans ((A_eqR1 (VE1 m) c 1).trans (Gen.V4_of m (outs m) c _ (by decide)).symm)
  | ⟨2, _⟩ => exact ((datR1 (VE1 m) c).arrAt_in 2 rfl _).trans ((A_eqR1 (VE1 m) c 2).trans (Gen.V4_of m (outs m) c _ (by decide)).symm)
  | ⟨3, _⟩ => exact ((datR1 (VE1 m) c).arrAt_in 3 rfl _).trans ((A_eqR1 (VE1 m) c 3).trans (Gen.V4_of m (outs m) c _ (by decide)).symm)
  | ⟨4, _⟩ => exact ((datR1 (VE1 m) c).arrAt_in 4 rfl _).trans ((A_eqR1 (VE1 m) c 4).trans (Gen.V4_of m (outs m) c _ (by decide)).symm)
  | ⟨5, _⟩ => exact ((datR1 (VE1 m) c).arrAt_in 5 rfl _).trans ((A_eqR1 (VE1 m) c 5).trans (Gen.V4_of m (outs m) c _ (by decide)).symm)
  | ⟨6, _⟩ =>
    refine (W4_arr m c 6).symm.trans ?_
    show outs m 4 main_call0_v9_0 c = _
    simp only [Gen.V4, Function.update_of_ne (StableHlo.devRef_ne_of_ne (by decide) : (Proc.devRef .tc main_call0_v9_0 : DevRef τ sig) ≠ Proc.devRef .tc main_call0_v9_1), Function.update_self]
  | ⟨7, _⟩ =>
    refine (W4_arr m c 7).symm.trans ?_
    show outs m 4 main_call0_v9_1 c = _
    simp only [Gen.V4, Function.update_self]
theorem hrest1 (c : Dev nD) : ∀ b, b ∉ Finset.univ.image (Pipeline.arrRef spec1) → (fun b : Ref sig .tc => Gen.V4 m (outs m) c b) b = VE1 m c b :=
  fun b hb => (Gen.V4_of m (outs m) c b (by
    intro hm
    rcases List.mem_cons.mp hm with rfl | hm
    · exact hb (Finset.mem_image.mpr ⟨6, Finset.mem_univ _, rfl⟩)
    · rcases List.mem_cons.mp hm with rfl | hm
      · exact hb (Finset.mem_image.mpr ⟨7, Finset.mem_univ _, rfl⟩)
      · exact absurd hm List.not_mem_nil)).trans (congrFun (V3_outs m c) _)

set_option backward.isDefEq.respectTransparency.types false in
/-- REGION 0 as a segment: entered with every unscoped buffer at the contents the host stretch before it left, left
    with the two result arrays at what the pipeline's write-backs made of them and every other buffer as entered. Its
    arrays are split out of the unscoped buffers at entry and put back at exit; the generator register and the scoped
    buffers (the accumulators among them) go into the region invariant and come back; nothing is owed; the kernel has
    no semaphore of its own. -/
def reg0 : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligationR0 (VE0 m) c).loose
  hwaits := Pipeline.hwaits_of_owed_zero _ _ _ _ Lz lvz 0 fun _ _ => rfl
  pre c := iprop(StableHlo.held (c : Thread nD τ) (Pipeline.ucRefs τ sig) (Gen.V1 m c) ∗ Rz c)
  post c := iprop(StableHlo.held (c : Thread nD τ) (Pipeline.ucRefs τ sig) (Gen.V2 m (outs m) c) ∗ Rz c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    unfold Rz
    rw [Pipeline.ownSems0_none]
    have hsplit := Pipeline.arrays_of_unscopedBufs (p := 0) (pcfgs (F := F)) Gen.adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = PhiSR0 (VE0 m) c 0 (Nat.zero_le _) from rfl, PhiSR0_zero (VE0 m) c 0 _ rfl]
    iintro ⟨Hp, -, Hr⟩
    isplitl [Hr]; · iapply (scopedSplitR0 c); iexact Hr
    iexact Hp
  hout c := by
    rw [Pipeline.ownSems0_none, show (pdats m 0 c).Φ (Fin.last _) = PhiSR0 (VE0 m) c cfg0.N (Nat.le_refl _) from rfl,
      PhiSR0_pos (VE0 m) c _ _ (by rw [show cfg0.N = 32 from N_0]; decide)]
    iintro ⟨⟨HS0, HS1, HR⟩, Hp⟩
    isplitl [Hp]; · iexact Hp
    isplitr; · iempintro
    iapply (scopedJoinR0 c)
    isplitl [HS0]; · iexists _; iexact HS0
    isplitl [HS1]; · iexists _; iexact HS1
    iexact HR
  hexit c := by
    unfold Rz
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VE0 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 as a segment: entered with every unscoped buffer at the contents the host stretch before it left, left
    with the two result arrays at what the pipeline's write-backs made of them and every other buffer as entered. Its
    arrays are split out of the unscoped buffers at entry and put back at exit; the generator register and the scoped
    buffers (the accumulators among them) go into the region invariant and come back; nothing is owed; the kernel has
    no semaphore of its own. -/
def reg1 : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligationR1 (VE1 m) c).loose
  hwaits := Pipeline.hwaits_of_owed_zero _ _ _ _ Lz lvz 1 fun _ _ => rfl
  pre c := iprop(StableHlo.held (c : Thread nD τ) (Pipeline.ucRefs τ sig) (Gen.V3 m (outsA m) c) ∗ Rz c)
  post c := iprop(StableHlo.held (c : Thread nD τ) (Pipeline.ucRefs τ sig) (Gen.V4 m (outs m) c) ∗ Rz c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    unfold Rz
    rw [Pipeline.ownSems0_none]
    have hsplit := Pipeline.arrays_of_unscopedBufs (p := 1) (pcfgs (F := F)) Gen.adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = PhiSR1 (VE1 m) c 0 (Nat.zero_le _) from rfl, PhiSR1_zero (VE1 m) c 0 _ rfl]
    iintro ⟨Hp, -, Hr⟩
    isplitl [Hr]; · iapply (scopedSplitR1 c); iexact Hr
    iexact Hp
  hout c := by
    rw [Pipeline.ownSems0_none, show (pdats m 1 c).Φ (Fin.last _) = PhiSR1 (VE1 m) c cfg1.N (Nat.le_refl _) from rfl,
      PhiSR1_pos (VE1 m) c _ _ (by rw [show cfg1.N = 32 from N_1]; decide)]
    iintro ⟨⟨HS0, HS1, HR⟩, Hp⟩
    isplitl [Hp]; · iexact Hp
    isplitr; · iempintro
    iapply (scopedJoinR1 c)
    isplitl [HS0]; · iexists _; iexact HS0
    isplitl [HS1]; · iexists _; iexact HS1
    iexact HR
  hexit c := by
    unfold Rz
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VE1 m c) (fun b => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second region is entered from what the second host stretch leaves. -/
theorem hpre1z (c : Dev nD) : iprop(StableHlo.held (c : Thread nD τ) (Pipeline.ucRefs τ sig) (Gen.V3 m (outs m) c) ∗ Rz (F := F) c) ⊢ (reg1 m).pre c := by
  rw [V3_outs m c]; exact .rfl

/-- The launch element pays for the pipelines' cells; no other ghost resource is needed. -/
theorem hu₀z : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0z : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lz lvz)
    ⊢ (|={Set.univ}=> bigSep Finset.univ (fun c : Dev nD => Rz (F := F) c) : sProp 𝕄) := by
  refine Pipeline.initEach Lz lvz fun c => ?_
  unfold Rz
  iintro ⟨⟨-, HO, -, Hp, -⟩, -⟩
  imodintro
  isplitl [Hp]; · iexists _; iexact Hp
  iexists ∅; iexact HO

set_option backward.isDefEq.respectTransparency.types false in
/-- THE FRAME: every weakly fair execution from any memory with zero counters terminates, nothing faulting, and every
    argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Gen.frame_cond m emb₁ () Variants.none Lz lvz (fun _ _ => rfl) ρ (outs m) (pdats m) 0 (fun _ => iprop(emp))
    (initOf (Pipeline.cells cfgs cellOf_inj) (Pipeline.launchToks cfgs cellOf_inj)) hu₀z
    (fun _ c => Rz c) (hE0z ρ) (fun c => by unfold Rz; iintro ⟨-, HO⟩; iexact HO)
    (reg0 m) (fun c => .rfl) (fun c => .rfl)
    (reg1 m) (hpre1z m) (fun c => .rfl)

set_option backward.isDefEq.respectTransparency.types false in
/-- THE RUN WITH ITS RESULT: as the frame, and the result buffer ends at what the host tail computes from the contents the
    second region leaves (the last of the valuations the items' contents are folded through). -/
theorem run_result : θ_run defs (onTc (τ := τ) (main (F := F))) ⟨m, fun _ => 0, ρ⟩ (fun r => ∀ c : Dev nD,
      r.2.mem ((c.tc : Thread nD τ).loc main_v0) = Gen.V5 m (outs m) c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine Pipeline.θ_run_regions_kit_dev (pcfgs (F := F)) Gen.adm (pdats m) () cellOf_inj emb₁ defs₀ Variants.none Lz lvz m ρ main
    (Gen.segs m (outs m) Variants.none Lz lvz (fun _ c => Rz c) () (pdats m) (reg0 m) (reg1 m))
    (fun c Q => by
      rewrite [main_chain c, Seg.run_eq_chain,
        show (Gen.segs m (outs m) Variants.none Lz lvz (fun _ c => Rz c) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide) 0 (fun _ _ => rfl) (fun _ => iprop(emp))
    (initOf (Pipeline.cells cfgs cellOf_inj) (Pipeline.launchToks cfgs cellOf_inj)) hu₀z
    (T₀ := fun c => iprop(StableHlo.held (c : Thread nD τ) (Pipeline.ucRefs τ sig) (Gen.V0 m c) ∗ Rz c))
    (Tₙ := fun c => StableHlo.held (c : Thread nD τ) (Pipeline.ucRefs τ sig) (Gen.V5 m (outs m) c))
    (hch := fun c => ⟨.rfl, .rfl, .rfl, hpre1z m c, .rfl, sep_mono .rfl (by unfold Rz; iintro ⟨-, HO⟩; iexact HO)⟩)
    (hinit := ?_) (QY := fun c s => s.mem ((c.tc : Thread nD τ).loc main_v0) = Gen.V5 m (outs m) c main_v0 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (hE0z (F := F) ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (Gen.V5 m (outs m) c) s') $$ [Hh HSI]
    · isplitl [Hh] <;> iassumption
    icases Hr with ⟨%h, HSI⟩
    imodintro
    isplitr
    · ipureintro
      exact ⟨h (Proc.devRef .tc main_v0) (Finset.mem_filter.mpr ⟨StableHlo.devRef_mem_tcRefs main_v0, by decide⟩),
        (h (Proc.devRef .tc main_arg0) (Finset.mem_filter.mpr ⟨StableHlo.devRef_mem_tcRefs main_arg0, by decide⟩)).trans (Gen.V5_main_arg0 m (outs m) c),
        (h (Proc.devRef .tc main_arg1) (Finset.mem_filter.mpr ⟨StableHlo.devRef_mem_tcRefs main_arg1, by decide⟩)).trans (Gen.V5_main_arg1 m (outs m) c),
        (h (Proc.devRef .tc main_arg2) (Finset.mem_filter.mpr ⟨StableHlo.devRef_mem_tcRefs main_arg2, by decide⟩)).trans (Gen.V5_main_arg2 m (outs m) c),
        (h (Proc.devRef .tc main_arg3) (Finset.mem_filter.mpr ⟨StableHlo.devRef_mem_tcRefs main_arg3, by decide⟩)).trans (Gen.V5_main_arg3 m (outs m) c),
        (h (Proc.devRef .tc main_arg4) (Finset.mem_filter.mpr ⟨StableHlo.devRef_mem_tcRefs main_arg4, by decide⟩)).trans (Gen.V5_main_arg4 m (outs m) c),
        (h (Proc.devRef .tc main_arg5) (Finset.mem_filter.mpr ⟨StableHlo.devRef_mem_tcRefs main_arg5, by decide⟩)).trans (Gen.V5_main_arg5 m (outs m) c),
        (h (Proc.devRef .tc main_arg6) (Finset.mem_filter.mpr ⟨StableHlo.devRef_mem_tcRefs main_arg6, by decide⟩)).trans (Gen.V5_main_arg6 m (outs m) c),
        (h (Proc.devRef .tc main_arg7) (Finset.mem_filter.mpr ⟨StableHlo.devRef_mem_tcRefs main_arg7, by decide⟩)).trans (Gen.V5_main_arg7 m (outs m) c),
        (h (Proc.devRef .tc main_arg8) (Finset.mem_filter.mpr ⟨StableHlo.devRef_mem_tcRefs main_arg8, by decide⟩)).trans (Gen.V5_main_arg8 m (outs m) c),
        (h (Proc.devRef .tc main_arg9) (Finset.mem_filter.mpr ⟨StableHlo.devRef_mem_tcRefs main_arg9, by decide⟩)).trans (Gen.V5_main_arg9 m (outs m) c),
        (h (Proc.devRef .tc main_arg10) (Finset.mem_filter.mpr ⟨StableHlo.devRef_mem_tcRefs main_arg10, by decide⟩)).trans (Gen.V5_main_arg10 m (outs m) c),
        (h (Proc.devRef .tc main_arg11) (Finset.mem_filter.mpr ⟨StableHlo.devRef_mem_tcRefs main_arg11, by decide⟩)).trans (Gen.V5_main_arg11 m (outs m) c),
        (h (Proc.devRef .tc main_arg12) (Finset.mem_filter.mpr ⟨StableHlo.devRef_mem_tcRefs main_arg12, by decide⟩)).trans (Gen.V5_main_arg12 m (outs m) c),
        (h (Proc.devRef .tc main_arg13) (Finset.mem_filter.mpr ⟨StableHlo.devRef_mem_tcRefs main_arg13, by decide⟩)).trans (Gen.V5_main_arg13 m (outs m) c),
        (h (Proc.devRef .tc main_arg14) (Finset.mem_filter.mpr ⟨StableHlo.devRef_mem_tcRefs main_arg14, by decide⟩)).trans (Gen.V5_main_arg14 m (outs m) c)⟩
    · iexact HSI

end Cert.Kernel.Fr

end
-- ==== Proof.FrI0S.lean ====
import proofs.«105748_j27410481283396_2_alg».proof.Proof.Gen.KernelIdeal.Launch
import proofs.«105748_j27410481283396_2_alg».proof.Proof.Gen.KernelIdeal.Skeleton
import proofs.«105748_j27410481283396_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What the three control cases of the layer kernel share: the blocks the region finds in its windows' arrays, that
    an input window's staging buffer holds its block at every grid point, the two branch conditions in closed form over
    the grid (the contraction coordinate is 0; it is 7), where the output windows are idle, and the scoped buffers split
    into the two accumulators and the rest. Everything is stated at a PARAMETER `V`, the buffer contents when the region is
    entered. -/

section
variable (V : (c : Dev nD) → (b : Ref sig .tc) → Buf (Elt F) ((c : Thread nD τ).loc b))

/-- Window `w`'s block at grid point `t`, read off its array as the region finds it. -/
def iblkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched
    point has the block index of the point before. -/
theorem beforeR0_0_of {c : Dev nD} (dat : Dat τ (Elt F) Unit ℕ (UR sig nD τ) ℕ cfg0 c) (hA : dat.A 0 = V c (Pipeline.arrRef spec0 0))
    (hafter : ∀ t, dat.after 0 t = iblkR0 V c 0 t) (t : Fin cfg0.N) (d) : dat.before 0 t d = iblkR0 V c 0 t :=
  (dat.before_in_eq_fetched 0 rfl (fun _ => rfl) (fun _ _ _ => rfl) (fun t => by rw [hafter]; unfold Dat.blockOf iblkR0; rw [hA]; try rfl) t d).trans
    (by unfold Dat.fetched Dat.blockOf iblkR0; rw [hA]; try rfl)

/-- Input window 1's current staging buffer holds its block at every point, fetched there or not: an unfetched
    point has the block index of the point before. -/
theorem beforeR0_1_of {c : Dev nD} (dat : Dat τ (Elt F) Unit ℕ (UR sig nD τ) ℕ cfg0 c) (hA : dat.A 1 = V c (Pipeline.arrRef spec0 1))
    (hafter : ∀ t, dat.after 1 t = iblkR0 V c 1 t) (t : Fin cfg0.N) (d) : dat.before 1 t d = iblkR0 V c 1 t :=
  (dat.before_in_eq_fetched 1 rfl (fun _ => rfl) (fun _ _ _ => rfl) (fun t => by rw [hafter]; unfold Dat.blockOf iblkR0; rw [hA]; try rfl) t d).trans
    (by unfold Dat.fetched Dat.blockOf iblkR0; rw [hA]; try rfl)

/-- Input window 2's current staging buffer holds its block at every point, fetched there or not: an unfetched
    point has the block index of the point before. -/
theorem beforeR0_2_of {c : Dev nD} (dat : Dat τ (Elt F) Unit ℕ (UR sig nD τ) ℕ cfg0 c) (hA : dat.A 2 = V c (Pipeline.arrRef spec0 2))
    (hafter : ∀ t, dat.after 2 t = iblkR0 V c 2 t) (t : Fin cfg0.N) (d) : dat.before 2 t d = iblkR0 V c 2 t :=
  (dat.before_in_eq_fetched 2 rfl (fun _ => rfl) (fun _ _ _ => rfl) (fun t => by rw [hafter]; unfold Dat.blockOf iblkR0; rw [hA]; try rfl) t d).trans
    (by unfold Dat.fetched Dat.blockOf iblkR0; rw [hA]; try rfl)

/-- Input window 3's current staging buffer holds its block at every point, fetched there or not: an unfetched
    point has the block index of the point before. -/
theorem beforeR0_3_of {c : Dev nD} (dat : Dat τ (Elt F) Unit ℕ (UR sig nD τ) ℕ cfg0 c) (hA : dat.A 3 = V c (Pipeline.arrRef spec0 3))
    (hafter : ∀ t, dat.after 3 t = iblkR0 V c 3 t) (t : Fin cfg0.N) (d) : dat.before 3 t d = iblkR0 V c 3 t :=
  (dat.before_in_eq_fetched 3 rfl (fun _ => rfl) (fun _ _ _ => rfl) (fun t => by rw [hafter]; unfold Dat.blockOf iblkR0; rw [hA]; try rfl) t d).trans
    (by unfold Dat.fetched Dat.blockOf iblkR0; rw [hA]; try rfl)

/-- Input window 4's current staging buffer holds its block at every point, fetched there or not: an unfetched
    point has the block index of the point before. -/
theorem beforeR0_4_of {c : Dev nD} (dat : Dat τ (Elt F) Unit ℕ (UR sig nD τ) ℕ cfg0 c) (hA : dat.A 4 = V c (Pipeline.arrRef spec0 4))
    (hafter : ∀ t, dat.after 4 t = iblkR0 V c 4 t) (t : Fin cfg0.N) (d) : dat.before 4 t d = iblkR0 V c 4 t :=
  (dat.before_in_eq_fetched 4 rfl (fun _ => rfl) (fun _ _ _ => rfl) (fun t => by rw [hafter]; unfold Dat.blockOf iblkR0; rw [hA]; try rfl) t d).trans
    (by unfold Dat.fetched Dat.blockOf iblkR0; rw [hA]; try rfl)

/-- Input window 5's current staging buffer holds its block at every point, fetched there or not: an unfetched
    point has the block index of the point before. -/
theorem beforeR0_5_of {c : Dev nD} (dat : Dat τ (Elt F) Unit ℕ (UR sig nD τ) ℕ cfg0 c) (hA : dat.A 5 = V c (Pipeline.arrRef spec0 5))
    (hafter : ∀ t, dat.after 5 t = iblkR0 V c 5 t) (t : Fin cfg0.N) (d) : dat.before 5 t d = iblkR0 V c 5 t :=
  (dat.before_in_eq_fetched 5 rfl (fun _ => rfl) (fun _ _ _ => rfl) (fun t => by rw [hafter]; unfold Dat.blockOf iblkR0; rw [hA]; try rfl) t d).trans
    (by unfold Dat.fetched Dat.blockOf iblkR0; rw [hA]; try rfl)

end

/-! ## The body's two branch conditions -/

/-- The first branch (zero the accumulators) is taken when the contraction coordinate is 0. -/
abbrev condR0_0 (i : grid0.Coords) : Prop := (Scalar.cmpi .ne (Scalar.extui (Scalar.cmpi .eq (BitVec.ofNat 32 (i 1).val) 0#32)) 0#32) = 1#1
theorem hcondR0_0 : ∀ t : Fin cfg0.N, condR0_0 (grid0.coords t) ↔ t.val % 8 = 0 :=
  (by decide +kernel : ∀ t : Fin grid0.N, condR0_0 (grid0.coords t) ↔ t.val % 8 = 0)

/-- The second branch (add the bias, clamp at zero, store the output block) is taken when it is 7. -/
abbrev condR0_1 (i : grid0.Coords) : Prop := k0_cond2 i = 1#1
theorem hcondR0_1 : ∀ t : Fin cfg0.N, condR0_1 (grid0.coords t) ↔ t.val % 8 = 7 :=
  (by decide +kernel : ∀ t : Fin grid0.N, condR0_1 (grid0.coords t) ↔ t.val % 8 = 7)

/-! ## Where the windows are idle -/

theorem liveAtR0_0 : ∀ t : Fin cfg0.N, cfg0.idle 0 (grid0.coords t) = false := fun _ => rfl
theorem liveAtR0_1 : ∀ t : Fin cfg0.N, cfg0.idle 1 (grid0.coords t) = false := fun _ => rfl
theorem liveAtR0_2 : ∀ t : Fin cfg0.N, cfg0.idle 2 (grid0.coords t) = false := fun _ => rfl
theorem liveAtR0_3 : ∀ t : Fin cfg0.N, cfg0.idle 3 (grid0.coords t) = false := fun _ => rfl
theorem liveAtR0_4 : ∀ t : Fin cfg0.N, cfg0.idle 4 (grid0.coords t) = false := fun _ => rfl
theorem liveAtR0_5 : ∀ t : Fin cfg0.N, cfg0.idle 5 (grid0.coords t) = false := fun _ => rfl
/-- Away from the last contraction step nothing is stored into output window 6 and its block is not written back. -/
theorem idleAtR0_6 : ∀ t : Fin cfg0.N, ¬condR0_1 (grid0.coords t) → cfg0.idle 6 (grid0.coords t) = true := by decide +kernel
theorem noFlushR0_6 : ∀ t : Fin cfg0.N, ¬condR0_1 (grid0.coords t) → (cfg0.win 6).flush t = false := by decide +kernel
theorem liveAtR0_6_C : ∀ t : Fin cfg0.N, condR0_1 (grid0.coords t) → cfg0.idle 6 (grid0.coords t) = false := by decide +kernel
/-- Away from the last contraction step nothing is stored into output window 7 and its block is not written back. -/
theorem idleAtR0_7 : ∀ t : Fin cfg0.N, ¬condR0_1 (grid0.coords t) → cfg0.idle 7 (grid0.coords t) = true := by decide +kernel
theorem noFlushR0_7 : ∀ t : Fin cfg0.N, ¬condR0_1 (grid0.coords t) → (cfg0.win 7).flush t = false := by decide +kernel
theorem liveAtR0_7_C : ∀ t : Fin cfg0.N, condR0_1 (grid0.coords t) → cfg0.idle 7 (grid0.coords t) = false := by decide +kernel

/-! ## The staging and scratch memrefs -/

abbrev VOR0_6 : View sig .tc .vmem S2048x16 .f32 := (Memref.whole cc0_stg6_0 : Memref sig .tc .vmem S2048x16 .f32).view
abbrev VOR0_7 : View sig .tc .vmem S2048x16 .f32 := (Memref.whole cc0_stg7_0 : Memref sig .tc .vmem S2048x16 .f32).view
abbrev msR0_0 (t : Fin cfg0.N) : Memref sig .tc .vmem S2048x1024 .f32 := win0_0.stage (cfg0.slots t 0)
abbrev hsR0_0 (t : Fin cfg0.N) : (msR0_0 t).IsWhole := hstage0_0 ((cfg0.slots t 0).cast nbuf0_0)
abbrev msR0_1 (t : Fin cfg0.N) : Memref sig .tc .vmem S2048x1024 .f32 := win0_1.stage (cfg0.slots t 1)
abbrev hsR0_1 (t : Fin cfg0.N) : (msR0_1 t).IsWhole := hstage0_1 ((cfg0.slots t 1).cast nbuf0_1)
abbrev msR0_2 (t : Fin cfg0.N) : Memref sig .tc .vmem S8192x16 .f32 := win0_2.stage (cfg0.slots t 2)
abbrev hsR0_2 (t : Fin cfg0.N) : (msR0_2 t).IsWhole := hstage0_2 ((cfg0.slots t 2).cast nbuf0_2)
abbrev msR0_3 (t : Fin cfg0.N) : Memref sig .tc .vmem S8192x16 .f32 := win0_3.stage (cfg0.slots t 3)
abbrev hsR0_3 (t : Fin cfg0.N) : (msR0_3 t).IsWhole := hstage0_3 ((cfg0.slots t 3).cast nbuf0_3)
abbrev msR0_4 (t : Fin cfg0.N) : Memref sig .tc .vmem S1x16 .f32 := win0_4.stage (cfg0.slots t 4)
abbrev hsR0_4 (t : Fin cfg0.N) : (msR0_4 t).IsWhole := hstage0_4 ((cfg0.slots t 4).cast nbuf0_4)
abbrev msR0_5 (t : Fin cfg0.N) : Memref sig .tc .vmem S1x16 .f32 := win0_5.stage (cfg0.slots t 5)
abbrev hsR0_5 (t : Fin cfg0.N) : (msR0_5 t).IsWhole := hstage0_5 ((cfg0.slots t 5).cast nbuf0_5)
abbrev msR0_6 (t : Fin cfg0.N) : Memref sig .tc .vmem S2048x16 .f32 := win0_6.stage (cfg0.slots t 6)
abbrev hsR0_6 (t : Fin cfg0.N) : (msR0_6 t).IsWhole := hstage0_6 ((cfg0.slots t 6).cast nbuf0_6)
abbrev msR0_7 (t : Fin cfg0.N) : Memref sig .tc .vmem S2048x16 .f32 := win0_7.stage (cfg0.slots t 7)
abbrev hsR0_7 (t : Fin cfg0.N) : (msR0_7 t).IsWhole := hstage0_7 ((cfg0.slots t 7).cast nbuf0_7)
/-- The two accumulators: whole scoped buffers of the kernel's own, carried from one grid point to the next. -/
abbrev scMR0_0 : Memref sig .tc .vmem S2048x16 .f32 := Memref.whole cc0_scratch0
abbrev scMR0_1 : Memref sig .tc .vmem S2048x16 .f32 := Memref.whole cc0_scratch1
abbrev VSR0_0 : View sig .tc .vmem S2048x16 .f32 := scMR0_0.view
abbrev VSR0_1 : View sig .tc .vmem S2048x16 .f32 := scMR0_1.view

/-- The core's scoped buffers other than this region's staging buffers and its two accumulators, each at some contents. -/
def restR0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The scoped buffers no window stages are the two accumulators, each at some contents, and the rest. -/
theorem scopedSplitR0 (c : Dev nD) :
    (Pipeline.scopedRest (Ix := Unit) (Name := ℕ) (U := UR sig nD τ) (Lvl := ℕ) (Val := Elt F) spec0 c : sProp 𝕄)
      ⊢ iprop((∃ d, owns (c : Thread nD τ) scMR0_0 fullShare d) ∗ (∃ d, owns (c : Thread nD τ) scMR0_1 fullShare d) ∗ restR0 c) := by
  rw [scopedRest0_eq]; unfold restR0; simp only [scMR0_0, scMR0_1, owns_whole]
  iintro ⟨HS0, HS1, HR0, HR1, HR2, HR3, HR4, HR5, HR6, HR7, HR8, HR9, HR10, HR11, HR12, HR13⟩
  isplitl [HS0]; · iexact HS0
  isplitl [HS1]; · iexact HS1
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  iexact HR13

theorem scopedJoinR0 (c : Dev nD) :
    iprop((∃ d, owns (c : Thread nD τ) scMR0_0 fullShare d) ∗ (∃ d, owns (c : Thread nD τ) scMR0_1 fullShare d) ∗ restR0 c)
      ⊢ (Pipeline.scopedRest (Ix := Unit) (Name := ℕ) (U := UR sig nD τ) (Lvl := ℕ) (Val := Elt F) spec0 c : sProp 𝕄) := by
  rw [scopedRest0_eq]; unfold restR0; simp only [scMR0_0, scMR0_1, owns_whole]
  iintro ⟨HS0, HS1, HR0, HR1, HR2, HR3, HR4, HR5, HR6, HR7, HR8, HR9, HR10, HR11, HR12, HR13⟩
  isplitl [HS0]; · iexact HS0
  isplitl [HS1]; · iexact HS1
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  iexact HR13

end Cert.KernelIdeal.Fr

end
-- ==== Proof.FrI0A.lean ====
import proofs.«105748_j27410481283396_2_alg».proof.Proof.FrI0S

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The layer kernel's body in the control case A (contraction coordinate 0: the accumulators are zeroed, then receive the first partial product): on whole staging memrefs —
    the inputs' at their contents, the outputs' handed back untouched, the accumulators at anything — it runs to the continuation holding the inputs' as they were and
    each buffer it stored into with its pieces written; the pieces (last store first) are the witness the symbolic run finds. -/
noncomputable def kernelRunR0_A (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : condR0_0 i) (hc1 : ¬condR0_1 i)
    (x0 x1 : Vec F S2048x1024 .f32) (x2 x3 : Vec F S8192x16 .f32) (x4 x5 : Vec F S1x16 .f32) :
    Σ' (L6 : List (View.Piece (Elt F) S2048x16 .f32)) (L7 : List (View.Piece (Elt F) S2048x16 .f32)) (LS0 : List (View.Piece (Elt F) S2048x16 .f32)), { LS1 : List (View.Piece (Elt F) S2048x16 .f32) //
      ∀ (xi6 xi7 : Vec F S2048x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__dgcn_pair_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc0__dgcn_pair_kernel_eq_skeleton]; unfold cc0__dgcn_pair_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Fr

end
-- ==== Proof.FrI0B.lean ====
import proofs.«105748_j27410481283396_2_alg».proof.Proof.FrI0A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The layer kernel's body in the control case B (contraction coordinate 1 to 6: the accumulators receive one more partial product): on whole staging memrefs —
    the inputs' at their contents, the outputs' handed back untouched, the accumulators at what the point before left — it runs to the continuation holding the inputs' as they were and
    each buffer it stored into with its pieces written; the pieces (last store first) are the witness the symbolic run finds. -/
noncomputable def kernelRunR0_B (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : ¬condR0_1 i)
    (x0 x1 : Vec F S2048x1024 .f32) (x2 x3 : Vec F S8192x16 .f32) (x4 x5 : Vec F S1x16 .f32) (xs0 xs1 : Vec F S2048x16 .f32) :
    Σ' (L6 : List (View.Piece (Elt F) S2048x16 .f32)) (L7 : List (View.Piece (Elt F) S2048x16 .f32)) (LS0 : List (View.Piece (Elt F) S2048x16 .f32)), { LS1 : List (View.Piece (Elt F) S2048x16 .f32) //
      ∀ (xi6 xi7 : Vec F S2048x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__dgcn_pair_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc0__dgcn_pair_kernel_eq_skeleton]; unfold cc0__dgcn_pair_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Fr

end
-- ==== Proof.FrI0C.lean ====
import proofs.«105748_j27410481283396_2_alg».proof.Proof.FrI0B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The layer kernel's body in the control case C (contraction coordinate 7: the accumulators receive the last partial product, and each output block is stored as the accumulator plus the bias, clamped at zero): on whole staging memrefs —
    the inputs' at their contents, the outputs' at anything, the accumulators at what the point before left — it runs to the continuation holding the inputs' as they were and
    each buffer it stored into with its pieces written; the pieces (last store first) are the witness the symbolic run finds. -/
noncomputable def kernelRunR0_C (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : condR0_1 i)
    (x0 x1 : Vec F S2048x1024 .f32) (x2 x3 : Vec F S8192x16 .f32) (x4 x5 : Vec F S1x16 .f32) (xs0 xs1 : Vec F S2048x16 .f32) :
    Σ' (L6 : List (View.Piece (Elt F) S2048x16 .f32)) (L7 : List (View.Piece (Elt F) S2048x16 .f32)) (LS0 : List (View.Piece (Elt F) S2048x16 .f32)), { LS1 : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__dgcn_pair_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__dgcn_pair_kernel_eq_skeleton]; unfold cc0__dgcn_pair_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.KernelIdeal.Fr

end
-- ==== Proof.FrI0.lean ====
import proofs.«105748_j27410481283396_2_alg».proof.Proof.FrI0C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The layer kernel's proof data at a PARAMETER `V` (the buffer contents when the region is entered): what each control
    case leaves in the two accumulators and the two output blocks, what they hold after every grid point (by recursion on
    the point: an accumulator starts each later point from what the point before left), the region invariant carrying the
    accumulators, and the body's obligation at every point. -/

section
variable (V : (c : Dev nD) → (b : Ref sig .tc) → Buf (Elt F) ((c : Thread nD τ).loc b))

/-- Case A's stores into accumulator 0 tile it, so they cover it. -/
theorem scoverR0_A_0 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : condR0_0 i) (hc1 : ¬condR0_1 i)
    (x0 x1 : Vec F S2048x1024 .f32) (x2 x3 : Vec F S8192x16 .f32) (x4 x5 : Vec F S1x16 .f32) (y : S2048x16.Idx) :
    ∃ pc ∈ (kernelRunR0_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRunR0_A c i arg2 harg2 arg3 harg3 arg4 harg4 arg5 harg5 arg6 harg6 arg7 harg7 arg8 harg8 arg9 harg9 arg10 harg10 arg11 harg11 hc0 hc1 x0 x1 x2 x3 x4 x5).2.2.1 S2048x16.size (by sl_kernel_rfl) y

/-- What case A leaves in accumulator 0: its stores read back. -/
def soutR0_A_0 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : condR0_0 i) (hc1 : ¬condR0_1 i)
    (x0 x1 : Vec F S2048x1024 .f32) (x2 x3 : Vec F S8192x16 .f32) (x4 x5 : Vec F S1x16 .f32) : Vec F S2048x16 .f32 :=
  VSR0_0.read (Elt F) (VSR0_0.writes (Elt F) VSR0_0.junk (kernelRunR0_A c i arg2 harg2 arg3 harg3 arg4 harg4 arg5 harg5 arg6 harg6 arg7 harg7 arg8 harg8 arg9 harg9 arg10 harg10 arg11 harg11 hc0 hc1 x0 x1 x2 x3 x4 x5).2.2.1)

/-- Case A's stores into accumulator 1 tile it, so they cover it. -/
theorem scoverR0_A_1 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : condR0_0 i) (hc1 : ¬condR0_1 i)
    (x0 x1 : Vec F S2048x1024 .f32) (x2 x3 : Vec F S8192x16 .f32) (x4 x5 : Vec F S1x16 .f32) (y : S2048x16.Idx) :
    ∃ pc ∈ (kernelRunR0_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRunR0_A c i arg2 harg2 arg3 harg3 arg4 harg4 arg5 harg5 arg6 harg6 arg7 harg7 arg8 harg8 arg9 harg9 arg10 harg10 arg11 harg11 hc0 hc1 x0 x1 x2 x3 x4 x5).2.2.2.1 S2048x16.size (by sl_kernel_rfl) y

/-- What case A leaves in accumulator 1: its stores read back. -/
def soutR0_A_1 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : condR0_0 i) (hc1 : ¬condR0_1 i)
    (x0 x1 : Vec F S2048x1024 .f32) (x2 x3 : Vec F S8192x16 .f32) (x4 x5 : Vec F S1x16 .f32) : Vec F S2048x16 .f32 :=
  VSR0_1.read (Elt F) (VSR0_1.writes (Elt F) VSR0_1.junk (kernelRunR0_A c i arg2 harg2 arg3 harg3 arg4 harg4 arg5 harg5 arg6 harg6 arg7 harg7 arg8 harg8 arg9 harg9 arg10 harg10 arg11 harg11 hc0 hc1 x0 x1 x2 x3 x4 x5).2.2.2.1)

/-- Case B's stores into accumulator 0 tile it, so they cover it. -/
theorem scoverR0_B_0 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : ¬condR0_1 i)
    (x0 x1 : Vec F S2048x1024 .f32) (x2 x3 : Vec F S8192x16 .f32) (x4 x5 : Vec F S1x16 .f32) (xs0 xs1 : Vec F S2048x16 .f32) (y : S2048x16.Idx) :
    ∃ pc ∈ (kernelRunR0_B c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRunR0_B c i arg2 harg2 arg3 harg3 arg4 harg4 arg5 harg5 arg6 harg6 arg7 harg7 arg8 harg8 arg9 harg9 arg10 harg10 arg11 harg11 hc0 hc1 x0 x1 x2 x3 x4 x5 xs0 xs1).2.2.1 S2048x16.size (by sl_kernel_rfl) y

/-- What case B leaves in accumulator 0: its stores read back. -/
def soutR0_B_0 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : ¬condR0_1 i)
    (x0 x1 : Vec F S2048x1024 .f32) (x2 x3 : Vec F S8192x16 .f32) (x4 x5 : Vec F S1x16 .f32) (xs0 xs1 : Vec F S2048x16 .f32) : Vec F S2048x16 .f32 :=
  VSR0_0.read (Elt F) (VSR0_0.writes (Elt F) VSR0_0.junk (kernelRunR0_B c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case B's stores into accumulator 1 tile it, so they cover it. -/
theorem scoverR0_B_1 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : ¬condR0_1 i)
    (x0 x1 : Vec F S2048x1024 .f32) (x2 x3 : Vec F S8192x16 .f32) (x4 x5 : Vec F S1x16 .f32) (xs0 xs1 : Vec F S2048x16 .f32) (y : S2048x16.Idx) :
    ∃ pc ∈ (kernelRunR0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRunR0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S2048x16.size (by sl_kernel_rfl) y

/-- What case B leaves in accumulator 1: its stores read back. -/
def soutR0_B_1 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : ¬condR0_1 i)
    (x0 x1 : Vec F S2048x1024 .f32) (x2 x3 : Vec F S8192x16 .f32) (x4 x5 : Vec F S1x16 .f32) (xs0 xs1 : Vec F S2048x16 .f32) : Vec F S2048x16 .f32 :=
  VSR0_1.read (Elt F) (VSR0_1.writes (Elt F) VSR0_1.junk (kernelRunR0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- Case C's stores into accumulator 0 tile it, so they cover it. -/
theorem scoverR0_C_0 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : condR0_1 i)
    (x0 x1 : Vec F S2048x1024 .f32) (x2 x3 : Vec F S8192x16 .f32) (x4 x5 : Vec F S1x16 .f32) (xs0 xs1 : Vec F S2048x16 .f32) (y : S2048x16.Idx) :
    ∃ pc ∈ (kernelRunR0_C c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRunR0_C c i arg2 harg2 arg3 harg3 arg4 harg4 arg5 harg5 arg6 harg6 arg7 harg7 arg8 harg8 arg9 harg9 arg10 harg10 arg11 harg11 hc0 hc1 x0 x1 x2 x3 x4 x5 xs0 xs1).2.2.1 S2048x16.size (by sl_kernel_rfl) y

/-- What case C leaves in accumulator 0: its stores read back. -/
def soutR0_C_0 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : condR0_1 i)
    (x0 x1 : Vec F S2048x1024 .f32) (x2 x3 : Vec F S8192x16 .f32) (x4 x5 : Vec F S1x16 .f32) (xs0 xs1 : Vec F S2048x16 .f32) : Vec F S2048x16 .f32 :=
  VSR0_0.read (Elt F) (VSR0_0.writes (Elt F) VSR0_0.junk (kernelRunR0_C c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's stores into accumulator 1 tile it, so they cover it. -/
theorem scoverR0_C_1 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : condR0_1 i)
    (x0 x1 : Vec F S2048x1024 .f32) (x2 x3 : Vec F S8192x16 .f32) (x4 x5 : Vec F S1x16 .f32) (xs0 xs1 : Vec F S2048x16 .f32) (y : S2048x16.Idx) :
    ∃ pc ∈ (kernelRunR0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRunR0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S2048x16.size (by sl_kernel_rfl) y

/-- What case C leaves in accumulator 1: its stores read back. -/
def soutR0_C_1 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : condR0_1 i)
    (x0 x1 : Vec F S2048x1024 .f32) (x2 x3 : Vec F S8192x16 .f32) (x4 x5 : Vec F S1x16 .f32) (xs0 xs1 : Vec F S2048x16 .f32) : Vec F S2048x16 .f32 :=
  VSR0_1.read (Elt F) (VSR0_1.writes (Elt F) VSR0_1.junk (kernelRunR0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- Case C's store into output window 6 tiles its block, so it covers it. -/
theorem coverR0_C_6 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : condR0_1 i)
    (x0 x1 : Vec F S2048x1024 .f32) (x2 x3 : Vec F S8192x16 .f32) (x4 x5 : Vec F S1x16 .f32) (xs0 xs1 : Vec F S2048x16 .f32) (y : S2048x16.Idx) :
    ∃ pc ∈ (kernelRunR0_C c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRunR0_C c i arg2 harg2 arg3 harg3 arg4 harg4 arg5 harg5 arg6 harg6 arg7 harg7 arg8 harg8 arg9 harg9 arg10 harg10 arg11 harg11 hc0 hc1 x0 x1 x2 x3 x4 x5 xs0 xs1).1 S2048x16.size (by sl_kernel_rfl) y

/-- What case C leaves in output window 6's staging buffer: its store read back. -/
def outR0_C_6 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : condR0_1 i)
    (x0 x1 : Vec F S2048x1024 .f32) (x2 x3 : Vec F S8192x16 .f32) (x4 x5 : Vec F S1x16 .f32) (xs0 xs1 : Vec F S2048x16 .f32) : Vec F S2048x16 .f32 :=
  VOR0_6.read (Elt F) (VOR0_6.writes (Elt F) VOR0_6.junk (kernelRunR0_C c i arg2 harg2 arg3 harg3 arg4 harg4 arg5 harg5 arg6 harg6 arg7 harg7 arg8 harg8 arg9 harg9 arg10 harg10 arg11 harg11 hc0 hc1 x0 x1 x2 x3 x4 x5 xs0 xs1).1)

/-- Case C's store into output window 7 tiles its block, so it covers it. -/
theorem coverR0_C_7 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : condR0_1 i)
    (x0 x1 : Vec F S2048x1024 .f32) (x2 x3 : Vec F S8192x16 .f32) (x4 x5 : Vec F S1x16 .f32) (xs0 xs1 : Vec F S2048x16 .f32) (y : S2048x16.Idx) :
    ∃ pc ∈ (kernelRunR0_C c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRunR0_C c i arg2 harg2 arg3 harg3 arg4 harg4 arg5 harg5 arg6 harg6 arg7 harg7 arg8 harg8 arg9 harg9 arg10 harg10 arg11 harg11 hc0 hc1 x0 x1 x2 x3 x4 x5 xs0 xs1).2.1 S2048x16.size (by sl_kernel_rfl) y

/-- What case C leaves in output window 7's staging buffer: its store read back. -/
def outR0_C_7 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : condR0_1 i)
    (x0 x1 : Vec F S2048x1024 .f32) (x2 x3 : Vec F S8192x16 .f32) (x4 x5 : Vec F S1x16 .f32) (xs0 xs1 : Vec F S2048x16 .f32) : Vec F S2048x16 .f32 :=
  VOR0_7.read (Elt F) (VOR0_7.writes (Elt F) VOR0_7.junk (kernelRunR0_C c i arg2 harg2 arg3 harg3 arg4 harg4 arg5 harg5 arg6 harg6 arg7 harg7 arg8 harg8 arg9 harg9 arg10 harg10 arg11 harg11 hc0 hc1 x0 x1 x2 x3 x4 x5 xs0 xs1).2.1)

/-! ## What the outputs and the accumulators hold after each point -/

/-- An output block nothing was stored into: contents no one reads. -/
abbrev idleOutR0_6 : Vec F S2048x16 .f32 := VOR0_6.read (Elt F) VOR0_6.junk
abbrev idleOutR0_7 : Vec F S2048x16 .f32 := VOR0_7.read (Elt F) VOR0_7.junk

/-- After a point with contraction coordinate 0: the accumulators hold the first partial product. -/
def caseAR0 (c : Dev nD) (t : Fin cfg0.N) (h0 : t.val % 8 = 0) (h1 : ¬t.val % 8 = 7) :
    Vec F S2048x16 .f32 × Vec F S2048x16 .f32 × Vec F S2048x16 .f32 × Vec F S2048x16 .f32 :=
  (idleOutR0_6, idleOutR0_7, soutR0_A_0 c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0_0 (Memref.isWhole_whole _) scMR0_1 (Memref.isWhole_whole _) ((hcondR0_0 t).mpr h0) (fun h => h1 ((hcondR0_1 t).mp h)) (iblkR0 V c 0 t) (iblkR0 V c 1 t) (iblkR0 V c 2 t) (iblkR0 V c 3 t) (iblkR0 V c 4 t) (iblkR0 V c 5 t), soutR0_A_1 c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0_0 (Memref.isWhole_whole _) scMR0_1 (Memref.isWhole_whole _) ((hcondR0_0 t).mpr h0) (fun h => h1 ((hcondR0_1 t).mp h)) (iblkR0 V c 0 t) (iblkR0 V c 1 t) (iblkR0 V c 2 t) (iblkR0 V c 3 t) (iblkR0 V c 4 t) (iblkR0 V c 5 t))

/-- After a point with contraction coordinate 1 to 6, from what the point before left in the accumulators. -/
def caseBR0 (c : Dev nD) (t : Fin cfg0.N) (h0 : ¬t.val % 8 = 0) (h1 : ¬t.val % 8 = 7) (xs0 xs1 : Vec F S2048x16 .f32) :
    Vec F S2048x16 .f32 × Vec F S2048x16 .f32 × Vec F S2048x16 .f32 × Vec F S2048x16 .f32 :=
  (idleOutR0_6, idleOutR0_7, soutR0_B_0 c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0_0 (Memref.isWhole_whole _) scMR0_1 (Memref.isWhole_whole _) (fun h => h0 ((hcondR0_0 t).mp h)) (fun h => h1 ((hcondR0_1 t).mp h)) (iblkR0 V c 0 t) (iblkR0 V c 1 t) (iblkR0 V c 2 t) (iblkR0 V c 3 t) (iblkR0 V c 4 t) (iblkR0 V c 5 t) xs0 xs1, soutR0_B_1 c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0_0 (Memref.isWhole_whole _) scMR0_1 (Memref.isWhole_whole _) (fun h => h0 ((hcondR0_0 t).mp h)) (fun h => h1 ((hcondR0_1 t).mp h)) (iblkR0 V c 0 t) (iblkR0 V c 1 t) (iblkR0 V c 2 t) (iblkR0 V c 3 t) (iblkR0 V c 4 t) (iblkR0 V c 5 t) xs0 xs1)

/-- After a point with contraction coordinate 7, from what the point before left in the accumulators. -/
def caseCR0 (c : Dev nD) (t : Fin cfg0.N) (h0 : ¬t.val % 8 = 0) (h1 : t.val % 8 = 7) (xs0 xs1 : Vec F S2048x16 .f32) :
    Vec F S2048x16 .f32 × Vec F S2048x16 .f32 × Vec F S2048x16 .f32 × Vec F S2048x16 .f32 :=
  (outR0_C_6 c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0_0 (Memref.isWhole_whole _) scMR0_1 (Memref.isWhole_whole _) (fun h => h0 ((hcondR0_0 t).mp h)) ((hcondR0_1 t).mpr h1) (iblkR0 V c 0 t) (iblkR0 V c 1 t) (iblkR0 V c 2 t) (iblkR0 V c 3 t) (iblkR0 V c 4 t) (iblkR0 V c 5 t) xs0 xs1, outR0_C_7 c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0_0 (Memref.isWhole_whole _) scMR0_1 (Memref.isWhole_whole _) (fun h => h0 ((hcondR0_0 t).mp h)) ((hcondR0_1 t).mpr h1) (iblkR0 V c 0 t) (iblkR0 V c 1 t) (iblkR0 V c 2 t) (iblkR0 V c 3 t) (iblkR0 V c 4 t) (iblkR0 V c 5 t) xs0 xs1, soutR0_C_0 c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0_0 (Memref.isWhole_whole _) scMR0_1 (Memref.isWhole_whole _) (fun h => h0 ((hcondR0_0 t).mp h)) ((hcondR0_1 t).mpr h1) (iblkR0 V c 0 t) (iblkR0 V c 1 t) (iblkR0 V c 2 t) (iblkR0 V c 3 t) (iblkR0 V c 4 t) (iblkR0 V c 5 t) xs0 xs1, soutR0_C_1 c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0_0 (Memref.isWhole_whole _) scMR0_1 (Memref.isWhole_whole _) (fun h => h0 ((hcondR0_0 t).mp h)) ((hcondR0_1 t).mpr h1) (iblkR0 V c 0 t) (iblkR0 V c 1 t) (iblkR0 V c 2 t) (iblkR0 V c 3 t) (iblkR0 V c 4 t) (iblkR0 V c 5 t) xs0 xs1)

/-- What the two output blocks and the two accumulators hold after the body at position `n`: the case the position's
    contraction coordinate selects, the accumulators taken from what position `n - 1` left. -/
def outsAtR0 (c : Dev nD) : (n : ℕ) → n < cfg0.N → Vec F S2048x16 .f32 × Vec F S2048x16 .f32 × Vec F S2048x16 .f32 × Vec F S2048x16 .f32
  | 0, hn => caseAR0 V c ⟨0, hn⟩ (Nat.zero_mod _) (fun h => absurd (show (0 : ℕ) % 8 = 7 from h) (by decide))
  | n + 1, hn =>
    if h0 : (n + 1) % 8 = 0 then caseAR0 V c ⟨n + 1, hn⟩ h0 (fun h => by have h' : (n + 1) % 8 = 7 := h; omega)
    else if h1 : (n + 1) % 8 = 7 then
      caseCR0 V c ⟨n + 1, hn⟩ h0 h1 (outsAtR0 c n (Nat.lt_of_succ_lt hn)).2.2.1 (outsAtR0 c n (Nat.lt_of_succ_lt hn)).2.2.2
    else caseBR0 V c ⟨n + 1, hn⟩ h0 h1 (outsAtR0 c n (Nat.lt_of_succ_lt hn)).2.2.1 (outsAtR0 c n (Nat.lt_of_succ_lt hn)).2.2.2

theorem outsAtR0_A (c : Dev nD) (t : Fin cfg0.N) (h0 : t.val % 8 = 0) (h1 : ¬t.val % 8 = 7) :
    outsAtR0 V c t.val t.isLt = caseAR0 V c t h0 h1 := by
  obtain ⟨n, hn⟩ := t
  cases n with
  | zero => rfl
  | succ n => exact (dif_pos h0).trans rfl

theorem outsAtR0_B (c : Dev nD) (t : Fin cfg0.N) (h0 : ¬t.val % 8 = 0) (h1 : ¬t.val % 8 = 7) :
    outsAtR0 V c t.val t.isLt = caseBR0 V c t h0 h1 (outsAtR0 V c (t.val - 1) (Nat.lt_of_le_of_lt (Nat.sub_le _ _) t.isLt)).2.2.1 (outsAtR0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAtR0_C (c : Dev nD) (t : Fin cfg0.N) (h0 : ¬t.val % 8 = 0) (h1 : t.val % 8 = 7) :
    outsAtR0 V c t.val t.isLt = caseCR0 V c t h0 h1 (outsAtR0 V c (t.val - 1) (Nat.lt_of_le_of_lt (Nat.sub_le _ _) t.isLt)).2.2.1 (outsAtR0 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-- The region invariant before position `n`: the generator register at some state, the scoped buffers other than the
    accumulators at some contents, and the accumulators — at anything before the first point, afterwards at what the
    point before left. -/
def PhiSR0 (c : Dev nD) : (n : ℕ) → n ≤ cfg0.N → sProp 𝕄
  | 0, _ => iprop(iprop((∃ d, owns (c : Thread nD τ) scMR0_0 fullShare d) ∗ (∃ d, owns (c : Thread nD τ) scMR0_1 fullShare d) ∗ restR0 c) ∗ (∃ r, prngReg c r))
  | n + 1, hn => iprop(iprop(owns (c : Thread nD τ) scMR0_0 fullShare (outsAtR0 V c n hn).2.2.1 ∗ owns (c : Thread nD τ) scMR0_1 fullShare (outsAtR0 V c n hn).2.2.2 ∗ restR0 c) ∗ (∃ r, prngReg c r))

theorem PhiSR0_zero (c : Dev nD) (n : ℕ) (h : n ≤ cfg0.N) (hz : n = 0) :
    PhiSR0 V c n h = iprop(iprop((∃ d, owns (c : Thread nD τ) scMR0_0 fullShare d) ∗ (∃ d, owns (c : Thread nD τ) scMR0_1 fullShare d) ∗ restR0 c) ∗ (∃ r, prngReg c r)) := by
  subst hz; rfl

theorem PhiSR0_succ (c : Dev nD) (n : ℕ) (hn : n < cfg0.N) :
    PhiSR0 V c (n + 1) hn = iprop(iprop(owns (c : Thread nD τ) scMR0_0 fullShare (outsAtR0 V c n hn).2.2.1 ∗ owns (c : Thread nD τ) scMR0_1 fullShare (outsAtR0 V c n hn).2.2.2 ∗ restR0 c) ∗ (∃ r, prngReg c r)) := rfl

theorem PhiSR0_pos (c : Dev nD) (n : ℕ) (h : n ≤ cfg0.N) (hz : n ≠ 0) :
    PhiSR0 V c n h = iprop(iprop(owns (c : Thread nD τ) scMR0_0 fullShare (outsAtR0 V c (n - 1) (by omega)).2.2.1 ∗ owns (c : Thread nD τ) scMR0_1 fullShare (outsAtR0 V c (n - 1) (by omega)).2.2.2 ∗ restR0 c) ∗ (∃ r, prngReg c r)) := by
  cases n with
  | zero => exact absurd rfl hz
  | succ n => rfl

/-! ## The proof data -/

/-- The proof data of the layer's pipeline on core `c`: the arrays as the region finds them; after the body each input's
    buffer at its block and each output's at `outsAtR0`'s component; the invariant carrying the accumulators; nothing owed. -/
def datR0 (c : Dev nD) : Dat τ (Elt F) Unit ℕ (UR sig nD τ) ℕ cfg0 c where
  A w := V c (Pipeline.arrRef spec0 w)
  after w t := match w with
    | ⟨0, _⟩ => iblkR0 V c 0 t
    | ⟨1, _⟩ => iblkR0 V c 1 t
    | ⟨2, _⟩ => iblkR0 V c 2 t
    | ⟨3, _⟩ => iblkR0 V c 3 t
    | ⟨4, _⟩ => iblkR0 V c 4 t
    | ⟨5, _⟩ => iblkR0 V c 5 t
    | ⟨6, _⟩ => (outsAtR0 V c t.val t.isLt).1
    | ⟨7, _⟩ => (outsAtR0 V c t.val t.isLt).2.1
  Φ t := PhiSR0 V c t.val (Nat.le_of_lt_succ t.isLt)
  q _ := fullShare
  owed _ := 0

theorem A_eqR0 (c : Dev nD) (w : Fin cfg0.W) : (datR0 V c).A w = V c (Pipeline.arrRef spec0 w) := by
  dsimp only [datR0]

theorem PhiSR0_castSucc (c : Dev nD) (t : Fin cfg0.N) :
    (datR0 V c).Φ t.castSucc = PhiSR0 V c t.val (Nat.le_of_lt t.isLt) := by
  dsimp only [datR0]; simp only [Fin.coe_castSucc]

theorem afterR0_0 (c : Dev nD) (t : Fin cfg0.N) : (datR0 V c).after 0 t = iblkR0 V c 0 t := by dsimp only [datR0]
theorem afterR0_1 (c : Dev nD) (t : Fin cfg0.N) : (datR0 V c).after 1 t = iblkR0 V c 1 t := by dsimp only [datR0]
theorem afterR0_2 (c : Dev nD) (t : Fin cfg0.N) : (datR0 V c).after 2 t = iblkR0 V c 2 t := by dsimp only [datR0]
theorem afterR0_3 (c : Dev nD) (t : Fin cfg0.N) : (datR0 V c).after 3 t = iblkR0 V c 3 t := by dsimp only [datR0]
theorem afterR0_4 (c : Dev nD) (t : Fin cfg0.N) : (datR0 V c).after 4 t = iblkR0 V c 4 t := by dsimp only [datR0]
theorem afterR0_5 (c : Dev nD) (t : Fin cfg0.N) : (datR0 V c).after 5 t = iblkR0 V c 5 t := by dsimp only [datR0]
theorem afterR0_6 (c : Dev nD) (t : Fin cfg0.N) : (datR0 V c).after 6 t = (outsAtR0 V c t.val t.isLt).1 := by dsimp only [datR0]
theorem afterR0_7 (c : Dev nD) (t : Fin cfg0.N) : (datR0 V c).after 7 t = (outsAtR0 V c t.val t.isLt).2.1 := by dsimp only [datR0]

theorem beforeR0_0 (c : Dev nD) (t : Fin cfg0.N) (d) : (datR0 V c).before 0 t d = iblkR0 V c 0 t :=
  beforeR0_0_of V (datR0 V c) (A_eqR0 V c 0) (afterR0_0 V c) t d
theorem beforeR0_1 (c : Dev nD) (t : Fin cfg0.N) (d) : (datR0 V c).before 1 t d = iblkR0 V c 1 t :=
  beforeR0_1_of V (datR0 V c) (A_eqR0 V c 1) (afterR0_1 V c) t d
theorem beforeR0_2 (c : Dev nD) (t : Fin cfg0.N) (d) : (datR0 V c).before 2 t d = iblkR0 V c 2 t :=
  beforeR0_2_of V (datR0 V c) (A_eqR0 V c 2) (afterR0_2 V c) t d
theorem beforeR0_3 (c : Dev nD) (t : Fin cfg0.N) (d) : (datR0 V c).before 3 t d = iblkR0 V c 3 t :=
  beforeR0_3_of V (datR0 V c) (A_eqR0 V c 3) (afterR0_3 V c) t d
theorem beforeR0_4 (c : Dev nD) (t : Fin cfg0.N) (d) : (datR0 V c).before 4 t d = iblkR0 V c 4 t :=
  beforeR0_4_of V (datR0 V c) (A_eqR0 V c 4) (afterR0_4 V c) t d
theorem beforeR0_5 (c : Dev nD) (t : Fin cfg0.N) (d) : (datR0 V c).before 5 t d = iblkR0 V c 5 t :=
  beforeR0_5_of V (datR0 V c) (A_eqR0 V c 5) (afterR0_5 V c) t d

/-! ## The body obligation -/

def bodyPreR0 (c : Dev nD) (t : Fin cfg0.N) : sProp 𝕄 :=
  iprop((datR0 V c).Φ t.castSucc ∗ (datR0 V c).owesAt () t.castSucc
    ∗ (∃ d, owns (c : Thread nD τ) (msR0_0 t) fullShare ((datR0 V c).before 0 t d))
    ∗ (∃ d, owns (c : Thread nD τ) (msR0_1 t) fullShare ((datR0 V c).before 1 t d))
    ∗ (∃ d, owns (c : Thread nD τ) (msR0_2 t) fullShare ((datR0 V c).before 2 t d))
    ∗ (∃ d, owns (c : Thread nD τ) (msR0_3 t) fullShare ((datR0 V c).before 3 t d))
    ∗ (∃ d, owns (c : Thread nD τ) (msR0_4 t) fullShare ((datR0 V c).before 4 t d))
    ∗ (∃ d, owns (c : Thread nD τ) (msR0_5 t) fullShare ((datR0 V c).before 5 t d))
    ∗ (∃ d, owns (c : Thread nD τ) (msR0_6 t) fullShare ((datR0 V c).before 6 t d))
    ∗ (∃ d, owns (c : Thread nD τ) (msR0_7 t) fullShare ((datR0 V c).before 7 t d)))

def bodyPostR0 (c : Dev nD) (t : Fin cfg0.N) : sProp 𝕄 :=
  iprop((datR0 V c).Φ t.succ ∗ (datR0 V c).owesAt () t.succ
    ∗ (datR0 V c).leavesExact 0 t
    ∗ (datR0 V c).leavesExact 1 t
    ∗ (datR0 V c).leavesExact 2 t
    ∗ (datR0 V c).leavesExact 3 t
    ∗ (datR0 V c).leavesExact 4 t
    ∗ (datR0 V c).leavesExact 5 t
    ∗ (datR0 V c).leavesExact 6 t
    ∗ (datR0 V c).leavesExact 7 t)

set_option maxHeartbeats 8000000 in
/-- The body at any point: the inputs' memrefs hold their blocks; the contraction coordinate says which case the point is in;
    the invariant hands the body the accumulators at what the point before left (at anything before the first point) and
    takes them back at this point's contents; the core owes nothing throughout. -/
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0 bodyAt0
  simp only [beforeR0_0, beforeR0_1, beforeR0_2, beforeR0_3, beforeR0_4, beforeR0_5]
  rw [show (datR0 V c).owesAt () t.succ = (datR0 V c).owesAt () t.castSucc from rfl]
  rw [show (datR0 V c).Φ t.succ = PhiSR0 V c (t.val + 1) t.isLt from rfl, PhiSR0_succ]
  have hN : t.val < 32 := lt_of_lt_of_eq t.isLt (show cfg0.N = 32 from N_0)
  by_cases h0 : t.val % 8 = 0
  · have h1 : ¬t.val % 8 = 7 := by omega
    rw [show (datR0 V c).leavesExact 0 t = owns (c : Thread nD τ) (msR0_0 t) fullShare ((datR0 V c).after 0 t) from by
      unfold Dat.leavesExact; rw [liveAtR0_0 t], afterR0_0]
    rw [show (datR0 V c).leavesExact 1 t = owns (c : Thread nD τ) (msR0_1 t) fullShare ((datR0 V c).after 1 t) from by
      unfold Dat.leavesExact; rw [liveAtR0_1 t], afterR0_1]
    rw [show (datR0 V c).leavesExact 2 t = owns (c : Thread nD τ) (msR0_2 t) fullShare ((datR0 V c).after 2 t) from by
      unfold Dat.leavesExact; rw [liveAtR0_2 t], afterR0_2]
    rw [show (datR0 V c).leavesExact 3 t = owns (c : Thread nD τ) (msR0_3 t) fullShare ((datR0 V c).after 3 t) from by
      unfold Dat.leavesExact; rw [liveAtR0_3 t], afterR0_3]
    rw [show (datR0 V c).leavesExact 4 t = owns (c : Thread nD τ) (msR0_4 t) fullShare ((datR0 V c).after 4 t) from by
      unfold Dat.leavesExact; rw [liveAtR0_4 t], afterR0_4]
    rw [show (datR0 V c).leavesExact 5 t = owns (c : Thread nD τ) (msR0_5 t) fullShare ((datR0 V c).after 5 t) from by
      unfold Dat.leavesExact; rw [liveAtR0_5 t], afterR0_5]
    rw [Dat.leavesExact_idle (datR0 V c) 6 t (idleAtR0_6 t (fun h => h1 ((hcondR0_1 t).mp h))) (noFlushR0_6 t (fun h => h1 ((hcondR0_1 t).mp h)))]
    rw [Dat.leavesExact_idle (datR0 V c) 7 t (idleAtR0_7 t (fun h => h1 ((hcondR0_1 t).mp h))) (noFlushR0_7 t (fun h => h1 ((hcondR0_1 t).mp h)))]
    rw [outsAtR0_A V c t h0 h1]
    unfold caseAR0 soutR0_A_0 soutR0_A_1; (try dsimp only)
    by_cases hz : t.val = 0
    · rw [PhiSR0_castSucc V c t, PhiSR0_zero V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunR0_A c (grid0.coords t) _ _ _ _ _ _ _ _ _ _ _ _ _ _ _ _ _ _ _ _ ((hcondR0_0 t).mpr h0) (fun h => h1 ((hcondR0_1 t).mp h)) (iblkR0 V c 0 t) (iblkR0 V c 1 t) (iblkR0 V c 2 t) (iblkR0 V c 3 t) (iblkR0 V c 4 t) (iblkR0 V c 5 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverR0_A_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverR0_A_1 c _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiSR0_castSucc V c t, PhiSR0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunR0_A c (grid0.coords t) _ _ _ _ _ _ _ _ _ _ _ _ _ _ _ _ _ _ _ _ ((hcondR0_0 t).mpr h0) (fun h => h1 ((hcondR0_1 t).mp h)) (iblkR0 V c 0 t) (iblkR0 V c 1 t) (iblkR0 V c 2 t) (iblkR0 V c 3 t) (iblkR0 V c 4 t) (iblkR0 V c 5 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverR0_A_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverR0_A_1 c _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := fun e => h0 (by rw [e])
    by_cases h1 : t.val % 8 = 7
    · rw [show (datR0 V c).leavesExact 0 t = owns (c : Thread nD τ) (msR0_0 t) fullShare ((datR0 V c).after 0 t) from by
        unfold Dat.leavesExact; rw [liveAtR0_0 t], afterR0_0]
      rw [show (datR0 V c).leavesExact 1 t = owns (c : Thread nD τ) (msR0_1 t) fullShare ((datR0 V c).after 1 t) from by
        unfold Dat.leavesExact; rw [liveAtR0_1 t], afterR0_1]
      rw [show (datR0 V c).leavesExact 2 t = owns (c : Thread nD τ) (msR0_2 t) fullShare ((datR0 V c).after 2 t) from by
        unfold Dat.leavesExact; rw [liveAtR0_2 t], afterR0_2]
      rw [show (datR0 V c).leavesExact 3 t = owns (c : Thread nD τ) (msR0_3 t) fullShare ((datR0 V c).after 3 t) from by
        unfold Dat.leavesExact; rw [liveAtR0_3 t], afterR0_3]
      rw [show (datR0 V c).leavesExact 4 t = owns (c : Thread nD τ) (msR0_4 t) fullShare ((datR0 V c).after 4 t) from by
        unfold Dat.leavesExact; rw [liveAtR0_4 t], afterR0_4]
      rw [show (datR0 V c).leavesExact 5 t = owns (c : Thread nD τ) (msR0_5 t) fullShare ((datR0 V c).after 5 t) from by
        unfold Dat.leavesExact; rw [liveAtR0_5 t], afterR0_5]
      rw [show (datR0 V c).leavesExact 6 t = owns (c : Thread nD τ) (msR0_6 t) fullShare ((datR0 V c).after 6 t) from by
        unfold Dat.leavesExact; rw [liveAtR0_6_C t ((hcondR0_1 t).mpr h1)], afterR0_6]
      rw [show (datR0 V c).leavesExact 7 t = owns (c : Thread nD τ) (msR0_7 t) fullShare ((datR0 V c).after 7 t) from by
        unfold Dat.leavesExact; rw [liveAtR0_7_C t ((hcondR0_1 t).mpr h1)], afterR0_7]
      rw [outsAtR0_C V c t h0 h1]
      unfold caseCR0 outR0_C_6 outR0_C_7 soutR0_C_0 soutR0_C_1; (try dsimp only)
      rw [PhiSR0_castSucc V c t, PhiSR0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunR0_C c (grid0.coords t) _ _ _ _ _ _ _ _ _ _ _ _ _ _ _ _ _ _ _ _ (fun h => h0 ((hcondR0_0 t).mp h)) ((hcondR0_1 t).mpr h1) (iblkR0 V c 0 t) (iblkR0 V c 1 t) (iblkR0 V c 2 t) (iblkR0 V c 3 t) (iblkR0 V c 4 t) (iblkR0 V c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverR0_C_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverR0_C_1 c _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverR0_C_6 c _ _ _ _ _ _ _ _ _ _ _ _ _ _ _ _ _ _ _ _ _ _ _ _ _ _ _ _ _ _ _)
      unfold owns; iexists _; isplitr
      swap; · iexact H7
      ipureintro; exact View.read_writes_of_cover _ _ _ _ _ (coverR0_C_7 c _ _ _ _ _ _ _ _ _ _ _ _ _ _ _ _ _ _ _ _ _ _ _ _ _ _ _ _ _ _ _)
    · rw [show (datR0 V c).leavesExact 0 t = owns (c : Thread nD τ) (msR0_0 t) fullShare ((datR0 V c).after 0 t) from by
        unfold Dat.leavesExact; rw [liveAtR0_0 t], afterR0_0]
      rw [show (datR0 V c).leavesExact 1 t = owns (c : Thread nD τ) (msR0_1 t) fullShare ((datR0 V c).after 1 t) from by
        unfold Dat.leavesExact; rw [liveAtR0_1 t], afterR0_1]
      rw [show (datR0 V c).leavesExact 2 t = owns (c : Thread nD τ) (msR0_2 t) fullShare ((datR0 V c).after 2 t) from by
        unfold Dat.leavesExact; rw [liveAtR0_2 t], afterR0_2]
      rw [show (datR0 V c).leavesExact 3 t = owns (c : Thread nD τ) (msR0_3 t) fullShare ((datR0 V c).after 3 t) from by
        unfold Dat.leavesExact; rw [liveAtR0_3 t], afterR0_3]
      rw [show (datR0 V c).leavesExact 4 t = owns (c : Thread nD τ) (msR0_4 t) fullShare ((datR0 V c).after 4 t) from by
        unfold Dat.leavesExact; rw [liveAtR0_4 t], afterR0_4]
      rw [show (datR0 V c).leavesExact 5 t = owns (c : Thread nD τ) (msR0_5 t) fullShare ((datR0 V c).after 5 t) from by
        unfold Dat.leavesExact; rw [liveAtR0_5 t], afterR0_5]
      rw [Dat.leavesExact_idle (datR0 V c) 6 t (idleAtR0_6 t (fun h => h1 ((hcondR0_1 t).mp h))) (noFlushR0_6 t (fun h => h1 ((hcondR0_1 t).mp h)))]
      rw [Dat.leavesExact_idle (datR0 V c) 7 t (idleAtR0_7 t (fun h => h1 ((hcondR0_1 t).mp h))) (noFlushR0_7 t (fun h => h1 ((hcondR0_1 t).mp h)))]
      rw [outsAtR0_B V c t h0 h1]
      unfold caseBR0 soutR0_B_0 soutR0_B_1; (try dsimp only)
      rw [PhiSR0_castSucc V c t, PhiSR0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunR0_B c (grid0.coords t) _ _ _ _ _ _ _ _ _ _ _ _ _ _ _ _ _ _ _ _ (fun h => h0 ((hcondR0_0 t).mp h)) (fun h => h1 ((hcondR0_1 t).mp h)) (iblkR0 V c 0 t) (iblkR0 V c 1 t) (iblkR0 V c 2 t) (iblkR0 V c 3 t) (iblkR0 V c 4 t) (iblkR0 V c 5 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverR0_B_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverR0_B_1 c _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligationR0 (c : Dev nD) : BodyObligation (datR0 (F := F) V c) (defs₀ (F := F)) Variants.none () Set.univ := fun t => by
  rw [bigSep_W0, bigSep_W0]
  exact sound_bodyR0 V c t

end

end Cert.KernelIdeal.Fr

end
-- ==== Proof.FrI1S.lean ====
import proofs.«105748_j27410481283396_2_alg».proof.Proof.Gen.KernelIdeal.Launch
import proofs.«105748_j27410481283396_2_alg».proof.Proof.Gen.KernelIdeal.Skeleton
import proofs.«105748_j27410481283396_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What the three control cases of the layer kernel share: the blocks the region finds in its windows' arrays, that
    an input window's staging buffer holds its block at every grid point, the two branch conditions in closed form over
    the grid (the contraction coordinate is 0; it is 7), where the output windows are idle, and the scoped buffers split
    into the two accumulators and the rest. Everything is stated at a PARAMETER `V`, the buffer contents when the region is
    entered. -/

section
variable (V : (c : Dev nD) → (b : Ref sig .tc) → Buf (Elt F) ((c : Thread nD τ).loc b))

/-- Window `w`'s block at grid point `t`, read off its array as the region finds it. -/
def iblkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: an unfetched
    point has the block index of the point before. -/
theorem beforeR1_0_of {c : Dev nD} (dat : Dat τ (Elt F) Unit ℕ (UR sig nD τ) ℕ cfg1 c) (hA : dat.A 0 = V c (Pipeline.arrRef spec1 0))
    (hafter : ∀ t, dat.after 0 t = iblkR1 V c 0 t) (t : Fin cfg1.N) (d) : dat.before 0 t d = iblkR1 V c 0 t :=
  (dat.before_in_eq_fetched 0 rfl (fun _ => rfl) (fun _ _ _ => rfl) (fun t => by rw [hafter]; unfold Dat.blockOf iblkR1; rw [hA]; try rfl) t d).trans
    (by unfold Dat.fetched Dat.blockOf iblkR1; rw [hA]; try rfl)

/-- Input window 1's current staging buffer holds its block at every point, fetched there or not: an unfetched
    point has the block index of the point before. -/
theorem beforeR1_1_of {c : Dev nD} (dat : Dat τ (Elt F) Unit ℕ (UR sig nD τ) ℕ cfg1 c) (hA : dat.A 1 = V c (Pipeline.arrRef spec1 1))
    (hafter : ∀ t, dat.after 1 t = iblkR1 V c 1 t) (t : Fin cfg1.N) (d) : dat.before 1 t d = iblkR1 V c 1 t :=
  (dat.before_in_eq_fetched 1 rfl (fun _ => rfl) (fun _ _ _ => rfl) (fun t => by rw [hafter]; unfold Dat.blockOf iblkR1; rw [hA]; try rfl) t d).trans
    (by unfold Dat.fetched Dat.blockOf iblkR1; rw [hA]; try rfl)

/-- Input window 2's current staging buffer holds its block at every point, fetched there or not: an unfetched
    point has the block index of the point before. -/
theorem beforeR1_2_of {c : Dev nD} (dat : Dat τ (Elt F) Unit ℕ (UR sig nD τ) ℕ cfg1 c) (hA : dat.A 2 = V c (Pipeline.arrRef spec1 2))
    (hafter : ∀ t, dat.after 2 t = iblkR1 V c 2 t) (t : Fin cfg1.N) (d) : dat.before 2 t d = iblkR1 V c 2 t :=
  (dat.before_in_eq_fetched 2 rfl (fun _ => rfl) (fun _ _ _ => rfl) (fun t => by rw [hafter]; unfold Dat.blockOf iblkR1; rw [hA]; try rfl) t d).trans
    (by unfold Dat.fetched Dat.blockOf iblkR1; rw [hA]; try rfl)

/-- Input window 3's current staging buffer holds its block at every point, fetched there or not: an unfetched
    point has the block index of the point before. -/
theorem beforeR1_3_of {c : Dev nD} (dat : Dat τ (Elt F) Unit ℕ (UR sig nD τ) ℕ cfg1 c) (hA : dat.A 3 = V c (Pipeline.arrRef spec1 3))
    (hafter : ∀ t, dat.after 3 t = iblkR1 V c 3 t) (t : Fin cfg1.N) (d) : dat.before 3 t d = iblkR1 V c 3 t :=
  (dat.before_in_eq_fetched 3 rfl (fun _ => rfl) (fun _ _ _ => rfl) (fun t => by rw [hafter]; unfold Dat.blockOf iblkR1; rw [hA]; try rfl) t d).trans
    (by unfold Dat.fetched Dat.blockOf iblkR1; rw [hA]; try rfl)

/-- Input window 4's current staging buffer holds its block at every point, fetched there or not: an unfetched
    point has the block index of the point before. -/
theorem beforeR1_4_of {c : Dev nD} (dat : Dat τ (Elt F) Unit ℕ (UR sig nD τ) ℕ cfg1 c) (hA : dat.A 4 = V c (Pipeline.arrRef spec1 4))
    (hafter : ∀ t, dat.after 4 t = iblkR1 V c 4 t) (t : Fin cfg1.N) (d) : dat.before 4 t d = iblkR1 V c 4 t :=
  (dat.before_in_eq_fetched 4 rfl (fun _ => rfl) (fun _ _ _ => rfl) (fun t => by rw [hafter]; unfold Dat.blockOf iblkR1; rw [hA]; try rfl) t d).trans
    (by unfold Dat.fetched Dat.blockOf iblkR1; rw [hA]; try rfl)

/-- Input window 5's current staging buffer holds its block at every point, fetched there or not: an unfetched
    point has the block index of the point before. -/
theorem beforeR1_5_of {c : Dev nD} (dat : Dat τ (Elt F) Unit ℕ (UR sig nD τ) ℕ cfg1 c) (hA : dat.A 5 = V c (Pipeline.arrRef spec1 5))
    (hafter : ∀ t, dat.after 5 t = iblkR1 V c 5 t) (t : Fin cfg1.N) (d) : dat.before 5 t d = iblkR1 V c 5 t :=
  (dat.before_in_eq_fetched 5 rfl (fun _ => rfl) (fun _ _ _ => rfl) (fun t => by rw [hafter]; unfold Dat.blockOf iblkR1; rw [hA]; try rfl) t d).trans
    (by unfold Dat.fetched Dat.blockOf iblkR1; rw [hA]; try rfl)

end

/-! ## The body's two branch conditions -/

/-- The first branch (zero the accumulators) is taken when the contraction coordinate is 0. -/
abbrev condR1_0 (i : grid1.Coords) : Prop := (Scalar.cmpi .ne (Scalar.extui (Scalar.cmpi .eq (BitVec.ofNat 32 (i 1).val) 0#32)) 0#32) = 1#1
theorem hcondR1_0 : ∀ t : Fin cfg1.N, condR1_0 (grid1.coords t) ↔ t.val % 8 = 0 :=
  (by decide +kernel : ∀ t : Fin grid1.N, condR1_0 (grid1.coords t) ↔ t.val % 8 = 0)

/-- The second branch (add the bias, clamp at zero, store the output block) is taken when it is 7. -/
abbrev condR1_1 (i : grid1.Coords) : Prop := k1_cond2 i = 1#1
theorem hcondR1_1 : ∀ t : Fin cfg1.N, condR1_1 (grid1.coords t) ↔ t.val % 8 = 7 :=
  (by decide +kernel : ∀ t : Fin grid1.N, condR1_1 (grid1.coords t) ↔ t.val % 8 = 7)

/-! ## Where the windows are idle -/

theorem liveAtR1_0 : ∀ t : Fin cfg1.N, cfg1.idle 0 (grid1.coords t) = false := fun _ => rfl
theorem liveAtR1_1 : ∀ t : Fin cfg1.N, cfg1.idle 1 (grid1.coords t) = false := fun _ => rfl
theorem liveAtR1_2 : ∀ t : Fin cfg1.N, cfg1.idle 2 (grid1.coords t) = false := fun _ => rfl
theorem liveAtR1_3 : ∀ t : Fin cfg1.N, cfg1.idle 3 (grid1.coords t) = false := fun _ => rfl
theorem liveAtR1_4 : ∀ t : Fin cfg1.N, cfg1.idle 4 (grid1.coords t) = false := fun _ => rfl
theorem liveAtR1_5 : ∀ t : Fin cfg1.N, cfg1.idle 5 (grid1.coords t) = false := fun _ => rfl
/-- Away from the last contraction step nothing is stored into output window 6 and its block is not written back. -/
theorem idleAtR1_6 : ∀ t : Fin cfg1.N, ¬condR1_1 (grid1.coords t) → cfg1.idle 6 (grid1.coords t) = true := by decide +kernel
theorem noFlushR1_6 : ∀ t : Fin cfg1.N, ¬condR1_1 (grid1.coords t) → (cfg1.win 6).flush t = false := by decide +kernel
theorem liveAtR1_6_C : ∀ t : Fin cfg1.N, condR1_1 (grid1.coords t) → cfg1.idle 6 (grid1.coords t) = false := by decide +kernel
/-- Away from the last contraction step nothing is stored into output window 7 and its block is not written back. -/
theorem idleAtR1_7 : ∀ t : Fin cfg1.N, ¬condR1_1 (grid1.coords t) → cfg1.idle 7 (grid1.coords t) = true := by decide +kernel
theorem noFlushR1_7 : ∀ t : Fin cfg1.N, ¬condR1_1 (grid1.coords t) → (cfg1.win 7).flush t = false := by decide +kernel
theorem liveAtR1_7_C : ∀ t : Fin cfg1.N, condR1_1 (grid1.coords t) → cfg1.idle 7 (grid1.coords t) = false := by decide +kernel

/-! ## The staging and scratch memrefs -/

abbrev VOR1_6 : View sig .tc .vmem S2048x32 .f32 := (Memref.whole cc1_stg6_0 : Memref sig .tc .vmem S2048x32 .f32).view
abbrev VOR1_7 : View sig .tc .vmem S2048x32 .f32 := (Memref.whole cc1_stg7_0 : Memref sig .tc .vmem S2048x32 .f32).view
abbrev msR1_0 (t : Fin cfg1.N) : Memref sig .tc .vmem S2048x1024 .f32 := win1_0.stage (cfg1.slots t 0)
abbrev hsR1_0 (t : Fin cfg1.N) : (msR1_0 t).IsWhole := hstage1_0 ((cfg1.slots t 0).cast nbuf1_0)
abbrev msR1_1 (t : Fin cfg1.N) : Memref sig .tc .vmem S2048x1024 .f32 := win1_1.stage (cfg1.slots t 1)
abbrev hsR1_1 (t : Fin cfg1.N) : (msR1_1 t).IsWhole := hstage1_1 ((cfg1.slots t 1).cast nbuf1_1)
abbrev msR1_2 (t : Fin cfg1.N) : Memref sig .tc .vmem S8192x32 .f32 := win1_2.stage (cfg1.slots t 2)
abbrev hsR1_2 (t : Fin cfg1.N) : (msR1_2 t).IsWhole := hstage1_2 ((cfg1.slots t 2).cast nbuf1_2)
abbrev msR1_3 (t : Fin cfg1.N) : Memref sig .tc .vmem S8192x32 .f32 := win1_3.stage (cfg1.slots t 3)
abbrev hsR1_3 (t : Fin cfg1.N) : (msR1_3 t).IsWhole := hstage1_3 ((cfg1.slots t 3).cast nbuf1_3)
abbrev msR1_4 (t : Fin cfg1.N) : Memref sig .tc .vmem S1x32 .f32 := win1_4.stage (cfg1.slots t 4)
abbrev hsR1_4 (t : Fin cfg1.N) : (msR1_4 t).IsWhole := hstage1_4 ((cfg1.slots t 4).cast nbuf1_4)
abbrev msR1_5 (t : Fin cfg1.N) : Memref sig .tc .vmem S1x32 .f32 := win1_5.stage (cfg1.slots t 5)
abbrev hsR1_5 (t : Fin cfg1.N) : (msR1_5 t).IsWhole := hstage1_5 ((cfg1.slots t 5).cast nbuf1_5)
abbrev msR1_6 (t : Fin cfg1.N) : Memref sig .tc .vmem S2048x32 .f32 := win1_6.stage (cfg1.slots t 6)
abbrev hsR1_6 (t : Fin cfg1.N) : (msR1_6 t).IsWhole := hstage1_6 ((cfg1.slots t 6).cast nbuf1_6)
abbrev msR1_7 (t : Fin cfg1.N) : Memref sig .tc .vmem S2048x32 .f32 := win1_7.stage (cfg1.slots t 7)
abbrev hsR1_7 (t : Fin cfg1.N) : (msR1_7 t).IsWhole := hstage1_7 ((cfg1.slots t 7).cast nbuf1_7)
/-- The two accumulators: whole scoped buffers of the kernel's own, carried from one grid point to the next. -/
abbrev scMR1_0 : Memref sig .tc .vmem S2048x32 .f32 := Memref.whole cc1_scratch0
abbrev scMR1_1 : Memref sig .tc .vmem S2048x32 .f32 := Memref.whole cc1_scratch1
abbrev VSR1_0 : View sig .tc .vmem S2048x32 .f32 := scMR1_0.view
abbrev VSR1_1 : View sig .tc .vmem S2048x32 .f32 := scMR1_1.view

/-- The core's scoped buffers other than this region's staging buffers and its two accumulators, each at some contents. -/
def restR1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The scoped buffers no window stages are the two accumulators, each at some contents, and the rest. -/
theorem scopedSplitR1 (c : Dev nD) :
    (Pipeline.scopedRest (Ix := Unit) (Name := ℕ) (U := UR sig nD τ) (Lvl := ℕ) (Val := Elt F) spec1 c : sProp 𝕄)
      ⊢ iprop((∃ d, owns (c : Thread nD τ) scMR1_0 fullShare d) ∗ (∃ d, owns (c : Thread nD τ) scMR1_1 fullShare d) ∗ restR1 c) := by
  rw [scopedRest1_eq]; unfold restR1; simp only [scMR1_0, scMR1_1, owns_whole]
  iintro ⟨Hq0, Hq1, Hq2, Hq3, Hq4, Hq5, Hq6, Hq7, Hq8, Hq9, Hq10, Hq11, Hq12, Hq13, HS0, HS1⟩
  isplitl [HS0]; · iexact HS0
  isplitl [HS1]; · iexact HS1
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  iexact Hq13

theorem scopedJoinR1 (c : Dev nD) :
    iprop((∃ d, owns (c : Thread nD τ) scMR1_0 fullShare d) ∗ (∃ d, owns (c : Thread nD τ) scMR1_1 fullShare d) ∗ restR1 c)
      ⊢ (Pipeline.scopedRest (Ix := Unit) (Name := ℕ) (U := UR sig nD τ) (Lvl := ℕ) (Val := Elt F) spec1 c : sProp 𝕄) := by
  rw [scopedRest1_eq]; unfold restR1; simp only [scMR1_0, scMR1_1, owns_whole]
  iintro ⟨HS0, HS1, Hq0, Hq1, Hq2, Hq3, Hq4, Hq5, Hq6, Hq7, Hq8, Hq9, Hq10, Hq11, Hq12, Hq13⟩
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [HS0]; · iexact HS0
  iexact HS1

end Cert.KernelIdeal.Fr

end
-- ==== Proof.FrI1A.lean ====
import proofs.«105748_j27410481283396_2_alg».proof.Proof.FrI1S

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The layer kernel's body in the control case A (contraction coordinate 0: the accumulators are zeroed, then receive the first partial product): on whole staging memrefs —
    the inputs' at their contents, the outputs' handed back untouched, the accumulators at anything — it runs to the continuation holding the inputs' as they were and
    each buffer it stored into with its pieces written; the pieces (last store first) are the witness the symbolic run finds. -/
noncomputable def kernelRunR1_A (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : condR1_0 i) (hc1 : ¬condR1_1 i)
    (x0 x1 : Vec F S2048x1024 .f32) (x2 x3 : Vec F S8192x32 .f32) (x4 x5 : Vec F S1x32 .f32) :
    Σ' (L6 : List (View.Piece (Elt F) S2048x32 .f32)) (L7 : List (View.Piece (Elt F) S2048x32 .f32)) (LS0 : List (View.Piece (Elt F) S2048x32 .f32)), { LS1 : List (View.Piece (Elt F) S2048x32 .f32) //
      ∀ (xi6 xi7 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__dgcn_pair_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc1__dgcn_pair_kernel_eq_skeleton]; unfold cc1__dgcn_pair_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Fr

end
-- ==== Proof.FrI1B.lean ====
import proofs.«105748_j27410481283396_2_alg».proof.Proof.FrI1A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The layer kernel's body in the control case B (contraction coordinate 1 to 6: the accumulators receive one more partial product): on whole staging memrefs —
    the inputs' at their contents, the outputs' handed back untouched, the accumulators at what the point before left — it runs to the continuation holding the inputs' as they were and
    each buffer it stored into with its pieces written; the pieces (last store first) are the witness the symbolic run finds. -/
noncomputable def kernelRunR1_B (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : ¬condR1_1 i)
    (x0 x1 : Vec F S2048x1024 .f32) (x2 x3 : Vec F S8192x32 .f32) (x4 x5 : Vec F S1x32 .f32) (xs0 xs1 : Vec F S2048x32 .f32) :
    Σ' (L6 : List (View.Piece (Elt F) S2048x32 .f32)) (L7 : List (View.Piece (Elt F) S2048x32 .f32)) (LS0 : List (View.Piece (Elt F) S2048x32 .f32)), { LS1 : List (View.Piece (Elt F) S2048x32 .f32) //
      ∀ (xi6 xi7 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__dgcn_pair_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc1__dgcn_pair_kernel_eq_skeleton]; unfold cc1__dgcn_pair_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Fr

end
-- ==== Proof.FrI1C.lean ====
import proofs.«105748_j27410481283396_2_alg».proof.Proof.FrI1B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The layer kernel's body in the control case C (contraction coordinate 7: the accumulators receive the last partial product, and each output block is stored as the accumulator plus the bias, clamped at zero): on whole staging memrefs —
    the inputs' at their contents, the outputs' at anything, the accumulators at what the point before left — it runs to the continuation holding the inputs' as they were and
    each buffer it stored into with its pieces written; the pieces (last store first) are the witness the symbolic run finds. -/
noncomputable def kernelRunR1_C (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : condR1_1 i)
    (x0 x1 : Vec F S2048x1024 .f32) (x2 x3 : Vec F S8192x32 .f32) (x4 x5 : Vec F S1x32 .f32) (xs0 xs1 : Vec F S2048x32 .f32) :
    Σ' (L6 : List (View.Piece (Elt F) S2048x32 .f32)) (L7 : List (View.Piece (Elt F) S2048x32 .f32)) (LS0 : List (View.Piece (Elt F) S2048x32 .f32)), { LS1 : List (View.Piece (Elt F) S2048x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__dgcn_pair_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__dgcn_pair_kernel_eq_skeleton]; unfold cc1__dgcn_pair_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.KernelIdeal.Fr

end
-- ==== Proof.FrI1.lean ====
import proofs.«105748_j27410481283396_2_alg».proof.Proof.FrI1C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The layer kernel's proof data at a PARAMETER `V` (the buffer contents when the region is entered): what each control
    case leaves in the two accumulators and the two output blocks, what they hold after every grid point (by recursion on
    the point: an accumulator starts each later point from what the point before left), the region invariant carrying the
    accumulators, and the body's obligation at every point. -/

section
variable (V : (c : Dev nD) → (b : Ref sig .tc) → Buf (Elt F) ((c : Thread nD τ).loc b))

/-- Case A's stores into accumulator 0 tile it, so they cover it. -/
theorem scoverR1_A_0 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : condR1_0 i) (hc1 : ¬condR1_1 i)
    (x0 x1 : Vec F S2048x1024 .f32) (x2 x3 : Vec F S8192x32 .f32) (x4 x5 : Vec F S1x32 .f32) (y : S2048x32.Idx) :
    ∃ pc ∈ (kernelRunR1_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRunR1_A c i arg2 harg2 arg3 harg3 arg4 harg4 arg5 harg5 arg6 harg6 arg7 harg7 arg8 harg8 arg9 harg9 arg10 harg10 arg11 harg11 hc0 hc1 x0 x1 x2 x3 x4 x5).2.2.1 S2048x32.size (by sl_kernel_rfl) y

/-- What case A leaves in accumulator 0: its stores read back. -/
def soutR1_A_0 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : condR1_0 i) (hc1 : ¬condR1_1 i)
    (x0 x1 : Vec F S2048x1024 .f32) (x2 x3 : Vec F S8192x32 .f32) (x4 x5 : Vec F S1x32 .f32) : Vec F S2048x32 .f32 :=
  VSR1_0.read (Elt F) (VSR1_0.writes (Elt F) VSR1_0.junk (kernelRunR1_A c i arg2 harg2 arg3 harg3 arg4 harg4 arg5 harg5 arg6 harg6 arg7 harg7 arg8 harg8 arg9 harg9 arg10 harg10 arg11 harg11 hc0 hc1 x0 x1 x2 x3 x4 x5).2.2.1)

/-- Case A's stores into accumulator 1 tile it, so they cover it. -/
theorem scoverR1_A_1 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : condR1_0 i) (hc1 : ¬condR1_1 i)
    (x0 x1 : Vec F S2048x1024 .f32) (x2 x3 : Vec F S8192x32 .f32) (x4 x5 : Vec F S1x32 .f32) (y : S2048x32.Idx) :
    ∃ pc ∈ (kernelRunR1_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRunR1_A c i arg2 harg2 arg3 harg3 arg4 harg4 arg5 harg5 arg6 harg6 arg7 harg7 arg8 harg8 arg9 harg9 arg10 harg10 arg11 harg11 hc0 hc1 x0 x1 x2 x3 x4 x5).2.2.2.1 S2048x32.size (by sl_kernel_rfl) y

/-- What case A leaves in accumulator 1: its stores read back. -/
def soutR1_A_1 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : condR1_0 i) (hc1 : ¬condR1_1 i)
    (x0 x1 : Vec F S2048x1024 .f32) (x2 x3 : Vec F S8192x32 .f32) (x4 x5 : Vec F S1x32 .f32) : Vec F S2048x32 .f32 :=
  VSR1_1.read (Elt F) (VSR1_1.writes (Elt F) VSR1_1.junk (kernelRunR1_A c i arg2 harg2 arg3 harg3 arg4 harg4 arg5 harg5 arg6 harg6 arg7 harg7 arg8 harg8 arg9 harg9 arg10 harg10 arg11 harg11 hc0 hc1 x0 x1 x2 x3 x4 x5).2.2.2.1)

/-- Case B's stores into accumulator 0 tile it, so they cover it. -/
theorem scoverR1_B_0 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : ¬condR1_1 i)
    (x0 x1 : Vec F S2048x1024 .f32) (x2 x3 : Vec F S8192x32 .f32) (x4 x5 : Vec F S1x32 .f32) (xs0 xs1 : Vec F S2048x32 .f32) (y : S2048x32.Idx) :
    ∃ pc ∈ (kernelRunR1_B c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRunR1_B c i arg2 harg2 arg3 harg3 arg4 harg4 arg5 harg5 arg6 harg6 arg7 harg7 arg8 harg8 arg9 harg9 arg10 harg10 arg11 harg11 hc0 hc1 x0 x1 x2 x3 x4 x5 xs0 xs1).2.2.1 S2048x32.size (by sl_kernel_rfl) y

/-- What case B leaves in accumulator 0: its stores read back. -/
def soutR1_B_0 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : ¬condR1_1 i)
    (x0 x1 : Vec F S2048x1024 .f32) (x2 x3 : Vec F S8192x32 .f32) (x4 x5 : Vec F S1x32 .f32) (xs0 xs1 : Vec F S2048x32 .f32) : Vec F S2048x32 .f32 :=
  VSR1_0.read (Elt F) (VSR1_0.writes (Elt F) VSR1_0.junk (kernelRunR1_B c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case B's stores into accumulator 1 tile it, so they cover it. -/
theorem scoverR1_B_1 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : ¬condR1_1 i)
    (x0 x1 : Vec F S2048x1024 .f32) (x2 x3 : Vec F S8192x32 .f32) (x4 x5 : Vec F S1x32 .f32) (xs0 xs1 : Vec F S2048x32 .f32) (y : S2048x32.Idx) :
    ∃ pc ∈ (kernelRunR1_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRunR1_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S2048x32.size (by sl_kernel_rfl) y

/-- What case B leaves in accumulator 1: its stores read back. -/
def soutR1_B_1 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : ¬condR1_1 i)
    (x0 x1 : Vec F S2048x1024 .f32) (x2 x3 : Vec F S8192x32 .f32) (x4 x5 : Vec F S1x32 .f32) (xs0 xs1 : Vec F S2048x32 .f32) : Vec F S2048x32 .f32 :=
  VSR1_1.read (Elt F) (VSR1_1.writes (Elt F) VSR1_1.junk (kernelRunR1_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- Case C's stores into accumulator 0 tile it, so they cover it. -/
theorem scoverR1_C_0 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : condR1_1 i)
    (x0 x1 : Vec F S2048x1024 .f32) (x2 x3 : Vec F S8192x32 .f32) (x4 x5 : Vec F S1x32 .f32) (xs0 xs1 : Vec F S2048x32 .f32) (y : S2048x32.Idx) :
    ∃ pc ∈ (kernelRunR1_C c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRunR1_C c i arg2 harg2 arg3 harg3 arg4 harg4 arg5 harg5 arg6 harg6 arg7 harg7 arg8 harg8 arg9 harg9 arg10 harg10 arg11 harg11 hc0 hc1 x0 x1 x2 x3 x4 x5 xs0 xs1).2.2.1 S2048x32.size (by sl_kernel_rfl) y

/-- What case C leaves in accumulator 0: its stores read back. -/
def soutR1_C_0 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : condR1_1 i)
    (x0 x1 : Vec F S2048x1024 .f32) (x2 x3 : Vec F S8192x32 .f32) (x4 x5 : Vec F S1x32 .f32) (xs0 xs1 : Vec F S2048x32 .f32) : Vec F S2048x32 .f32 :=
  VSR1_0.read (Elt F) (VSR1_0.writes (Elt F) VSR1_0.junk (kernelRunR1_C c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's stores into accumulator 1 tile it, so they cover it. -/
theorem scoverR1_C_1 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : condR1_1 i)
    (x0 x1 : Vec F S2048x1024 .f32) (x2 x3 : Vec F S8192x32 .f32) (x4 x5 : Vec F S1x32 .f32) (xs0 xs1 : Vec F S2048x32 .f32) (y : S2048x32.Idx) :
    ∃ pc ∈ (kernelRunR1_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRunR1_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S2048x32.size (by sl_kernel_rfl) y

/-- What case C leaves in accumulator 1: its stores read back. -/
def soutR1_C_1 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : condR1_1 i)
    (x0 x1 : Vec F S2048x1024 .f32) (x2 x3 : Vec F S8192x32 .f32) (x4 x5 : Vec F S1x32 .f32) (xs0 xs1 : Vec F S2048x32 .f32) : Vec F S2048x32 .f32 :=
  VSR1_1.read (Elt F) (VSR1_1.writes (Elt F) VSR1_1.junk (kernelRunR1_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- Case C's store into output window 6 tiles its block, so it covers it. -/
theorem coverR1_C_6 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : condR1_1 i)
    (x0 x1 : Vec F S2048x1024 .f32) (x2 x3 : Vec F S8192x32 .f32) (x4 x5 : Vec F S1x32 .f32) (xs0 xs1 : Vec F S2048x32 .f32) (y : S2048x32.Idx) :
    ∃ pc ∈ (kernelRunR1_C c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRunR1_C c i arg2 harg2 arg3 harg3 arg4 harg4 arg5 harg5 arg6 harg6 arg7 harg7 arg8 harg8 arg9 harg9 arg10 harg10 arg11 harg11 hc0 hc1 x0 x1 x2 x3 x4 x5 xs0 xs1).1 S2048x32.size (by sl_kernel_rfl) y

/-- What case C leaves in output window 6's staging buffer: its store read back. -/
def outR1_C_6 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : condR1_1 i)
    (x0 x1 : Vec F S2048x1024 .f32) (x2 x3 : Vec F S8192x32 .f32) (x4 x5 : Vec F S1x32 .f32) (xs0 xs1 : Vec F S2048x32 .f32) : Vec F S2048x32 .f32 :=
  VOR1_6.read (Elt F) (VOR1_6.writes (Elt F) VOR1_6.junk (kernelRunR1_C c i arg2 harg2 arg3 harg3 arg4 harg4 arg5 harg5 arg6 harg6 arg7 harg7 arg8 harg8 arg9 harg9 arg10 harg10 arg11 harg11 hc0 hc1 x0 x1 x2 x3 x4 x5 xs0 xs1).1)

/-- Case C's store into output window 7 tiles its block, so it covers it. -/
theorem coverR1_C_7 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : condR1_1 i)
    (x0 x1 : Vec F S2048x1024 .f32) (x2 x3 : Vec F S8192x32 .f32) (x4 x5 : Vec F S1x32 .f32) (xs0 xs1 : Vec F S2048x32 .f32) (y : S2048x32.Idx) :
    ∃ pc ∈ (kernelRunR1_C c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRunR1_C c i arg2 harg2 arg3 harg3 arg4 harg4 arg5 harg5 arg6 harg6 arg7 harg7 arg8 harg8 arg9 harg9 arg10 harg10 arg11 harg11 hc0 hc1 x0 x1 x2 x3 x4 x5 xs0 xs1).2.1 S2048x32.size (by sl_kernel_rfl) y

/-- What case C leaves in output window 7's staging buffer: its store read back. -/
def outR1_C_7 (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : condR1_1 i)
    (x0 x1 : Vec F S2048x1024 .f32) (x2 x3 : Vec F S8192x32 .f32) (x4 x5 : Vec F S1x32 .f32) (xs0 xs1 : Vec F S2048x32 .f32) : Vec F S2048x32 .f32 :=
  VOR1_7.read (Elt F) (VOR1_7.writes (Elt F) VOR1_7.junk (kernelRunR1_C c i arg2 harg2 arg3 harg3 arg4 harg4 arg5 harg5 arg6 harg6 arg7 harg7 arg8 harg8 arg9 harg9 arg10 harg10 arg11 harg11 hc0 hc1 x0 x1 x2 x3 x4 x5 xs0 xs1).2.1)

/-! ## What the outputs and the accumulators hold after each point -/

/-- An output block nothing was stored into: contents no one reads. -/
abbrev idleOutR1_6 : Vec F S2048x32 .f32 := VOR1_6.read (Elt F) VOR1_6.junk
abbrev idleOutR1_7 : Vec F S2048x32 .f32 := VOR1_7.read (Elt F) VOR1_7.junk

/-- After a point with contraction coordinate 0: the accumulators hold the first partial product. -/
def caseAR1 (c : Dev nD) (t : Fin cfg1.N) (h0 : t.val % 8 = 0) (h1 : ¬t.val % 8 = 7) :
    Vec F S2048x32 .f32 × Vec F S2048x32 .f32 × Vec F S2048x32 .f32 × Vec F S2048x32 .f32 :=
  (idleOutR1_6, idleOutR1_7, soutR1_A_0 c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1_0 (Memref.isWhole_whole _) scMR1_1 (Memref.isWhole_whole _) ((hcondR1_0 t).mpr h0) (fun h => h1 ((hcondR1_1 t).mp h)) (iblkR1 V c 0 t) (iblkR1 V c 1 t) (iblkR1 V c 2 t) (iblkR1 V c 3 t) (iblkR1 V c 4 t) (iblkR1 V c 5 t), soutR1_A_1 c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1_0 (Memref.isWhole_whole _) scMR1_1 (Memref.isWhole_whole _) ((hcondR1_0 t).mpr h0) (fun h => h1 ((hcondR1_1 t).mp h)) (iblkR1 V c 0 t) (iblkR1 V c 1 t) (iblkR1 V c 2 t) (iblkR1 V c 3 t) (iblkR1 V c 4 t) (iblkR1 V c 5 t))

/-- After a point with contraction coordinate 1 to 6, from what the point before left in the accumulators. -/
def caseBR1 (c : Dev nD) (t : Fin cfg1.N) (h0 : ¬t.val % 8 = 0) (h1 : ¬t.val % 8 = 7) (xs0 xs1 : Vec F S2048x32 .f32) :
    Vec F S2048x32 .f32 × Vec F S2048x32 .f32 × Vec F S2048x32 .f32 × Vec F S2048x32 .f32 :=
  (idleOutR1_6, idleOutR1_7, soutR1_B_0 c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1_0 (Memref.isWhole_whole _) scMR1_1 (Memref.isWhole_whole _) (fun h => h0 ((hcondR1_0 t).mp h)) (fun h => h1 ((hcondR1_1 t).mp h)) (iblkR1 V c 0 t) (iblkR1 V c 1 t) (iblkR1 V c 2 t) (iblkR1 V c 3 t) (iblkR1 V c 4 t) (iblkR1 V c 5 t) xs0 xs1, soutR1_B_1 c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1_0 (Memref.isWhole_whole _) scMR1_1 (Memref.isWhole_whole _) (fun h => h0 ((hcondR1_0 t).mp h)) (fun h => h1 ((hcondR1_1 t).mp h)) (iblkR1 V c 0 t) (iblkR1 V c 1 t) (iblkR1 V c 2 t) (iblkR1 V c 3 t) (iblkR1 V c 4 t) (iblkR1 V c 5 t) xs0 xs1)

/-- After a point with contraction coordinate 7, from what the point before left in the accumulators. -/
def caseCR1 (c : Dev nD) (t : Fin cfg1.N) (h0 : ¬t.val % 8 = 0) (h1 : t.val % 8 = 7) (xs0 xs1 : Vec F S2048x32 .f32) :
    Vec F S2048x32 .f32 × Vec F S2048x32 .f32 × Vec F S2048x32 .f32 × Vec F S2048x32 .f32 :=
  (outR1_C_6 c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1_0 (Memref.isWhole_whole _) scMR1_1 (Memref.isWhole_whole _) (fun h => h0 ((hcondR1_0 t).mp h)) ((hcondR1_1 t).mpr h1) (iblkR1 V c 0 t) (iblkR1 V c 1 t) (iblkR1 V c 2 t) (iblkR1 V c 3 t) (iblkR1 V c 4 t) (iblkR1 V c 5 t) xs0 xs1, outR1_C_7 c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1_0 (Memref.isWhole_whole _) scMR1_1 (Memref.isWhole_whole _) (fun h => h0 ((hcondR1_0 t).mp h)) ((hcondR1_1 t).mpr h1) (iblkR1 V c 0 t) (iblkR1 V c 1 t) (iblkR1 V c 2 t) (iblkR1 V c 3 t) (iblkR1 V c 4 t) (iblkR1 V c 5 t) xs0 xs1, soutR1_C_0 c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1_0 (Memref.isWhole_whole _) scMR1_1 (Memref.isWhole_whole _) (fun h => h0 ((hcondR1_0 t).mp h)) ((hcondR1_1 t).mpr h1) (iblkR1 V c 0 t) (iblkR1 V c 1 t) (iblkR1 V c 2 t) (iblkR1 V c 3 t) (iblkR1 V c 4 t) (iblkR1 V c 5 t) xs0 xs1, soutR1_C_1 c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1_0 (Memref.isWhole_whole _) scMR1_1 (Memref.isWhole_whole _) (fun h => h0 ((hcondR1_0 t).mp h)) ((hcondR1_1 t).mpr h1) (iblkR1 V c 0 t) (iblkR1 V c 1 t) (iblkR1 V c 2 t) (iblkR1 V c 3 t) (iblkR1 V c 4 t) (iblkR1 V c 5 t) xs0 xs1)

/-- What the two output blocks and the two accumulators hold after the body at position `n`: the case the position's
    contraction coordinate selects, the accumulators taken from what position `n - 1` left. -/
def outsAtR1 (c : Dev nD) : (n : ℕ) → n < cfg1.N → Vec F S2048x32 .f32 × Vec F S2048x32 .f32 × Vec F S2048x32 .f32 × Vec F S2048x32 .f32
  | 0, hn => caseAR1 V c ⟨0, hn⟩ (Nat.zero_mod _) (fun h => absurd (show (0 : ℕ) % 8 = 7 from h) (by decide))
  | n + 1, hn =>
    if h0 : (n + 1) % 8 = 0 then caseAR1 V c ⟨n + 1, hn⟩ h0 (fun h => by have h' : (n + 1) % 8 = 7 := h; omega)
    else if h1 : (n + 1) % 8 = 7 then
      caseCR1 V c ⟨n + 1, hn⟩ h0 h1 (outsAtR1 c n (Nat.lt_of_succ_lt hn)).2.2.1 (outsAtR1 c n (Nat.lt_of_succ_lt hn)).2.2.2
    else caseBR1 V c ⟨n + 1, hn⟩ h0 h1 (outsAtR1 c n (Nat.lt_of_succ_lt hn)).2.2.1 (outsAtR1 c n (Nat.lt_of_succ_lt hn)).2.2.2

theorem outsAtR1_A (c : Dev nD) (t : Fin cfg1.N) (h0 : t.val % 8 = 0) (h1 : ¬t.val % 8 = 7) :
    outsAtR1 V c t.val t.isLt = caseAR1 V c t h0 h1 := by
  obtain ⟨n, hn⟩ := t
  cases n with
  | zero => rfl
  | succ n => exact (dif_pos h0).trans rfl

theorem outsAtR1_B (c : Dev nD) (t : Fin cfg1.N) (h0 : ¬t.val % 8 = 0) (h1 : ¬t.val % 8 = 7) :
    outsAtR1 V c t.val t.isLt = caseBR1 V c t h0 h1 (outsAtR1 V c (t.val - 1) (Nat.lt_of_le_of_lt (Nat.sub_le _ _) t.isLt)).2.2.1 (outsAtR1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAtR1_C (c : Dev nD) (t : Fin cfg1.N) (h0 : ¬t.val % 8 = 0) (h1 : t.val % 8 = 7) :
    outsAtR1 V c t.val t.isLt = caseCR1 V c t h0 h1 (outsAtR1 V c (t.val - 1) (Nat.lt_of_le_of_lt (Nat.sub_le _ _) t.isLt)).2.2.1 (outsAtR1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

/-- The region invariant before position `n`: the generator register at some state, the scoped buffers other than the
    accumulators at some contents, and the accumulators — at anything before the first point, afterwards at what the
    point before left. -/
def PhiSR1 (c : Dev nD) : (n : ℕ) → n ≤ cfg1.N → sProp 𝕄
  | 0, _ => iprop(iprop((∃ d, owns (c : Thread nD τ) scMR1_0 fullShare d) ∗ (∃ d, owns (c : Thread nD τ) scMR1_1 fullShare d) ∗ restR1 c) ∗ (∃ r, prngReg c r))
  | n + 1, hn => iprop(iprop(owns (c : Thread nD τ) scMR1_0 fullShare (outsAtR1 V c n hn).2.2.1 ∗ owns (c : Thread nD τ) scMR1_1 fullShare (outsAtR1 V c n hn).2.2.2 ∗ restR1 c) ∗ (∃ r, prngReg c r))

theorem PhiSR1_zero (c : Dev nD) (n : ℕ) (h : n ≤ cfg1.N) (hz : n = 0) :
    PhiSR1 V c n h = iprop(iprop((∃ d, owns (c : Thread nD τ) scMR1_0 fullShare d) ∗ (∃ d, owns (c : Thread nD τ) scMR1_1 fullShare d) ∗ restR1 c) ∗ (∃ r, prngReg c r)) := by
  subst hz; rfl

theorem PhiSR1_succ (c : Dev nD) (n : ℕ) (hn : n < cfg1.N) :
    PhiSR1 V c (n + 1) hn = iprop(iprop(owns (c : Thread nD τ) scMR1_0 fullShare (outsAtR1 V c n hn).2.2.1 ∗ owns (c : Thread nD τ) scMR1_1 fullShare (outsAtR1 V c n hn).2.2.2 ∗ restR1 c) ∗ (∃ r, prngReg c r)) := rfl

theorem PhiSR1_pos (c : Dev nD) (n : ℕ) (h : n ≤ cfg1.N) (hz : n ≠ 0) :
    PhiSR1 V c n h = iprop(iprop(owns (c : Thread nD τ) scMR1_0 fullShare (outsAtR1 V c (n - 1) (by omega)).2.2.1 ∗ owns (c : Thread nD τ) scMR1_1 fullShare (outsAtR1 V c (n - 1) (by omega)).2.2.2 ∗ restR1 c) ∗ (∃ r, prngReg c r)) := by
  cases n with
  | zero => exact absurd rfl hz
  | succ n => rfl

/-! ## The proof data -/

/-- The proof data of the layer's pipeline on core `c`: the arrays as the region finds them; after the body each input's
    buffer at its block and each output's at `outsAtR1`'s component; the invariant carrying the accumulators; nothing owed. -/
def datR1 (c : Dev nD) : Dat τ (Elt F) Unit ℕ (UR sig nD τ) ℕ cfg1 c where
  A w := V c (Pipeline.arrRef spec1 w)
  after w t := match w with
    | ⟨0, _⟩ => iblkR1 V c 0 t
    | ⟨1, _⟩ => iblkR1 V c 1 t
    | ⟨2, _⟩ => iblkR1 V c 2 t
    | ⟨3, _⟩ => iblkR1 V c 3 t
    | ⟨4, _⟩ => iblkR1 V c 4 t
    | ⟨5, _⟩ => iblkR1 V c 5 t
    | ⟨6, _⟩ => (outsAtR1 V c t.val t.isLt).1
    | ⟨7, _⟩ => (outsAtR1 V c t.val t.isLt).2.1
  Φ t := PhiSR1 V c t.val (Nat.le_of_lt_succ t.isLt)
  q _ := fullShare
  owed _ := 0

theorem A_eqR1 (c : Dev nD) (w : Fin cfg1.W) : (datR1 V c).A w = V c (Pipeline.arrRef spec1 w) := by
  dsimp only [datR1]

theorem PhiSR1_castSucc (c : Dev nD) (t : Fin cfg1.N) :
    (datR1 V c).Φ t.castSucc = PhiSR1 V c t.val (Nat.le_of_lt t.isLt) := by
  dsimp only [datR1]; simp only [Fin.coe_castSucc]

theorem afterR1_0 (c : Dev nD) (t : Fin cfg1.N) : (datR1 V c).after 0 t = iblkR1 V c 0 t := by dsimp only [datR1]
theorem afterR1_1 (c : Dev nD) (t : Fin cfg1.N) : (datR1 V c).after 1 t = iblkR1 V c 1 t := by dsimp only [datR1]
theorem afterR1_2 (c : Dev nD) (t : Fin cfg1.N) : (datR1 V c).after 2 t = iblkR1 V c 2 t := by dsimp only [datR1]
theorem afterR1_3 (c : Dev nD) (t : Fin cfg1.N) : (datR1 V c).after 3 t = iblkR1 V c 3 t := by dsimp only [datR1]
theorem afterR1_4 (c : Dev nD) (t : Fin cfg1.N) : (datR1 V c).after 4 t = iblkR1 V c 4 t := by dsimp only [datR1]
theorem afterR1_5 (c : Dev nD) (t : Fin cfg1.N) : (datR1 V c).after 5 t = iblkR1 V c 5 t := by dsimp only [datR1]
theorem afterR1_6 (c : Dev nD) (t : Fin cfg1.N) : (datR1 V c).after 6 t = (outsAtR1 V c t.val t.isLt).1 := by dsimp only [datR1]
theorem afterR1_7 (c : Dev nD) (t : Fin cfg1.N) : (datR1 V c).after 7 t = (outsAtR1 V c t.val t.isLt).2.1 := by dsimp only [datR1]

theorem beforeR1_0 (c : Dev nD) (t : Fin cfg1.N) (d) : (datR1 V c).before 0 t d = iblkR1 V c 0 t :=
  beforeR1_0_of V (datR1 V c) (A_eqR1 V c 0) (afterR1_0 V c) t d
theorem beforeR1_1 (c : Dev nD) (t : Fin cfg1.N) (d) : (datR1 V c).before 1 t d = iblkR1 V c 1 t :=
  beforeR1_1_of V (datR1 V c) (A_eqR1 V c 1) (afterR1_1 V c) t d
theorem beforeR1_2 (c : Dev nD) (t : Fin cfg1.N) (d) : (datR1 V c).before 2 t d = iblkR1 V c 2 t :=
  beforeR1_2_of V (datR1 V c) (A_eqR1 V c 2) (afterR1_2 V c) t d
theorem beforeR1_3 (c : Dev nD) (t : Fin cfg1.N) (d) : (datR1 V c).before 3 t d = iblkR1 V c 3 t :=
  beforeR1_3_of V (datR1 V c) (A_eqR1 V c 3) (afterR1_3 V c) t d
theorem beforeR1_4 (c : Dev nD) (t : Fin cfg1.N) (d) : (datR1 V c).before 4 t d = iblkR1 V c 4 t :=
  beforeR1_4_of V (datR1 V c) (A_eqR1 V c 4) (afterR1_4 V c) t d
theorem beforeR1_5 (c : Dev nD) (t : Fin cfg1.N) (d) : (datR1 V c).before 5 t d = iblkR1 V c 5 t :=
  beforeR1_5_of V (datR1 V c) (A_eqR1 V c 5) (afterR1_5 V c) t d

/-! ## The body obligation -/

def bodyPreR1 (c : Dev nD) (t : Fin cfg1.N) : sProp 𝕄 :=
  iprop((datR1 V c).Φ t.castSucc ∗ (datR1 V c).owesAt () t.castSucc
    ∗ (∃ d, owns (c : Thread nD τ) (msR1_0 t) fullShare ((datR1 V c).before 0 t d))
    ∗ (∃ d, owns (c : Thread nD τ) (msR1_1 t) fullShare ((datR1 V c).before 1 t d))
    ∗ (∃ d, owns (c : Thread nD τ) (msR1_2 t) fullShare ((datR1 V c).before 2 t d))
    ∗ (∃ d, owns (c : Thread nD τ) (msR1_3 t) fullShare ((datR1 V c).before 3 t d))
    ∗ (∃ d, owns (c : Thread nD τ) (msR1_4 t) fullShare ((datR1 V c).before 4 t d))
    ∗ (∃ d, owns (c : Thread nD τ) (msR1_5 t) fullShare ((datR1 V c).before 5 t d))
    ∗ (∃ d, owns (c : Thread nD τ) (msR1_6 t) fullShare ((datR1 V c).before 6 t d))
    ∗ (∃ d, owns (c : Thread nD τ) (msR1_7 t) fullShare ((datR1 V c).before 7 t d)))

def bodyPostR1 (c : Dev nD) (t : Fin cfg1.N) : sProp 𝕄 :=
  iprop((datR1 V c).Φ t.succ ∗ (datR1 V c).owesAt () t.succ
    ∗ (datR1 V c).leavesExact 0 t
    ∗ (datR1 V c).leavesExact 1 t
    ∗ (datR1 V c).leavesExact 2 t
    ∗ (datR1 V c).leavesExact 3 t
    ∗ (datR1 V c).leavesExact 4 t
    ∗ (datR1 V c).leavesExact 5 t
    ∗ (datR1 V c).leavesExact 6 t
    ∗ (datR1 V c).leavesExact 7 t)

set_option maxHeartbeats 8000000 in
/-- The body at any point: the inputs' memrefs hold their blocks; the contraction coordinate says which case the point is in;
    the invariant hands the body the accumulators at what the point before left (at anything before the first point) and
    takes them back at this point's contents; the core owes nothing throughout. -/
theorem sound_bodyR1 (c : Dev nD) (t : Fin cfg1.N) :
    bodyPreR1 V c t ⊢ wp frame (wpE (defs₀ (F := F)) Variants.none c none) Set.univ (bodyAt1 t) (fun _ => bodyPostR1 V c t) := by
  unfold bodyPreR1 bodyPostR1 bodyAt1
  simp only [beforeR1_0, beforeR1_1, beforeR1_2, beforeR1_3, beforeR1_4, beforeR1_5]
  rw [show (datR1 V c).owesAt () t.succ = (datR1 V c).owesAt () t.castSucc from rfl]
  rw [show (datR1 V c).Φ t.succ = PhiSR1 V c (t.val + 1) t.isLt from rfl, PhiSR1_succ]
  have hN : t.val < 32 := lt_of_lt_of_eq t.isLt (show cfg1.N = 32 from N_1)
  by_cases h0 : t.val % 8 = 0
  · have h1 : ¬t.val % 8 = 7 := by omega
    rw [show (datR1 V c).leavesExact 0 t = owns (c : Thread nD τ) (msR1_0 t) fullShare ((datR1 V c).after 0 t) from by
      unfold Dat.leavesExact; rw [liveAtR1_0 t], afterR1_0]
    rw [show (datR1 V c).leavesExact 1 t = owns (c : Thread nD τ) (msR1_1 t) fullShare ((datR1 V c).after 1 t) from by
      unfold Dat.leavesExact; rw [liveAtR1_1 t], afterR1_1]
    rw [show (datR1 V c).leavesExact 2 t = owns (c : Thread nD τ) (msR1_2 t) fullShare ((datR1 V c).after 2 t) from by
      unfold Dat.leavesExact; rw [liveAtR1_2 t], afterR1_2]
    rw [show (datR1 V c).leavesExact 3 t = owns (c : Thread nD τ) (msR1_3 t) fullShare ((datR1 V c).after 3 t) from by
      unfold Dat.leavesExact; rw [liveAtR1_3 t], afterR1_3]
    rw [show (datR1 V c).leavesExact 4 t = owns (c : Thread nD τ) (msR1_4 t) fullShare ((datR1 V c).after 4 t) from by
      unfold Dat.leavesExact; rw [liveAtR1_4 t], afterR1_4]
    rw [show (datR1 V c).leavesExact 5 t = owns (c : Thread nD τ) (msR1_5 t) fullShare ((datR1 V c).after 5 t) from by
      unfold Dat.leavesExact; rw [liveAtR1_5 t], afterR1_5]
    rw [Dat.leavesExact_idle (datR1 V c) 6 t (idleAtR1_6 t (fun h => h1 ((hcondR1_1 t).mp h))) (noFlushR1_6 t (fun h => h1 ((hcondR1_1 t).mp h)))]
    rw [Dat.leavesExact_idle (datR1 V c) 7 t (idleAtR1_7 t (fun h => h1 ((hcondR1_1 t).mp h))) (noFlushR1_7 t (fun h => h1 ((hcondR1_1 t).mp h)))]
    rw [outsAtR1_A V c t h0 h1]
    unfold caseAR1 soutR1_A_0 soutR1_A_1; (try dsimp only)
    by_cases hz : t.val = 0
    · rw [PhiSR1_castSucc V c t, PhiSR1_zero V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunR1_A c (grid1.coords t) _ _ _ _ _ _ _ _ _ _ _ _ _ _ _ _ _ _ _ _ ((hcondR1_0 t).mpr h0) (fun h => h1 ((hcondR1_1 t).mp h)) (iblkR1 V c 0 t) (iblkR1 V c 1 t) (iblkR1 V c 2 t) (iblkR1 V c 3 t) (iblkR1 V c 4 t) (iblkR1 V c 5 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverR1_A_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverR1_A_1 c _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiSR1_castSucc V c t, PhiSR1_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunR1_A c (grid1.coords t) _ _ _ _ _ _ _ _ _ _ _ _ _ _ _ _ _ _ _ _ ((hcondR1_0 t).mpr h0) (fun h => h1 ((hcondR1_1 t).mp h)) (iblkR1 V c 0 t) (iblkR1 V c 1 t) (iblkR1 V c 2 t) (iblkR1 V c 3 t) (iblkR1 V c 4 t) (iblkR1 V c 5 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverR1_A_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverR1_A_1 c _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := fun e => h0 (by rw [e])
    by_cases h1 : t.val % 8 = 7
    · rw [show (datR1 V c).leavesExact 0 t = owns (c : Thread nD τ) (msR1_0 t) fullShare ((datR1 V c).after 0 t) from by
        unfold Dat.leavesExact; rw [liveAtR1_0 t], afterR1_0]
      rw [show (datR1 V c).leavesExact 1 t = owns (c : Thread nD τ) (msR1_1 t) fullShare ((datR1 V c).after 1 t) from by
        unfold Dat.leavesExact; rw [liveAtR1_1 t], afterR1_1]
      rw [show (datR1 V c).leavesExact 2 t = owns (c : Thread nD τ) (msR1_2 t) fullShare ((datR1 V c).after 2 t) from by
        unfold Dat.leavesExact; rw [liveAtR1_2 t], afterR1_2]
      rw [show (datR1 V c).leavesExact 3 t = owns (c : Thread nD τ) (msR1_3 t) fullShare ((datR1 V c).after 3 t) from by
        unfold Dat.leavesExact; rw [liveAtR1_3 t], afterR1_3]
      rw [show (datR1 V c).leavesExact 4 t = owns (c : Thread nD τ) (msR1_4 t) fullShare ((datR1 V c).after 4 t) from by
        unfold Dat.leavesExact; rw [liveAtR1_4 t], afterR1_4]
      rw [show (datR1 V c).leavesExact 5 t = owns (c : Thread nD τ) (msR1_5 t) fullShare ((datR1 V c).after 5 t) from by
        unfold Dat.leavesExact; rw [liveAtR1_5 t], afterR1_5]
      rw [show (datR1 V c).leavesExact 6 t = owns (c : Thread nD τ) (msR1_6 t) fullShare ((datR1 V c).after 6 t) from by
        unfold Dat.leavesExact; rw [liveAtR1_6_C t ((hcondR1_1 t).mpr h1)], afterR1_6]
      rw [show (datR1 V c).leavesExact 7 t = owns (c : Thread nD τ) (msR1_7 t) fullShare ((datR1 V c).after 7 t) from by
        unfold Dat.leavesExact; rw [liveAtR1_7_C t ((hcondR1_1 t).mpr h1)], afterR1_7]
      rw [outsAtR1_C V c t h0 h1]
      unfold caseCR1 outR1_C_6 outR1_C_7 soutR1_C_0 soutR1_C_1; (try dsimp only)
      rw [PhiSR1_castSucc V c t, PhiSR1_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunR1_C c (grid1.coords t) _ _ _ _ _ _ _ _ _ _ _ _ _ _ _ _ _ _ _ _ (fun h => h0 ((hcondR1_0 t).mp h)) ((hcondR1_1 t).mpr h1) (iblkR1 V c 0 t) (iblkR1 V c 1 t) (iblkR1 V c 2 t) (iblkR1 V c 3 t) (iblkR1 V c 4 t) (iblkR1 V c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverR1_C_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverR1_C_1 c _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverR1_C_6 c _ _ _ _ _ _ _ _ _ _ _ _ _ _ _ _ _ _ _ _ _ _ _ _ _ _ _ _ _ _ _)
      unfold owns; iexists _; isplitr
      swap; · iexact H7
      ipureintro; exact View.read_writes_of_cover _ _ _ _ _ (coverR1_C_7 c _ _ _ _ _ _ _ _ _ _ _ _ _ _ _ _ _ _ _ _ _ _ _ _ _ _ _ _ _ _ _)
    · rw [show (datR1 V c).leavesExact 0 t = owns (c : Thread nD τ) (msR1_0 t) fullShare ((datR1 V c).after 0 t) from by
        unfold Dat.leavesExact; rw [liveAtR1_0 t], afterR1_0]
      rw [show (datR1 V c).leavesExact 1 t = owns (c : Thread nD τ) (msR1_1 t) fullShare ((datR1 V c).after 1 t) from by
        unfold Dat.leavesExact; rw [liveAtR1_1 t], afterR1_1]
      rw [show (datR1 V c).leavesExact 2 t = owns (c : Thread nD τ) (msR1_2 t) fullShare ((datR1 V c).after 2 t) from by
        unfold Dat.leavesExact; rw [liveAtR1_2 t], afterR1_2]
      rw [show (datR1 V c).leavesExact 3 t = owns (c : Thread nD τ) (msR1_3 t) fullShare ((datR1 V c).after 3 t) from by
        unfold Dat.leavesExact; rw [liveAtR1_3 t], afterR1_3]
      rw [show (datR1 V c).leavesExact 4 t = owns (c : Thread nD τ) (msR1_4 t) fullShare ((datR1 V c).after 4 t) from by
        unfold Dat.leavesExact; rw [liveAtR1_4 t], afterR1_4]
      rw [show (datR1 V c).leavesExact 5 t = owns (c : Thread nD τ) (msR1_5 t) fullShare ((datR1 V c).after 5 t) from by
        unfold Dat.leavesExact; rw [liveAtR1_5 t], afterR1_5]
      rw [Dat.leavesExact_idle (datR1 V c) 6 t (idleAtR1_6 t (fun h => h1 ((hcondR1_1 t).mp h))) (noFlushR1_6 t (fun h => h1 ((hcondR1_1 t).mp h)))]
      rw [Dat.leavesExact_idle (datR1 V c) 7 t (idleAtR1_7 t (fun h => h1 ((hcondR1_1 t).mp h))) (noFlushR1_7 t (fun h => h1 ((hcondR1_1 t).mp h)))]
      rw [outsAtR1_B V c t h0 h1]
      unfold caseBR1 soutR1_B_0 soutR1_B_1; (try dsimp only)
      rw [PhiSR1_castSucc V c t, PhiSR1_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunR1_B c (grid1.coords t) _ _ _ _ _ _ _ _ _ _ _ _ _ _ _ _ _ _ _ _ (fun h => h0 ((hcondR1_0 t).mp h)) (fun h => h1 ((hcondR1_1 t).mp h)) (iblkR1 V c 0 t) (iblkR1 V c 1 t) (iblkR1 V c 2 t) (iblkR1 V c 3 t) (iblkR1 V c 4 t) (iblkR1 V c 5 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverR1_B_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverR1_B_1 c _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligationR1 (c : Dev nD) : BodyObligation (datR1 (F := F) V c) (defs₀ (F := F)) Variants.none () Set.univ := fun t => by
  rw [bigSep_W1, bigSep_W1]
  exact sound_bodyR1 V c t

end

end Cert.KernelIdeal.Fr

end
-- ==== Proof.FrIRun.lean ====
import proofs.«105748_j27410481283396_2_alg».proof.Proof.FrI0
import proofs.«105748_j27410481283396_2_alg».proof.Proof.FrI1
import proofs.«105748_j27410481283396_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The program as its five items — a host stretch, the first layer's region, a host stretch, the second layer's region,
    the host tail — with the two regions' segment records, and the two runs read off them: the frame (every argument
    array ends as launched) and the run that also names the result buffer's final contents. -/

open Idealize.ShloMosaic.Pipeline (Seg HostSeg RegionSeg)

variable (m : (ℓ : Loc nD τ sig) → Buf (Elt F) ℓ) (ρ : Dev nD → PrngReg)

abbrev Lz : GSem nD τ sig → Finset Unit := fun _ => ∅
abbrev lvz : GSem nD τ sig → Unit → ℕ := fun _ _ => 0
/-- What rides beside the buffers through every item: the generator register at some state, and nothing owed. -/
def Rz (c : Dev nD) : sProp 𝕄 := iprop((∃ r, prngReg c r) ∗ ∃ W, owes (c : Thread nD τ) (0 : CellTallies nD τ sig Unit) W)

/-- The first region's entry contents: the launch memory after the first host stretch. -/
abbrev VE0 (c : Dev nD) (b : Ref sig .tc) : Buf (Elt F) ((c : Thread nD τ).loc b) := Gen.V1 m c b
/-- The buffers when the first region is left: its arrays at what the write-backs made of them, the others as entered. -/
def W2 (c : Dev nD) : Valuation τ sig (Elt F) :=
  Pipeline.withArrays spec0 c (Gen.V1 m c) fun w => (datR0 (VE0 m) c).arrAt w cfg0.N
/-- What the first region leaves, as the unknowns the generated valuations are written over. -/
def outsA : Gen.Outs (F := F) := fun _ r c => W2 m c (Proc.devRef .tc r)
/-- The second region's entry contents: the above after the second host stretch. -/
abbrev VE1 (c : Dev nD) (b : Ref sig .tc) : Buf (Elt F) ((c : Thread nD τ).loc b) := Gen.V3 m (outsA m) c b
def W4 (c : Dev nD) : Valuation τ sig (Elt F) :=
  Pipeline.withArrays spec1 c (Gen.V3 m (outsA m) c) fun w => (datR1 (VE1 m) c).arrAt w cfg1.N
/-- What both regions leave. -/
def outs : Gen.Outs (F := F) := fun n r c => if n = 2 then W2 m c (Proc.devRef .tc r) else W4 m c (Proc.devRef .tc r)

theorem outs_two (r : Ref sig .tc) (c : Dev nD) : outs m 2 r c = W2 m c (Proc.devRef .tc r) := rfl
theorem outs_four (r : Ref sig .tc) (c : Dev nD) : outs m 4 r c = W4 m c (Proc.devRef .tc r) := rfl
theorem V2_outs (c : Dev nD) : Gen.V2 m (outs m) c = Gen.V2 m (outsA m) c := rfl
theorem V3_outs (c : Dev nD) : Gen.V3 m (outs m) c = Gen.V3 m (outsA m) c := rfl

theorem W2_arr (c : Dev nD) (w : Fin cfg0.W) :
    W2 m c (Proc.devRef .tc (Pipeline.arrRef spec0 w)) = (datR0 (VE0 m) c).arrAt w cfg0.N := by
  unfold W2; exact Pipeline.withArrays_arr spec0 launch0.win.arr_inj c _ _ w
theorem W4_arr (c : Dev nD) (w : Fin cfg1.W) :
    W4 m c (Proc.devRef .tc (Pipeline.arrRef spec1 w)) = (datR1 (VE1 m) c).arrAt w cfg1.N := by
  unfold W4; exact Pipeline.withArrays_arr spec1 launch1.win.arr_inj c _ _ w

/-- Every pipeline's proof data, each at its region's entry contents. -/
def pdats : (p : Fin 2) → (c : Dev nD) → Dat τ (Elt F) Unit ℕ (UR sig nD τ) ℕ (cfgs p) c
  | ⟨0, _⟩ => fun c => datR0 (VE0 m) c
  | ⟨1, _⟩ => fun c => datR1 (VE1 m) c

/-- When the first region is left each of its arrays holds what the pipeline leaves: an input its entry contents (no
    write-back touches it), a result what the write-backs made of it. -/
theorem hF0 (c : Dev nD) (w : Fin cfg0.W) : (datR0 (VE0 m) c).arrAt w cfg0.N = Gen.V2 m (outs m) c (Pipeline.arrRef spec0 w) := by
  match w with
  | ⟨0, _⟩ => exact ((datR0 (VE0 m) c).arrAt_in 0 rfl _).trans ((A_eqR0 (VE0 m) c 0).trans (Gen.V2_of m (outs m) c _ (by decide)).symm)
  | ⟨1, _⟩ => exact ((datR0 (VE0 m) c).arrAt_in 1 rfl _).trans ((A_eqR0 (VE0 m) c 1).trans (Gen.V2_of m (outs m) c _ (by decide)).symm)
  | ⟨2, _⟩ => exact ((datR0 (VE0 m) c).arrAt_in 2 rfl _).trans ((A_eqR0 (VE0 m) c 2).trans (Gen.V2_of m (outs m) c _ (by decide)).symm)
  | ⟨3, _⟩ => exact ((datR0 (VE0 m) c).arrAt_in 3 rfl _).trans ((A_eqR0 (VE0 m) c 3).trans (Gen.V2_of m (outs m) c _ (by decide)).symm)
  | ⟨4, _⟩ => exact ((datR0 (VE0 m) c).arrAt_in 4 rfl _).trans ((A_eqR0 (VE0 m) c 4).trans (Gen.V2_of m (outs m) c _ (by decide)).symm)
  | ⟨5, _⟩ => exact ((datR0 (VE0 m) c).arrAt_in 5 rfl _).trans ((A_eqR0 (VE0 m) c 5).trans (Gen.V2_of m (outs m) c _ (by decide)).symm)
  | ⟨6, _⟩ =>
    refine (W2_arr m c 6).symm.trans ?_
    show outs m 2 main_call0_v4_0 c = _
    simp only [Gen.V2, Function.update_of_ne (StableHlo.devRef_ne_of_ne (by decide) : (Proc.devRef .tc main_call0_v4_0 : DevRef τ sig) ≠ Proc.devRef .tc main_call0_v4_1), Function.update_self]
  | ⟨7, _⟩ =>
    refine (W2_arr m c 7).symm.trans ?_
    show outs m 2 main_call0_v4_1 c = _
    simp only [Gen.V2, Function.update_self]
theorem hrest0 (c : Dev nD) : ∀ b, b ∉ Finset.univ.image (Pipeline.arrRef spec0) → (fun b : Ref sig .tc => Gen.V2 m (outs m) c b) b = VE0 m c b :=
  fun b hb => Gen.V2_of m (outs m) c b (by
    intro hm
    rcases List.mem_cons.mp hm with rfl | hm
    · exact hb (Finset.mem_image.mpr ⟨6, Finset.mem_univ _, rfl⟩)
    · rcases List.mem_cons.mp hm with rfl | hm
      · exact hb (Finset.mem_image.mpr ⟨7, Finset.mem_univ _, rfl⟩)
      · exact absurd hm List.not_mem_nil)

theorem hF1 (c : Dev nD) (w : Fin cfg1.W) : (datR1 (VE1 m) c).arrAt w cfg1.N = Gen.V4 m (outs m) c (Pipeline.arrRef spec1 w) := by
  match w with
  | ⟨0, _⟩ => exact ((datR1 (VE1 m) c).arrAt_in 0 rfl _).trans ((A_eqR1 (VE1 m) c 0).trans (Gen.V4_of m (outs m) c _ (by decide)).symm)
  | ⟨1, _⟩ => exact ((datR1 (VE1 m) c).arrAt_in 1 rfl _).trans ((A_eqR1 (VE1 m) c 1).trans (Gen.V4_of m (outs m) c _ (by decide)).symm)
  | ⟨2, _⟩ => exact ((datR1 (VE1 m) c).arrAt_in 2 rfl _).trans ((A_eqR1 (VE1 m) c 2).trans (Gen.V4_of m (outs m) c _ (by decide)).symm)
  | ⟨3, _⟩ => exact ((datR1 (VE1 m) c).arrAt_in 3 rfl _).trans ((A_eqR1 (VE1 m) c 3).trans (Gen.V4_of m (outs m) c _ (by decide)).symm)
  | ⟨4, _⟩ => exact ((datR1 (VE1 m) c).arrAt_in 4 rfl _).trans ((A_eqR1 (VE1 m) c 4).trans (Gen.V4_of m (outs m) c _ (by decide)).symm)
  | ⟨5, _⟩ => exact ((datR1 (VE1 m) c).arrAt_in 5 rfl _).trans ((A_eqR1 (VE1 m) c 5).trans (Gen.V4_of m (outs m) c _ (by decide)).symm)
  | ⟨6, _⟩ =>
    refine (W4_arr m c 6).symm.trans ?_
    show outs m 4 main_call0_v9_0 c = _
    simp only [Gen.V4, Function.update_of_ne (StableHlo.devRef_ne_of_ne (by decide) : (Proc.devRef .tc main_call0_v9_0 : DevRef τ sig) ≠ Proc.devRef .tc main_call0_v9_1), Function.update_self]
  | ⟨7, _⟩ =>
    refine (W4_arr m c 7).symm.trans ?_
    show outs m 4 main_call0_v9_1 c = _
    simp only [Gen.V4, Function.update_self]
theorem hrest1 (c : Dev nD) : ∀ b, b ∉ Finset.univ.image (Pipeline.arrRef spec1) → (fun b : Ref sig .tc => Gen.V4 m (outs m) c b) b = VE1 m c b :=
  fun b hb => (Gen.V4_of m (outs m) c b (by
    intro hm
    rcases List.mem_cons.mp hm with rfl | hm
    · exact hb (Finset.mem_image.mpr ⟨6, Finset.mem_univ _, rfl⟩)
    · rcases List.mem_cons.mp hm with rfl | hm
      · exact hb (Finset.mem_image.mpr ⟨7, Finset.mem_univ _, rfl⟩)
      · exact absurd hm List.not_mem_nil)).trans (congrFun (V3_outs m c) _)

set_option backward.isDefEq.respectTransparency.types false in
/-- REGION 0 as a segment: entered with every unscoped buffer at the contents the host stretch before it left, left
    with the two result arrays at what the pipeline's write-backs made of them and every other buffer as entered. Its
    arrays are split out of the unscoped buffers at entry and put back at exit; the generator register and the scoped
    buffers (the accumulators among them) go into the region invariant and come back; nothing is owed; the kernel has
    no semaphore of its own. -/
def reg0 : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligationR0 (VE0 m) c).loose
  hwaits := Pipeline.hwaits_of_owed_zero _ _ _ _ Lz lvz 0 fun _ _ => rfl
  pre c := iprop(StableHlo.held (c : Thread nD τ) (Pipeline.ucRefs τ sig) (Gen.V1 m c) ∗ Rz c)
  post c := iprop(StableHlo.held (c : Thread nD τ) (Pipeline.ucRefs τ sig) (Gen.V2 m (outs m) c) ∗ Rz c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    unfold Rz
    rw [Pipeline.ownSems0_none]
    have hsplit := Pipeline.arrays_of_unscopedBufs (p := 0) (pcfgs (F := F)) Gen.adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = PhiSR0 (VE0 m) c 0 (Nat.zero_le _) from rfl, PhiSR0_zero (VE0 m) c 0 _ rfl]
    iintro ⟨Hp, -, Hr⟩
    isplitl [Hr]; · iapply (scopedSplitR0 c); iexact Hr
    iexact Hp
  hout c := by
    rw [Pipeline.ownSems0_none, show (pdats m 0 c).Φ (Fin.last _) = PhiSR0 (VE0 m) c cfg0.N (Nat.le_refl _) from rfl,
      PhiSR0_pos (VE0 m) c _ _ (by rw [show cfg0.N = 32 from N_0]; decide)]
    iintro ⟨⟨HS0, HS1, HR⟩, Hp⟩
    isplitl [Hp]; · iexact Hp
    isplitr; · iempintro
    iapply (scopedJoinR0 c)
    isplitl [HS0]; · iexists _; iexact HS0
    isplitl [HS1]; · iexists _; iexact HS1
    iexact HR
  hexit c := by
    unfold Rz
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VE0 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 as a segment: entered with every unscoped buffer at the contents the host stretch before it left, left
    with the two result arrays at what the pipeline's write-backs made of them and every other buffer as entered. Its
    arrays are split out of the unscoped buffers at entry and put back at exit; the generator register and the scoped
    buffers (the accumulators among them) go into the region invariant and come back; nothing is owed; the kernel has
    no semaphore of its own. -/
def reg1 : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligationR1 (VE1 m) c).loose
  hwaits := Pipeline.hwaits_of_owed_zero _ _ _ _ Lz lvz 1 fun _ _ => rfl
  pre c := iprop(StableHlo.held (c : Thread nD τ) (Pipeline.ucRefs τ sig) (Gen.V3 m (outsA m) c) ∗ Rz c)
  post c := iprop(StableHlo.held (c : Thread nD τ) (Pipeline.ucRefs τ sig) (Gen.V4 m (outs m) c) ∗ Rz c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    unfold Rz
    rw [Pipeline.ownSems0_none]
    have hsplit := Pipeline.arrays_of_unscopedBufs (p := 1) (pcfgs (F := F)) Gen.adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = PhiSR1 (VE1 m) c 0 (Nat.zero_le _) from rfl, PhiSR1_zero (VE1 m) c 0 _ rfl]
    iintro ⟨Hp, -, Hr⟩
    isplitl [Hr]; · iapply (scopedSplitR1 c); iexact Hr
    iexact Hp
  hout c := by
    rw [Pipeline.ownSems0_none, show (pdats m 1 c).Φ (Fin.last _) = PhiSR1 (VE1 m) c cfg1.N (Nat.le_refl _) from rfl,
      PhiSR1_pos (VE1 m) c _ _ (by rw [show cfg1.N = 32 from N_1]; decide)]
    iintro ⟨⟨HS0, HS1, HR⟩, Hp⟩
    isplitl [Hp]; · iexact Hp
    isplitr; · iempintro
    iapply (scopedJoinR1 c)
    isplitl [HS0]; · iexists _; iexact HS0
    isplitl [HS1]; · iexists _; iexact HS1
    iexact HR
  hexit c := by
    unfold Rz
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VE1 m c) (fun b => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second region is entered from what the second host stretch leaves. -/
theorem hpre1z (c : Dev nD) : iprop(StableHlo.held (c : Thread nD τ) (Pipeline.ucRefs τ sig) (Gen.V3 m (outs m) c) ∗ Rz (F := F) c) ⊢ (reg1 m).pre c := by
  rw [V3_outs m c]; exact .rfl

/-- The launch element pays for the pipelines' cells; no other ghost resource is needed. -/
theorem hu₀z : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0z : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lz lvz)
    ⊢ (|={Set.univ}=> bigSep Finset.univ (fun c : Dev nD => Rz (F := F) c) : sProp 𝕄) := by
  refine Pipeline.initEach Lz lvz fun c => ?_
  unfold Rz
  iintro ⟨⟨-, HO, -, Hp, -⟩, -⟩
  imodintro
  isplitl [Hp]; · iexists _; iexact Hp
  iexists ∅; iexact HO

set_option backward.isDefEq.respectTransparency.types false in
/-- THE FRAME: every weakly fair execution from any memory with zero counters terminates, nothing faulting, and every
    argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Gen.frame_cond m emb₁ () Variants.none Lz lvz (fun _ _ => rfl) ρ (outs m) (pdats m) 0 (fun _ => iprop(emp))
    (initOf (Pipeline.cells cfgs cellOf_inj) (Pipeline.launchToks cfgs cellOf_inj)) hu₀z
    (fun _ c => Rz c) (hE0z ρ) (fun c => by unfold Rz; iintro ⟨-, HO⟩; iexact HO)
    (reg0 m) (fun c => .rfl) (fun c => .rfl)
    (reg1 m) (hpre1z m) (fun c => .rfl)

set_option backward.isDefEq.respectTransparency.types false in
/-- THE RUN WITH ITS RESULT: as the frame, and the result buffer ends at what the host tail computes from the contents the
    second region leaves (the last of the valuations the items' contents are folded through). -/
theorem run_result : θ_run defs (onTc (τ := τ) (main (F := F))) ⟨m, fun _ => 0, ρ⟩ (fun r => ∀ c : Dev nD,
      r.2.mem ((c.tc : Thread nD τ).loc main_v0) = Gen.V5 m (outs m) c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine Pipeline.θ_run_regions_kit_dev (pcfgs (F := F)) Gen.adm (pdats m) () cellOf_inj emb₁ defs₀ Variants.none Lz lvz m ρ main
    (Gen.segs m (outs m) Variants.none Lz lvz (fun _ c => Rz c) () (pdats m) (reg0 m) (reg1 m))
    (fun c Q => by
      rewrite [main_chain c, Seg.run_eq_chain,
        show (Gen.segs m (outs m) Variants.none Lz lvz (fun _ c => Rz c) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide) 0 (fun _ _ => rfl) (fun _ => iprop(emp))
    (initOf (Pipeline.cells cfgs cellOf_inj) (Pipeline.launchToks cfgs cellOf_inj)) hu₀z
    (T₀ := fun c => iprop(StableHlo.held (c : Thread nD τ) (Pipeline.ucRefs τ sig) (Gen.V0 m c) ∗ Rz c))
    (Tₙ := fun c => StableHlo.held (c : Thread nD τ) (Pipeline.ucRefs τ sig) (Gen.V5 m (outs m) c))
    (hch := fun c => ⟨.rfl, .rfl, .rfl, hpre1z m c, .rfl, sep_mono .rfl (by unfold Rz; iintro ⟨-, HO⟩; iexact HO)⟩)
    (hinit := ?_) (QY := fun c s => s.mem ((c.tc : Thread nD τ).loc main_v0) = Gen.V5 m (outs m) c main_v0 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (hE0z (F := F) ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (Gen.V5 m (outs m) c) s') $$ [Hh HSI]
    · isplitl [Hh] <;> iassumption
    icases Hr with ⟨%h, HSI⟩
    imodintro
    isplitr
    · ipureintro
      exact ⟨h (Proc.devRef .tc main_v0) (Finset.mem_filter.mpr ⟨StableHlo.devRef_mem_tcRefs main_v0, by decide⟩),
        (h (Proc.devRef .tc main_arg0) (Finset.mem_filter.mpr ⟨StableHlo.devRef_mem_tcRefs main_arg0, by decide⟩)).trans (Gen.V5_main_arg0 m (outs m) c),
        (h (Proc.devRef .tc main_arg1) (Finset.mem_filter.mpr ⟨StableHlo.devRef_mem_tcRefs main_arg1, by decide⟩)).trans (Gen.V5_main_arg1 m (outs m) c),
        (h (Proc.devRef .tc main_arg2) (Finset.mem_filter.mpr ⟨StableHlo.devRef_mem_tcRefs main_arg2, by decide⟩)).trans (Gen.V5_main_arg2 m (outs m) c),
        (h (Proc.devRef .tc main_arg3) (Finset.mem_filter.mpr ⟨StableHlo.devRef_mem_tcRefs main_arg3, by decide⟩)).trans (Gen.V5_main_arg3 m (outs m) c),
        (h (Proc.devRef .tc main_arg4) (Finset.mem_filter.mpr ⟨StableHlo.devRef_mem_tcRefs main_arg4, by decide⟩)).trans (Gen.V5_main_arg4 m (outs m) c),
        (h (Proc.devRef .tc main_arg5) (Finset.mem_filter.mpr ⟨StableHlo.devRef_mem_tcRefs main_arg5, by decide⟩)).trans (Gen.V5_main_arg5 m (outs m) c),
        (h (Proc.devRef .tc main_arg6) (Finset.mem_filter.mpr ⟨StableHlo.devRef_mem_tcRefs main_arg6, by decide⟩)).trans (Gen.V5_main_arg6 m (outs m) c),
        (h (Proc.devRef .tc main_arg7) (Finset.mem_filter.mpr ⟨StableHlo.devRef_mem_tcRefs main_arg7, by decide⟩)).trans (Gen.V5_main_arg7 m (outs m) c),
        (h (Proc.devRef .tc main_arg8) (Finset.mem_filter.mpr ⟨StableHlo.devRef_mem_tcRefs main_arg8, by decide⟩)).trans (Gen.V5_main_arg8 m (outs m) c),
        (h (Proc.devRef .tc main_arg9) (Finset.mem_filter.mpr ⟨StableHlo.devRef_mem_tcRefs main_arg9, by decide⟩)).trans (Gen.V5_main_arg9 m (outs m) c),
        (h (Proc.devRef .tc main_arg10) (Finset.mem_filter.mpr ⟨StableHlo.devRef_mem_tcRefs main_arg10, by decide⟩)).trans (Gen.V5_main_arg10 m (outs m) c),
        (h (Proc.devRef .tc main_arg11) (Finset.mem_filter.mpr ⟨StableHlo.devRef_mem_tcRefs main_arg11, by decide⟩)).trans (Gen.V5_main_arg11 m (outs m) c),
        (h (Proc.devRef .tc main_arg12) (Finset.mem_filter.mpr ⟨StableHlo.devRef_mem_tcRefs main_arg12, by decide⟩)).trans (Gen.V5_main_arg12 m (outs m) c),
        (h (Proc.devRef .tc main_arg13) (Finset.mem_filter.mpr ⟨StableHlo.devRef_mem_tcRefs main_arg13, by decide⟩)).trans (Gen.V5_main_arg13 m (outs m) c),
        (h (Proc.devRef .tc main_arg14) (Finset.mem_filter.mpr ⟨StableHlo.devRef_mem_tcRefs main_arg14, by decide⟩)).trans (Gen.V5_main_arg14 m (outs m) c)⟩
    · iexact HSI

end Cert.KernelIdeal.Fr

end
-- ==== Proof.PiecesI0.lean ====
import proofs.«105748_j27410481283396_2_alg».proof.Proof.FrI0
import Idealize.ShloMosaic.Lib.Pipeline.Value

set_option maxRecDepth 16384

/-
  What each control case of the layer kernel's body leaves in its two accumulators and, at the last
  contraction step, in its two output blocks, written with the body's named payloads: a covering store's
  payload read back, each load reading the whole buffer it names (the tile of `XW` through its rectangle).
-/
noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets `![0, 0]` are zero on every axis. -/
theorem hzero2R0 : (![0, 0] : Fin 2 → Nat) = fun _ => 0 := funext fun a => by fin_cases a <;> rfl

/-- Contraction coordinate 0, first branch: the accumulator is zeroed, read back, and receives the first partial product. -/
theorem soutR0_A_0_eq (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : condR0_0 i) (hc1 : ¬condR0_1 i)
    (x0 x1 : Vec F S2048x1024 .f32) (x2 x3 : Vec F S8192x16 .f32) (x4 x5 : Vec F S1x16 .f32) :
    soutR0_A_0 c i arg2 harg2 arg3 harg3 arg4 harg4 arg5 harg5 arg6 harg6 arg7 harg7 arg8 harg8 arg9 harg9 arg10 harg10 arg11 harg11 hc0 hc1 x0 x1 x2 x3 x4 x5
      = k0_pay3 (View.ld x2 (Rect.unit (s := S8192x16) (k0_off1 i) S1024x16.size (k0_off1_inb i))) x0 (k0_pay1 (F := F)) := by
  unfold soutR0_A_0
  rw [View.read_writes_eq_canon _ _ _ (scoverR0_A_0 c i arg2 harg2 arg3 harg3 arg4 harg4 arg5 harg5 arg6 harg6 arg7 harg7 arg8 harg8 arg9 harg9 arg10 harg10 arg11 harg11 hc0 hc1 x0 x1 x2 x3 x4 x5)]
  unfold kernelRunR0_A
  dsimp only
  sl_unfold_words
  rw [View.canon_cons_unit_zero (S := S2048x16) hzero2R0, View.readCov_unit_zero (S := S2048x16) _ hzero2R0]
  simp only [View.readAt_eq_ld, harg4.read_unread, harg2.read_unread,
    View.ld_unit_zero (S := S2048x1024) hzero2R0, View.ld_unit_zero (S := S2048x16) hzero2R0, View.ld_unit_zero (S := S1x16) hzero2R0]

/-- Contraction coordinate 0, second branch: the same. -/
theorem soutR0_A_1_eq (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : condR0_0 i) (hc1 : ¬condR0_1 i)
    (x0 x1 : Vec F S2048x1024 .f32) (x2 x3 : Vec F S8192x16 .f32) (x4 x5 : Vec F S1x16 .f32) :
    soutR0_A_1 c i arg2 harg2 arg3 harg3 arg4 harg4 arg5 harg5 arg6 harg6 arg7 harg7 arg8 harg8 arg9 harg9 arg10 harg10 arg11 harg11 hc0 hc1 x0 x1 x2 x3 x4 x5
      = k0_pay4 (View.ld x3 (Rect.unit (s := S8192x16) (k0_off1 i) S1024x16.size (k0_off1_inb i))) x1 (k0_pay2 (F := F)) := by
  unfold soutR0_A_1
  rw [View.read_writes_eq_canon _ _ _ (scoverR0_A_1 c i arg2 harg2 arg3 harg3 arg4 harg4 arg5 harg5 arg6 harg6 arg7 harg7 arg8 harg8 arg9 harg9 arg10 harg10 arg11 harg11 hc0 hc1 x0 x1 x2 x3 x4 x5)]
  unfold kernelRunR0_A
  dsimp only
  sl_unfold_words
  rw [View.canon_cons_unit_zero (S := S2048x16) hzero2R0, View.readCov_unit_zero (S := S2048x16) _ hzero2R0]
  simp only [View.readAt_eq_ld, harg5.read_unread, harg3.read_unread,
    View.ld_unit_zero (S := S2048x1024) hzero2R0, View.ld_unit_zero (S := S2048x16) hzero2R0, View.ld_unit_zero (S := S1x16) hzero2R0]

/-- Contraction coordinate 1 to 6, first branch: the accumulator, holding `xs0`, receives this step's partial product. -/
theorem soutR0_B_0_eq (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : ¬condR0_1 i)
    (x0 x1 : Vec F S2048x1024 .f32) (x2 x3 : Vec F S8192x16 .f32) (x4 x5 : Vec F S1x16 .f32) (xs0 xs1 : Vec F S2048x16 .f32) :
    soutR0_B_0 c i arg2 harg2 arg3 harg3 arg4 harg4 arg5 harg5 arg6 harg6 arg7 harg7 arg8 harg8 arg9 harg9 arg10 harg10 arg11 harg11 hc0 hc1 x0 x1 x2 x3 x4 x5 xs0 xs1
      = k0_pay3 (View.ld x2 (Rect.unit (s := S8192x16) (k0_off1 i) S1024x16.size (k0_off1_inb i))) x0 xs0 := by
  unfold soutR0_B_0
  rw [View.read_writes_eq_canon _ _ _ (scoverR0_B_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRunR0_B
  dsimp only
  (try sl_unfold_words)
  rw [View.canon_unit_zero hzero2R0]
  simp only [View.readAt_eq_ld, harg4.read_unread, harg2.read_unread, harg10.read_unread,
    View.ld_unit_zero (S := S2048x1024) hzero2R0, View.ld_unit_zero (S := S2048x16) hzero2R0, View.ld_unit_zero (S := S1x16) hzero2R0]

/-- Contraction coordinate 1 to 6, second branch: the same from `xs1`. -/
theorem soutR0_B_1_eq (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : ¬condR0_1 i)
    (x0 x1 : Vec F S2048x1024 .f32) (x2 x3 : Vec F S8192x16 .f32) (x4 x5 : Vec F S1x16 .f32) (xs0 xs1 : Vec F S2048x16 .f32) :
    soutR0_B_1 c i arg2 harg2 arg3 harg3 arg4 harg4 arg5 harg5 arg6 harg6 arg7 harg7 arg8 harg8 arg9 harg9 arg10 harg10 arg11 harg11 hc0 hc1 x0 x1 x2 x3 x4 x5 xs0 xs1
      = k0_pay4 (View.ld x3 (Rect.unit (s := S8192x16) (k0_off1 i) S1024x16.size (k0_off1_inb i))) x1 xs1 := by
  unfold soutR0_B_1
  rw [View.read_writes_eq_canon _ _ _ (scoverR0_B_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRunR0_B
  dsimp only
  (try sl_unfold_words)
  rw [View.canon_unit_zero hzero2R0]
  simp only [View.readAt_eq_ld, harg5.read_unread, harg3.read_unread, harg11.read_unread,
    View.ld_unit_zero (S := S2048x1024) hzero2R0, View.ld_unit_zero (S := S2048x16) hzero2R0, View.ld_unit_zero (S := S1x16) hzero2R0]

/-- Contraction coordinate 7, first branch: the accumulator receives the last partial product. -/
theorem soutR0_C_0_eq (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : condR0_1 i)
    (x0 x1 : Vec F S2048x1024 .f32) (x2 x3 : Vec F S8192x16 .f32) (x4 x5 : Vec F S1x16 .f32) (xs0 xs1 : Vec F S2048x16 .f32) :
    soutR0_C_0 c i arg2 harg2 arg3 harg3 arg4 harg4 arg5 harg5 arg6 harg6 arg7 harg7 arg8 harg8 arg9 harg9 arg10 harg10 arg11 harg11 hc0 hc1 x0 x1 x2 x3 x4 x5 xs0 xs1
      = k0_pay3 (View.ld x2 (Rect.unit (s := S8192x16) (k0_off1 i) S1024x16.size (k0_off1_inb i))) x0 xs0 := by
  unfold soutR0_C_0
  rw [View.read_writes_eq_canon _ _ _ (scoverR0_C_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRunR0_C
  dsimp only
  (try sl_unfold_words)
  rw [View.canon_unit_zero hzero2R0]
  simp only [View.readAt_eq_ld, harg4.read_unread, harg2.read_unread, harg10.read_unread,
    View.ld_unit_zero (S := S2048x1024) hzero2R0, View.ld_unit_zero (S := S2048x16) hzero2R0, View.ld_unit_zero (S := S1x16) hzero2R0]

/-- Contraction coordinate 7, second branch: the same. -/
theorem soutR0_C_1_eq (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : condR0_1 i)
    (x0 x1 : Vec F S2048x1024 .f32) (x2 x3 : Vec F S8192x16 .f32) (x4 x5 : Vec F S1x16 .f32) (xs0 xs1 : Vec F S2048x16 .f32) :
    soutR0_C_1 c i arg2 harg2 arg3 harg3 arg4 harg4 arg5 harg5 arg6 harg6 arg7 harg7 arg8 harg8 arg9 harg9 arg10 harg10 arg11 harg11 hc0 hc1 x0 x1 x2 x3 x4 x5 xs0 xs1
      = k0_pay4 (View.ld x3 (Rect.unit (s := S8192x16) (k0_off1 i) S1024x16.size (k0_off1_inb i))) x1 xs1 := by
  unfold soutR0_C_1
  rw [View.read_writes_eq_canon _ _ _ (scoverR0_C_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRunR0_C
  dsimp only
  (try sl_unfold_words)
  rw [View.canon_unit_zero hzero2R0]
  simp only [View.readAt_eq_ld, harg5.read_unread, harg3.read_unread, harg11.read_unread,
    View.ld_unit_zero (S := S2048x1024) hzero2R0, View.ld_unit_zero (S := S2048x16) hzero2R0, View.ld_unit_zero (S := S1x16) hzero2R0]

/-- Contraction coordinate 7, first branch's output block: the just-stored accumulator plus the bias row, cut off below at zero. -/
theorem outR0_C_6_eq (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : condR0_1 i)
    (x0 x1 : Vec F S2048x1024 .f32) (x2 x3 : Vec F S8192x16 .f32) (x4 x5 : Vec F S1x16 .f32) (xs0 xs1 : Vec F S2048x16 .f32) :
    outR0_C_6 c i arg2 harg2 arg3 harg3 arg4 harg4 arg5 harg5 arg6 harg6 arg7 harg7 arg8 harg8 arg9 harg9 arg10 harg10 arg11 harg11 hc0 hc1 x0 x1 x2 x3 x4 x5 xs0 xs1
      = k0_pay5 (k0_pay3 (View.ld x2 (Rect.unit (s := S8192x16) (k0_off1 i) S1024x16.size (k0_off1_inb i))) x0 xs0) x4 := by
  unfold outR0_C_6
  rw [View.read_writes_eq_canon _ _ _ (coverR0_C_6 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRunR0_C
  dsimp only
  sl_unfold_words
  rw [View.canon_unit_zero hzero2R0, View.readCov_unit_zero (S := S2048x16) _ hzero2R0]
  simp only [View.readAt_eq_ld, harg4.read_unread, harg2.read_unread, harg10.read_unread, harg6.read_unread,
    View.ld_unit_zero (S := S2048x1024) hzero2R0, View.ld_unit_zero (S := S2048x16) hzero2R0, View.ld_unit_zero (S := S1x16) hzero2R0]

/-- Contraction coordinate 7, second branch's output block: the same. -/
theorem outR0_C_7_eq (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S8192x16 .f32) (harg4 : arg4.IsWhole) (arg5 : Memref sig .tc .vmem S8192x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S2048x16 .f32) (harg8 : arg8.IsWhole) (arg9 : Memref sig .tc .vmem S2048x16 .f32) (harg9 : arg9.IsWhole) (arg10 : Memref sig .tc .vmem S2048x16 .f32) (harg10 : arg10.IsWhole) (arg11 : Memref sig .tc .vmem S2048x16 .f32) (harg11 : arg11.IsWhole) (hc0 : ¬condR0_0 i) (hc1 : condR0_1 i)
    (x0 x1 : Vec F S2048x1024 .f32) (x2 x3 : Vec F S8192x16 .f32) (x4 x5 : Vec F S1x16 .f32) (xs0 xs1 : Vec F S2048x16 .f32) :
    outR0_C_7 c i arg2 harg2 arg3 harg3 arg4 harg4 arg5 harg5 arg6 harg6 arg7 harg7 arg8 harg8 arg9 harg9 arg10 harg10 arg11 harg11 hc0 hc1 x0 x1 x2 x3 x4 x5 xs0 xs1
      = k0_pay6 (k0_pay4 (View.ld x3 (Rect.unit (s := S8192x16) (k0_off1 i) S1024x16.size (k0_off1_inb i))) x1 xs1) x5 := by
  unfold outR0_C_7
  rw [View.read_writes_eq_canon _ _ _ (coverR0_C_7 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRunR0_C
  dsimp only
  sl_unfold_words
  rw [View.canon_unit_zero hzero2R0, View.readCov_unit_zero (S := S2048x16) _ hzero2R0]
  simp only [View.readAt_eq_ld, harg5.read_unread, harg3.read_unread, harg11.read_unread, harg7.read_unread,
    View.ld_unit_zero (S := S2048x1024) hzero2R0, View.ld_unit_zero (S := S2048x16) hzero2R0, View.ld_unit_zero (S := S1x16) hzero2R0]

end Cert.KernelIdeal.Fr

end
-- ==== Proof.LibMatmulRows.lean ====
/-
  A matrix product into a zero accumulator, read at one row and one column.

  For an `M × K` matrix `l` and a `K × N` matrix `r` contracted along the one shared axis, the entry of
  `l · r` at row `p` and column `j` is `∑ k, l[p,k] · r[k,j]`.  At the exact values the product unit's result
  is the accumulator plus the sum over the contraction index of the operands' products; the accumulator is
  the zero word, and the contraction index — a one-axis multi-index — is identified with its one
  coordinate `k : Fin K`.  The dimension numbers enter only through four coordinate facts (which axis of
  each operand is the output's and which is the contracted one), so the lemma serves every plain
  row-by-column product whatever the name of its dimension record.
-/
import Idealize.ShloMosaic.PureOps.Ideal.Laws
import Idealize.ShloMosaic.Lib.ValueIdx

noncomputable section

open scoped BigOperators

namespace Cert.LibMatmulRows

open Idealize.ShloMosaic Idealize.ShloMosaic.ValueIdx

/-- `(l · r)[p, j] = ∑ k, l[p,k] · r[k,j]` for a product into the zero accumulator whose left operand index at
    output `i` and contraction position `q` is `(i 0, q)` and whose right operand index is `(q, i 1)`. -/
theorem matmul_zero_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    matmul D prec l r (constant (F := Ideal) ⟨2, ![M, N]⟩ .f32 0x00000000#32) (ix2 p j)
      = ∑ k : Fin K, l (ix2 p k) * r (ix2 k j) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibMatmulRows

end
-- ==== Proof.PayloadAt.lean ====
import proofs.«105748_j27410481283396_2_alg».proof.Proof.Gen.KernelIdeal.Skeleton
import proofs.«105748_j27410481283396_2_alg».proof.Proof.LibMatmulRows
import Idealize.ShloMosaic.Lib.ValueIdx
import Idealize.ShloMosaic.Lib.Pipeline.Value
import Idealize.ShloMosaic.Lib.ValueLayout
import Idealize.ShloMosaic.PureOps.Ideal.Laws

noncomputable section

open scoped BigOperators

/-
  The kernel body's arithmetic read at one row and one column, at the exact values: the zero fill of an
  accumulator, the accumulator update `acc + A_tile · XW_tile`, the output `max (acc + b) 0`, and which rows
  of `XW` a grid point's tile is.  Stated once for the first call (16 columns) and once, primed, for the
  second (32 columns).
-/
namespace Cert.KernelIdeal.PayloadAt

open Cert.KernelIdeal Cert.KernelIdeal.Gen Idealize.ShloMosaic Idealize.ShloMosaic.ValueIdx

/-- The word `0x00000000` is the extended real `0`. -/
theorem zero_word : (Scalar.ofBits .f32 0x00000000#32 : Ideal .f32) = 0 := Ideal.ofBits_zero_f32

/-! ## The products' dimension numbers: which operand coordinates an output coordinate and a contraction position name -/

theorem dot16_l0 (i : S2048x16.Idx) (q : dot_S2048x1024_S1024x16_S2048x16_1_0_0_1_n_n.contr.Idx) :
    (dot_S2048x1024_S1024x16_S2048x16_1_0_0_1_n_n.lhsIdx i q 0).val = (i 0).val := by
  unfold DotDims.lhsIdx
  rw [dif_neg (show ¬(0 : Fin S2048x1024.rank) ∈ dot_S2048x1024_S1024x16_S2048x16_1_0_0_1_n_n.lhsBatch by decide),
    dif_pos (show (0 : Fin S2048x1024.rank) ∈ dot_S2048x1024_S1024x16_S2048x16_1_0_0_1_n_n.lhsNonContracting by decide)]
  rfl
theorem dot16_l1 (i : S2048x16.Idx) (q : dot_S2048x1024_S1024x16_S2048x16_1_0_0_1_n_n.contr.Idx) :
    (dot_S2048x1024_S1024x16_S2048x16_1_0_0_1_n_n.lhsIdx i q 1).val = (q ⟨0, by decide⟩).val :=
  dot_S2048x1024_S1024x16_S2048x16_1_0_0_1_n_n.lhsIdx_val_of_single rfl i q
theorem dot16_r0 (i : S2048x16.Idx) (q : dot_S2048x1024_S1024x16_S2048x16_1_0_0_1_n_n.contr.Idx) :
    (dot_S2048x1024_S1024x16_S2048x16_1_0_0_1_n_n.rhsIdx i q 0).val = (q ⟨0, by decide⟩).val :=
  dot_S2048x1024_S1024x16_S2048x16_1_0_0_1_n_n.rhsIdx_val_of_single rfl i q
theorem dot16_r1 (i : S2048x16.Idx) (q : dot_S2048x1024_S1024x16_S2048x16_1_0_0_1_n_n.contr.Idx) :
    (dot_S2048x1024_S1024x16_S2048x16_1_0_0_1_n_n.rhsIdx i q 1).val = (i 1).val := by
  unfold DotDims.rhsIdx
  rw [dif_neg (show ¬(1 : Fin S1024x16.rank) ∈ dot_S2048x1024_S1024x16_S2048x16_1_0_0_1_n_n.rhsBatch by decide),
    dif_pos (show (1 : Fin S1024x16.rank) ∈ dot_S2048x1024_S1024x16_S2048x16_1_0_0_1_n_n.rhsNonContracting by decide)]
  rfl

theorem dot16_matmul_at (l : FVec Ideal S2048x1024 .bf16) (r : FVec Ideal S1024x16 .bf16) (p : Fin 2048) (j : Fin 16) :
    matmul dot_S2048x1024_S1024x16_S2048x16_1_0_0_1_n_n none l r (constant (F := Ideal) S2048x16 .f32 0x00000000#32) (ix2 p j)
      = ∑ q : Fin 1024, l (ix2 p q) * r (ix2 q j) :=
  Cert.LibMatmulRows.matmul_zero_apply dot_S2048x1024_S1024x16_S2048x16_1_0_0_1_n_n rfl rfl dot16_l0 dot16_l1 dot16_r0 dot16_r1 none l r p j

theorem dot32_l0 (i : S2048x32.Idx) (q : dot_S2048x1024_S1024x32_S2048x32_1_0_0_1_n_n.contr.Idx) :
    (dot_S2048x1024_S1024x32_S2048x32_1_0_0_1_n_n.lhsIdx i q 0).val = (i 0).val := by
  unfold DotDims.lhsIdx
  rw [dif_neg (show ¬(0 : Fin S2048x1024.rank) ∈ dot_S2048x1024_S1024x32_S2048x32_1_0_0_1_n_n.lhsBatch by decide),
    dif_pos (show (0 : Fin S2048x1024.rank) ∈ dot_S2048x1024_S1024x32_S2048x32_1_0_0_1_n_n.lhsNonContracting by decide)]
  rfl
theorem dot32_l1 (i : S2048x32.Idx) (q : dot_S2048x1024_S1024x32_S2048x32_1_0_0_1_n_n.contr.Idx) :
    (dot_S2048x1024_S1024x32_S2048x32_1_0_0_1_n_n.lhsIdx i q 1).val = (q ⟨0, by decide⟩).val :=
  dot_S2048x1024_S1024x32_S2048x32_1_0_0_1_n_n.lhsIdx_val_of_single rfl i q
theorem dot32_r0 (i : S2048x32.Idx) (q : dot_S2048x1024_S1024x32_S2048x32_1_0_0_1_n_n.contr.Idx) :
    (dot_S2048x1024_S1024x32_S2048x32_1_0_0_1_n_n.rhsIdx i q 0).val = (q ⟨0, by decide⟩).val :=
  dot_S2048x1024_S1024x32_S2048x32_1_0_0_1_n_n.rhsIdx_val_of_single rfl i q
theorem dot32_r1 (i : S2048x32.Idx) (q : dot_S2048x1024_S1024x32_S2048x32_1_0_0_1_n_n.contr.Idx) :
    (dot_S2048x1024_S1024x32_S2048x32_1_0_0_1_n_n.rhsIdx i q 1).val = (i 1).val := by
  unfold DotDims.rhsIdx
  rw [dif_neg (show ¬(1 : Fin S1024x32.rank) ∈ dot_S2048x1024_S1024x32_S2048x32_1_0_0_1_n_n.rhsBatch by decide),
    dif_pos (show (1 : Fin S1024x32.rank) ∈ dot_S2048x1024_S1024x32_S2048x32_1_0_0_1_n_n.rhsNonContracting by decide)]
  rfl

theorem dot32_matmul_at (l : FVec Ideal S2048x1024 .bf16) (r : FVec Ideal S1024x32 .bf16) (p : Fin 2048) (j : Fin 32) :
    matmul dot_S2048x1024_S1024x32_S2048x32_1_0_0_1_n_n none l r (constant (F := Ideal) S2048x32 .f32 0x00000000#32) (ix2 p j)
      = ∑ q : Fin 1024, l (ix2 p q) * r (ix2 q j) :=
  Cert.LibMatmulRows.matmul_zero_apply dot_S2048x1024_S1024x32_S2048x32_1_0_0_1_n_n rfl rfl dot32_l0 dot32_l1 dot32_r0 dot32_r1 none l r p j

/-! ## First call (16 columns) -/

/-- The zero fill of the first branch's accumulator reads `0` everywhere. -/
theorem pay1_at (p : Fin 2048) (j : Fin 16) : k0_pay1 (F := Ideal) (ix2 p j) = 0 := by
  unfold k0_pay1
  rw [shapeCast_self, broadcast_apply]
  exact zero_word

/-- The zero fill of the second branch's accumulator reads `0` everywhere. -/
theorem pay2_at (p : Fin 2048) (j : Fin 16) : k0_pay2 (F := Ideal) (ix2 p j) = 0 := by
  unfold k0_pay2
  rw [shapeCast_self, broadcast_apply]
  exact zero_word

/-- The accumulator update of the first branch read at row `p`, column `j`: the old accumulator plus the
    row-by-column product of the adjacency tile and the tile of `XW` (the identity shape casts and the exact
    format changes read through). -/
theorem pay3_at (v6 : Vec Ideal S1024x16 .f32) (v13 : Vec Ideal S2048x1024 .f32) (v17 : Vec Ideal S2048x16 .f32)
    (p : Fin 2048) (j : Fin 16) :
    k0_pay3 (F := Ideal) v6 v13 v17 (ix2 p j) = v17 (ix2 p j) + ∑ q : Fin 1024, v13 (ix2 p q) * v6 (ix2 q j) := by
  unfold k0_pay3
  rw [shapeCast_self, addf_apply, dot16_matmul_at]
  simp only [truncf_apply, shapeCast_self]

/-- The same update for the second branch. -/
theorem pay4_at (v10 : Vec Ideal S1024x16 .f32) (v15 : Vec Ideal S2048x1024 .f32) (v23 : Vec Ideal S2048x16 .f32)
    (p : Fin 2048) (j : Fin 16) :
    k0_pay4 (F := Ideal) v10 v15 v23 (ix2 p j) = v23 (ix2 p j) + ∑ q : Fin 1024, v15 (ix2 p q) * v10 (ix2 q j) := by
  unfold k0_pay4
  rw [shapeCast_self, addf_apply, dot16_matmul_at]
  simp only [truncf_apply, shapeCast_self]

/-- The first branch's output block read at row `p`, column `j`: the accumulator plus the bias row's entry
    at `j`, cut off below at `0`. -/
theorem pay5_at (v32 : Vec Ideal S2048x16 .f32) (v33 : Vec Ideal S1x16 .f32) (p : Fin 2048) (j : Fin 16) :
    k0_pay5 (F := Ideal) v32 v33 (ix2 p j) = max (v32 (ix2 p j) + v33 (ix2 (0 : Fin 1) j)) 0 := by
  unfold k0_pay5
  rw [maximumf_apply, addf_apply, broadcast_apply, broadcastTo_1b_ab_apply, shapeCast_self, zero_word]

/-- The same for the second branch. -/
theorem pay6_at (v40 : Vec Ideal S2048x16 .f32) (v41 : Vec Ideal S1x16 .f32) (p : Fin 2048) (j : Fin 16) :
    k0_pay6 (F := Ideal) v40 v41 (ix2 p j) = max (v40 (ix2 p j) + v41 (ix2 (0 : Fin 1) j)) 0 := by
  unfold k0_pay6
  rw [maximumf_apply, addf_apply, broadcast_apply, broadcastTo_1b_ab_apply, shapeCast_self, zero_word]

/-- The offsets of a grid point's tile of `XW`: row `1024 · k` (the 32-bit product is exact, `k < 8`), column `0`. -/
theorem off1_val (i : grid0.Coords) : k0_off1 i = ![1024 * (i 1).val, 0] := k0_off1_eq i

/-- The tile of `XW` a grid point loads, read at row `q`, column `j`, is `XW` at row `1024 · k + q`, column `j`. -/
theorem xwTile_at (i : grid0.Coords) (xw : Vec Ideal S8192x16 .f32) (q : Fin 1024) (j : Fin 16) :
    View.ld xw (Rect.unit (s := S8192x16) (k0_off1 i) S1024x16.size (k0_off1_inb i)) (ix2 q j)
      = xw (ix2 ⟨1024 * (i 1).val + q.val, by
          have h : (i 1).val < 8 := (i 1).isLt
          omega⟩ j) := by
  show xw _ = xw _
  refine congrArg xw (funext fun a => Fin.ext ?_)
  match a with
  | ⟨0, _⟩ =>
    show k0_off1 i 0 + 1 * q.val = 1024 * (i 1).val + q.val
    rw [k0_off1_eq i]
    show 1024 * (i 1).val + 1 * q.val = 1024 * (i 1).val + q.val
    omega
  | ⟨1, _⟩ =>
    show k0_off1 i 1 + 1 * j.val = j.val
    rw [k0_off1_eq i]
    show 0 + 1 * j.val = j.val
    omega

/-! ## Second call (32 columns) -/

/-- The zero fill of the first branch's accumulator reads `0` everywhere. -/
theorem pay1'_at (p : Fin 2048) (j : Fin 32) : k1_pay1 (F := Ideal) (ix2 p j) = 0 := by
  unfold k1_pay1
  rw [shapeCast_self, broadcast_apply]
  exact zero_word

/-- The zero fill of the second branch's accumulator reads `0` everywhere. -/
theorem pay2'_at (p : Fin 2048) (j : Fin 32) : k1_pay2 (F := Ideal) (ix2 p j) = 0 := by
  unfold k1_pay2
  rw [shapeCast_self, broadcast_apply]
  exact zero_word

/-- The accumulator update of the first branch read at row `p`, column `j`: the old accumulator plus the
    row-by-column product of the adjacency tile and the tile of `XW` (the identity shape casts and the exact
    format changes read through). -/
theorem pay3'_at (v6 : Vec Ideal S1024x32 .f32) (v13 : Vec Ideal S2048x1024 .f32) (v17 : Vec Ideal S2048x32 .f32)
    (p : Fin 2048) (j : Fin 32) :
    k1_pay3 (F := Ideal) v6 v13 v17 (ix2 p j) = v17 (ix2 p j) + ∑ q : Fin 1024, v13 (ix2 p q) * v6 (ix2 q j) := by
  unfold k1_pay3
  rw [shapeCast_self, addf_apply, dot32_matmul_at]
  simp only [truncf_apply, shapeCast_self]

/-- The same update for the second branch. -/
theorem pay4'_at (v10 : Vec Ideal S1024x32 .f32) (v15 : Vec Ideal S2048x1024 .f32) (v23 : Vec Ideal S2048x32 .f32)
    (p : Fin 2048) (j : Fin 32) :
    k1_pay4 (F := Ideal) v10 v15 v23 (ix2 p j) = v23 (ix2 p j) + ∑ q : Fin 1024, v15 (ix2 p q) * v10 (ix2 q j) := by
  unfold k1_pay4
  rw [shapeCast_self, addf_apply, dot32_matmul_at]
  simp only [truncf_apply, shapeCast_self]

/-- The first branch's output block read at row `p`, column `j`: the accumulator plus the bias row's entry
    at `j`, cut off below at `0`. -/
theorem pay5'_at (v32 : Vec Ideal S2048x32 .f32) (v33 : Vec Ideal S1x32 .f32) (p : Fin 2048) (j : Fin 32) :
    k1_pay5 (F := Ideal) v32 v33 (ix2 p j) = max (v32 (ix2 p j) + v33 (ix2 (0 : Fin 1) j)) 0 := by
  unfold k1_pay5
  rw [maximumf_apply, addf_apply, broadcast_apply, broadcastTo_1b_ab_apply, shapeCast_self, zero_word]

/-- The same for the second branch. -/
theorem pay6'_at (v40 : Vec Ideal S2048x32 .f32) (v41 : Vec Ideal S1x32 .f32) (p : Fin 2048) (j : Fin 32) :
    k1_pay6 (F := Ideal) v40 v41 (ix2 p j) = max (v40 (ix2 p j) + v41 (ix2 (0 : Fin 1) j)) 0 := by
  unfold k1_pay6
  rw [maximumf_apply, addf_apply, broadcast_apply, broadcastTo_1b_ab_apply, shapeCast_self, zero_word]

/-- The offsets of a grid point's tile of `XW`: row `1024 · k` (the 32-bit product is exact, `k < 8`), column `0`. -/
theorem off1'_val (i : grid1.Coords) : k1_off1 i = ![1024 * (i 1).val, 0] := k1_off1_eq i

/-- The tile of `XW` a grid point loads, read at row `q`, column `j`, is `XW` at row `1024 · k + q`, column `j`. -/
theorem xwTile'_at (i : grid1.Coords) (xw : Vec Ideal S8192x32 .f32) (q : Fin 1024) (j : Fin 32) :
    View.ld xw (Rect.unit (s := S8192x32) (k1_off1 i) S1024x32.size (k1_off1_inb i)) (ix2 q j)
      = xw (ix2 ⟨1024 * (i 1).val + q.val, by
          have h : (i 1).val < 8 := (i 1).isLt
          omega⟩ j) := by
  show xw _ = xw _
  refine congrArg xw (funext fun a => Fin.ext ?_)
  match a with
  | ⟨0, _⟩ =>
    show k1_off1 i 0 + 1 * q.val = 1024 * (i 1).val + q.val
    rw [k1_off1_eq i]
    show 1024 * (i 1).val + 1 * q.val = 1024 * (i 1).val + q.val
    omega
  | ⟨1, _⟩ =>
    show k1_off1 i 1 + 1 * j.val = j.val
    rw [k1_off1_eq i]
    show 0 + 1 * j.val = j.val
    omega

end Cert.KernelIdeal.PayloadAt

end
-- ==== Proof.BlocksAt.lean ====
/-
  The kernel's windows read at an entry, by index arithmetic only (nothing here computes with floats).

  Each of the two kernel calls runs a 4 × 8 grid: point `t = 8 · i + k` works on row tile `i` (2048 rows) and
  contraction tile `k` (1024 columns of the adjacency). Per call: where each window's block sits (decided over the 32
  points); a block of any whole-array function read at an entry; the input blocks as the region finds them; for the two
  outputs, which entries a block holds, that the blocks written back tile the array, and hence that the array ends
  holding the function every write-back writes its block of. Last, a sum of eight addends accumulated step by step.
-/
import proofs.«105748_j27410481283396_2_alg».proof.Proof.FrI0S
import Idealize.ShloMosaic.Lib.ValueIdx
import Idealize.ShloMosaic.Lib.Pipeline.Value

noncomputable section

open scoped BigOperators

namespace Cert.KernelIdeal.BlocksAt

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! ## Kernel call 0: the grid is 4 × 8, point `t = 8 · i + k` with `i` the row tile and `k` the contraction tile -/

theorem tlt (t : Fin cfg0.N) : t.val < 32 := lt_of_lt_of_eq t.isLt N_0

/-- The printed index maps, decided over the 32 grid points: the two adjacency windows sit at block `(t / 8, t % 8)`, -/
theorem idx_adj : ∀ t : Fin cfg0.N, win0_0.index t (0 : Fin 2) = t.val / 8 ∧ win0_0.index t (1 : Fin 2) = t.val % 8
    ∧ win0_1.index t (0 : Fin 2) = t.val / 8 ∧ win0_1.index t (1 : Fin 2) = t.val % 8 :=
  (by decide +kernel : ∀ t : Fin grid0.N, _)
/-- the four whole-array windows at block `(0, 0)`, -/
theorem idx_whole : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)
/-- and the two output windows at block `(t / 8, 0)`. -/
theorem idx_out : ∀ t : Fin cfg0.N, win0_6.index t (0 : Fin 2) = t.val / 8 ∧ win0_6.index t (1 : Fin 2) = 0
    ∧ win0_7.index t (0 : Fin 2) = t.val / 8 ∧ win0_7.index t (1 : Fin 2) = 0 :=
  (by decide +kernel : ∀ t : Fin grid0.N, _)

/-! ### A block of a whole-array function `G`, read at an entry -/

/-- Adjacency window 0: entry `(p, q)` of the `2048 × 1024` block at point `t` is entry `(2048 · (t / 8) + p, 1024 · (t % 8) + q)`. -/
theorem rd0_at (G : Vec F S8192x8192 .f32) (t : Fin cfg0.N) (p : Fin 2048) (q : Fin 1024) :
    ((cfg0.win 0).blk t).view.read (Elt F) G (ix2 p q)
      = G (ix2 (⟨2048 * (t.val / 8) + p.val, by have := tlt t; omega⟩ : Fin 8192) (⟨1024 * (t.val % 8) + q.val, by omega⟩ : Fin 8192)) := by
  obtain ⟨e0, e1, e2, e3⟩ := idx_adj t
  rw [View.read_apply]
  show G _ = G _
  congr 1
  funext a
  apply Fin.ext
  match a with
  | ⟨0, _⟩ => show win0_0.index t (0 : Fin 2) * 2048 + 1 * p.val = 2048 * (t.val / 8) + p.val; rw [e0]; omega
  | ⟨1, _⟩ => show win0_0.index t (1 : Fin 2) * 1024 + 1 * q.val = 1024 * (t.val % 8) + q.val; rw [e1]; omega

/-- Adjacency window 1: entry `(p, q)` of the `2048 × 1024` block at point `t` is entry `(2048 · (t / 8) + p, 1024 · (t % 8) + q)`. -/
theorem rd1_at (G : Vec F S8192x8192 .f32) (t : Fin cfg0.N) (p : Fin 2048) (q : Fin 1024) :
    ((cfg0.win 1).blk t).view.read (Elt F) G (ix2 p q)
      = G (ix2 (⟨2048 * (t.val / 8) + p.val, by have := tlt t; omega⟩ : Fin 8192) (⟨1024 * (t.val % 8) + q.val, by omega⟩ : Fin 8192)) := by
  obtain ⟨e0, e1, e2, e3⟩ := idx_adj t
  rw [View.read_apply]
  show G _ = G _
  congr 1
  funext a
  apply Fin.ext
  match a with
  | ⟨0, _⟩ => show win0_1.index t (0 : Fin 2) * 2048 + 1 * p.val = 2048 * (t.val / 8) + p.val; rw [e2]; omega
  | ⟨1, _⟩ => show win0_1.index t (1 : Fin 2) * 1024 + 1 * q.val = 1024 * (t.val % 8) + q.val; rw [e3]; omega

/-- Window 2 is the whole `8192 × 16` array at every point. -/
theorem rd2_at (G : Vec F S8192x16 .f32) (t : Fin cfg0.N) (r : Fin 8192) (j : Fin 16) :
    ((cfg0.win 2).blk t).view.read (Elt F) G (ix2 r j) = G (ix2 r j) := by
  obtain ⟨e0, e1, e2, e3, e4, e5, e6, e7⟩ := idx_whole t
  rw [View.read_apply]
  show G _ = G _
  congr 1
  funext a
  apply Fin.ext
  match a with
  | ⟨0, _⟩ => show win0_2.index t (0 : Fin 2) * 8192 + 1 * r.val = r.val; rw [e0]; omega
  | ⟨1, _⟩ => show win0_2.index t (1 : Fin 2) * 16 + 1 * j.val = j.val; rw [e1]; omega

/-- Window 3 is the whole `8192 × 16` array at every point. -/
theorem rd3_at (G : Vec F S8192x16 .f32) (t : Fin cfg0.N) (r : Fin 8192) (j : Fin 16) :
    ((cfg0.win 3).blk t).view.read (Elt F) G (ix2 r j) = G (ix2 r j) := by
  obtain ⟨e0, e1, e2, e3, e4, e5, e6, e7⟩ := idx_whole t
  rw [View.read_apply]
  show G _ = G _
  congr 1
  funext a
  apply Fin.ext
  match a with
  | ⟨0, _⟩ => show win0_3.index t (0 : Fin 2) * 8192 + 1 * r.val = r.val; rw [e2]; omega
  | ⟨1, _⟩ => show win0_3.index t (1 : Fin 2) * 16 + 1 * j.val = j.val; rw [e3]; omega

/-- Window 4 is the whole `1 × 16` bias row at every point. -/
theorem rd4_at (G : Vec F S1x16 .f32) (t : Fin cfg0.N) (j : Fin 16) :
    ((cfg0.win 4).blk t).view.read (Elt F) G (ix2 (0 : Fin 1) j) = G (ix2 (0 : Fin 1) j) := by
  obtain ⟨e0, e1, e2, e3, e4, e5, e6, e7⟩ := idx_whole t
  rw [View.read_apply]
  show G _ = G _
  congr 1
  funext a
  apply Fin.ext
  match a with
  | ⟨0, _⟩ => show win0_4.index t (0 : Fin 2) * 1 + 1 * 0 = 0; rw [e4]
  | ⟨1, _⟩ => show win0_4.index t (1 : Fin 2) * 16 + 1 * j.val = j.val; rw [e5]; omega

/-- Window 5 is the whole `1 × 16` bias row at every point. -/
theorem rd5_at (G : Vec F S1x16 .f32) (t : Fin cfg0.N) (j : Fin 16) :
    ((cfg0.win 5).blk t).view.read (Elt F) G (ix2 (0 : Fin 1) j) = G (ix2 (0 : Fin 1) j) := by
  obtain ⟨e0, e1, e2, e3, e4, e5, e6, e7⟩ := idx_whole t
  rw [View.read_apply]
  show G _ = G _
  congr 1
  funext a
  apply Fin.ext
  match a with
  | ⟨0, _⟩ => show win0_5.index t (0 : Fin 2) * 1 + 1 * 0 = 0; rw [e6]
  | ⟨1, _⟩ => show win0_5.index t (1 : Fin 2) * 16 + 1 * j.val = j.val; rw [e7]; omega

/-- Output window 6: entry `(p, j)` of the `2048 × 16` block at point `t` is entry `(2048 · (t / 8) + p, j)`. -/
theorem rd6_at (G : Vec F S8192x16 .f32) (t : Fin cfg0.N) (p : Fin 2048) (j : Fin 16) :
    ((cfg0.win 6).blk t).view.read (Elt F) G (ix2 p j)
      = G (ix2 (⟨2048 * (t.val / 8) + p.val, by have := tlt t; omega⟩ : Fin 8192) j) := by
  obtain ⟨e0, e1, e2, e3⟩ := idx_out t
  rw [View.read_apply]
  show G _ = G _
  congr 1
  funext a
  apply Fin.ext
  match a with
  | ⟨0, _⟩ => show win0_6.index t (0 : Fin 2) * 2048 + 1 * p.val = 2048 * (t.val / 8) + p.val; rw [e0]; omega
  | ⟨1, _⟩ => show win0_6.index t (1 : Fin 2) * 16 + 1 * j.val = j.val; rw [e1]; omega

/-- A function on output window 6's block at `t` that agrees entry by entry with `G`'s rows `2048 · (t / 8) + p` IS
    that block of `G` (the form a write-back's hypothesis takes). -/
theorem blk6_ext (G : Vec F S8192x16 .f32) (t : Fin cfg0.N)
    (X : ((cfg0.win 6).xblock (cfg0.grid.coords t)).Idx → Elt F (cfg0.win 6).elt)
    (h : ∀ (p : Fin 2048) (j : Fin 16),
      X (ix2 p j) = G (ix2 (⟨2048 * (t.val / 8) + p.val, by have := tlt t; omega⟩ : Fin 8192) j)) :
    X = ((cfg0.win 6).blk t).view.read (Elt F) G := by
  funext y
  obtain ⟨p, j, rfl⟩ : ∃ (p : Fin 2048) (j : Fin 16), y = ix2 p j := ⟨y 0, y 1, eq_ix2 y⟩
  rw [rd6_at]
  exact h p j

/-- Output window 7: entry `(p, j)` of the `2048 × 16` block at point `t` is entry `(2048 · (t / 8) + p, j)`. -/
theorem rd7_at (G : Vec F S8192x16 .f32) (t : Fin cfg0.N) (p : Fin 2048) (j : Fin 16) :
    ((cfg0.win 7).blk t).view.read (Elt F) G (ix2 p j)
      = G (ix2 (⟨2048 * (t.val / 8) + p.val, by have := tlt t; omega⟩ : Fin 8192) j) := by
  obtain ⟨e0, e1, e2, e3⟩ := idx_out t
  rw [View.read_apply]
  show G _ = G _
  congr 1
  funext a
  apply Fin.ext
  match a with
  | ⟨0, _⟩ => show win0_7.index t (0 : Fin 2) * 2048 + 1 * p.val = 2048 * (t.val / 8) + p.val; rw [e2]; omega
  | ⟨1, _⟩ => show win0_7.index t (1 : Fin 2) * 16 + 1 * j.val = j.val; rw [e3]; omega

/-- A function on output window 7's block at `t` that agrees entry by entry with `G`'s rows `2048 · (t / 8) + p` IS
    that block of `G` (the form a write-back's hypothesis takes). -/
theorem blk7_ext (G : Vec F S8192x16 .f32) (t : Fin cfg0.N)
    (X : ((cfg0.win 7).xblock (cfg0.grid.coords t)).Idx → Elt F (cfg0.win 7).elt)
    (h : ∀ (p : Fin 2048) (j : Fin 16),
      X (ix2 p j) = G (ix2 (⟨2048 * (t.val / 8) + p.val, by have := tlt t; omega⟩ : Fin 8192) j)) :
    X = ((cfg0.win 7).blk t).view.read (Elt F) G := by
  funext y
  obtain ⟨p, j, rfl⟩ : ∃ (p : Fin 2048) (j : Fin 16), y = ix2 p j := ⟨y 0, y 1, eq_ix2 y⟩
  rw [rd7_at]
  exact h p j

/-! ### The input blocks as the region finds them -/

section
variable (V : (c : Dev nD) → (b : Ref sig .tc) → Buf (Elt F) ((c : Thread nD τ).loc b))

theorem blk0_at (c : Dev nD) (t : Fin cfg0.N) (p : Fin 2048) (q : Fin 1024) :
    iblkR0 V c 0 t (ix2 p q) = V c (Pipeline.arrRef spec0 0)
      (ix2 (⟨2048 * (t.val / 8) + p.val, by have := tlt t; omega⟩ : Fin 8192) (⟨1024 * (t.val % 8) + q.val, by omega⟩ : Fin 8192)) := by
  unfold iblkR0; exact rd0_at _ t p q

theorem blk1_at (c : Dev nD) (t : Fin cfg0.N) (p : Fin 2048) (q : Fin 1024) :
    iblkR0 V c 1 t (ix2 p q) = V c (Pipeline.arrRef spec0 1)
      (ix2 (⟨2048 * (t.val / 8) + p.val, by have := tlt t; omega⟩ : Fin 8192) (⟨1024 * (t.val % 8) + q.val, by omega⟩ : Fin 8192)) := by
  unfold iblkR0; exact rd1_at _ t p q

theorem blk2_at (c : Dev nD) (t : Fin cfg0.N) (r : Fin 8192) (j : Fin 16) :
    iblkR0 V c 2 t (ix2 r j) = V c (Pipeline.arrRef spec0 2) (ix2 r j) := by
  unfold iblkR0; exact rd2_at _ t r j

theorem blk3_at (c : Dev nD) (t : Fin cfg0.N) (r : Fin 8192) (j : Fin 16) :
    iblkR0 V c 3 t (ix2 r j) = V c (Pipeline.arrRef spec0 3) (ix2 r j) := by
  unfold iblkR0; exact rd3_at _ t r j

theorem blk4_at (c : Dev nD) (t : Fin cfg0.N) (j : Fin 16) :
    iblkR0 V c 4 t (ix2 (0 : Fin 1) j) = V c (Pipeline.arrRef spec0 4) (ix2 (0 : Fin 1) j) := by
  unfold iblkR0; exact rd4_at _ t j

theorem blk5_at (c : Dev nD) (t : Fin cfg0.N) (j : Fin 16) :
    iblkR0 V c 5 t (ix2 (0 : Fin 1) j) = V c (Pipeline.arrRef spec0 5) (ix2 (0 : Fin 1) j) := by
  unfold iblkR0; exact rd5_at _ t j

end

/-! ### The output blocks tile their arrays -/

/-- The point that writes back the block holding row `r`: row tile `r / 2048`, last contraction step. -/
def covT (r : Fin 8192) : Fin cfg0.N := ⟨8 * (r.val / 2048) + 7, lt_of_lt_of_eq (by omega : 8 * (r.val / 2048) + 7 < 32) N_0.symm⟩
theorem covT_val (r : Fin 8192) : (covT r).val = 8 * (r.val / 2048) + 7 := rfl

/-- An entry of the array is in output window 6's block at `t` iff its row is in row tile `t / 8`. -/
theorem mem_blk6 (t : Fin cfg0.N) (i : S8192x16.Idx) :
    i ∈ ((cfg0.win 6).blk t).view.set ↔ 2048 * (t.val / 8) ≤ (i 0).val ∧ (i 0).val < 2048 * (t.val / 8) + 2048 := by
  show i ∈ ((View.whole (Pipeline.arrRef spec0 6)).slice (win0_6.rect t)).set ↔ _
  rw [View.set_slice_whole, Rect.mem_set_unit]
  obtain ⟨e0, e1, e2, e3⟩ := idx_out t
  constructor
  · intro h
    have b0 : win0_6.index t (0 : Fin 2) * 2048 ≤ (i 0).val ∧ (i 0).val < win0_6.index t (0 : Fin 2) * 2048 + 2048 := h 0
    omega
  · intro h a
    have hi1 : (i 1).val < 16 := (i 1).isLt
    match a with
    | ⟨0, _⟩ => show win0_6.index t (0 : Fin 2) * 2048 ≤ (i 0).val ∧ (i 0).val < win0_6.index t (0 : Fin 2) * 2048 + 2048; omega
    | ⟨1, _⟩ => show win0_6.index t (1 : Fin 2) * 16 ≤ (i 1).val ∧ (i 1).val < win0_6.index t (1 : Fin 2) * 16 + 16; omega

/-- Every entry of output 6's array is in a block that is written back: the one at `covT` of its row. -/
theorem cover6 (i : S8192x16.Idx) :
    ∃ t : Fin cfg0.N, (cfg0.win 6).flush t = true ∧ i ∈ ((cfg0.win 6).blk t).view.set := by
  have hi0 : (i 0).val < 8192 := (i 0).isLt
  refine ⟨covT ⟨(i 0).val, hi0⟩, (flush0_6 _).mpr ?_, ?_⟩
  · show (8 * ((i 0).val / 2048) + 7) % 8 = 7; omega
  · rw [mem_blk6]
    show 2048 * ((8 * ((i 0).val / 2048) + 7) / 8) ≤ (i 0).val ∧ (i 0).val < 2048 * ((8 * ((i 0).val / 2048) + 7) / 8) + 2048
    omega

/-- So, when every write-back writes its block of `G`, output 6's array ends holding `G`. -/
theorem arr6_eq {c : Dev nD} (dat : Dat τ (Elt F) Unit ℕ (UR sig nD τ) ℕ cfg0 c)
    (G : Buf (Elt F) ((cfg0.win 6).arr.view.loc (c.tc : Thread nD τ)))
    (hG : ∀ t, (cfg0.win 6).flush t = true → dat.flushed 6 t = ((cfg0.win 6).blk t).view.read (Elt F) G) :
    dat.arrAt 6 cfg0.N = G :=
  dat.arrAt_eq_of_cover 6 G hG cover6

/-- An entry of the array is in output window 7's block at `t` iff its row is in row tile `t / 8`. -/
theorem mem_blk7 (t : Fin cfg0.N) (i : S8192x16.Idx) :
    i ∈ ((cfg0.win 7).blk t).view.set ↔ 2048 * (t.val / 8) ≤ (i 0).val ∧ (i 0).val < 2048 * (t.val / 8) + 2048 := by
  show i ∈ ((View.whole (Pipeline.arrRef spec0 7)).slice (win0_7.rect t)).set ↔ _
  rw [View.set_slice_whole, Rect.mem_set_unit]
  obtain ⟨e0, e1, e2, e3⟩ := idx_out t
  constructor
  · intro h
    have b0 : win0_7.index t (0 : Fin 2) * 2048 ≤ (i 0).val ∧ (i 0).val < win0_7.index t (0 : Fin 2) * 2048 + 2048 := h 0
    omega
  · intro h a
    have hi1 : (i 1).val < 16 := (i 1).isLt
    match a with
    | ⟨0, _⟩ => show win0_7.index t (0 : Fin 2) * 2048 ≤ (i 0).val ∧ (i 0).val < win0_7.index t (0 : Fin 2) * 2048 + 2048; omega
    | ⟨1, _⟩ => show win0_7.index t (1 : Fin 2) * 16 ≤ (i 1).val ∧ (i 1).val < win0_7.index t (1 : Fin 2) * 16 + 16; omega

/-- Every entry of output 7's array is in a block that is written back: the one at `covT` of its row. -/
theorem cover7 (i : S8192x16.Idx) :
    ∃ t : Fin cfg0.N, (cfg0.win 7).flush t = true ∧ i ∈ ((cfg0.win 7).blk t).view.set := by
  have hi0 : (i 0).val < 8192 := (i 0).isLt
  refine ⟨covT ⟨(i 0).val, hi0⟩, (flush0_7 _).mpr ?_, ?_⟩
  · show (8 * ((i 0).val / 2048) + 7) % 8 = 7; omega
  · rw [mem_blk7]
    show 2048 * ((8 * ((i 0).val / 2048) + 7) / 8) ≤ (i 0).val ∧ (i 0).val < 2048 * ((8 * ((i 0).val / 2048) + 7) / 8) + 2048
    omega

/-- So, when every write-back writes its block of `G`, output 7's array ends holding `G`. -/
theorem arr7_eq {c : Dev nD} (dat : Dat τ (Elt F) Unit ℕ (UR sig nD τ) ℕ cfg0 c)
    (G : Buf (Elt F) ((cfg0.win 7).arr.view.loc (c.tc : Thread nD τ)))
    (hG : ∀ t, (cfg0.win 7).flush t = true → dat.flushed 7 t = ((cfg0.win 7).blk t).view.read (Elt F) G) :
    dat.arrAt 7 cfg0.N = G :=
  dat.arrAt_eq_of_cover 7 G hG cover7

/-! ## The accumulator after the eighth contraction step is the whole sum -/

/-- An accumulator that starts at `0 + g 0` and adds `g (k + 1)` at step `k + 1` holds, after step 7, the sum of all eight. -/
theorem acc_total {M : Type*} [AddCommMonoid M] (g : Fin 8 → M) (s : ℕ → M) (h0 : s 0 = 0 + g 0)
    (hstep : ∀ k (hk : k + 1 < 8), s (k + 1) = s k + g ⟨k + 1, hk⟩) : s 7 = ∑ k, g k := by
  have e1 : s 1 = s 0 + g 1 := hstep 0 (by omega)
  have e2 : s 2 = s 1 + g 2 := hstep 1 (by omega)
  have e3 : s 3 = s 2 + g 3 := hstep 2 (by omega)
  have e4 : s 4 = s 3 + g 4 := hstep 3 (by omega)
  have e5 : s 5 = s 4 + g 5 := hstep 4 (by omega)
  have e6 : s 6 = s 5 + g 6 := hstep 5 (by omega)
  have e7 : s 7 = s 6 + g 7 := hstep 6 (by omega)
  rw [e7, e6, e5, e4, e3, e2, e1, h0, zero_add, Fin.sum_univ_eight]

end Cert.KernelIdeal.BlocksAt

end
-- ==== Proof.LibHostRows.lean ====
/-
  Host-side row operations read at one entry, at the exact values.

  * A `dot_general` of an `M × K` by a `K × N` matrix along the one shared axis: entry `(p, j)` is
    `∑ k, l[p,k] · r[k,j]` — at the exact values the host's product has no accumulator, no rounding and no order.
  * A vector of length `C` viewed as one row and that row spread over `R` rows: entry `(p, k)` is the vector's `k`.
  * A vector of length `C` re-laid as a `1 × C` block: entry `(0, k)` is the vector's `k`.
-/
import Idealize.ShloMosaic.PureOps.Ideal.Laws
import Idealize.ShloMosaic.Lib.ValueIdx
import Idealize.ShloMosaic.Lib.Pipeline.Value

noncomputable section

open scoped BigOperators

namespace Cert.LibHostRows

open Idealize.ShloMosaic Idealize.ShloMosaic.ValueIdx

/-- `(l · r)[p, j] = ∑ k, l[p,k] · r[k,j]` for the host's product whose left operand index at output `i` and
    contraction position `q` is `(i 0, q)` and whose right operand index is `(q, i 1)`. -/
theorem hostDot_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    Host.dotGeneral (F := Ideal) D prec l r (ix2 p j) = ∑ k : Fin K, l (ix2 p k) * r (ix2 k j) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A vector viewed as one row, the row spread over `R` rows: entry `(p, k)` is the vector's entry `k`. -/
theorem rowOfVec_spread_apply {α : Type} {R C : ℕ} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (k : Fin C) :
    broadcastInDim ⟨2, ![R, C]⟩ ![0, 1] h2 (broadcastInDim ⟨2, ![1, C]⟩ ![1] h1 b) (ix2 p k) = b (ix1 k) := by
  rw [broadcastInDim_apply ![0, 1] h2 _ (ix2 p k) (ix2 (0 : Fin 1) k) (fun a => match a with
    | ⟨0, _⟩ => by show 0 = if (1 : Nat) = 1 then 0 else _; rw [if_pos rfl]
    | ⟨1, _⟩ => by show k.val = if C = 1 then 0 else k.val; rw [if_neg hC])]
  exact broadcastInDim_apply ![1] h1 b (ix2 (0 : Fin 1) k) (ix1 k) (fun a => match a with
    | ⟨0, _⟩ => by show k.val = if C = 1 then 0 else k.val; rw [if_neg hC])

/-- A vector re-laid as a one-row block: entry `(0, k)` is the vector's entry `k` (the same row-major position). -/
theorem rowOfVec_cast_apply {α : Type} {C : ℕ} (b : (⟨1, ![C]⟩ : Shape).Idx → α)
    (h : (⟨1, ![C]⟩ : Shape).ShapeCasts ⟨2, ![1, C]⟩) (k : Fin C) :
    shapeCast ⟨2, ![1, C]⟩ b h (ix2 (0 : Fin 1) k) = b (ix1 k) :=
  shapeCast_apply b h (ix2 (0 : Fin 1) k) (ix1 k) (by
    rw [Shape.rowMajor_val_one, Shape.rowMajor_val_two]
    show k.val = 0 * C + k.val
    omega)

end Cert.LibHostRows

end
-- ==== Proof.RefSide.lean ====
/-
  The reference program's result as one term over three named pieces.

  * `layer16`, `layer32`: one graph-convolution layer, `relu (A · XW + b)`, with the bias a vector spread over the
    rows and `relu x = max x 0`; the two differ only in the number of columns.
  * `tail`: everything after the layers — join the two branches' 32 columns into 64, score each row against three
    attention columns, `tanh`, a softmax down the rows, the weighted row sums, the final dense layer.
  * `res_eq`: the reference's composed result is `tail` of the two branches, each `layer32` of `layer16`.
  * `layer16_apply`, `layer32_apply`: a layer read at one entry, at the exact values, is
    `max (∑ K, A[r,K] · XW[K,j] + b[j]) 0`.
-/
import proofs.«105748_j27410481283396_2_alg».proof.Proof.Gen.ReferenceIdeal.Read
import proofs.«105748_j27410481283396_2_alg».proof.Proof.LibHostRows

noncomputable section

open scoped BigOperators

namespace Cert.RefSide

open Cert.ReferenceIdeal Cert.ReferenceIdeal.Gen Idealize.ShloMosaic Idealize.ShloMosaic.TcCoe Idealize.SL.Sem
  Idealize.ShloMosaic.StableHlo Idealize.ShloMosaic.ValueIdx

/-- A 16-column layer: `relu (A · XW + b)`, the bias spread over the 8192 rows. -/
def layer16 (A : FVec Ideal S8192x8192 .f32) (XW : FVec Ideal S8192x16 .f32) (b : FVec Ideal S16 .f32) :
    FVec Ideal S8192x16 .f32 :=
  maximumf (addf (Host.dotGeneral (F := Ideal) dot_S8192x8192_S8192x16_S8192x16_1_0_0_1_n_n none A XW) (broadcastInDim S8192x16 ![0, 1] bcast_S1x16_S8192x16_0_1 (broadcastInDim S1x16 ![1] bcast_S16_S1x16_1 b))) (broadcastInDim S8192x16 ![] bcast_S_S8192x16 (constant (F := Ideal) S_ .f32 0x00000000#32))

/-- A 32-column layer: the same with 32 columns. -/
def layer32 (A : FVec Ideal S8192x8192 .f32) (XW : FVec Ideal S8192x32 .f32) (b : FVec Ideal S32 .f32) :
    FVec Ideal S8192x32 .f32 :=
  maximumf (addf (Host.dotGeneral (F := Ideal) dot_S8192x8192_S8192x32_S8192x32_1_0_0_1_n_n none A XW) (broadcastInDim S8192x32 ![0, 1] bcast_S1x32_S8192x32_0_1 (broadcastInDim S1x32 ![1] bcast_S32_S1x32_1 b))) (broadcastInDim S8192x32 ![] bcast_S_S8192x32 (constant (F := Ideal) S_ .f32 0x00000000#32))

set_option maxRecDepth 8192 in
/-- Everything after the layers, as a function of the two branches' outputs and the three tail parameters. -/
def tail (h_int h_nh : FVec Ideal S8192x32 .f32) (Watt : FVec Ideal S64x3 .f32) (Wd : FVec Ideal S192x1 .f32)
    (bd : FVec Ideal S1 .f32) : FVec Ideal S1 .f32 :=
  shapeCast _ (addf (Host.dotGeneral (F := Ideal) dot_S1x192_S192x1_S1x1_1_0_0_1_n_n none (shapeCast _ (Host.dotGeneral (F := Ideal) dot_S8192x3_S8192x64_S3x64_0_0_1_1_n_n none (Host.divf (F := Ideal) (Host.exp (F := Ideal) (subf (Host.tanh (F := Ideal) (Host.dotGeneral (F := Ideal) dot_S8192x64_S64x3_S8192x3_1_0_0_1_n_n none (concatenate S8192x64 1 [⟨S8192x32, h_int⟩, ⟨S8192x32, h_nh⟩] concatenates_S8192x32_S8192x32_S8192x64_d1) Watt)) (broadcastInDim S8192x3 ![0, 1] bcast_S1x3_S8192x3_0_1 (broadcastInDim S1x3 ![1] bcast_S3_S1x3_1 (maximumf (broadcastInDim S3 ![] bcast_S_S3 (constant (F := Ideal) S_ .f32 0xFF800000#32)) (Host.reduce (FloatOps.maximumf (F := Ideal)) (Host.tanh (F := Ideal) (Host.dotGeneral (F := Ideal) dot_S8192x64_S64x3_S8192x3_1_0_0_1_n_n none (concatenate S8192x64 1 [⟨S8192x32, h_int⟩, ⟨S8192x32, h_nh⟩] concatenates_S8192x32_S8192x32_S8192x64_d1) Watt)) (constant (F := Ideal) S_ .f32 0xFF800000#32) reducesTo_S8192x3_S3_d0 h_S_)))))) (broadcastInDim S8192x3 ![0, 1] bcast_S1x3_S8192x3_0_1 (broadcastInDim S1x3 ![1] bcast_S3_S1x3_1 (Host.reduceAdd (F := Ideal) (Host.exp (F := Ideal) (subf (Host.tanh (F := Ideal) (Host.dotGeneral (F := Ideal) dot_S8192x64_S64x3_S8192x3_1_0_0_1_n_n none (concatenate S8192x64 1 [⟨S8192x32, h_int⟩, ⟨S8192x32, h_nh⟩] concatenates_S8192x32_S8192x32_S8192x64_d1) Watt)) (broadcastInDim S8192x3 ![0, 1] bcast_S1x3_S8192x3_0_1 (broadcastInDim S1x3 ![1] bcast_S3_S1x3_1 (maximumf (broadcastInDim S3 ![] bcast_S_S3 (constant (F := Ideal) S_ .f32 0xFF800000#32)) (Host.reduce (FloatOps.maximumf (F := Ideal)) (Host.tanh (F := Ideal) (Host.dotGeneral (F := Ideal) dot_S8192x64_S64x3_S8192x3_1_0_0_1_n_n none (concatenate S8192x64 1 [⟨S8192x32, h_int⟩, ⟨S8192x32, h_nh⟩] concatenates_S8192x32_S8192x32_S8192x64_d1) Watt)) (constant (F := Ideal) S_ .f32 0xFF800000#32) reducesTo_S8192x3_S3_d0 h_S_)))))) (constant (F := Ideal) S_ .f32 0x00000000#32) reducesTo_S8192x3_S3_d0 h_S_)))) (concatenate S8192x64 1 [⟨S8192x32, h_int⟩, ⟨S8192x32, h_nh⟩] concatenates_S8192x32_S8192x32_S8192x64_d1)) shapeCasts_S3x64_S1x192) Wd) (broadcastInDim S1x1 ![1] bcast_S1_S1x1_1 bd)) shapeCasts_S1x1_S1

set_option maxRecDepth 8192 in
/-- The reference's composed result is the tail of the two branches, each a 32-column layer of a 16-column layer. -/
theorem res_eq (m : (ℓ : Loc nD τ sig) → Buf (Elt Ideal) ℓ) (c : Dev nD) :
    Cert.ReferenceIdeal.Value.res_main_v43 (F := Ideal) m c =
      tail (layer32 (m ((c.tc : Thread nD τ).loc main_arg2)) (Host.dotGeneral (F := Ideal) (φ₁ := .f32) (φ₂ := .f32) dot_S8192x16_S16x32_S8192x32_1_0_0_1_n_n none (layer16 (m ((c.tc : Thread nD τ).loc main_arg2)) (Host.dotGeneral (F := Ideal) (φ₁ := .f32) (φ₂ := .f32) dot_S8192x11_S11x16_S8192x16_1_0_0_1_n_n none (m ((c.tc : Thread nD τ).loc main_arg0)) (m ((c.tc : Thread nD τ).loc main_arg4))) (m ((c.tc : Thread nD τ).loc main_arg5))) (m ((c.tc : Thread nD τ).loc main_arg8))) (m ((c.tc : Thread nD τ).loc main_arg9)))
        (layer32 (m ((c.tc : Thread nD τ).loc main_arg3)) (Host.dotGeneral (F := Ideal) (φ₁ := .f32) (φ₂ := .f32) dot_S8192x16_S16x32_S8192x32_1_0_0_1_n_n none (layer16 (m ((c.tc : Thread nD τ).loc main_arg3)) (Host.dotGeneral (F := Ideal) (φ₁ := .f32) (φ₂ := .f32) dot_S8192x11_S11x16_S8192x16_1_0_0_1_n_n none (m ((c.tc : Thread nD τ).loc main_arg1)) (m ((c.tc : Thread nD τ).loc main_arg6))) (m ((c.tc : Thread nD τ).loc main_arg7))) (m ((c.tc : Thread nD τ).loc main_arg10))) (m ((c.tc : Thread nD τ).loc main_arg11)))
        (m ((c.tc : Thread nD τ).loc main_arg12)) (m ((c.tc : Thread nD τ).loc main_arg13)) (m ((c.tc : Thread nD τ).loc main_arg14)) := by
  unfold Cert.ReferenceIdeal.Value.res_main_v43 layer16 layer32 tail; rfl

/-- One entry of a 16-column layer: the row of `A` against the column of `XW`, plus the column's bias, clamped below at zero. -/
theorem layer16_apply (A : FVec Ideal S8192x8192 .f32) (XW : FVec Ideal S8192x16 .f32) (b : FVec Ideal S16 .f32)
    (r : Fin 8192) (j : Fin 16) :
    layer16 A XW b (ix2 r j) = max ((∑ K : Fin 8192, A (ix2 r K) * XW (ix2 K j)) + b (ix1 j)) 0 := by
  unfold layer16
  rw [maximumf_apply, addf_apply,
    Cert.LibHostRows.hostDot_apply dot_S8192x8192_S8192x16_S8192x16_1_0_0_1_n_n rfl rfl
      Read.lhs_main_v1_0 Read.lhs_main_v1_1 Read.rhs_main_v1_0 Read.rhs_main_v1_1,
    Cert.LibHostRows.rowOfVec_spread_apply (by decide),
    broadcastInDim_apply _ bcast_S_S8192x16 _ (ix2 r j) (fun a => a.elim0) (fun a => a.elim0),
    constant_apply, Ideal.ofBits_zero_f32]

/-- One entry of a 32-column layer: the row of `A` against the column of `XW`, plus the column's bias, clamped below at zero. -/
theorem layer32_apply (A : FVec Ideal S8192x8192 .f32) (XW : FVec Ideal S8192x32 .f32) (b : FVec Ideal S32 .f32)
    (r : Fin 8192) (j : Fin 32) :
    layer32 A XW b (ix2 r j) = max ((∑ K : Fin 8192, A (ix2 r K) * XW (ix2 K j)) + b (ix1 j)) 0 := by
  unfold layer32
  rw [maximumf_apply, addf_apply,
    Cert.LibHostRows.hostDot_apply dot_S8192x8192_S8192x32_S8192x32_1_0_0_1_n_n rfl rfl
      Read.lhs_main_v13_0 Read.lhs_main_v13_1 Read.rhs_main_v13_0 Read.rhs_main_v13_1,
    Cert.LibHostRows.rowOfVec_spread_apply (by decide),
    broadcastInDim_apply _ bcast_S_S8192x32 _ (ix2 r j) (fun a => a.elim0) (fun a => a.elim0),
    constant_apply, Ideal.ofBits_zero_f32]

end Cert.RefSide

end
-- ==== Proof.LibBlockSum.lean ====
/-
  Sums over a merged contraction axis.

  A contraction over `n * d` consecutive indices, that is `n` blocks of length `d` laid side by side, is the
  sum, block by block, of the `n` contractions over `d`.  Blocks whose terms all vanish may be left out.  A
  left-to-right accumulation from a starting value is that value plus the sum of what was added.  All of it is
  stated over an arbitrary commutative additive monoid: only commutativity and associativity of `+` are used,
  never cancellation or distributivity, so every statement holds on the extended reals as it stands, with no
  finiteness hypothesis.
-/
import Mathlib.Algebra.BigOperators.Fin
import Mathlib.Data.Fintype.BigOperators
import Mathlib.Logic.Equiv.Fin.Basic

namespace Cert.BlockSum

open Finset

variable {M : Type*} [AddCommMonoid M]

/-- Entry `c` of block `t` on the merged axis sits at position `c + d * t`. -/
def merged {n d : ℕ} (t : Fin n) (c : Fin d) : Fin (n * d) := finProdFinEquiv (t, c)

@[simp] theorem merged_val {n d : ℕ} (t : Fin n) (c : Fin d) : ((merged t c : Fin (n * d)) : ℕ) = c.val + d * t.val := rfl

/-- The block a merged position lies in. -/
theorem merged_div {n d : ℕ} (t : Fin n) (c : Fin d) : ((merged t c : Fin (n * d)) : ℕ) / d = t.val := by
  have hd : 0 < d := Nat.pos_of_ne_zero fun h => by subst h; exact c.elim0
  rw [merged_val, Nat.add_mul_div_left _ _ hd, Nat.div_eq_of_lt c.isLt, Nat.zero_add]

/-- The place of a merged position inside its block. -/
theorem merged_mod {n d : ℕ} (t : Fin n) (c : Fin d) : ((merged t c : Fin (n * d)) : ℕ) % d = c.val := by
  rw [merged_val, Nat.add_mul_mod_self_left, Nat.mod_eq_of_lt c.isLt]

/-- A sum over the merged axis is the sum over the blocks of the sums inside each block. -/
theorem sum_merged {n d : ℕ} (f : Fin (n * d) → M) :
    ∑ k, f k = ∑ t : Fin n, ∑ c : Fin d, f (merged t c) := by
  rw [← Equiv.sum_comp finProdFinEquiv f, Fintype.sum_prod_type]
  rfl

/-- The same when the merged term is known block by block. -/
theorem sum_merged_of {n d : ℕ} (f : Fin (n * d) → M) (g : Fin n → Fin d → M)
    (h : ∀ t c, f (merged t c) = g t c) : ∑ k, f k = ∑ t, ∑ c, g t c := by
  rw [sum_merged]
  exact Finset.sum_congr rfl fun t _ => Finset.sum_congr rfl fun c _ => h t c

/-- Terms that vanish outside `p` may be left out of a sum. -/
theorem sum_drop_zero {ι : Type*} [Fintype ι] (F : ι → M) (p : ι → Prop) [DecidablePred p]
    (h : ∀ t, ¬ p t → F t = 0) : ∑ t, F t = ∑ t ∈ univ.filter p, F t := by
  rw [Finset.sum_filter]
  refine Finset.sum_congr rfl fun t _ => ?_
  split_ifs with hp
  · rfl
  · exact h t hp

/-- Adding the entries of a list one after the other onto `z` gives `z` plus their sum. -/
theorem foldl_add_list (l : List M) (z : M) : l.foldl (· + ·) z = z + l.sum := by
  induction l generalizing z with
  | nil => simp
  | cons a l ih => rw [List.foldl_cons, ih, List.sum_cons, add_assoc]

/-- Accumulating `a 0, a 1, …` in order onto `z` gives `z` plus the sum of the `a t`. -/
theorem foldl_add_ofFn {n : ℕ} (a : Fin n → M) (z : M) : (List.ofFn a).foldl (· + ·) z = z + ∑ t, a t := by
  rw [foldl_add_list, List.sum_ofFn]

/-- Nine contributions added one after the other onto zero. -/
theorem acc_nine (a : Fin 9 → M) :
    0 + a 0 + a 1 + a 2 + a 3 + a 4 + a 5 + a 6 + a 7 + a 8 = ∑ t, a t := by
  simp only [Fin.sum_univ_succ, Fin.sum_univ_zero, zero_add, add_zero]
  simp only [add_assoc]
  rfl

/-- Four contributions added one after the other onto zero. -/
theorem acc_four (a : Fin 4 → M) : 0 + a 0 + a 1 + a 2 + a 3 = ∑ t, a t := by
  simp only [Fin.sum_univ_succ, Fin.sum_univ_zero, zero_add, add_zero]
  simp only [add_assoc]
  rfl

end Cert.BlockSum
-- ==== Proof.ArrI0.lean ====
import proofs.«105748_j27410481283396_2_alg».proof.Proof.FrI0
import proofs.«105748_j27410481283396_2_alg».proof.Proof.PiecesI0
import proofs.«105748_j27410481283396_2_alg».proof.Proof.PayloadAt
import proofs.«105748_j27410481283396_2_alg».proof.Proof.BlocksAt
import proofs.«105748_j27410481283396_2_alg».proof.Proof.RefSide
import proofs.«105748_j27410481283396_2_alg».proof.Proof.LibBlockSum
import proofs.«105748_j27410481283396_2_alg».proof.Proof.LibHostRows

set_option maxRecDepth 16384

noncomputable section

open scoped BigOperators

namespace Cert.KernelIdeal.ArrR0

open Cert.KernelIdeal Cert.KernelIdeal.Gen Cert.KernelIdeal.Fr Cert.KernelIdeal.PayloadAt Cert.KernelIdeal.BlocksAt
open Idealize.ShloMosaic Idealize.ShloMosaic.TcCoe Idealize.ShloMosaic.ValueIdx Idealize.SL Idealize.SL.Sem
open Idealize.ShloMosaic.Pipeline (Dat)

/-! One graph-convolution layer as the grid computes it, at the exact values. Row tile `i` and contraction tile `k` make
    grid point `8 i + k`. The accumulator of a row tile starts at zero and receives, tile after tile, the product of the
    adjacency block (rows `2048 i …`, columns `1024 k …`) with rows `1024 k …` of the projected features; after the eighth
    tile it holds the whole contraction over 8192 columns, and the output block is that plus the bias, clamped at zero:
    entry `(r, j)` of the result array is `max (∑ K, A[r,K] · XW[K,j] + b[j]) 0`, which is the reference's layer. -/

variable (V : (c : Dev nD) → (b : Ref sig .tc) → Buf (Elt Ideal) ((c : Thread nD τ).loc b)) (c : Dev nD)

/-- The region's eight arrays as it finds them, at their literal shapes. -/
abbrev arrW0 : Vec Ideal S8192x8192 .f32 := V c (Pipeline.arrRef spec0 0)
abbrev arrW1 : Vec Ideal S8192x8192 .f32 := V c (Pipeline.arrRef spec0 1)
abbrev arrW2 : Vec Ideal S8192x16 .f32 := V c (Pipeline.arrRef spec0 2)
abbrev arrW3 : Vec Ideal S8192x16 .f32 := V c (Pipeline.arrRef spec0 3)
abbrev arrW4 : Vec Ideal S1x16 .f32 := V c (Pipeline.arrRef spec0 4)
abbrev arrW5 : Vec Ideal S1x16 .f32 := V c (Pipeline.arrRef spec0 5)

/-- The contraction coordinate of grid point `t`. -/
theorem coord1 : ∀ t : Fin cfg0.N, ((grid0.coords t) 1).val = t.val % 8 :=
  (by decide +kernel : ∀ t : Fin grid0.N, ((grid0.coords t) 1).val = t.val % 8)

/-- Row `p` of row tile `t / 8`, and column `q` of contraction tile `t % 8`, in the whole arrays. -/
def rowIx (t : Fin cfg0.N) (p : Fin 2048) : Fin 8192 := ⟨2048 * (t.val / 8) + p.val, by have := tlt t; omega⟩
def colIx (t : Fin cfg0.N) (q : Fin 1024) : Fin 8192 := ⟨1024 * (t.val % 8) + q.val, by omega⟩

/-! ## The first (interface) branch -/

/-- What grid point `t` adds to the accumulator at `(p, j)`: the partial contraction over the point's 1024 columns. -/
def partInt (t : Fin cfg0.N) (p : Fin 2048) (j : Fin 16) : Ideal .f32 :=
  ∑ q : Fin 1024, arrW0 V c (ix2 (rowIx t p) (colIx t q)) * arrW2 V c (ix2 (colIx t q) j)

/-- The accumulating store's payload at a grid point, read at one entry: what the accumulator held plus the point's part. -/
theorem stepInt (t : Fin cfg0.N) (acc : Vec Ideal S2048x16 .f32) (p : Fin 2048) (j : Fin 16) :
    k0_pay3 (F := Ideal) (View.ld (iblkR0 V c 2 t) (Rect.unit (s := S8192x16) (k0_off1 (grid0.coords t)) S1024x16.size (k0_off1_inb (grid0.coords t)))) (iblkR0 V c 0 t) acc (ix2 p j)
      = acc (ix2 p j) + partInt V c t p j := by
  refine (pay3_at _ (iblkR0 V c 0 t) acc p j).trans ?_
  refine congrArg (acc (ix2 p j) + ·) ?_
  refine Finset.sum_congr rfl fun q _ => ?_
  refine congrArg₂ (· * ·) (blk0_at V c t p q) ?_
  refine (xwTile_at (grid0.coords t) (iblkR0 V c 2 t) q j).trans ?_
  refine (blk2_at V c t _ j).trans ?_
  refine congrArg (fun r => arrW2 V c (ix2 r j)) (Fin.ext ?_)
  show 1024 * ((grid0.coords t) 1).val + q.val = 1024 * (t.val % 8) + q.val
  rw [coord1 t]

/-- The accumulator after grid point `t`. -/
abbrev accInt (t : Fin cfg0.N) : Vec Ideal S2048x16 .f32 := (outsAtR0 V c t.val t.isLt).2.2.1

theorem accInt_first (t : Fin cfg0.N) (h0 : t.val % 8 = 0) (p : Fin 2048) (j : Fin 16) :
    accInt V c t (ix2 p j) = 0 + partInt V c t p j := by
  have h1 : ¬t.val % 8 = 7 := by omega
  have e : (outsAtR0 V c t.val t.isLt).2.2.1 = k0_pay3 (F := Ideal) (View.ld (iblkR0 V c 2 t) (Rect.unit (s := S8192x16) (k0_off1 (grid0.coords t)) S1024x16.size (k0_off1_inb (grid0.coords t)))) (iblkR0 V c 0 t) (k0_pay1 (F := Ideal)) := by
    rw [outsAtR0_A V c t h0 h1]
    unfold caseAR0
    dsimp only
    exact soutR0_A_0_eq c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0_0 (Memref.isWhole_whole _) scMR0_1 (Memref.isWhole_whole _) ((hcondR0_0 t).mpr h0) (fun h => h1 ((hcondR0_1 t).mp h)) (iblkR0 V c 0 t) (iblkR0 V c 1 t) (iblkR0 V c 2 t) (iblkR0 V c 3 t) (iblkR0 V c 4 t) (iblkR0 V c 5 t)
  show (outsAtR0 V c t.val t.isLt).2.2.1 (ix2 p j) = _
  rw [e]
  refine (stepInt V c t _ p j).trans ?_
  rw [pay1_at]

theorem accInt_next (t : Fin cfg0.N) (h0 : ¬t.val % 8 = 0) (p : Fin 2048) (j : Fin 16) :
    accInt V c t (ix2 p j) = (outsAtR0 V c (t.val - 1) (Nat.lt_of_le_of_lt (Nat.sub_le _ _) t.isLt)).2.2.1 (ix2 p j) + partInt V c t p j := by
  have e : (outsAtR0 V c t.val t.isLt).2.2.1 = k0_pay3 (F := Ideal) (View.ld (iblkR0 V c 2 t) (Rect.unit (s := S8192x16) (k0_off1 (grid0.coords t)) S1024x16.size (k0_off1_inb (grid0.coords t)))) (iblkR0 V c 0 t) (outsAtR0 V c (t.val - 1) (Nat.lt_of_le_of_lt (Nat.sub_le _ _) t.isLt)).2.2.1 := by
    by_cases h1 : t.val % 8 = 7
    · rw [outsAtR0_C V c t h0 h1]
      unfold caseCR0
      dsimp only
      exact soutR0_C_0_eq c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0_0 (Memref.isWhole_whole _) scMR0_1 (Memref.isWhole_whole _) (fun h => h0 ((hcondR0_0 t).mp h)) ((hcondR0_1 t).mpr h1) (iblkR0 V c 0 t) (iblkR0 V c 1 t) (iblkR0 V c 2 t) (iblkR0 V c 3 t) (iblkR0 V c 4 t) (iblkR0 V c 5 t) _ _
    · rw [outsAtR0_B V c t h0 h1]
      unfold caseBR0
      dsimp only
      exact soutR0_B_0_eq c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0_0 (Memref.isWhole_whole _) scMR0_1 (Memref.isWhole_whole _) (fun h => h0 ((hcondR0_0 t).mp h)) (fun h => h1 ((hcondR0_1 t).mp h)) (iblkR0 V c 0 t) (iblkR0 V c 1 t) (iblkR0 V c 2 t) (iblkR0 V c 3 t) (iblkR0 V c 4 t) (iblkR0 V c 5 t) _ _
  show (outsAtR0 V c t.val t.isLt).2.2.1 (ix2 p j) = _
  rw [e]
  exact stepInt V c t _ p j

/-- The output block stored at the last contraction step: the accumulator just stored plus the bias, clamped at zero. -/
theorem outInt_last (t : Fin cfg0.N) (h1 : t.val % 8 = 7) (p : Fin 2048) (j : Fin 16) :
    (outsAtR0 V c t.val t.isLt).1 (ix2 p j)
      = max (accInt V c t (ix2 p j) + arrW4 V c (ix2 (0 : Fin 1) j)) 0 := by
  have h0 : ¬t.val % 8 = 0 := by omega
  have e : (outsAtR0 V c t.val t.isLt).1 = k0_pay5 (F := Ideal) (outsAtR0 V c t.val t.isLt).2.2.1 (iblkR0 V c 4 t) := by
    rw [outsAtR0_C V c t h0 h1]
    unfold caseCR0
    dsimp only
    rw [soutR0_C_0_eq]
    exact outR0_C_6_eq c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0_0 (Memref.isWhole_whole _) scMR0_1 (Memref.isWhole_whole _) (fun h => h0 ((hcondR0_0 t).mp h)) ((hcondR0_1 t).mpr h1) (iblkR0 V c 0 t) (iblkR0 V c 1 t) (iblkR0 V c 2 t) (iblkR0 V c 3 t) (iblkR0 V c 4 t) (iblkR0 V c 5 t) _ _
  show (outsAtR0 V c t.val t.isLt).1 (ix2 p j) = max ((outsAtR0 V c t.val t.isLt).2.2.1 (ix2 p j) + _) 0
  rw [e]
  refine (pay5_at _ (iblkR0 V c 4 t) p j).trans ?_
  rw [blk4_at V c t j]

/-- The eight points of row tile `i`. -/
def ptInt (i : Fin 4) (k : Fin 8) : Fin cfg0.N := ⟨8 * i.val + k.val, by rw [show cfg0.N = 32 from N_0]; omega⟩

/-- After the eighth contraction step the accumulator holds the sum of the eight parts. -/
theorem accInt_total (i : Fin 4) (p : Fin 2048) (j : Fin 16) :
    accInt V c (ptInt i 7) (ix2 p j) = ∑ k : Fin 8, partInt V c (ptInt i k) p j := by
  have H := acc_total (fun k => partInt V c (ptInt i k) p j)
    (fun k => if hk : k < 8 then accInt V c (ptInt i ⟨k, hk⟩) (ix2 p j) else 0)
    (by
      rw [dif_pos (by decide : 0 < 8)]
      exact accInt_first V c (ptInt i ⟨0, by decide⟩) (by show (8 * i.val + 0) % 8 = 0; omega) p j)
    (fun k hk => by
      rw [dif_pos hk, dif_pos (by omega : k < 8)]
      refine (accInt_next V c (ptInt i ⟨k + 1, hk⟩) (by show ¬(8 * i.val + (k + 1)) % 8 = 0; omega) p j).trans ?_
      rfl)
  rw [dif_pos (by decide : 7 < 8)] at H
  exact H

/-- The eight parts, each over 1024 columns, are the contraction over all 8192 columns. -/
theorem partsInt_merge (i : Fin 4) (p : Fin 2048) (j : Fin 16) (r : Fin 8192) (hr : r.val = 2048 * i.val + p.val) :
    ∑ k : Fin 8, partInt V c (ptInt i k) p j
      = ∑ K : Fin 8192, arrW0 V c (ix2 r K) * arrW2 V c (ix2 K j) := by
  refine (Cert.BlockSum.sum_merged_of (n := 8) (d := 1024)
    (fun K : Fin (8 * 1024) => arrW0 V c (ix2 r ⟨K.val, K.isLt⟩) * arrW2 V c (ix2 ⟨K.val, K.isLt⟩ j))
    (fun k q => arrW0 V c (ix2 (rowIx (ptInt i k) p) (colIx (ptInt i k) q)) * arrW2 V c (ix2 (colIx (ptInt i k) q) j))
    (fun k q => by
      have e1 : (⟨(Cert.BlockSum.merged k q : Fin (8 * 1024)).val, (Cert.BlockSum.merged k q).isLt⟩ : Fin 8192) = colIx (ptInt i k) q := Fin.ext (by
        show q.val + 1024 * k.val = 1024 * ((8 * i.val + k.val) % 8) + q.val
        omega)
      have e2 : r = rowIx (ptInt i k) p := Fin.ext (by
        show r.val = 2048 * ((8 * i.val + k.val) / 8) + p.val
        rw [hr]; omega)
      rw [e1, e2])).symm

/-- The 6th window's result array ends at the reference's layer of the region's entry contents. -/
theorem arr6 (b : FVec Ideal S16 .f32)
    (hb : arrW4 V c = shapeCast S1x16 b shapeCasts_S16_S1x16) :
    (datR0 V c).arrAt 6 cfg0.N = Cert.RefSide.layer16 (V c (Pipeline.arrRef spec0 0)) (V c (Pipeline.arrRef spec0 2)) b := by
  refine arr6_eq (datR0 V c) _ fun t hf => ?_
  have h7 : t.val % 8 = 7 := (flush0_6 t).mp hf
  refine blk6_ext _ t _ fun p j => ?_
  show (cfg0.win 6).cut (grid0.coords t) ((datR0 V c).after 6 t) (ix2 p j) = _
  rw [afterR0_6]
  refine (outInt_last V c t h7 p j).trans ?_
  rw [Cert.RefSide.layer16_apply]
  obtain ⟨i, rfl⟩ : ∃ i : Fin 4, t = ptInt i 7 :=
    ⟨⟨t.val / 8, by have := tlt t; omega⟩, Fin.ext (by show t.val = 8 * (t.val / 8) + 7; omega)⟩
  rw [accInt_total V c i p j, partsInt_merge V c i p j (rowIx (ptInt i 7) p) (by show 2048 * ((8 * i.val + 7) / 8) + p.val = 2048 * i.val + p.val; omega), hb,
    Cert.LibHostRows.rowOfVec_cast_apply]
  rfl

/-! ## The second (neighbourhood) branch -/

/-- What grid point `t` adds to the accumulator at `(p, j)`: the partial contraction over the point's 1024 columns. -/
def partNh (t : Fin cfg0.N) (p : Fin 2048) (j : Fin 16) : Ideal .f32 :=
  ∑ q : Fin 1024, arrW1 V c (ix2 (rowIx t p) (colIx t q)) * arrW3 V c (ix2 (colIx t q) j)

/-- The accumulating store's payload at a grid point, read at one entry: what the accumulator held plus the point's part. -/
theorem stepNh (t : Fin cfg0.N) (acc : Vec Ideal S2048x16 .f32) (p : Fin 2048) (j : Fin 16) :
    k0_pay4 (F := Ideal) (View.ld (iblkR0 V c 3 t) (Rect.unit (s := S8192x16) (k0_off1 (grid0.coords t)) S1024x16.size (k0_off1_inb (grid0.coords t)))) (iblkR0 V c 1 t) acc (ix2 p j)
      = acc (ix2 p j) + partNh V c t p j := by
  refine (pay4_at _ (iblkR0 V c 1 t) acc p j).trans ?_
  refine congrArg (acc (ix2 p j) + ·) ?_
  refine Finset.sum_congr rfl fun q _ => ?_
  refine congrArg₂ (· * ·) (blk1_at V c t p q) ?_
  refine (xwTile_at (grid0.coords t) (iblkR0 V c 3 t) q j).trans ?_
  refine (blk3_at V c t _ j).trans ?_
  refine congrArg (fun r => arrW3 V c (ix2 r j)) (Fin.ext ?_)
  show 1024 * ((grid0.coords t) 1).val + q.val = 1024 * (t.val % 8) + q.val
  rw [coord1 t]

/-- The accumulator after grid point `t`. -/
abbrev accNh (t : Fin cfg0.N) : Vec Ideal S2048x16 .f32 := (outsAtR0 V c t.val t.isLt).2.2.2

theorem accNh_first (t : Fin cfg0.N) (h0 : t.val % 8 = 0) (p : Fin 2048) (j : Fin 16) :
    accNh V c t (ix2 p j) = 0 + partNh V c t p j := by
  have h1 : ¬t.val % 8 = 7 := by omega
  have e : (outsAtR0 V c t.val t.isLt).2.2.2 = k0_pay4 (F := Ideal) (View.ld (iblkR0 V c 3 t) (Rect.unit (s := S8192x16) (k0_off1 (grid0.coords t)) S1024x16.size (k0_off1_inb (grid0.coords t)))) (iblkR0 V c 1 t) (k0_pay2 (F := Ideal)) := by
    rw [outsAtR0_A V c t h0 h1]
    unfold caseAR0
    dsimp only
    exact soutR0_A_1_eq c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0_0 (Memref.isWhole_whole _) scMR0_1 (Memref.isWhole_whole _) ((hcondR0_0 t).mpr h0) (fun h => h1 ((hcondR0_1 t).mp h)) (iblkR0 V c 0 t) (iblkR0 V c 1 t) (iblkR0 V c 2 t) (iblkR0 V c 3 t) (iblkR0 V c 4 t) (iblkR0 V c 5 t)
  show (outsAtR0 V c t.val t.isLt).2.2.2 (ix2 p j) = _
  rw [e]
  refine (stepNh V c t _ p j).trans ?_
  rw [pay2_at]

theorem accNh_next (t : Fin cfg0.N) (h0 : ¬t.val % 8 = 0) (p : Fin 2048) (j : Fin 16) :
    accNh V c t (ix2 p j) = (outsAtR0 V c (t.val - 1) (Nat.lt_of_le_of_lt (Nat.sub_le _ _) t.isLt)).2.2.2 (ix2 p j) + partNh V c t p j := by
  have e : (outsAtR0 V c t.val t.isLt).2.2.2 = k0_pay4 (F := Ideal) (View.ld (iblkR0 V c 3 t) (Rect.unit (s := S8192x16) (k0_off1 (grid0.coords t)) S1024x16.size (k0_off1_inb (grid0.coords t)))) (iblkR0 V c 1 t) (outsAtR0 V c (t.val - 1) (Nat.lt_of_le_of_lt (Nat.sub_le _ _) t.isLt)).2.2.2 := by
    by_cases h1 : t.val % 8 = 7
    · rw [outsAtR0_C V c t h0 h1]
      unfold caseCR0
      dsimp only
      exact soutR0_C_1_eq c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0_0 (Memref.isWhole_whole _) scMR0_1 (Memref.isWhole_whole _) (fun h => h0 ((hcondR0_0 t).mp h)) ((hcondR0_1 t).mpr h1) (iblkR0 V c 0 t) (iblkR0 V c 1 t) (iblkR0 V c 2 t) (iblkR0 V c 3 t) (iblkR0 V c 4 t) (iblkR0 V c 5 t) _ _
    · rw [outsAtR0_B V c t h0 h1]
      unfold caseBR0
      dsimp only
      exact soutR0_B_1_eq c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0_0 (Memref.isWhole_whole _) scMR0_1 (Memref.isWhole_whole _) (fun h => h0 ((hcondR0_0 t).mp h)) (fun h => h1 ((hcondR0_1 t).mp h)) (iblkR0 V c 0 t) (iblkR0 V c 1 t) (iblkR0 V c 2 t) (iblkR0 V c 3 t) (iblkR0 V c 4 t) (iblkR0 V c 5 t) _ _
  show (outsAtR0 V c t.val t.isLt).2.2.2 (ix2 p j) = _
  rw [e]
  exact stepNh V c t _ p j

/-- The output block stored at the last contraction step: the accumulator just stored plus the bias, clamped at zero. -/
theorem outNh_last (t : Fin cfg0.N) (h1 : t.val % 8 = 7) (p : Fin 2048) (j : Fin 16) :
    (outsAtR0 V c t.val t.isLt).2.1 (ix2 p j)
      = max (accNh V c t (ix2 p j) + arrW5 V c (ix2 (0 : Fin 1) j)) 0 := by
  have h0 : ¬t.val % 8 = 0 := by omega
  have e : (outsAtR0 V c t.val t.isLt).2.1 = k0_pay6 (F := Ideal) (outsAtR0 V c t.val t.isLt).2.2.2 (iblkR0 V c 5 t) := by
    rw [outsAtR0_C V c t h0 h1]
    unfold caseCR0
    dsimp only
    rw [soutR0_C_1_eq]
    exact outR0_C_7_eq c (grid0.coords t) (msR0_0 t) (hsR0_0 t) (msR0_1 t) (hsR0_1 t) (msR0_2 t) (hsR0_2 t) (msR0_3 t) (hsR0_3 t) (msR0_4 t) (hsR0_4 t) (msR0_5 t) (hsR0_5 t) (msR0_6 t) (hsR0_6 t) (msR0_7 t) (hsR0_7 t) scMR0_0 (Memref.isWhole_whole _) scMR0_1 (Memref.isWhole_whole _) (fun h => h0 ((hcondR0_0 t).mp h)) ((hcondR0_1 t).mpr h1) (iblkR0 V c 0 t) (iblkR0 V c 1 t) (iblkR0 V c 2 t) (iblkR0 V c 3 t) (iblkR0 V c 4 t) (iblkR0 V c 5 t) _ _
  show (outsAtR0 V c t.val t.isLt).2.1 (ix2 p j) = max ((outsAtR0 V c t.val t.isLt).2.2.2 (ix2 p j) + _) 0
  rw [e]
  refine (pay6_at _ (iblkR0 V c 5 t) p j).trans ?_
  rw [blk5_at V c t j]

/-- The eight points of row tile `i`. -/
def ptNh (i : Fin 4) (k : Fin 8) : Fin cfg0.N := ⟨8 * i.val + k.val, by rw [show cfg0.N = 32 from N_0]; omega⟩

/-- After the eighth contraction step the accumulator holds the sum of the eight parts. -/
theorem accNh_total (i : Fin 4) (p : Fin 2048) (j : Fin 16) :
    accNh V c (ptNh i 7) (ix2 p j) = ∑ k : Fin 8, partNh V c (ptNh i k) p j := by
  have H := acc_total (fun k => partNh V c (ptNh i k) p j)
    (fun k => if hk : k < 8 then accNh V c (ptNh i ⟨k, hk⟩) (ix2 p j) else 0)
    (by
      rw [dif_pos (by decide : 0 < 8)]
      exact accNh_first V c (ptNh i ⟨0, by decide⟩) (by show (8 * i.val + 0) % 8 = 0; omega) p j)
    (fun k hk => by
      rw [dif_pos hk, dif_pos (by omega : k < 8)]
      refine (accNh_next V c (ptNh i ⟨k + 1, hk⟩) (by show ¬(8 * i.val + (k + 1)) % 8 = 0; omega) p j).trans ?_
      rfl)
  rw [dif_pos (by decide : 7 < 8)] at H
  exact H

/-- The eight parts, each over 1024 columns, are the contraction over all 8192 columns. -/
theorem partsNh_merge (i : Fin 4) (p : Fin 2048) (j : Fin 16) (r : Fin 8192) (hr : r.val = 2048 * i.val + p.val) :
    ∑ k : Fin 8, partNh V c (ptNh i k) p j
      = ∑ K : Fin 8192, arrW1 V c (ix2 r K) * arrW3 V c (ix2 K j) := by
  refine (Cert.BlockSum.sum_merged_of (n := 8) (d := 1024)
    (fun K : Fin (8 * 1024) => arrW1 V c (ix2 r ⟨K.val, K.isLt⟩) * arrW3 V c (ix2 ⟨K.val, K.isLt⟩ j))
    (fun k q => arrW1 V c (ix2 (rowIx (ptNh i k) p) (colIx (ptNh i k) q)) * arrW3 V c (ix2 (colIx (ptNh i k) q) j))
    (fun k q => by
      have e1 : (⟨(Cert.BlockSum.merged k q : Fin (8 * 1024)).val, (Cert.BlockSum.merged k q).isLt⟩ : Fin 8192) = colIx (ptNh i k) q := Fin.ext (by
        show q.val + 1024 * k.val = 1024 * ((8 * i.val + k.val) % 8) + q.val
        omega)
      have e2 : r = rowIx (ptNh i k) p := Fin.ext (by
        show r.val = 2048 * ((8 * i.val + k.val) / 8) + p.val
        rw [hr]; omega)
      rw [e1, e2])).symm

/-- The 7th window's result array ends at the reference's layer of the region's entry contents. -/
theorem arr7 (b : FVec Ideal S16 .f32)
    (hb : arrW5 V c = shapeCast S1x16 b shapeCasts_S16_S1x16) :
    (datR0 V c).arrAt 7 cfg0.N = Cert.RefSide.layer16 (V c (Pipeline.arrRef spec0 1)) (V c (Pipeline.arrRef spec0 3)) b := by
  refine arr7_eq (datR0 V c) _ fun t hf => ?_
  have h7 : t.val % 8 = 7 := (flush0_7 t).mp hf
  refine blk7_ext _ t _ fun p j => ?_
  show (cfg0.win 7).cut (grid0.coords t) ((datR0 V c).after 7 t) (ix2 p j) = _
  rw [afterR0_7]
  refine (outNh_last V c t h7 p j).trans ?_
  rw [Cert.RefSide.layer16_apply]
  obtain ⟨i, rfl⟩ : ∃ i : Fin 4, t = ptNh i 7 :=
    ⟨⟨t.val / 8, by have := tlt t; omega⟩, Fin.ext (by show t.val = 8 * (t.val / 8) + 7; omega)⟩
  rw [accNh_total V c i p j, partsNh_merge V c i p j (rowIx (ptNh i 7) p) (by show 2048 * ((8 * i.val + 7) / 8) + p.val = 2048 * i.val + p.val; omega), hb,
    Cert.LibHostRows.rowOfVec_cast_apply]
  rfl

end Cert.KernelIdeal.ArrR0

end
-- ==== Proof.PiecesI1.lean ====
import proofs.«105748_j27410481283396_2_alg».proof.Proof.FrI1
import Idealize.ShloMosaic.Lib.Pipeline.Value

set_option maxRecDepth 16384

/-
  What each control case of the layer kernel's body leaves in its two accumulators and, at the last
  contraction step, in its two output blocks, written with the body's named payloads: a covering store's
  payload read back, each load reading the whole buffer it names (the tile of `XW` through its rectangle).
-/
noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets `![0, 0]` are zero on every axis. -/
theorem hzero2R1 : (![0, 0] : Fin 2 → Nat) = fun _ => 0 := funext fun a => by fin_cases a <;> rfl

/-- Contraction coordinate 0, first branch: the accumulator is zeroed, read back, and receives the first partial product. -/
theorem soutR1_A_0_eq (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : condR1_0 i) (hc1 : ¬condR1_1 i)
    (x0 x1 : Vec F S2048x1024 .f32) (x2 x3 : Vec F S8192x32 .f32) (x4 x5 : Vec F S1x32 .f32) :
    soutR1_A_0 c i arg2 harg2 arg3 harg3 arg4 harg4 arg5 harg5 arg6 harg6 arg7 harg7 arg8 harg8 arg9 harg9 arg10 harg10 arg11 harg11 hc0 hc1 x0 x1 x2 x3 x4 x5
      = k1_pay3 (View.ld x2 (Rect.unit (s := S8192x32) (k1_off1 i) S1024x32.size (k1_off1_inb i))) x0 (k1_pay1 (F := F)) := by
  unfold soutR1_A_0
  rw [View.read_writes_eq_canon _ _ _ (scoverR1_A_0 c i arg2 harg2 arg3 harg3 arg4 harg4 arg5 harg5 arg6 harg6 arg7 harg7 arg8 harg8 arg9 harg9 arg10 harg10 arg11 harg11 hc0 hc1 x0 x1 x2 x3 x4 x5)]
  unfold kernelRunR1_A
  dsimp only
  sl_unfold_words
  rw [View.canon_cons_unit_zero (S := S2048x32) hzero2R1, View.readCov_unit_zero (S := S2048x32) _ hzero2R1]
  simp only [View.readAt_eq_ld, harg4.read_unread, harg2.read_unread,
    View.ld_unit_zero (S := S2048x1024) hzero2R1, View.ld_unit_zero (S := S2048x32) hzero2R1, View.ld_unit_zero (S := S1x32) hzero2R1]

/-- Contraction coordinate 0, second branch: the same. -/
theorem soutR1_A_1_eq (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : condR1_0 i) (hc1 : ¬condR1_1 i)
    (x0 x1 : Vec F S2048x1024 .f32) (x2 x3 : Vec F S8192x32 .f32) (x4 x5 : Vec F S1x32 .f32) :
    soutR1_A_1 c i arg2 harg2 arg3 harg3 arg4 harg4 arg5 harg5 arg6 harg6 arg7 harg7 arg8 harg8 arg9 harg9 arg10 harg10 arg11 harg11 hc0 hc1 x0 x1 x2 x3 x4 x5
      = k1_pay4 (View.ld x3 (Rect.unit (s := S8192x32) (k1_off1 i) S1024x32.size (k1_off1_inb i))) x1 (k1_pay2 (F := F)) := by
  unfold soutR1_A_1
  rw [View.read_writes_eq_canon _ _ _ (scoverR1_A_1 c i arg2 harg2 arg3 harg3 arg4 harg4 arg5 harg5 arg6 harg6 arg7 harg7 arg8 harg8 arg9 harg9 arg10 harg10 arg11 harg11 hc0 hc1 x0 x1 x2 x3 x4 x5)]
  unfold kernelRunR1_A
  dsimp only
  sl_unfold_words
  rw [View.canon_cons_unit_zero (S := S2048x32) hzero2R1, View.readCov_unit_zero (S := S2048x32) _ hzero2R1]
  simp only [View.readAt_eq_ld, harg5.read_unread, harg3.read_unread,
    View.ld_unit_zero (S := S2048x1024) hzero2R1, View.ld_unit_zero (S := S2048x32) hzero2R1, View.ld_unit_zero (S := S1x32) hzero2R1]

/-- Contraction coordinate 1 to 6, first branch: the accumulator, holding `xs0`, receives this step's partial product. -/
theorem soutR1_B_0_eq (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : ¬condR1_1 i)
    (x0 x1 : Vec F S2048x1024 .f32) (x2 x3 : Vec F S8192x32 .f32) (x4 x5 : Vec F S1x32 .f32) (xs0 xs1 : Vec F S2048x32 .f32) :
    soutR1_B_0 c i arg2 harg2 arg3 harg3 arg4 harg4 arg5 harg5 arg6 harg6 arg7 harg7 arg8 harg8 arg9 harg9 arg10 harg10 arg11 harg11 hc0 hc1 x0 x1 x2 x3 x4 x5 xs0 xs1
      = k1_pay3 (View.ld x2 (Rect.unit (s := S8192x32) (k1_off1 i) S1024x32.size (k1_off1_inb i))) x0 xs0 := by
  unfold soutR1_B_0
  rw [View.read_writes_eq_canon _ _ _ (scoverR1_B_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRunR1_B
  dsimp only
  (try sl_unfold_words)
  rw [View.canon_unit_zero hzero2R1]
  simp only [View.readAt_eq_ld, harg4.read_unread, harg2.read_unread, harg10.read_unread,
    View.ld_unit_zero (S := S2048x1024) hzero2R1, View.ld_unit_zero (S := S2048x32) hzero2R1, View.ld_unit_zero (S := S1x32) hzero2R1]

/-- Contraction coordinate 1 to 6, second branch: the same from `xs1`. -/
theorem soutR1_B_1_eq (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : ¬condR1_1 i)
    (x0 x1 : Vec F S2048x1024 .f32) (x2 x3 : Vec F S8192x32 .f32) (x4 x5 : Vec F S1x32 .f32) (xs0 xs1 : Vec F S2048x32 .f32) :
    soutR1_B_1 c i arg2 harg2 arg3 harg3 arg4 harg4 arg5 harg5 arg6 harg6 arg7 harg7 arg8 harg8 arg9 harg9 arg10 harg10 arg11 harg11 hc0 hc1 x0 x1 x2 x3 x4 x5 xs0 xs1
      = k1_pay4 (View.ld x3 (Rect.unit (s := S8192x32) (k1_off1 i) S1024x32.size (k1_off1_inb i))) x1 xs1 := by
  unfold soutR1_B_1
  rw [View.read_writes_eq_canon _ _ _ (scoverR1_B_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRunR1_B
  dsimp only
  (try sl_unfold_words)
  rw [View.canon_unit_zero hzero2R1]
  simp only [View.readAt_eq_ld, harg5.read_unread, harg3.read_unread, harg11.read_unread,
    View.ld_unit_zero (S := S2048x1024) hzero2R1, View.ld_unit_zero (S := S2048x32) hzero2R1, View.ld_unit_zero (S := S1x32) hzero2R1]

/-- Contraction coordinate 7, first branch: the accumulator receives the last partial product. -/
theorem soutR1_C_0_eq (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : condR1_1 i)
    (x0 x1 : Vec F S2048x1024 .f32) (x2 x3 : Vec F S8192x32 .f32) (x4 x5 : Vec F S1x32 .f32) (xs0 xs1 : Vec F S2048x32 .f32) :
    soutR1_C_0 c i arg2 harg2 arg3 harg3 arg4 harg4 arg5 harg5 arg6 harg6 arg7 harg7 arg8 harg8 arg9 harg9 arg10 harg10 arg11 harg11 hc0 hc1 x0 x1 x2 x3 x4 x5 xs0 xs1
      = k1_pay3 (View.ld x2 (Rect.unit (s := S8192x32) (k1_off1 i) S1024x32.size (k1_off1_inb i))) x0 xs0 := by
  unfold soutR1_C_0
  rw [View.read_writes_eq_canon _ _ _ (scoverR1_C_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRunR1_C
  dsimp only
  (try sl_unfold_words)
  rw [View.canon_unit_zero hzero2R1]
  simp only [View.readAt_eq_ld, harg4.read_unread, harg2.read_unread, harg10.read_unread,
    View.ld_unit_zero (S := S2048x1024) hzero2R1, View.ld_unit_zero (S := S2048x32) hzero2R1, View.ld_unit_zero (S := S1x32) hzero2R1]

/-- Contraction coordinate 7, second branch: the same. -/
theorem soutR1_C_1_eq (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : condR1_1 i)
    (x0 x1 : Vec F S2048x1024 .f32) (x2 x3 : Vec F S8192x32 .f32) (x4 x5 : Vec F S1x32 .f32) (xs0 xs1 : Vec F S2048x32 .f32) :
    soutR1_C_1 c i arg2 harg2 arg3 harg3 arg4 harg4 arg5 harg5 arg6 harg6 arg7 harg7 arg8 harg8 arg9 harg9 arg10 harg10 arg11 harg11 hc0 hc1 x0 x1 x2 x3 x4 x5 xs0 xs1
      = k1_pay4 (View.ld x3 (Rect.unit (s := S8192x32) (k1_off1 i) S1024x32.size (k1_off1_inb i))) x1 xs1 := by
  unfold soutR1_C_1
  rw [View.read_writes_eq_canon _ _ _ (scoverR1_C_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRunR1_C
  dsimp only
  (try sl_unfold_words)
  rw [View.canon_unit_zero hzero2R1]
  simp only [View.readAt_eq_ld, harg5.read_unread, harg3.read_unread, harg11.read_unread,
    View.ld_unit_zero (S := S2048x1024) hzero2R1, View.ld_unit_zero (S := S2048x32) hzero2R1, View.ld_unit_zero (S := S1x32) hzero2R1]

/-- Contraction coordinate 7, first branch's output block: the just-stored accumulator plus the bias row, cut off below at zero. -/
theorem outR1_C_6_eq (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : condR1_1 i)
    (x0 x1 : Vec F S2048x1024 .f32) (x2 x3 : Vec F S8192x32 .f32) (x4 x5 : Vec F S1x32 .f32) (xs0 xs1 : Vec F S2048x32 .f32) :
    outR1_C_6 c i arg2 harg2 arg3 harg3 arg4 harg4 arg5 harg5 arg6 harg6 arg7 harg7 arg8 harg8 arg9 harg9 arg10 harg10 arg11 harg11 hc0 hc1 x0 x1 x2 x3 x4 x5 xs0 xs1
      = k1_pay5 (k1_pay3 (View.ld x2 (Rect.unit (s := S8192x32) (k1_off1 i) S1024x32.size (k1_off1_inb i))) x0 xs0) x4 := by
  unfold outR1_C_6
  rw [View.read_writes_eq_canon _ _ _ (coverR1_C_6 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRunR1_C
  dsimp only
  sl_unfold_words
  rw [View.canon_unit_zero hzero2R1, View.readCov_unit_zero (S := S2048x32) _ hzero2R1]
  simp only [View.readAt_eq_ld, harg4.read_unread, harg2.read_unread, harg10.read_unread, harg6.read_unread,
    View.ld_unit_zero (S := S2048x1024) hzero2R1, View.ld_unit_zero (S := S2048x32) hzero2R1, View.ld_unit_zero (S := S1x32) hzero2R1]

/-- Contraction coordinate 7, second branch's output block: the same. -/
theorem outR1_C_7_eq (c : Dev nD) (i : grid1.Coords) (arg2 : Memref sig .tc .vmem S2048x1024 .f32) (harg2 : arg2.IsWhole) (arg3 : Memref sig .tc .vmem S2048x1024 .f32) (harg3 : arg3.IsWhole) (arg4 : Memref sig .tc .vmem S8192x32 .f32) (harg4 : arg4.IsWhole) (arg5 : Memref sig .tc .vmem S8192x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S2048x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (hc0 : ¬condR1_0 i) (hc1 : condR1_1 i)
    (x0 x1 : Vec F S2048x1024 .f32) (x2 x3 : Vec F S8192x32 .f32) (x4 x5 : Vec F S1x32 .f32) (xs0 xs1 : Vec F S2048x32 .f32) :
    outR1_C_7 c i arg2 harg2 arg3 harg3 arg4 harg4 arg5 harg5 arg6 harg6 arg7 harg7 arg8 harg8 arg9 harg9 arg10 harg10 arg11 harg11 hc0 hc1 x0 x1 x2 x3 x4 x5 xs0 xs1
      = k1_pay6 (k1_pay4 (View.ld x3 (Rect.unit (s := S8192x32) (k1_off1 i) S1024x32.size (k1_off1_inb i))) x1 xs1) x5 := by
  unfold outR1_C_7
  rw [View.read_writes_eq_canon _ _ _ (coverR1_C_7 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRunR1_C
  dsimp only
  sl_unfold_words
  rw [View.canon_unit_zero hzero2R1, View.readCov_unit_zero (S := S2048x32) _ hzero2R1]
  simp only [View.readAt_eq_ld, harg5.read_unread, harg3.read_unread, harg11.read_unread, harg7.read_unread,
    View.ld_unit_zero (S := S2048x1024) hzero2R1, View.ld_unit_zero (S := S2048x32) hzero2R1, View.ld_unit_zero (S := S1x32) hzero2R1]

end Cert.KernelIdeal.Fr

end
-- ==== Proof.BlocksAt1.lean ====
/-
  The second kernel call's windows read at an entry, by index arithmetic only: the same 4 × 8 grid, 32 columns.
  Where each window's block sits; a block of any whole-array function read at an entry; the input blocks as the region
  finds them; for the two outputs, which entries a block holds, that the blocks written back tile the array, and hence
  that the array ends holding the function every write-back writes its block of.
-/
import proofs.«105748_j27410481283396_2_alg».proof.Proof.FrI1S
import Idealize.ShloMosaic.Lib.ValueIdx
import Idealize.ShloMosaic.Lib.Pipeline.Value

noncomputable section

open scoped BigOperators

namespace Cert.KernelIdeal.BlocksAt

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! ## Kernel call 1: the grid is 4 × 8, point `t = 8 · i + k` with `i` the row tile and `k` the contraction tile -/

theorem tlt' (t : Fin cfg1.N) : t.val < 32 := lt_of_lt_of_eq t.isLt N_1

/-- The printed index maps, decided over the 32 grid points: the two adjacency windows sit at block `(t / 8, t % 8)`, -/
theorem idx_adj' : ∀ t : Fin cfg1.N, win1_0.index t (0 : Fin 2) = t.val / 8 ∧ win1_0.index t (1 : Fin 2) = t.val % 8
    ∧ win1_1.index t (0 : Fin 2) = t.val / 8 ∧ win1_1.index t (1 : Fin 2) = t.val % 8 :=
  (by decide +kernel : ∀ t : Fin grid1.N, _)
/-- the four whole-array windows at block `(0, 0)`, -/
theorem idx_whole' : ∀ t : Fin cfg1.N, win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)
/-- and the two output windows at block `(t / 8, 0)`. -/
theorem idx_out' : ∀ t : Fin cfg1.N, win1_6.index t (0 : Fin 2) = t.val / 8 ∧ win1_6.index t (1 : Fin 2) = 0
    ∧ win1_7.index t (0 : Fin 2) = t.val / 8 ∧ win1_7.index t (1 : Fin 2) = 0 :=
  (by decide +kernel : ∀ t : Fin grid1.N, _)

/-! ### A block of a whole-array function `G`, read at an entry -/

/-- Adjacency window 0: entry `(p, q)` of the `2048 × 1024` block at point `t` is entry `(2048 · (t / 8) + p, 1024 · (t % 8) + q)`. -/
theorem rd0_at' (G : Vec F S8192x8192 .f32) (t : Fin cfg1.N) (p : Fin 2048) (q : Fin 1024) :
    ((cfg1.win 0).blk t).view.read (Elt F) G (ix2 p q)
      = G (ix2 (⟨2048 * (t.val / 8) + p.val, by have := tlt' t; omega⟩ : Fin 8192) (⟨1024 * (t.val % 8) + q.val, by omega⟩ : Fin 8192)) := by
  obtain ⟨e0, e1, e2, e3⟩ := idx_adj' t
  rw [View.read_apply]
  show G _ = G _
  congr 1
  funext a
  apply Fin.ext
  match a with
  | ⟨0, _⟩ => show win1_0.index t (0 : Fin 2) * 2048 + 1 * p.val = 2048 * (t.val / 8) + p.val; rw [e0]; omega
  | ⟨1, _⟩ => show win1_0.index t (1 : Fin 2) * 1024 + 1 * q.val = 1024 * (t.val % 8) + q.val; rw [e1]; omega

/-- Adjacency window 1: entry `(p, q)` of the `2048 × 1024` block at point `t` is entry `(2048 · (t / 8) + p, 1024 · (t % 8) + q)`. -/
theorem rd1_at' (G : Vec F S8192x8192 .f32) (t : Fin cfg1.N) (p : Fin 2048) (q : Fin 1024) :
    ((cfg1.win 1).blk t).view.read (Elt F) G (ix2 p q)
      = G (ix2 (⟨2048 * (t.val / 8) + p.val, by have := tlt' t; omega⟩ : Fin 8192) (⟨1024 * (t.val % 8) + q.val, by omega⟩ : Fin 8192)) := by
  obtain ⟨e0, e1, e2, e3⟩ := idx_adj' t
  rw [View.read_apply]
  show G _ = G _
  congr 1
  funext a
  apply Fin.ext
  match a with
  | ⟨0, _⟩ => show win1_1.index t (0 : Fin 2) * 2048 + 1 * p.val = 2048 * (t.val / 8) + p.val; rw [e2]; omega
  | ⟨1, _⟩ => show win1_1.index t (1 : Fin 2) * 1024 + 1 * q.val = 1024 * (t.val % 8) + q.val; rw [e3]; omega

/-- Window 2 is the whole `8192 × 32` array at every point. -/
theorem rd2_at' (G : Vec F S8192x32 .f32) (t : Fin cfg1.N) (r : Fin 8192) (j : Fin 32) :
    ((cfg1.win 2).blk t).view.read (Elt F) G (ix2 r j) = G (ix2 r j) := by
  obtain ⟨e0, e1, e2, e3, e4, e5, e6, e7⟩ := idx_whole' t
  rw [View.read_apply]
  show G _ = G _
  congr 1
  funext a
  apply Fin.ext
  match a with
  | ⟨0, _⟩ => show win1_2.index t (0 : Fin 2) * 8192 + 1 * r.val = r.val; rw [e0]; omega
  | ⟨1, _⟩ => show win1_2.index t (1 : Fin 2) * 32 + 1 * j.val = j.val; rw [e1]; omega

/-- Window 3 is the whole `8192 × 32` array at every point. -/
theorem rd3_at' (G : Vec F S8192x32 .f32) (t : Fin cfg1.N) (r : Fin 8192) (j : Fin 32) :
    ((cfg1.win 3).blk t).view.read (Elt F) G (ix2 r j) = G (ix2 r j) := by
  obtain ⟨e0, e1, e2, e3, e4, e5, e6, e7⟩ := idx_whole' t
  rw [View.read_apply]
  show G _ = G _
  congr 1
  funext a
  apply Fin.ext
  match a with
  | ⟨0, _⟩ => show win1_3.index t (0 : Fin 2) * 8192 + 1 * r.val = r.val; rw [e2]; omega
  | ⟨1, _⟩ => show win1_3.index t (1 : Fin 2) * 32 + 1 * j.val = j.val; rw [e3]; omega

/-- Window 4 is the whole `1 × 32` bias row at every point. -/
theorem rd4_at' (G : Vec F S1x32 .f32) (t : Fin cfg1.N) (j : Fin 32) :
    ((cfg1.win 4).blk t).view.read (Elt F) G (ix2 (0 : Fin 1) j) = G (ix2 (0 : Fin 1) j) := by
  obtain ⟨e0, e1, e2, e3, e4, e5, e6, e7⟩ := idx_whole' t
  rw [View.read_apply]
  show G _ = G _
  congr 1
  funext a
  apply Fin.ext
  match a with
  | ⟨0, _⟩ => show win1_4.index t (0 : Fin 2) * 1 + 1 * 0 = 0; rw [e4]
  | ⟨1, _⟩ => show win1_4.index t (1 : Fin 2) * 32 + 1 * j.val = j.val; rw [e5]; omega

/-- Window 5 is the whole `1 × 32` bias row at every point. -/
theorem rd5_at' (G : Vec F S1x32 .f32) (t : Fin cfg1.N) (j : Fin 32) :
    ((cfg1.win 5).blk t).view.read (Elt F) G (ix2 (0 : Fin 1) j) = G (ix2 (0 : Fin 1) j) := by
  obtain ⟨e0, e1, e2, e3, e4, e5, e6, e7⟩ := idx_whole' t
  rw [View.read_apply]
  show G _ = G _
  congr 1
  funext a
  apply Fin.ext
  match a with
  | ⟨0, _⟩ => show win1_5.index t (0 : Fin 2) * 1 + 1 * 0 = 0; rw [e6]
  | ⟨1, _⟩ => show win1_5.index t (1 : Fin 2) * 32 + 1 * j.val = j.val; rw [e7]; omega

/-- Output window 6: entry `(p, j)` of the `2048 × 32` block at point `t` is entry `(2048 · (t / 8) + p, j)`. -/
theorem rd6_at' (G : Vec F S8192x32 .f32) (t : Fin cfg1.N) (p : Fin 2048) (j : Fin 32) :
    ((cfg1.win 6).blk t).view.read (Elt F) G (ix2 p j)
      = G (ix2 (⟨2048 * (t.val / 8) + p.val, by have := tlt' t; omega⟩ : Fin 8192) j) := by
  obtain ⟨e0, e1, e2, e3⟩ := idx_out' t
  rw [View.read_apply]
  show G _ = G _
  congr 1
  funext a
  apply Fin.ext
  match a with
  | ⟨0, _⟩ => show win1_6.index t (0 : Fin 2) * 2048 + 1 * p.val = 2048 * (t.val / 8) + p.val; rw [e0]; omega
  | ⟨1, _⟩ => show win1_6.index t (1 : Fin 2) * 32 + 1 * j.val = j.val; rw [e1]; omega

/-- A function on output window 6's block at `t` that agrees entry by entry with `G`'s rows `2048 · (t / 8) + p` IS
    that block of `G` (the form a write-back's hypothesis takes). -/
theorem blk6_ext' (G : Vec F S8192x32 .f32) (t : Fin cfg1.N)
    (X : ((cfg1.win 6).xblock (cfg1.grid.coords t)).Idx → Elt F (cfg1.win 6).elt)
    (h : ∀ (p : Fin 2048) (j : Fin 32),
      X (ix2 p j) = G (ix2 (⟨2048 * (t.val / 8) + p.val, by have := tlt' t; omega⟩ : Fin 8192) j)) :
    X = ((cfg1.win 6).blk t).view.read (Elt F) G := by
  funext y
  obtain ⟨p, j, rfl⟩ : ∃ (p : Fin 2048) (j : Fin 32), y = ix2 p j := ⟨y 0, y 1, eq_ix2 y⟩
  rw [rd6_at']
  exact h p j

/-- Output window 7: entry `(p, j)` of the `2048 × 32` block at point `t` is entry `(2048 · (t / 8) + p, j)`. -/
theorem rd7_at' (G : Vec F S8192x32 .f32) (t : Fin cfg1.N) (p : Fin 2048) (j : Fin 32) :
    ((cfg1.win 7).blk t).view.read (Elt F) G (ix2 p j)
      = G (ix2 (⟨2048 * (t.val / 8) + p.val, by have := tlt' t; omega⟩ : Fin 8192) j) := by
  obtain ⟨e0, e1, e2, e3⟩ := idx_out' t
  rw [View.read_apply]
  show G _ = G _
  congr 1
  funext a
  apply Fin.ext
  match a with
  | ⟨0, _⟩ => show win1_7.index t (0 : Fin 2) * 2048 + 1 * p.val = 2048 * (t.val / 8) + p.val; rw [e2]; omega
  | ⟨1, _⟩ => show win1_7.index t (1 : Fin 2) * 32 + 1 * j.val = j.val; rw [e3]; omega

/-- A function on output window 7's block at `t` that agrees entry by entry with `G`'s rows `2048 · (t / 8) + p` IS
    that block of `G` (the form a write-back's hypothesis takes). -/
theorem blk7_ext' (G : Vec F S8192x32 .f32) (t : Fin cfg1.N)
    (X : ((cfg1.win 7).xblock (cfg1.grid.coords t)).Idx → Elt F (cfg1.win 7).elt)
    (h : ∀ (p : Fin 2048) (j : Fin 32),
      X (ix2 p j) = G (ix2 (⟨2048 * (t.val / 8) + p.val, by have := tlt' t; omega⟩ : Fin 8192) j)) :
    X = ((cfg1.win 7).blk t).view.read (Elt F) G := by
  funext y
  obtain ⟨p, j, rfl⟩ : ∃ (p : Fin 2048) (j : Fin 32), y = ix2 p j := ⟨y 0, y 1, eq_ix2 y⟩
  rw [rd7_at']
  exact h p j

/-! ### The input blocks as the region finds them -/

section
variable (V : (c : Dev nD) → (b : Ref sig .tc) → Buf (Elt F) ((c : Thread nD τ).loc b))

theorem blk0_at' (c : Dev nD) (t : Fin cfg1.N) (p : Fin 2048) (q : Fin 1024) :
    iblkR1 V c 0 t (ix2 p q) = V c (Pipeline.arrRef spec1 0)
      (ix2 (⟨2048 * (t.val / 8) + p.val, by have := tlt' t; omega⟩ : Fin 8192) (⟨1024 * (t.val % 8) + q.val, by omega⟩ : Fin 8192)) := by
  unfold iblkR1; exact rd0_at' _ t p q

theorem blk1_at' (c : Dev nD) (t : Fin cfg1.N) (p : Fin 2048) (q : Fin 1024) :
    iblkR1 V c 1 t (ix2 p q) = V c (Pipeline.arrRef spec1 1)
      (ix2 (⟨2048 * (t.val / 8) + p.val, by have := tlt' t; omega⟩ : Fin 8192) (⟨1024 * (t.val % 8) + q.val, by omega⟩ : Fin 8192)) := by
  unfold iblkR1; exact rd1_at' _ t p q

theorem blk2_at' (c : Dev nD) (t : Fin cfg1.N) (r : Fin 8192) (j : Fin 32) :
    iblkR1 V c 2 t (ix2 r j) = V c (Pipeline.arrRef spec1 2) (ix2 r j) := by
  unfold iblkR1; exact rd2_at' _ t r j

theorem blk3_at' (c : Dev nD) (t : Fin cfg1.N) (r : Fin 8192) (j : Fin 32) :
    iblkR1 V c 3 t (ix2 r j) = V c (Pipeline.arrRef spec1 3) (ix2 r j) := by
  unfold iblkR1; exact rd3_at' _ t r j

theorem blk4_at' (c : Dev nD) (t : Fin cfg1.N) (j : Fin 32) :
    iblkR1 V c 4 t (ix2 (0 : Fin 1) j) = V c (Pipeline.arrRef spec1 4) (ix2 (0 : Fin 1) j) := by
  unfold iblkR1; exact rd4_at' _ t j

theorem blk5_at' (c : Dev nD) (t : Fin cfg1.N) (j : Fin 32) :
    iblkR1 V c 5 t (ix2 (0 : Fin 1) j) = V c (Pipeline.arrRef spec1 5) (ix2 (0 : Fin 1) j) := by
  unfold iblkR1; exact rd5_at' _ t j

end

/-! ### The output blocks tile their arrays -/

/-- The point that writes back the block holding row `r`: row tile `r / 2048`, last contraction step. -/
def covT' (r : Fin 8192) : Fin cfg1.N := ⟨8 * (r.val / 2048) + 7, lt_of_lt_of_eq (by omega : 8 * (r.val / 2048) + 7 < 32) N_1.symm⟩
theorem covT_val' (r : Fin 8192) : (covT' r).val = 8 * (r.val / 2048) + 7 := rfl

/-- An entry of the array is in output window 6's block at `t` iff its row is in row tile `t / 8`. -/
theorem mem_blk6' (t : Fin cfg1.N) (i : S8192x32.Idx) :
    i ∈ ((cfg1.win 6).blk t).view.set ↔ 2048 * (t.val / 8) ≤ (i 0).val ∧ (i 0).val < 2048 * (t.val / 8) + 2048 := by
  show i ∈ ((View.whole (Pipeline.arrRef spec1 6)).slice (win1_6.rect t)).set ↔ _
  rw [View.set_slice_whole, Rect.mem_set_unit]
  obtain ⟨e0, e1, e2, e3⟩ := idx_out' t
  constructor
  · intro h
    have b0 : win1_6.index t (0 : Fin 2) * 2048 ≤ (i 0).val ∧ (i 0).val < win1_6.index t (0 : Fin 2) * 2048 + 2048 := h 0
    omega
  · intro h a
    have hi1 : (i 1).val < 32 := (i 1).isLt
    match a with
    | ⟨0, _⟩ => show win1_6.index t (0 : Fin 2) * 2048 ≤ (i 0).val ∧ (i 0).val < win1_6.index t (0 : Fin 2) * 2048 + 2048; omega
    | ⟨1, _⟩ => show win1_6.index t (1 : Fin 2) * 32 ≤ (i 1).val ∧ (i 1).val < win1_6.index t (1 : Fin 2) * 32 + 32; omega

/-- Every entry of output 6's array is in a block that is written back: the one at `covT` of its row. -/
theorem cover6' (i : S8192x32.Idx) :
    ∃ t : Fin cfg1.N, (cfg1.win 6).flush t = true ∧ i ∈ ((cfg1.win 6).blk t).view.set := by
  have hi0 : (i 0).val < 8192 := (i 0).isLt
  refine ⟨covT' ⟨(i 0).val, hi0⟩, (flush1_6 _).mpr ?_, ?_⟩
  · show (8 * ((i 0).val / 2048) + 7) % 8 = 7; omega
  · rw [mem_blk6']
    show 2048 * ((8 * ((i 0).val / 2048) + 7) / 8) ≤ (i 0).val ∧ (i 0).val < 2048 * ((8 * ((i 0).val / 2048) + 7) / 8) + 2048
    omega

/-- So, when every write-back writes its block of `G`, output 6's array ends holding `G`. -/
theorem arr6_eq' {c : Dev nD} (dat : Dat τ (Elt F) Unit ℕ (UR sig nD τ) ℕ cfg1 c)
    (G : Buf (Elt F) ((cfg1.win 6).arr.view.loc (c.tc : Thread nD τ)))
    (hG : ∀ t, (cfg1.win 6).flush t = true → dat.flushed 6 t = ((cfg1.win 6).blk t).view.read (Elt F) G) :
    dat.arrAt 6 cfg1.N = G :=
  dat.arrAt_eq_of_cover 6 G hG cover6'

/-- An entry of the array is in output window 7's block at `t` iff its row is in row tile `t / 8`. -/
theorem mem_blk7' (t : Fin cfg1.N) (i : S8192x32.Idx) :
    i ∈ ((cfg1.win 7).blk t).view.set ↔ 2048 * (t.val / 8) ≤ (i 0).val ∧ (i 0).val < 2048 * (t.val / 8) + 2048 := by
  show i ∈ ((View.whole (Pipeline.arrRef spec1 7)).slice (win1_7.rect t)).set ↔ _
  rw [View.set_slice_whole, Rect.mem_set_unit]
  obtain ⟨e0, e1, e2, e3⟩ := idx_out' t
  constructor
  · intro h
    have b0 : win1_7.index t (0 : Fin 2) * 2048 ≤ (i 0).val ∧ (i 0).val < win1_7.index t (0 : Fin 2) * 2048 + 2048 := h 0
    omega
  · intro h a
    have hi1 : (i 1).val < 32 := (i 1).isLt
    match a with
    | ⟨0, _⟩ => show win1_7.index t (0 : Fin 2) * 2048 ≤ (i 0).val ∧ (i 0).val < win1_7.index t (0 : Fin 2) * 2048 + 2048; omega
    | ⟨1, _⟩ => show win1_7.index t (1 : Fin 2) * 32 ≤ (i 1).val ∧ (i 1).val < win1_7.index t (1 : Fin 2) * 32 + 32; omega

/-- Every entry of output 7's array is in a block that is written back: the one at `covT` of its row. -/
theorem cover7' (i : S8192x32.Idx) :
    ∃ t : Fin cfg1.N, (cfg1.win 7).flush t = true ∧ i ∈ ((cfg1.win 7).blk t).view.set := by
  have hi0 : (i 0).val < 8192 := (i 0).isLt
  refine ⟨covT' ⟨(i 0).val, hi0⟩, (flush1_7 _).mpr ?_, ?_⟩
  · show (8 * ((i 0).val / 2048) + 7) % 8 = 7; omega
  · rw [mem_blk7']
    show 2048 * ((8 * ((i 0).val / 2048) + 7) / 8) ≤ (i 0).val ∧ (i 0).val < 2048 * ((8 * ((i 0).val / 2048) + 7) / 8) + 2048
    omega

/-- So, when every write-back writes its block of `G`, output 7's array ends holding `G`. -/
theorem arr7_eq' {c : Dev nD} (dat : Dat τ (Elt F) Unit ℕ (UR sig nD τ) ℕ cfg1 c)
    (G : Buf (Elt F) ((cfg1.win 7).arr.view.loc (c.tc : Thread nD τ)))
    (hG : ∀ t, (cfg1.win 7).flush t = true → dat.flushed 7 t = ((cfg1.win 7).blk t).view.read (Elt F) G) :
    dat.arrAt 7 cfg1.N = G :=
  dat.arrAt_eq_of_cover 7 G hG cover7'

end Cert.KernelIdeal.BlocksAt

end
-- ==== Proof.ArrI1.lean ====
import proofs.«105748_j27410481283396_2_alg».proof.Proof.FrI1
import proofs.«105748_j27410481283396_2_alg».proof.Proof.PiecesI1
import proofs.«105748_j27410481283396_2_alg».proof.Proof.PayloadAt
import proofs.«105748_j27410481283396_2_alg».proof.Proof.BlocksAt
import proofs.«105748_j27410481283396_2_alg».proof.Proof.BlocksAt1
import proofs.«105748_j27410481283396_2_alg».proof.Proof.RefSide
import proofs.«105748_j27410481283396_2_alg».proof.Proof.LibBlockSum
import proofs.«105748_j27410481283396_2_alg».proof.Proof.LibHostRows

set_option maxRecDepth 16384

noncomputable section

open scoped BigOperators

namespace Cert.KernelIdeal.ArrR1

open Cert.KernelIdeal Cert.KernelIdeal.Gen Cert.KernelIdeal.Fr Cert.KernelIdeal.PayloadAt Cert.KernelIdeal.BlocksAt
open Idealize.ShloMosaic Idealize.ShloMosaic.TcCoe Idealize.ShloMosaic.ValueIdx Idealize.SL Idealize.SL.Sem
open Idealize.ShloMosaic.Pipeline (Dat)

/-! One graph-convolution layer as the grid computes it, at the exact values. Row tile `i` and contraction tile `k` make
    grid point `8 i + k`. The accumulator of a row tile starts at zero and receives, tile after tile, the product of the
    adjacency block (rows `2048 i …`, columns `1024 k …`) with rows `1024 k …` of the projected features; after the eighth
    tile it holds the whole contraction over 8192 columns, and the output block is that plus the bias, clamped at zero:
    entry `(r, j)` of the result array is `max (∑ K, A[r,K] · XW[K,j] + b[j]) 0`, which is the reference's layer. -/

variable (V : (c : Dev nD) → (b : Ref sig .tc) → Buf (Elt Ideal) ((c : Thread nD τ).loc b)) (c : Dev nD)

/-- The region's eight arrays as it finds them, at their literal shapes. -/
abbrev arrW0 : Vec Ideal S8192x8192 .f32 := V c (Pipeline.arrRef spec1 0)
abbrev arrW1 : Vec Ideal S8192x8192 .f32 := V c (Pipeline.arrRef spec1 1)
abbrev arrW2 : Vec Ideal S8192x32 .f32 := V c (Pipeline.arrRef spec1 2)
abbrev arrW3 : Vec Ideal S8192x32 .f32 := V c (Pipeline.arrRef spec1 3)
abbrev arrW4 : Vec Ideal S1x32 .f32 := V c (Pipeline.arrRef spec1 4)
abbrev arrW5 : Vec Ideal S1x32 .f32 := V c (Pipeline.arrRef spec1 5)

/-- The contraction coordinate of grid point `t`. -/
theorem coord1 : ∀ t : Fin cfg1.N, ((grid1.coords t) 1).val = t.val % 8 :=
  (by decide +kernel : ∀ t : Fin grid1.N, ((grid1.coords t) 1).val = t.val % 8)

/-- Row `p` of row tile `t / 8`, and column `q` of contraction tile `t % 8`, in the whole arrays. -/
def rowIx (t : Fin cfg1.N) (p : Fin 2048) : Fin 8192 := ⟨2048 * (t.val / 8) + p.val, by have := tlt' t; omega⟩
def colIx (t : Fin cfg1.N) (q : Fin 1024) : Fin 8192 := ⟨1024 * (t.val % 8) + q.val, by omega⟩

/-! ## The first (interface) branch -/

/-- What grid point `t` adds to the accumulator at `(p, j)`: the partial contraction over the point's 1024 columns. -/
def partInt (t : Fin cfg1.N) (p : Fin 2048) (j : Fin 32) : Ideal .f32 :=
  ∑ q : Fin 1024, arrW0 V c (ix2 (rowIx t p) (colIx t q)) * arrW2 V c (ix2 (colIx t q) j)

/-- The accumulating store's payload at a grid point, read at one entry: what the accumulator held plus the point's part. -/
theorem stepInt (t : Fin cfg1.N) (acc : Vec Ideal S2048x32 .f32) (p : Fin 2048) (j : Fin 32) :
    k1_pay3 (F := Ideal) (View.ld (iblkR1 V c 2 t) (Rect.unit (s := S8192x32) (k1_off1 (grid1.coords t)) S1024x32.size (k1_off1_inb (grid1.coords t)))) (iblkR1 V c 0 t) acc (ix2 p j)
      = acc (ix2 p j) + partInt V c t p j := by
  refine (pay3'_at _ (iblkR1 V c 0 t) acc p j).trans ?_
  refine congrArg (acc (ix2 p j) + ·) ?_
  refine Finset.sum_congr rfl fun q _ => ?_
  refine congrArg₂ (· * ·) (blk0_at' V c t p q) ?_
  refine (xwTile'_at (grid1.coords t) (iblkR1 V c 2 t) q j).trans ?_
  refine (blk2_at' V c t _ j).trans ?_
  refine congrArg (fun r => arrW2 V c (ix2 r j)) (Fin.ext ?_)
  show 1024 * ((grid1.coords t) 1).val + q.val = 1024 * (t.val % 8) + q.val
  rw [coord1 t]

/-- The accumulator after grid point `t`. -/
abbrev accInt (t : Fin cfg1.N) : Vec Ideal S2048x32 .f32 := (outsAtR1 V c t.val t.isLt).2.2.1

theorem accInt_first (t : Fin cfg1.N) (h0 : t.val % 8 = 0) (p : Fin 2048) (j : Fin 32) :
    accInt V c t (ix2 p j) = 0 + partInt V c t p j := by
  have h1 : ¬t.val % 8 = 7 := by omega
  have e : (outsAtR1 V c t.val t.isLt).2.2.1 = k1_pay3 (F := Ideal) (View.ld (iblkR1 V c 2 t) (Rect.unit (s := S8192x32) (k1_off1 (grid1.coords t)) S1024x32.size (k1_off1_inb (grid1.coords t)))) (iblkR1 V c 0 t) (k1_pay1 (F := Ideal)) := by
    rw [outsAtR1_A V c t h0 h1]
    unfold caseAR1
    dsimp only
    exact soutR1_A_0_eq c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1_0 (Memref.isWhole_whole _) scMR1_1 (Memref.isWhole_whole _) ((hcondR1_0 t).mpr h0) (fun h => h1 ((hcondR1_1 t).mp h)) (iblkR1 V c 0 t) (iblkR1 V c 1 t) (iblkR1 V c 2 t) (iblkR1 V c 3 t) (iblkR1 V c 4 t) (iblkR1 V c 5 t)
  show (outsAtR1 V c t.val t.isLt).2.2.1 (ix2 p j) = _
  rw [e]
  refine (stepInt V c t _ p j).trans ?_
  rw [pay1'_at]

theorem accInt_next (t : Fin cfg1.N) (h0 : ¬t.val % 8 = 0) (p : Fin 2048) (j : Fin 32) :
    accInt V c t (ix2 p j) = (outsAtR1 V c (t.val - 1) (Nat.lt_of_le_of_lt (Nat.sub_le _ _) t.isLt)).2.2.1 (ix2 p j) + partInt V c t p j := by
  have e : (outsAtR1 V c t.val t.isLt).2.2.1 = k1_pay3 (F := Ideal) (View.ld (iblkR1 V c 2 t) (Rect.unit (s := S8192x32) (k1_off1 (grid1.coords t)) S1024x32.size (k1_off1_inb (grid1.coords t)))) (iblkR1 V c 0 t) (outsAtR1 V c (t.val - 1) (Nat.lt_of_le_of_lt (Nat.sub_le _ _) t.isLt)).2.2.1 := by
    by_cases h1 : t.val % 8 = 7
    · rw [outsAtR1_C V c t h0 h1]
      unfold caseCR1
      dsimp only
      exact soutR1_C_0_eq c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1_0 (Memref.isWhole_whole _) scMR1_1 (Memref.isWhole_whole _) (fun h => h0 ((hcondR1_0 t).mp h)) ((hcondR1_1 t).mpr h1) (iblkR1 V c 0 t) (iblkR1 V c 1 t) (iblkR1 V c 2 t) (iblkR1 V c 3 t) (iblkR1 V c 4 t) (iblkR1 V c 5 t) _ _
    · rw [outsAtR1_B V c t h0 h1]
      unfold caseBR1
      dsimp only
      exact soutR1_B_0_eq c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1_0 (Memref.isWhole_whole _) scMR1_1 (Memref.isWhole_whole _) (fun h => h0 ((hcondR1_0 t).mp h)) (fun h => h1 ((hcondR1_1 t).mp h)) (iblkR1 V c 0 t) (iblkR1 V c 1 t) (iblkR1 V c 2 t) (iblkR1 V c 3 t) (iblkR1 V c 4 t) (iblkR1 V c 5 t) _ _
  show (outsAtR1 V c t.val t.isLt).2.2.1 (ix2 p j) = _
  rw [e]
  exact stepInt V c t _ p j

/-- The output block stored at the last contraction step: the accumulator just stored plus the bias, clamped at zero. -/
theorem outInt_last (t : Fin cfg1.N) (h1 : t.val % 8 = 7) (p : Fin 2048) (j : Fin 32) :
    (outsAtR1 V c t.val t.isLt).1 (ix2 p j)
      = max (accInt V c t (ix2 p j) + arrW4 V c (ix2 (0 : Fin 1) j)) 0 := by
  have h0 : ¬t.val % 8 = 0 := by omega
  have e : (outsAtR1 V c t.val t.isLt).1 = k1_pay5 (F := Ideal) (outsAtR1 V c t.val t.isLt).2.2.1 (iblkR1 V c 4 t) := by
    rw [outsAtR1_C V c t h0 h1]
    unfold caseCR1
    dsimp only
    rw [soutR1_C_0_eq]
    exact outR1_C_6_eq c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1_0 (Memref.isWhole_whole _) scMR1_1 (Memref.isWhole_whole _) (fun h => h0 ((hcondR1_0 t).mp h)) ((hcondR1_1 t).mpr h1) (iblkR1 V c 0 t) (iblkR1 V c 1 t) (iblkR1 V c 2 t) (iblkR1 V c 3 t) (iblkR1 V c 4 t) (iblkR1 V c 5 t) _ _
  show (outsAtR1 V c t.val t.isLt).1 (ix2 p j) = max ((outsAtR1 V c t.val t.isLt).2.2.1 (ix2 p j) + _) 0
  rw [e]
  refine (pay5'_at _ (iblkR1 V c 4 t) p j).trans ?_
  rw [blk4_at' V c t j]

/-- The eight points of row tile `i`. -/
def ptInt (i : Fin 4) (k : Fin 8) : Fin cfg1.N := ⟨8 * i.val + k.val, by rw [show cfg1.N = 32 from N_1]; omega⟩

/-- After the eighth contraction step the accumulator holds the sum of the eight parts. -/
theorem accInt_total (i : Fin 4) (p : Fin 2048) (j : Fin 32) :
    accInt V c (ptInt i 7) (ix2 p j) = ∑ k : Fin 8, partInt V c (ptInt i k) p j := by
  have H := acc_total (fun k => partInt V c (ptInt i k) p j)
    (fun k => if hk : k < 8 then accInt V c (ptInt i ⟨k, hk⟩) (ix2 p j) else 0)
    (by
      rw [dif_pos (by decide : 0 < 8)]
      exact accInt_first V c (ptInt i ⟨0, by decide⟩) (by show (8 * i.val + 0) % 8 = 0; omega) p j)
    (fun k hk => by
      rw [dif_pos hk, dif_pos (by omega : k < 8)]
      refine (accInt_next V c (ptInt i ⟨k + 1, hk⟩) (by show ¬(8 * i.val + (k + 1)) % 8 = 0; omega) p j).trans ?_
      rfl)
  rw [dif_pos (by decide : 7 < 8)] at H
  exact H

/-- The eight parts, each over 1024 columns, are the contraction over all 8192 columns. -/
theorem partsInt_merge (i : Fin 4) (p : Fin 2048) (j : Fin 32) (r : Fin 8192) (hr : r.val = 2048 * i.val + p.val) :
    ∑ k : Fin 8, partInt V c (ptInt i k) p j
      = ∑ K : Fin 8192, arrW0 V c (ix2 r K) * arrW2 V c (ix2 K j) := by
  refine (Cert.BlockSum.sum_merged_of (n := 8) (d := 1024)
    (fun K : Fin (8 * 1024) => arrW0 V c (ix2 r ⟨K.val, K.isLt⟩) * arrW2 V c (ix2 ⟨K.val, K.isLt⟩ j))
    (fun k q => arrW0 V c (ix2 (rowIx (ptInt i k) p) (colIx (ptInt i k) q)) * arrW2 V c (ix2 (colIx (ptInt i k) q) j))
    (fun k q => by
      have e1 : (⟨(Cert.BlockSum.merged k q : Fin (8 * 1024)).val, (Cert.BlockSum.merged k q).isLt⟩ : Fin 8192) = colIx (ptInt i k) q := Fin.ext (by
        show q.val + 1024 * k.val = 1024 * ((8 * i.val + k.val) % 8) + q.val
        omega)
      have e2 : r = rowIx (ptInt i k) p := Fin.ext (by
        show r.val = 2048 * ((8 * i.val + k.val) / 8) + p.val
        rw [hr]; omega)
      rw [e1, e2])).symm

/-- The 6th window's result array ends at the reference's layer of the region's entry contents. -/
theorem arr6 (b : FVec Ideal S32 .f32)
    (hb : arrW4 V c = shapeCast S1x32 b shapeCasts_S32_S1x32) :
    (datR1 V c).arrAt 6 cfg1.N = Cert.RefSide.layer32 (V c (Pipeline.arrRef spec1 0)) (V c (Pipeline.arrRef spec1 2)) b := by
  refine arr6_eq' (datR1 V c) _ fun t hf => ?_
  have h7 : t.val % 8 = 7 := (flush1_6 t).mp hf
  refine blk6_ext' _ t _ fun p j => ?_
  show (cfg1.win 6).cut (grid1.coords t) ((datR1 V c).after 6 t) (ix2 p j) = _
  rw [afterR1_6]
  refine (outInt_last V c t h7 p j).trans ?_
  rw [Cert.RefSide.layer32_apply]
  obtain ⟨i, rfl⟩ : ∃ i : Fin 4, t = ptInt i 7 :=
    ⟨⟨t.val / 8, by have := tlt' t; omega⟩, Fin.ext (by show t.val = 8 * (t.val / 8) + 7; omega)⟩
  rw [accInt_total V c i p j, partsInt_merge V c i p j (rowIx (ptInt i 7) p) (by show 2048 * ((8 * i.val + 7) / 8) + p.val = 2048 * i.val + p.val; omega), hb,
    Cert.LibHostRows.rowOfVec_cast_apply]
  rfl

/-! ## The second (neighbourhood) branch -/

/-- What grid point `t` adds to the accumulator at `(p, j)`: the partial contraction over the point's 1024 columns. -/
def partNh (t : Fin cfg1.N) (p : Fin 2048) (j : Fin 32) : Ideal .f32 :=
  ∑ q : Fin 1024, arrW1 V c (ix2 (rowIx t p) (colIx t q)) * arrW3 V c (ix2 (colIx t q) j)

/-- The accumulating store's payload at a grid point, read at one entry: what the accumulator held plus the point's part. -/
theorem stepNh (t : Fin cfg1.N) (acc : Vec Ideal S2048x32 .f32) (p : Fin 2048) (j : Fin 32) :
    k1_pay4 (F := Ideal) (View.ld (iblkR1 V c 3 t) (Rect.unit (s := S8192x32) (k1_off1 (grid1.coords t)) S1024x32.size (k1_off1_inb (grid1.coords t)))) (iblkR1 V c 1 t) acc (ix2 p j)
      = acc (ix2 p j) + partNh V c t p j := by
  refine (pay4'_at _ (iblkR1 V c 1 t) acc p j).trans ?_
  refine congrArg (acc (ix2 p j) + ·) ?_
  refine Finset.sum_congr rfl fun q _ => ?_
  refine congrArg₂ (· * ·) (blk1_at' V c t p q) ?_
  refine (xwTile'_at (grid1.coords t) (iblkR1 V c 3 t) q j).trans ?_
  refine (blk3_at' V c t _ j).trans ?_
  refine congrArg (fun r => arrW3 V c (ix2 r j)) (Fin.ext ?_)
  show 1024 * ((grid1.coords t) 1).val + q.val = 1024 * (t.val % 8) + q.val
  rw [coord1 t]

/-- The accumulator after grid point `t`. -/
abbrev accNh (t : Fin cfg1.N) : Vec Ideal S2048x32 .f32 := (outsAtR1 V c t.val t.isLt).2.2.2

theorem accNh_first (t : Fin cfg1.N) (h0 : t.val % 8 = 0) (p : Fin 2048) (j : Fin 32) :
    accNh V c t (ix2 p j) = 0 + partNh V c t p j := by
  have h1 : ¬t.val % 8 = 7 := by omega
  have e : (outsAtR1 V c t.val t.isLt).2.2.2 = k1_pay4 (F := Ideal) (View.ld (iblkR1 V c 3 t) (Rect.unit (s := S8192x32) (k1_off1 (grid1.coords t)) S1024x32.size (k1_off1_inb (grid1.coords t)))) (iblkR1 V c 1 t) (k1_pay2 (F := Ideal)) := by
    rw [outsAtR1_A V c t h0 h1]
    unfold caseAR1
    dsimp only
    exact soutR1_A_1_eq c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1_0 (Memref.isWhole_whole _) scMR1_1 (Memref.isWhole_whole _) ((hcondR1_0 t).mpr h0) (fun h => h1 ((hcondR1_1 t).mp h)) (iblkR1 V c 0 t) (iblkR1 V c 1 t) (iblkR1 V c 2 t) (iblkR1 V c 3 t) (iblkR1 V c 4 t) (iblkR1 V c 5 t)
  show (outsAtR1 V c t.val t.isLt).2.2.2 (ix2 p j) = _
  rw [e]
  refine (stepNh V c t _ p j).trans ?_
  rw [pay2'_at]

theorem accNh_next (t : Fin cfg1.N) (h0 : ¬t.val % 8 = 0) (p : Fin 2048) (j : Fin 32) :
    accNh V c t (ix2 p j) = (outsAtR1 V c (t.val - 1) (Nat.lt_of_le_of_lt (Nat.sub_le _ _) t.isLt)).2.2.2 (ix2 p j) + partNh V c t p j := by
  have e : (outsAtR1 V c t.val t.isLt).2.2.2 = k1_pay4 (F := Ideal) (View.ld (iblkR1 V c 3 t) (Rect.unit (s := S8192x32) (k1_off1 (grid1.coords t)) S1024x32.size (k1_off1_inb (grid1.coords t)))) (iblkR1 V c 1 t) (outsAtR1 V c (t.val - 1) (Nat.lt_of_le_of_lt (Nat.sub_le _ _) t.isLt)).2.2.2 := by
    by_cases h1 : t.val % 8 = 7
    · rw [outsAtR1_C V c t h0 h1]
      unfold caseCR1
      dsimp only
      exact soutR1_C_1_eq c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1_0 (Memref.isWhole_whole _) scMR1_1 (Memref.isWhole_whole _) (fun h => h0 ((hcondR1_0 t).mp h)) ((hcondR1_1 t).mpr h1) (iblkR1 V c 0 t) (iblkR1 V c 1 t) (iblkR1 V c 2 t) (iblkR1 V c 3 t) (iblkR1 V c 4 t) (iblkR1 V c 5 t) _ _
    · rw [outsAtR1_B V c t h0 h1]
      unfold caseBR1
      dsimp only
      exact soutR1_B_1_eq c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1_0 (Memref.isWhole_whole _) scMR1_1 (Memref.isWhole_whole _) (fun h => h0 ((hcondR1_0 t).mp h)) (fun h => h1 ((hcondR1_1 t).mp h)) (iblkR1 V c 0 t) (iblkR1 V c 1 t) (iblkR1 V c 2 t) (iblkR1 V c 3 t) (iblkR1 V c 4 t) (iblkR1 V c 5 t) _ _
  show (outsAtR1 V c t.val t.isLt).2.2.2 (ix2 p j) = _
  rw [e]
  exact stepNh V c t _ p j

/-- The output block stored at the last contraction step: the accumulator just stored plus the bias, clamped at zero. -/
theorem outNh_last (t : Fin cfg1.N) (h1 : t.val % 8 = 7) (p : Fin 2048) (j : Fin 32) :
    (outsAtR1 V c t.val t.isLt).2.1 (ix2 p j)
      = max (accNh V c t (ix2 p j) + arrW5 V c (ix2 (0 : Fin 1) j)) 0 := by
  have h0 : ¬t.val % 8 = 0 := by omega
  have e : (outsAtR1 V c t.val t.isLt).2.1 = k1_pay6 (F := Ideal) (outsAtR1 V c t.val t.isLt).2.2.2 (iblkR1 V c 5 t) := by
    rw [outsAtR1_C V c t h0 h1]
    unfold caseCR1
    dsimp only
    rw [soutR1_C_1_eq]
    exact outR1_C_7_eq c (grid1.coords t) (msR1_0 t) (hsR1_0 t) (msR1_1 t) (hsR1_1 t) (msR1_2 t) (hsR1_2 t) (msR1_3 t) (hsR1_3 t) (msR1_4 t) (hsR1_4 t) (msR1_5 t) (hsR1_5 t) (msR1_6 t) (hsR1_6 t) (msR1_7 t) (hsR1_7 t) scMR1_0 (Memref.isWhole_whole _) scMR1_1 (Memref.isWhole_whole _) (fun h => h0 ((hcondR1_0 t).mp h)) ((hcondR1_1 t).mpr h1) (iblkR1 V c 0 t) (iblkR1 V c 1 t) (iblkR1 V c 2 t) (iblkR1 V c 3 t) (iblkR1 V c 4 t) (iblkR1 V c 5 t) _ _
  show (outsAtR1 V c t.val t.isLt).2.1 (ix2 p j) = max ((outsAtR1 V c t.val t.isLt).2.2.2 (ix2 p j) + _) 0
  rw [e]
  refine (pay6'_at _ (iblkR1 V c 5 t) p j).trans ?_
  rw [blk5_at' V c t j]

/-- The eight points of row tile `i`. -/
def ptNh (i : Fin 4) (k : Fin 8) : Fin cfg1.N := ⟨8 * i.val + k.val, by rw [show cfg1.N = 32 from N_1]; omega⟩

/-- After the eighth contraction step the accumulator holds the sum of the eight parts. -/
theorem accNh_total (i : Fin 4) (p : Fin 2048) (j : Fin 32) :
    accNh V c (ptNh i 7) (ix2 p j) = ∑ k : Fin 8, partNh V c (ptNh i k) p j := by
  have H := acc_total (fun k => partNh V c (ptNh i k) p j)
    (fun k => if hk : k < 8 then accNh V c (ptNh i ⟨k, hk⟩) (ix2 p j) else 0)
    (by
      rw [dif_pos (by decide : 0 < 8)]
      exact accNh_first V c (ptNh i ⟨0, by decide⟩) (by show (8 * i.val + 0) % 8 = 0; omega) p j)
    (fun k hk => by
      rw [dif_pos hk, dif_pos (by omega : k < 8)]
      refine (accNh_next V c (ptNh i ⟨k + 1, hk⟩) (by show ¬(8 * i.val + (k + 1)) % 8 = 0; omega) p j).trans ?_
      rfl)
  rw [dif_pos (by decide : 7 < 8)] at H
  exact H

/-- The eight parts, each over 1024 columns, are the contraction over all 8192 columns. -/
theorem partsNh_merge (i : Fin 4) (p : Fin 2048) (j : Fin 32) (r : Fin 8192) (hr : r.val = 2048 * i.val + p.val) :
    ∑ k : Fin 8, partNh V c (ptNh i k) p j
      = ∑ K : Fin 8192, arrW1 V c (ix2 r K) * arrW3 V c (ix2 K j) := by
  refine (Cert.BlockSum.sum_merged_of (n := 8) (d := 1024)
    (fun K : Fin (8 * 1024) => arrW1 V c (ix2 r ⟨K.val, K.isLt⟩) * arrW3 V c (ix2 ⟨K.val, K.isLt⟩ j))
    (fun k q => arrW1 V c (ix2 (rowIx (ptNh i k) p) (colIx (ptNh i k) q)) * arrW3 V c (ix2 (colIx (ptNh i k) q) j))
    (fun k q => by
      have e1 : (⟨(Cert.BlockSum.merged k q : Fin (8 * 1024)).val, (Cert.BlockSum.merged k q).isLt⟩ : Fin 8192) = colIx (ptNh i k) q := Fin.ext (by
        show q.val + 1024 * k.val = 1024 * ((8 * i.val + k.val) % 8) + q.val
        omega)
      have e2 : r = rowIx (ptNh i k) p := Fin.ext (by
        show r.val = 2048 * ((8 * i.val + k.val) / 8) + p.val
        rw [hr]; omega)
      rw [e1, e2])).symm

/-- The 7th window's result array ends at the reference's layer of the region's entry contents. -/
theorem arr7 (b : FVec Ideal S32 .f32)
    (hb : arrW5 V c = shapeCast S1x32 b shapeCasts_S32_S1x32) :
    (datR1 V c).arrAt 7 cfg1.N = Cert.RefSide.layer32 (V c (Pipeline.arrRef spec1 1)) (V c (Pipeline.arrRef spec1 3)) b := by
  refine arr7_eq' (datR1 V c) _ fun t hf => ?_
  have h7 : t.val % 8 = 7 := (flush1_7 t).mp hf
  refine blk7_ext' _ t _ fun p j => ?_
  show (cfg1.win 7).cut (grid1.coords t) ((datR1 V c).after 7 t) (ix2 p j) = _
  rw [afterR1_7]
  refine (outNh_last V c t h7 p j).trans ?_
  rw [Cert.RefSide.layer32_apply]
  obtain ⟨i, rfl⟩ : ∃ i : Fin 4, t = ptNh i 7 :=
    ⟨⟨t.val / 8, by have := tlt' t; omega⟩, Fin.ext (by show t.val = 8 * (t.val / 8) + 7; omega)⟩
  rw [accNh_total V c i p j, partsNh_merge V c i p j (rowIx (ptNh i 7) p) (by show 2048 * ((8 * i.val + 7) / 8) + p.val = 2048 * i.val + p.val; omega), hb,
    Cert.LibHostRows.rowOfVec_cast_apply]
  rfl

end Cert.KernelIdeal.ArrR1

end
-- ==== Proof.ValI.lean ====
import proofs.«105748_j27410481283396_2_alg».proof.Proof.FrIRun
import proofs.«105748_j27410481283396_2_alg».proof.Proof.ArrI0
import proofs.«105748_j27410481283396_2_alg».proof.Proof.ArrI1
import proofs.«105748_j27410481283396_2_alg».proof.Proof.RefSide
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL Idealize.SL.Sem Idealize.ShloMosaic.StableHlo
open Idealize.ShloMosaic.Pipeline (Dat)

/-! The kernel program's result as one term of the argument arrays, at the exact values: the host stretches are read off
    their operations, each region's two result arrays are the reference's layer of the region's entry contents, and the
    host tail is the reference's tail. -/

variable (m : (ℓ : Loc nD τ sig) → Buf (Elt Ideal) ℓ) (c : Dev nD)

/-! ## What the first region is entered with -/

theorem e0_A0 : VE0 m c (Pipeline.arrRef spec0 0) = (m ((c.tc : Thread nD τ).loc main_arg2)) := Gen.V1_of m c main_arg2 (by decide)
theorem e0_A1 : VE0 m c (Pipeline.arrRef spec0 1) = (m ((c.tc : Thread nD τ).loc main_arg3)) := Gen.V1_of m c main_arg3 (by decide)
theorem e0_X0 : VE0 m c (Pipeline.arrRef spec0 2) = Host.dotGeneral (F := Ideal) (φ₁ := .f32) (φ₂ := .f32) dot_S8192x11_S11x16_S8192x16_1_0_0_1_n_n none (m ((c.tc : Thread nD τ).loc main_arg0)) (m ((c.tc : Thread nD τ).loc main_arg4)) := by
  show StableHlo.after hostOps0 (Gen.V0 m c) (Proc.devRef .tc main_call0_v0) = _
  after_results; rfl
theorem e0_X1 : VE0 m c (Pipeline.arrRef spec0 3) = Host.dotGeneral (F := Ideal) (φ₁ := .f32) (φ₂ := .f32) dot_S8192x11_S11x16_S8192x16_1_0_0_1_n_n none (m ((c.tc : Thread nD τ).loc main_arg1)) (m ((c.tc : Thread nD τ).loc main_arg6)) := by
  show StableHlo.after hostOps0 (Gen.V0 m c) (Proc.devRef .tc main_call0_v1) = _
  after_results; rfl
theorem e0_B0 : (VE0 m c (Pipeline.arrRef spec0 4) : S1x16.Idx → EReal) = shapeCast S1x16 ((m ((c.tc : Thread nD τ).loc main_arg5)) : S16.Idx → EReal) shapeCasts_S16_S1x16 := by
  show StableHlo.after hostOps0 (Gen.V0 m c) (Proc.devRef .tc main_call0_v2) = _
  after_results; rfl
theorem e0_B1 : (VE0 m c (Pipeline.arrRef spec0 5) : S1x16.Idx → EReal) = shapeCast S1x16 ((m ((c.tc : Thread nD τ).loc main_arg7)) : S16.Idx → EReal) shapeCasts_S16_S1x16 := by
  show StableHlo.after hostOps0 (Gen.V0 m c) (Proc.devRef .tc main_call0_v3) = _
  after_results; rfl

/-- The first layer of the first branch, as the reference spells it. -/
abbrev h1Int : FVec Ideal S8192x16 .f32 :=
  Cert.RefSide.layer16 (m ((c.tc : Thread nD τ).loc main_arg2)) (Host.dotGeneral (F := Ideal) (φ₁ := .f32) (φ₂ := .f32) Cert.ReferenceIdeal.dot_S8192x11_S11x16_S8192x16_1_0_0_1_n_n none (m ((c.tc : Thread nD τ).loc main_arg0)) (m ((c.tc : Thread nD τ).loc main_arg4))) (m ((c.tc : Thread nD τ).loc main_arg5))
abbrev h1Nh : FVec Ideal S8192x16 .f32 :=
  Cert.RefSide.layer16 (m ((c.tc : Thread nD τ).loc main_arg3)) (Host.dotGeneral (F := Ideal) (φ₁ := .f32) (φ₂ := .f32) Cert.ReferenceIdeal.dot_S8192x11_S11x16_S8192x16_1_0_0_1_n_n none (m ((c.tc : Thread nD τ).loc main_arg1)) (m ((c.tc : Thread nD τ).loc main_arg6))) (m ((c.tc : Thread nD τ).loc main_arg7))

theorem r0_int : (datR0 (VE0 m) c).arrAt 6 cfg0.N = h1Int m c := by
  refine (Cert.KernelIdeal.ArrR0.arr6 (VE0 m) c (m ((c.tc : Thread nD τ).loc main_arg5)) (e0_B0 m c)).trans ?_
  rw [e0_A0, e0_X0]; rfl
theorem r0_nh : (datR0 (VE0 m) c).arrAt 7 cfg0.N = h1Nh m c := by
  refine (Cert.KernelIdeal.ArrR0.arr7 (VE0 m) c (m ((c.tc : Thread nD τ).loc main_arg7)) (e0_B1 m c)).trans ?_
  rw [e0_A1, e0_X1]; rfl

/-! ## What the second region is entered with -/

theorem v2_r0 : Gen.V2 m (outsA m) c main_call0_v4_0 = h1Int m c := by
  refine Eq.trans ?_ ((W2_arr m c 6).trans (r0_int m c))
  simp only [Gen.V2, Function.update_of_ne (StableHlo.devRef_ne_of_ne (by decide) : (Proc.devRef .tc main_call0_v4_0 : DevRef τ sig) ≠ Proc.devRef .tc main_call0_v4_1), Function.update_self]
  rfl
theorem v2_r1 : Gen.V2 m (outsA m) c main_call0_v4_1 = h1Nh m c := by
  refine Eq.trans ?_ ((W2_arr m c 7).trans (r0_nh m c))
  simp only [Gen.V2, Function.update_self]
  rfl
theorem v2_arg (r : Ref sig .tc) (h2 : r ∉ ([main_call0_v4_0, main_call0_v4_1] : List (Ref sig .tc))) (h1 : r ∉ Gen.hostOps0_W) :
    Gen.V2 m (outsA m) c r = m ((c.tc : Thread nD τ).loc r) :=
  (Gen.V2_of m (outsA m) c r h2).trans (Gen.V1_of m c r h1)

theorem e1_A0 : VE1 m c (Pipeline.arrRef spec1 0) = (m ((c.tc : Thread nD τ).loc main_arg2)) :=
  (Gen.V3_of m (outsA m) c main_arg2 (by decide)).trans (v2_arg m c main_arg2 (by decide) (by decide))
theorem e1_A1 : VE1 m c (Pipeline.arrRef spec1 1) = (m ((c.tc : Thread nD τ).loc main_arg3)) :=
  (Gen.V3_of m (outsA m) c main_arg3 (by decide)).trans (v2_arg m c main_arg3 (by decide) (by decide))
theorem e1_X0 : VE1 m c (Pipeline.arrRef spec1 2) = Host.dotGeneral (F := Ideal) (φ₁ := .f32) (φ₂ := .f32) dot_S8192x16_S16x32_S8192x32_1_0_0_1_n_n none (h1Int m c) (m ((c.tc : Thread nD τ).loc main_arg8)) := by
  have e : VE1 m c (Pipeline.arrRef spec1 2) = Host.dotGeneral (F := Ideal) (φ₁ := .f32) (φ₂ := .f32) dot_S8192x16_S16x32_S8192x32_1_0_0_1_n_n none (Gen.V2 m (outsA m) c main_call0_v4_0) (Gen.V2 m (outsA m) c main_arg8) := by
    show StableHlo.after hostOps1 (Gen.V2 m (outsA m) c) (Proc.devRef .tc main_call0_v5) = _
    after_results; rfl
  rw [e, v2_r0, v2_arg m c main_arg8 (by decide) (by decide)]
theorem e1_X1 : VE1 m c (Pipeline.arrRef spec1 3) = Host.dotGeneral (F := Ideal) (φ₁ := .f32) (φ₂ := .f32) dot_S8192x16_S16x32_S8192x32_1_0_0_1_n_n none (h1Nh m c) (m ((c.tc : Thread nD τ).loc main_arg10)) := by
  have e : VE1 m c (Pipeline.arrRef spec1 3) = Host.dotGeneral (F := Ideal) (φ₁ := .f32) (φ₂ := .f32) dot_S8192x16_S16x32_S8192x32_1_0_0_1_n_n none (Gen.V2 m (outsA m) c main_call0_v4_1) (Gen.V2 m (outsA m) c main_arg10) := by
    show StableHlo.after hostOps1 (Gen.V2 m (outsA m) c) (Proc.devRef .tc main_call0_v6) = _
    after_results; rfl
  rw [e, v2_r1, v2_arg m c main_arg10 (by decide) (by decide)]
theorem e1_B0 : (VE1 m c (Pipeline.arrRef spec1 4) : S1x32.Idx → EReal) = shapeCast S1x32 ((m ((c.tc : Thread nD τ).loc main_arg9)) : S32.Idx → EReal) shapeCasts_S32_S1x32 := by
  have e : (VE1 m c (Pipeline.arrRef spec1 4) : S1x32.Idx → EReal) = shapeCast S1x32 (Gen.V2 m (outsA m) c main_arg9 : S32.Idx → EReal) shapeCasts_S32_S1x32 := by
    show StableHlo.after hostOps1 (Gen.V2 m (outsA m) c) (Proc.devRef .tc main_call0_v7) = _
    after_results; rfl
  rw [e, v2_arg m c main_arg9 (by decide) (by decide)]
theorem e1_B1 : (VE1 m c (Pipeline.arrRef spec1 5) : S1x32.Idx → EReal) = shapeCast S1x32 ((m ((c.tc : Thread nD τ).loc main_arg11)) : S32.Idx → EReal) shapeCasts_S32_S1x32 := by
  have e : (VE1 m c (Pipeline.arrRef spec1 5) : S1x32.Idx → EReal) = shapeCast S1x32 (Gen.V2 m (outsA m) c main_arg11 : S32.Idx → EReal) shapeCasts_S32_S1x32 := by
    show StableHlo.after hostOps1 (Gen.V2 m (outsA m) c) (Proc.devRef .tc main_call0_v8) = _
    after_results; rfl
  rw [e, v2_arg m c main_arg11 (by decide) (by decide)]

abbrev h2Int : FVec Ideal S8192x32 .f32 :=
  Cert.RefSide.layer32 (m ((c.tc : Thread nD τ).loc main_arg2)) (Host.dotGeneral (F := Ideal) (φ₁ := .f32) (φ₂ := .f32) Cert.ReferenceIdeal.dot_S8192x16_S16x32_S8192x32_1_0_0_1_n_n none (h1Int m c) (m ((c.tc : Thread nD τ).loc main_arg8))) (m ((c.tc : Thread nD τ).loc main_arg9))
abbrev h2Nh : FVec Ideal S8192x32 .f32 :=
  Cert.RefSide.layer32 (m ((c.tc : Thread nD τ).loc main_arg3)) (Host.dotGeneral (F := Ideal) (φ₁ := .f32) (φ₂ := .f32) Cert.ReferenceIdeal.dot_S8192x16_S16x32_S8192x32_1_0_0_1_n_n none (h1Nh m c) (m ((c.tc : Thread nD τ).loc main_arg10))) (m ((c.tc : Thread nD τ).loc main_arg11))

theorem r1_int : (datR1 (VE1 m) c).arrAt 6 cfg1.N = h2Int m c := by
  refine (Cert.KernelIdeal.ArrR1.arr6 (VE1 m) c (m ((c.tc : Thread nD τ).loc main_arg9)) (e1_B0 m c)).trans ?_
  rw [e1_A0, e1_X0]; rfl
theorem r1_nh : (datR1 (VE1 m) c).arrAt 7 cfg1.N = h2Nh m c := by
  refine (Cert.KernelIdeal.ArrR1.arr7 (VE1 m) c (m ((c.tc : Thread nD τ).loc main_arg11)) (e1_B1 m c)).trans ?_
  rw [e1_A1, e1_X1]; rfl

/-! ## The host tail -/

theorem v4_r0 : Gen.V4 m (outs m) c main_call0_v9_0 = h2Int m c := by
  refine Eq.trans ?_ ((W4_arr m c 6).trans (r1_int m c))
  simp only [Gen.V4, Function.update_of_ne (StableHlo.devRef_ne_of_ne (by decide) : (Proc.devRef .tc main_call0_v9_0 : DevRef τ sig) ≠ Proc.devRef .tc main_call0_v9_1), Function.update_self]
  rfl
theorem v4_r1 : Gen.V4 m (outs m) c main_call0_v9_1 = h2Nh m c := by
  refine Eq.trans ?_ ((W4_arr m c 7).trans (r1_nh m c))
  simp only [Gen.V4, Function.update_self]
  rfl
theorem v4_arg (r : Ref sig .tc) (h4 : r ∉ ([main_call0_v9_0, main_call0_v9_1] : List (Ref sig .tc))) (h3 : r ∉ Gen.hostOps1_W)
    (h2 : r ∉ ([main_call0_v4_0, main_call0_v4_1] : List (Ref sig .tc))) (h1 : r ∉ Gen.hostOps0_W) :
    Gen.V4 m (outs m) c r = m ((c.tc : Thread nD τ).loc r) :=
  (Gen.V4_of m (outs m) c r h4).trans ((Gen.V3_of m (outs m) c r h3).trans ((Gen.V2_of m (outs m) c r h2).trans (Gen.V1_of m c r h1)))

set_option maxRecDepth 200000 in
/-- The host tail over ANY contents of the buffers it reads is the reference's tail of them. -/
theorem tail_eq (W : Valuation τ sig (Elt Ideal)) : StableHlo.after hostOps2 W (Proc.devRef .tc main_v0)
    = Cert.RefSide.tail (W (Proc.devRef .tc main_call0_v9_0)) (W (Proc.devRef .tc main_call0_v9_1)) (W (Proc.devRef .tc main_arg12)) (W (Proc.devRef .tc main_arg13)) (W (Proc.devRef .tc main_arg14)) := by
  unfold Cert.RefSide.tail
  after_results; rfl

/-- THE RESULT: the result buffer ends at the reference's composed term of the kernel program's own argument arrays. -/
theorem result_eq : Gen.V5 m (outs m) c main_v0
    = Cert.RefSide.tail (h2Int m c) (h2Nh m c) (m ((c.tc : Thread nD τ).loc main_arg12)) (m ((c.tc : Thread nD τ).loc main_arg13)) (m ((c.tc : Thread nD τ).loc main_arg14)) :=
  (tail_eq (Gen.V4 m (outs m) c)).trans <|
    (congrArg (fun x => Cert.RefSide.tail x (Gen.V4 m (outs m) c main_call0_v9_1) (Gen.V4 m (outs m) c main_arg12) (Gen.V4 m (outs m) c main_arg13) (Gen.V4 m (outs m) c main_arg14)) (v4_r0 m c)).trans <|
    (congrArg (fun x => Cert.RefSide.tail (h2Int m c) x (Gen.V4 m (outs m) c main_arg12) (Gen.V4 m (outs m) c main_arg13) (Gen.V4 m (outs m) c main_arg14)) (v4_r1 m c)).trans <|
    (congrArg (fun x => Cert.RefSide.tail (h2Int m c) (h2Nh m c) x (Gen.V4 m (outs m) c main_arg13) (Gen.V4 m (outs m) c main_arg14)) (v4_arg m c main_arg12 (by decide) (by decide) (by decide) (by decide))).trans <|
    (congrArg (fun x => Cert.RefSide.tail (h2Int m c) (h2Nh m c) (m ((c.tc : Thread nD τ).loc main_arg12)) x (Gen.V4 m (outs m) c main_arg14)) (v4_arg m c main_arg13 (by decide) (by decide) (by decide) (by decide))).trans <|
    congrArg (fun x => Cert.RefSide.tail (h2Int m c) (h2Nh m c) (m ((c.tc : Thread nD τ).loc main_arg12)) (m ((c.tc : Thread nD τ).loc main_arg13)) x) (v4_arg m c main_arg14 (by decide) (by decide) (by decide) (by decide))

end Cert.KernelIdeal.Val

end
-- ==== Proof.Claims.lean ====
import proofs.«105748_j27410481283396_2_alg».proof.Defs
import proofs.«105748_j27410481283396_2_alg».proof.Proof.FrBRun
import proofs.«105748_j27410481283396_2_alg».proof.Proof.FrIRun
import proofs.«105748_j27410481283396_2_alg».proof.Proof.ValI
import proofs.«105748_j27410481283396_2_alg».proof.Proof.RefSide
import proofs.«105748_j27410481283396_2_alg».proof.Proof.Gen.Kernel
import proofs.«105748_j27410481283396_2_alg».proof.Proof.Gen.KernelIdeal
import proofs.«105748_j27410481283396_2_alg».proof.Proof.Gen.ReferenceIdeal
import proofs.«105748_j27410481283396_2_alg».proof.Proof.Gen.Pre_finite_inputs
import proofs.«105748_j27410481283396_2_alg».proof.Proof.Gen.ReferenceIdeal.Run

noncomputable section

open Idealize.ShloMosaic Idealize.ShloMosaic.TcCoe Idealize.SL.Sem

namespace Cert.Proof.Claims

/-! The five claims. Both programs compute, on two branches, two graph-convolution layers `relu (A · (x · W) + b)` and
    then an attention pooling. The kernel tiles each `A · XW` into 4 × 8 blocks and adds the eight partial products of a
    row tile in an accumulator; over the extended reals addition is commutative and associative, so the eight partial sums
    over 1024 columns are the one sum over 8192 columns and each layer's result array is the reference's layer, entry by
    entry; what follows the layers is the same composition of host operations in both programs. No step needs the inputs
    to be finite. -/

/-- The word-level kernel program runs and leaves its argument arrays as launched. -/
theorem frame_k : Cert.frame_Kernel := fun m ρ _ => Cert.Kernel.Fr.frame (F := Bits) m ρ

/-- The idealized kernel program runs and leaves its argument arrays as launched. -/
theorem frame_ki : Cert.frame_KernelIdeal := fun m ρ _ => Cert.KernelIdeal.Fr.frame (F := Ideal) m ρ

/-- The reference runs and leaves its argument arrays as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the same result: the kernel program's result
    buffer holds the reference's composed term of its own arguments, and the arguments agree. -/
theorem algebraic : Cert.algebraic_KernelIdeal_ReferenceIdeal := by
  intro m ρ m' ρ' _ hagree
  refine ⟨fun c => Cert.KernelIdeal.Gen.V5 m (Cert.KernelIdeal.Fr.outs m) c Cert.KernelIdeal.main_v0,
    Cert.KernelIdeal.Fr.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14⟩ := hagree c
  refine Eq.trans ?_ (Cert.KernelIdeal.Val.result_eq m c).symm
  rw [Cert.RefSide.res_eq, a0, a1, a2, a3, a4, a5, a6, a7, a8, a9, a10, a11, a12, a13, a14]

end Cert.Proof.Claims

end
-- ==== Proof.lean ====
/- The proof of `Cert.Claim`: the three frames, the (empty) idealization ledger, and the equality of the idealized kernel
   program and the idealized reference over the extended reals.

   The kernel program is two pallas_calls between stretches of host operations. Each call computes, for two branches at
   once, `relu (A · XW + b)` with `A` an 8192 × 8192 adjacency tiled 4 × 8 into 2048 × 1024 blocks: a scratch accumulator
   per branch is zeroed at the first contraction tile, receives the block's product with the matching 1024 rows of `XW` at
   every tile, and at the eighth tile the output block is stored as the accumulator plus the bias, clamped at zero.
   Proof/Fr*.lean hold the frames (the body's run in each of its three control cases, the region invariant carrying the
   accumulators from point to point, the two regions as segments of @main); Proof/Arr*.lean read a region's result array
   at an entry: the eight partial sums are the sum over all 8192 columns, because addition of extended reals is
   commutative and associative; Proof/ValI.lean reads the host stretches and the tail; Proof/RefSide.lean spells the
   reference's result over the same layer and tail functions; Proof/Claims.lean states the five claims. -/
import proofs.«105748_j27410481283396_2_alg».proof.Defs
import proofs.«105748_j27410481283396_2_alg».proof.Proof.Claims
import proofs.«105748_j27410481283396_2_alg».proof.Proof.Gen.Kernel
import proofs.«105748_j27410481283396_2_alg».proof.Proof.Gen.KernelIdeal
import proofs.«105748_j27410481283396_2_alg».proof.Proof.Gen.ReferenceIdeal
import proofs.«105748_j27410481283396_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
